-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v83)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v83) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v128) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x10000x5 : Shape := ⟨3, ![8, 10000, 5]⟩
abbrev S8x2x160000 : Shape := ⟨3, ![8, 2, 160000]⟩
abbrev S8 : Shape := ⟨1, ![8]⟩
abbrev S8x4 : Shape := ⟨2, ![8, 4]⟩
abbrev S8x10 : Shape := ⟨2, ![8, 10]⟩
abbrev S8x1 : Shape := ⟨2, ![8, 1]⟩
abbrev S128x5 : Shape := ⟨2, ![128, 5]⟩
abbrev S128 : Shape := ⟨1, ![128]⟩
abbrev S128x128 : Shape := ⟨2, ![128, 128]⟩
abbrev S256x651 : Shape := ⟨2, ![256, 651]⟩
abbrev S256 : Shape := ⟨1, ![256]⟩
abbrev S256x256 : Shape := ⟨2, ![256, 256]⟩
abbrev S_ : Shape := ⟨0, ![]⟩

class Facts : Prop where
  bcast_S_S8x10000x5 : S_.BroadcastsInDim S8x10000x5 (![] : Fin 0 → Fin S8x10000x5.rank)
  reducesTo_S8x10000x5_S_d0_1_2 : S8x10000x5.ReducesTo [0, 1, 2] S_
  h_S_ : 0 < S_.numel
  bcast_S_S8x10 : S_.BroadcastsInDim S8x10 (![] : Fin 0 → Fin S8x10.rank)
  reducesTo_S8x10_S_d0_1 : S8x10.ReducesTo [0, 1] S_
  bcast_S_S8x1 : S_.BroadcastsInDim S8x1 (![] : Fin 0 → Fin S8x1.rank)
  reducesTo_S8x1_S_d0_1 : S8x1.ReducesTo [0, 1] S_
  bcast_S_S128x5 : S_.BroadcastsInDim S128x5 (![] : Fin 0 → Fin S128x5.rank)
  reducesTo_S128x5_S_d0_1 : S128x5.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S256x651 : S_.BroadcastsInDim S256x651 (![] : Fin 0 → Fin S256x651.rank)
  reducesTo_S256x651_S_d0_1 : S256x651.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_

variable [Facts]

def fn_part3 {F : FTy → Type} [FloatOps F] (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  main_v53

def fn_part2 {F : FTy → Type} [FloatOps F] (main_arg10 : FVec F S256x651 .f32) (main_arg11 : FVec F S256 .f32) (main_arg12 : FVec F S256x256 .f32) (main_arg13 : FVec F S256 .f32) (main_v33 : IVec S_ 1) : IVec S_ 1 :=
  let main_v34 : FVec F S256x651 .f32 := Host.absf main_arg10
  let main_cst_12 : FVec F S_ .f32 := constant S_ .f32 0x7F800000#32
  let main_v35 : FVec F S256x651 .f32 := broadcastInDim S256x651 ![] bcast_S_S256x651 main_cst_12
  let main_v36 : IVec S256x651 1 := cmpf .olt main_v34 main_v35
  let main_c_13 : IVec S_ 1 := constantI S_ 1 1#1
  let main_v37 : IVec S_ 1 := (fun x v => Host.reduce IntOp.andi x v reducesTo_S256x651_S_d0_1 h_S_) main_v36 main_c_13
  let main_v38 : IVec S_ 1 := andi main_v33 main_v37
  let main_v39 : FVec F S256 .f32 := Host.absf main_arg11
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x256 .f32 := Host.absf main_arg12
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256 .f32 := Host.absf main_arg13
  let main_cst_18 : FVec F S_ .f32 := constant S_ .f32 0x7F800000#32
  let main_v50 : FVec F S256 .f32 := broadcastInDim S256 ![] bcast_S_S256 main_cst_18
  fn_part3 (F := F) main_v48 main_v49 main_v50

def fn_part1 {F : FTy → Type} [FloatOps F] (main_arg7 : FVec F S128 .f32) (main_arg8 : FVec F S128x128 .f32) (main_arg9 : FVec F S128 .f32) (main_arg10 : FVec F S256x651 .f32) (main_arg11 : FVec F S256 .f32) (main_arg12 : FVec F S256x256 .f32) (main_arg13 : FVec F S256 .f32) (main_v13 : IVec S_ 1) (main_v16 : IVec S128x5 1) : IVec S_ 1 :=
  let main_c_5 : IVec S_ 1 := constantI S_ 1 1#1
  let main_v17 : IVec S_ 1 := (fun x v => Host.reduce IntOp.andi x v reducesTo_S128x5_S_d0_1 h_S_) main_v16 main_c_5
  let main_v18 : IVec S_ 1 := andi main_v13 main_v17
  let main_v19 : FVec F S128 .f32 := Host.absf main_arg7
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg8
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg9
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg10 main_arg11 main_arg12 main_arg13 main_v33

def fn {F : FTy → Type} [FloatOps F] (main_arg0 : FVec F S8x10000x5 .f32) (main_arg1 : IVec S8x2x160000 32) (main_arg2 : IVec S8 32) (main_arg3 : IVec S8x4 32) (main_arg4 : FVec F S8x10 .f32) (main_arg5 : FVec F S8x1 .f32) (main_arg6 : FVec F S128x5 .f32) (main_arg7 : FVec F S128 .f32) (main_arg8 : FVec F S128x128 .f32) (main_arg9 : FVec F S128 .f32) (main_arg10 : FVec F S256x651 .f32) (main_arg11 : FVec F S256 .f32) (main_arg12 : FVec F S256x256 .f32) (main_arg13 : FVec F S256 .f32) : IVec S_ 1 :=
  let main_v0 : FVec F S8x10000x5 .f32 := Host.absf main_arg0
  let main_cst : FVec F S_ .f32 := constant S_ .f32 0x7F800000#32
  let main_v1 : FVec F S8x10000x5 .f32 := broadcastInDim S8x10000x5 ![] bcast_S_S8x10000x5 main_cst
  let main_v2 : IVec S8x10000x5 1 := cmpf .olt main_v0 main_v1
  let main_c : IVec S_ 1 := constantI S_ 1 1#1
  let main_v3 : IVec S_ 1 := (fun x v => Host.reduce IntOp.andi x v reducesTo_S8x10000x5_S_d0_1_2 h_S_) main_v2 main_c
  let main_v4 : FVec F S8x10 .f32 := Host.absf main_arg4
  let main_cst_0 : FVec F S_ .f32 := constant S_ .f32 0x7F800000#32
  let main_v5 : FVec F S8x10 .f32 := broadcastInDim S8x10 ![] bcast_S_S8x10 main_cst_0
  let main_v6 : IVec S8x10 1 := cmpf .olt main_v4 main_v5
  let main_c_1 : IVec S_ 1 := constantI S_ 1 1#1
  let main_v7 : IVec S_ 1 := (fun x v => Host.reduce IntOp.andi x v reducesTo_S8x10_S_d0_1 h_S_) main_v6 main_c_1
  let main_v8 : IVec S_ 1 := andi main_v3 main_v7
  let main_v9 : FVec F S8x1 .f32 := Host.absf main_arg5
  let main_cst_2 : FVec F S_ .f32 := constant S_ .f32 0x7F800000#32
  let main_v10 : FVec F S8x1 .f32 := broadcastInDim S8x1 ![] bcast_S_S8x1 main_cst_2
  let main_v11 : IVec S8x1 1 := cmpf .olt main_v9 main_v10
  let main_c_3 : IVec S_ 1 := constantI S_ 1 1#1
  let main_v12 : IVec S_ 1 := (fun x v => Host.reduce IntOp.andi x v reducesTo_S8x1_S_d0_1 h_S_) main_v11 main_c_3
  let main_v13 : IVec S_ 1 := andi main_v8 main_v12
  let main_v14 : FVec F S128x5 .f32 := Host.absf main_arg6
  let main_cst_4 : FVec F S_ .f32 := constant S_ .f32 0x7F800000#32
  let main_v15 : FVec F S128x5 .f32 := broadcastInDim S128x5 ![] bcast_S_S128x5 main_cst_4
  let main_v16 : IVec S128x5 1 := cmpf .olt main_v14 main_v15
  fn_part1 (F := F) main_arg7 main_arg8 main_arg9 main_arg10 main_arg11 main_arg12 main_arg13 main_v13 main_v16
-- ==== Kernel.lean ====
abbrev S8x10000x5 : Shape := ⟨3, ![8, 10000, 5]⟩
abbrev S8x2x160000 : Shape := ⟨3, ![8, 2, 160000]⟩
abbrev S8 : Shape := ⟨1, ![8]⟩
abbrev S8x4 : Shape := ⟨2, ![8, 4]⟩
abbrev S8x10 : Shape := ⟨2, ![8, 10]⟩
abbrev S8x1 : Shape := ⟨2, ![8, 1]⟩
abbrev S128x5 : Shape := ⟨2, ![128, 5]⟩
abbrev S128 : Shape := ⟨1, ![128]⟩
abbrev S128x128 : Shape := ⟨2, ![128, 128]⟩
abbrev S256x651 : Shape := ⟨2, ![256, 651]⟩
abbrev S256 : Shape := ⟨1, ![256]⟩
abbrev S256x256 : Shape := ⟨2, ![256, 256]⟩
abbrev S80000x5 : Shape := ⟨2, ![80000, 5]⟩
abbrev S_ : Shape := ⟨0, ![]⟩
abbrev S8x1x1 : Shape := ⟨3, ![8, 1, 1]⟩
abbrev S2x8x160000 : Shape := ⟨3, ![2, 8, 160000]⟩
abbrev S2x1280000 : Shape := ⟨2, ![2, 1280000]⟩
abbrev S1x1280000 : Shape := ⟨2, ![1, 1280000]⟩
abbrev S1280000 : Shape := ⟨1, ![1280000]⟩
abbrev S80000 : Shape := ⟨1, ![80000]⟩
abbrev S1360000 : Shape := ⟨1, ![1360000]⟩
abbrev S1360000x1 : Shape := ⟨2, ![1360000, 1]⟩
abbrev S8x5 : Shape := ⟨2, ![8, 5]⟩
abbrev S80000x1 : Shape := ⟨2, ![80000, 1]⟩
abbrev S1360000x5 : Shape := ⟨2, ![1360000, 5]⟩
abbrev S5x128 : Shape := ⟨2, ![5, 128]⟩
abbrev S1x128 : Shape := ⟨2, ![1, 128]⟩
abbrev S80000x128 : Shape := ⟨2, ![80000, 128]⟩
abbrev S8000x5 : Shape := ⟨2, ![8000, 5]⟩
abbrev S8000x128 : Shape := ⟨2, ![8000, 128]⟩
abbrev S1360000x128 : Shape := ⟨2, ![1360000, 128]⟩
abbrev S8x5x1 : Shape := ⟨3, ![8, 5, 1]⟩
abbrev S8x5x128 : Shape := ⟨3, ![8, 5, 128]⟩
abbrev S1x1x128 : Shape := ⟨3, ![1, 1, 128]⟩
abbrev S8x640 : Shape := ⟨2, ![8, 640]⟩
abbrev S8x651 : Shape := ⟨2, ![8, 651]⟩
abbrev S651x256 : Shape := ⟨2, ![651, 256]⟩
abbrev S1x256 : Shape := ⟨2, ![1, 256]⟩
abbrev S8x256 : Shape := ⟨2, ![8, 256]⟩

abbrev nBuf : Space → Nat
  | .hbm => 115
  | .vmem => 13
  | .smem => 0
  | _ => 0

abbrev bufTy : (tb : Table) → Fin (tcTables nBuf tb) → BufTy
  | .hbm, ⟨0, _⟩ => ⟨S8x10000x5, .f32⟩
  | .hbm, ⟨1, _⟩ => ⟨S8x2x160000, .i32⟩
  | .hbm, ⟨2, _⟩ => ⟨S8, .i32⟩
  | .hbm, ⟨3, _⟩ => ⟨S8x4, .i32⟩
  | .hbm, ⟨4, _⟩ => ⟨S8x10, .f32⟩
  | .hbm, ⟨5, _⟩ => ⟨S8x1, .f32⟩
  | .hbm, ⟨6, _⟩ => ⟨S128x5, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S256x651, .f32⟩
  | .hbm, ⟨11, _⟩ => ⟨S256, .f32⟩
  | .hbm, ⟨12, _⟩ => ⟨S256x256, .f32⟩
  | .hbm, ⟨13, _⟩ => ⟨S256, .f32⟩
  | .hbm, ⟨14, _⟩ => ⟨S80000x5, .f32⟩
  | .hbm, ⟨15, _⟩ => ⟨S8, .i32⟩
  | .hbm, ⟨16, _⟩ => ⟨S_, .i32⟩
  | .hbm, ⟨17, _⟩ => ⟨S8, .i32⟩
  | .hbm, ⟨18, _⟩ => ⟨S8, .i32⟩
  | .hbm, ⟨19, _⟩ => ⟨S8x1x1, .i32⟩
  | .hbm, ⟨20, _⟩ => ⟨S8x2x160000, .i32⟩
  | .hbm, ⟨21, _⟩ => ⟨S8x2x160000, .i32⟩
  | .hbm, ⟨22, _⟩ => ⟨S2x8x160000, .i32⟩
  | .hbm, ⟨23, _⟩ => ⟨S2x1280000, .i32⟩
  | .hbm, ⟨24, _⟩ => ⟨S1x1280000, .i32⟩
  | .hbm, ⟨25, _⟩ => ⟨S1280000, .i32⟩
  | .hbm, ⟨26, _⟩ => ⟨S1x1280000, .i32⟩
  | .hbm, ⟨27, _⟩ => ⟨S1280000, .i32⟩
  | .hbm, ⟨28, _⟩ => ⟨S80000, .i32⟩
  | .hbm, ⟨29, _⟩ => ⟨S1360000, .i32⟩
  | .hbm, ⟨30, _⟩ => ⟨S1360000, .i32⟩
  | .hbm, ⟨31, _⟩ => ⟨S_, .f32⟩
  | .hbm, ⟨32, _⟩ => ⟨S1360000, .f32⟩
  | .hbm, ⟨33, _⟩ => ⟨S_, .f32⟩
  | .hbm, ⟨34, _⟩ => ⟨S80000, .f32⟩
  | .hbm, ⟨35, _⟩ => ⟨S1360000x1, .i32⟩
  | .hbm, ⟨36, _⟩ => ⟨S80000, .f32⟩
  | .hbm, ⟨37, _⟩ => ⟨S_, .f32⟩
  | .hbm, ⟨38, _⟩ => ⟨S80000, .f32⟩
  | .hbm, ⟨39, _⟩ => ⟨S80000, .i1⟩
  | .hbm, ⟨40, _⟩ => ⟨S80000, .f32⟩
  | .hbm, ⟨41, _⟩ => ⟨S_, .f32⟩
  | .hbm, ⟨42, _⟩ => ⟨S_, .f32⟩
  | .hbm, ⟨43, _⟩ => ⟨S80000, .f32⟩
  | .hbm, ⟨44, _⟩ => ⟨S80000, .f32⟩
  | .hbm, ⟨45, _⟩ => ⟨S8, .i32⟩
  | .hbm, ⟨46, _⟩ => ⟨S8x1, .i32⟩
  | .hbm, ⟨47, _⟩ => ⟨S8x4, .i32⟩
  | .hbm, ⟨48, _⟩ => ⟨S8x4, .i32⟩
  | .hbm, ⟨49, _⟩ => ⟨S8x1, .i32⟩
  | .hbm, ⟨50, _⟩ => ⟨S8x5, .i32⟩
  | .hbm, ⟨51, _⟩ => ⟨S80000x1, .f32⟩
  | .hbm, ⟨52, _⟩ => ⟨S80000x5, .f32⟩
  | .hbm, ⟨53, _⟩ => ⟨S80000x5, .f32⟩
  | .hbm, ⟨54, _⟩ => ⟨S80000x1, .f32⟩
  | .hbm, ⟨55, _⟩ => ⟨S_, .i32⟩
  | .hbm, ⟨56, _⟩ => ⟨S1360000, .i32⟩
  | .hbm, ⟨57, _⟩ => ⟨S1360000, .i1⟩
  | .hbm, ⟨58, _⟩ => ⟨S_, .i32⟩
  | .hbm, ⟨59, _⟩ => ⟨S1360000, .i32⟩
  | .hbm, ⟨60, _⟩ => ⟨S1360000, .i32⟩
  | .hbm, ⟨61, _⟩ => ⟨S1360000, .i32⟩
  | .hbm, ⟨62, _⟩ => ⟨S1360000x1, .i32⟩
  | .hbm, ⟨63, _⟩ => ⟨S1360000x5, .f32⟩
  | .hbm, ⟨64, _⟩ => ⟨S_, .f32⟩
  | .hbm, ⟨65, _⟩ => ⟨S80000x5, .f32⟩
  | .hbm, ⟨66, _⟩ => ⟨S1360000x1, .i32⟩
  | .hbm, ⟨67, _⟩ => ⟨S80000x5, .f32⟩
  | .hbm, ⟨68, _⟩ => ⟨S80000x5, .f32⟩
  | .hbm, ⟨69, _⟩ => ⟨S80000x5, .f32⟩
  | .hbm, ⟨70, _⟩ => ⟨S5x128, .f32⟩
  | .hbm, ⟨71, _⟩ => ⟨S128x128, .f32⟩
  | .hbm, ⟨72, _⟩ => ⟨S1x128, .f32⟩
  | .hbm, ⟨73, _⟩ => ⟨S80000x128, .f32⟩
  | .hbm, ⟨74, _⟩ => ⟨S80000x1, .f32⟩
  | .hbm, ⟨75, _⟩ => ⟨S80000x128, .f32⟩
  | .hbm, ⟨76, _⟩ => ⟨S80000x128, .f32⟩
  | .hbm, ⟨77, _⟩ => ⟨S80000x1, .f32⟩
  | .hbm, ⟨78, _⟩ => ⟨S_, .i32⟩
  | .hbm, ⟨79, _⟩ => ⟨S1360000, .i32⟩
  | .hbm, ⟨80, _⟩ => ⟨S1360000, .i1⟩
  | .hbm, ⟨81, _⟩ => ⟨S_, .i32⟩
  | .hbm, ⟨82, _⟩ => ⟨S1360000, .i32⟩
  | .hbm, ⟨83, _⟩ => ⟨S1360000, .i32⟩
  | .hbm, ⟨84, _⟩ => ⟨S1360000, .i32⟩
  | .hbm, ⟨85, _⟩ => ⟨S1360000x1, .i32⟩
  | .hbm, ⟨86, _⟩ => ⟨S1360000x128, .f32⟩
  | .hbm, ⟨87, _⟩ => ⟨S_, .f32⟩
  | .hbm, ⟨88, _⟩ => ⟨S80000x128, .f32⟩
  | .hbm, ⟨89, _⟩ => ⟨S1360000x1, .i32⟩
  | .hbm, ⟨90, _⟩ => ⟨S80000x128, .f32⟩
  | .hbm, ⟨91, _⟩ => ⟨S80000x128, .f32⟩
  | .hbm, ⟨92, _⟩ => ⟨S80000x128, .f32⟩
  | .hbm, ⟨93, _⟩ => ⟨S_, .i32⟩
  | .hbm, ⟨94, _⟩ => ⟨S8x5, .i32⟩
  | .hbm, ⟨95, _⟩ => ⟨S8x5, .i1⟩
  | .hbm, ⟨96, _⟩ => ⟨S_, .i32⟩
  | .hbm, ⟨97, _⟩ => ⟨S8x5, .i32⟩
  | .hbm, ⟨98, _⟩ => ⟨S8x5, .i32⟩
  | .hbm, ⟨99, _⟩ => ⟨S8x5, .i32⟩
  | .hbm, ⟨100, _⟩ => ⟨S8x5x1, .i32⟩
  | .hbm, ⟨101, _⟩ => ⟨S8x5x128, .f32⟩
  | .hbm, ⟨102, _⟩ => ⟨S1x1x128, .f32⟩
  | .hbm, ⟨103, _⟩ => ⟨S8x5x128, .f32⟩
  | .hbm, ⟨104, _⟩ => ⟨S8x5x128, .f32⟩
  | .hbm, ⟨105, _⟩ => ⟨S_, .f32⟩
  | .hbm, ⟨106, _⟩ => ⟨S8x5x128, .f32⟩
  | .hbm, ⟨107, _⟩ => ⟨S8x5x128, .f32⟩
  | .hbm, ⟨108, _⟩ => ⟨S8x640, .f32⟩
  | .hbm, ⟨109, _⟩ => ⟨S8x651, .f32⟩
  | .hbm, ⟨110, _⟩ => ⟨S651x256, .f32⟩
  | .hbm, ⟨111, _⟩ => ⟨S256x256, .f32⟩
  | .hbm, ⟨112, _⟩ => ⟨S1x256, .f32⟩
  | .hbm, ⟨113, _⟩ => ⟨S1x256, .f32⟩
  | .hbm, ⟨114, _⟩ => ⟨S8x256, .f32⟩
  | .local _ .vmem, ⟨0, _⟩ => ⟨S8000x5, .f32⟩
  | .local _ .vmem, ⟨1, _⟩ => ⟨S8000x5, .f32⟩
  | .local _ .vmem, ⟨2, _⟩ => ⟨S5x128, .f32⟩
  | .local _ .vmem, ⟨3, _⟩ => ⟨S1x128, .f32⟩
  | .local _ .vmem, ⟨4, _⟩ => ⟨S128x128, .f32⟩
  | .local _ .vmem, ⟨5, _⟩ => ⟨S8000x128, .f32⟩
  | .local _ .vmem, ⟨6, _⟩ => ⟨S8000x128, .f32⟩
  | .local _ .vmem, ⟨7, _⟩ => ⟨S8x651, .f32⟩
  | .local _ .vmem, ⟨8, _⟩ => ⟨S651x256, .f32⟩
  | .local _ .vmem, ⟨9, _⟩ => ⟨S1x256, .f32⟩
  | .local _ .vmem, ⟨10, _⟩ => ⟨S256x256, .f32⟩
  | .local _ .vmem, ⟨11, _⟩ => ⟨S1x256, .f32⟩
  | .local _ .vmem, ⟨12, _⟩ => ⟨S8x256, .f32⟩
  | _, _ => ⟨S8x10000x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_c : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst : Ref sig .tc := ⟨.hbm, 31, rfl⟩
abbrev main_v16 : Ref sig .tc := ⟨.hbm, 32, rfl⟩
abbrev main_cst_0 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_1 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_2 : Ref sig .tc := ⟨.hbm, 41, rfl⟩
abbrev main_call0_v0 : Ref sig .tc := ⟨.hbm, 42, rfl⟩
abbrev main_call0_v1 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_c_3 : Ref sig .tc := ⟨.hbm, 55, rfl⟩
abbrev main_v34 : Ref sig .tc := ⟨.hbm, 56, rfl⟩
abbrev main_v35 : Ref sig .tc := ⟨.hbm, 57, rfl⟩
abbrev main_c_4 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_5 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_c_6 : Ref sig .tc := ⟨.hbm, 78, rfl⟩
abbrev main_v54 : Ref sig .tc := ⟨.hbm, 79, rfl⟩
abbrev main_v55 : Ref sig .tc := ⟨.hbm, 80, rfl⟩
abbrev main_c_7 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_8 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_c_9 : Ref sig .tc := ⟨.hbm, 93, rfl⟩
abbrev main_v66 : Ref sig .tc := ⟨.hbm, 94, rfl⟩
abbrev main_v67 : Ref sig .tc := ⟨.hbm, 95, rfl⟩
abbrev main_c_10 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_call1_cst : Ref sig .tc := ⟨.hbm, 105, rfl⟩
abbrev main_call1_v0 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x5 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S8x651 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S651x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S8x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

class Facts₀ : Prop where
  shapeCasts_S8x10000x5_S80000x5 : S8x10000x5.ShapeCasts S80000x5
  bcast_S_S8 : S_.BroadcastsInDim S8 (![] : Fin 0 → Fin S8.rank)
  bcast_S8_S8x1x1_0 : S8.BroadcastsInDim S8x1x1 (![0] : Fin 1 → Fin S8x1x1.rank)
  bcast_S8x1x1_S8x2x160000_0_1_2 : S8x1x1.BroadcastsInDim S8x2x160000 (![0, 1, 2] : Fin 3 → Fin S8x2x160000.rank)
  transposes_S8x2x160000_S2x8x160000_1_0_2 : S8x2x160000.Transposes [1, 0, 2] S2x8x160000
  shapeCasts_S2x8x160000_S2x1280000 : S2x8x160000.ShapeCasts S2x1280000
  slices_S2x1280000_S1x1280000_0_0 : S2x1280000.Slices ![0, 0] S1x1280000
  shapeCasts_S1x1280000_S1280000 : S1x1280000.ShapeCasts S1280000
  slices_S2x1280000_S1x1280000_1_0 : S2x1280000.Slices ![1, 0] S1x1280000
  concatenates_S1280000_S80000_S1360000_d0 : Shape.Concatenates [S1280000, S80000] S1360000 0
  bcast_S_S1360000 : S_.BroadcastsInDim S1360000 (![] : Fin 0 → Fin S1360000.rank)
  bcast_S_S80000 : S_.BroadcastsInDim S80000 (![] : Fin 0 → Fin S80000.rank)
  bcast_S1360000_S1360000x1_0 : S1360000.BroadcastsInDim S1360000x1 (![0] : Fin 1 → Fin S1360000x1.rank)
  bcast_S8_S8x1_0 : S8.BroadcastsInDim S8x1 (![0] : Fin 1 → Fin S8x1.rank)
  bcast_S8x1_S8x4_0_1 : S8x1.BroadcastsInDim S8x4 (![0, 1] : Fin 2 → Fin S8x4.rank)
  concatenates_S8x4_S8x1_S8x5_d1 : Shape.Concatenates [S8x4, S8x1] S8x5 1
  bcast_S80000_S80000x1_0 : S80000.BroadcastsInDim S80000x1 (![0] : Fin 1 → Fin S80000x1.rank)
  bcast_S80000x1_S80000x5_0_1 : S80000x1.BroadcastsInDim S80000x5 (![0, 1] : Fin 2 → Fin S80000x5.rank)
  bcast_S_S80000x5 : S_.BroadcastsInDim S80000x5 (![] : Fin 0 → Fin S80000x5.rank)
  transposes_S128x5_S5x128_1_0 : S128x5.Transposes [1, 0] S5x128
  transposes_S128x128_S128x128_1_0 : S128x128.Transposes [1, 0] S128x128
  shapeCasts_S128_S1x128 : S128.ShapeCasts S1x128
  inb_S8000x5_S8000x5_0_0 : ∀ a, (![0, 0] : Fin 2 → Nat) a + S8000x5.size a ≤ S8000x5.size a
  h_S8000x5 : 0 < S8000x5.numel
  shapeCasts_S8000x5_S8000x5 : S8000x5.ShapeCasts S8000x5
  bitsLt_bf16_f32 : FTy.bits .bf16 < FTy.bits .f32
  inb_S5x128_S5x128_0_0 : ∀ a, (![0, 0] : Fin 2 → Nat) a + S5x128.size a ≤ S5x128.size a
  h_S5x128 : 0 < S5x128.numel
  shapeCasts_S5x128_S5x128 : S5x128.ShapeCasts S5x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8000x128 : S1x128.Broadcasts S8000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S8000x128_S8000x128_0_0 : ∀ a, (![0, 0] : Fin 2 → Nat) a + S8000x128.size a ≤ S8000x128.size a
  h_S8000x128 : 0 < S8000x128.numel
  bcast_S80000x1_S80000x128_0_1 : S80000x1.BroadcastsInDim S80000x128 (![0, 1] : Fin 2 → Fin S80000x128.rank)
  bcast_S_S80000x128 : S_.BroadcastsInDim S80000x128 (![] : Fin 0 → Fin S80000x128.rank)
  bcast_S_S8x5 : S_.BroadcastsInDim S8x5 (![] : Fin 0 → Fin S8x5.rank)
  bcast_S8x5_S8x5x1_0_1 : S8x5.BroadcastsInDim S8x5x1 (![0, 1] : Fin 2 → Fin S8x5x1.rank)
  bcast_S128_S1x1x128_2 : S128.BroadcastsInDim S1x1x128 (![2] : Fin 1 → Fin S1x1x128.rank)
  bcast_S1x1x128_S8x5x128_0_1_2 : S1x1x128.BroadcastsInDim S8x5x128 (![0, 1, 2] : Fin 3 → Fin S8x5x128.rank)
  bcast_S_S8x5x128 : S_.BroadcastsInDim S8x5x128 (![] : Fin 0 → Fin S8x5x128.rank)
  shapeCasts_S8x5x128_S8x640 : S8x5x128.ShapeCasts S8x640
  concatenates_S8x640_S8x10_S8x1_S8x651_d1 : Shape.Concatenates [S8x640, S8x10, S8x1] S8x651 1
  transposes_S256x651_S651x256_1_0 : S256x651.Transposes [1, 0] S651x256
  transposes_S256x256_S256x256_1_0 : S256x256.Transposes [1, 0] S256x256
  shapeCasts_S256_S1x256 : S256.ShapeCasts S1x256
  inb_S8x651_S8x651_0_0 : ∀ a, (![0, 0] : Fin 2 → Nat) a + S8x651.size a ≤ S8x651.size a
  h_S8x651 : 0 < S8x651.numel
  shapeCasts_S8x651_S8x651 : S8x651.ShapeCasts S8x651
  inb_S651x256_S651x256_0_0 : ∀ a, (![0, 0] : Fin 2 → Nat) a + S651x256.size a ≤ S651x256.size a
  h_S651x256 : 0 < S651x256.numel
  shapeCasts_S651x256_S651x256 : S651x256.ShapeCasts S651x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S8x256 : S1x256.Broadcasts S8x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S8x256_S8x256_0_0 : ∀ a, (![0, 0] : Fin 2 → Nat) a + S8x256.size a ≤ S8x256.size a
  h_S8x256 : 0 < S8x256.numel
  scatter_S80000_S1360000x1_S1360000_n_0_0_1_wf : ScatterDims.WF S80000 S1360000x1 S1360000 [] [0] [0] 1
  gather_S80000x5_S1360000x1_S1360000x5_1_0_n_n_0_1_15_wf : GatherDims.WF S80000x5 S1360000x1 S1360000x5 [1] [0] [] [0] [] 1 ![1, 5]
  scatter_S80000x5_S1360000x1_S1360000x5_1_0_0_1_wf : ScatterDims.WF S80000x5 S1360000x1 S1360000x5 [1] [0] [0] 1
  dot_S8000x5_S5x128_S8000x128_1_0_0_1_n_n_wf : DotDims.WF S8000x5 S5x128 S8000x128 [1] [0] [0] [1] [] []
  dot_S8000x128_S128x128_S8000x128_1_0_0_1_n_n_wf : DotDims.WF S8000x128 S128x128 S8000x128 [1] [0] [0] [1] [] []
  gather_S80000x128_S1360000x1_S1360000x128_1_0_n_n_0_1_1128_wf : GatherDims.WF S80000x128 S1360000x1 S1360000x128 [1] [0] [] [0] [] 1 ![1, 128]
  scatter_S80000x128_S1360000x1_S1360000x128_1_0_0_1_wf : ScatterDims.WF S80000x128 S1360000x1 S1360000x128 [1] [0] [0] 1
  gather_S80000x128_S8x5x1_S8x5x128_2_0_n_n_0_2_1128_wf : GatherDims.WF S80000x128 S8x5x1 S8x5x128 [2] [0] [] [0] [] 2 ![1, 128]
  dot_S8x651_S651x256_S8x256_1_0_0_1_n_n_wf : DotDims.WF S8x651 S651x256 S8x256 [1] [0] [0] [1] [] []
  dot_S8x256_S256x256_S8x256_1_0_0_1_n_n_wf : DotDims.WF S8x256 S256x256 S8x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x5.size a ≤ S80000x5.size a
  hwx0_0 : ∀ i : grid0.Coords, EltTy.bits .f32 = 32 ∨ (Rect.block (s := S80000x5) S8000x5.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S5x128.size a ≤ S5x128.size a
  hwx0_1 : ∀ i : grid0.Coords, EltTy.bits .f32 = 32 ∨ (Rect.block (s := S5x128) S5x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8000x128.size a ≤ S80000x128.size a
  hwx0_4 : ∀ i : grid0.Coords, EltTy.bits .f32 = 32 ∨ (Rect.block (s := S80000x128) S8000x128.size (cc0_transform_4 i) (hinb0_4 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S8x651.size a ≤ S8x651.size a
  hwx1_0 : ∀ i : grid1.Coords, EltTy.bits .f32 = 32 ∨ (Rect.block (s := S8x651) S8x651.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S651x256.size a ≤ S651x256.size a
  hwx1_1 : ∀ i : grid1.Coords, EltTy.bits .f32 = 32 ∨ (Rect.block (s := S651x256) S651x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S8x256.size a ≤ S8x256.size a
  hwx1_5 : ∀ i : grid1.Coords, EltTy.bits .f32 = 32 ∨ (Rect.block (s := S8x256) S8x256.size (cc1_transform_5 i) (hinb1_5 i)).WholeWords (EltTy.packing .f32)

variable [Facts₀]

def scatter_S80000_S1360000x1_S1360000_n_0_0_1 : ScatterDims S80000 S1360000x1 S1360000 where
  updateWindowDims := []
  insertedWindowDims := [0]
  scatterDimsToOperandDims := [0]
  indexVectorDim := 1
  wf := scatter_S80000_S1360000x1_S1360000_n_0_0_1_wf
def gather_S80000x5_S1360000x1_S1360000x5_1_0_n_n_0_1_15 : GatherDims S80000x5 S1360000x1 S1360000x5 where
  offsetDims := [1]
  collapsedSliceDims := [0]
  operandBatchingDims := []
  startIndicesBatchingDims := []
  startIndexMap := [0]
  indexVectorDim := 1
  sliceSizes := ![1, 5]
  wf := gather_S80000x5_S1360000x1_S1360000x5_1_0_n_n_0_1_15_wf
def scatter_S80000x5_S1360000x1_S1360000x5_1_0_0_1 : ScatterDims S80000x5 S1360000x1 S1360000x5 where
  updateWindowDims := [1]
  insertedWindowDims := [0]
  scatterDimsToOperandDims := [0]
  indexVectorDim := 1
  wf := scatter_S80000x5_S1360000x1_S1360000x5_1_0_0_1_wf
def dot_S8000x5_S5x128_S8000x128_1_0_0_1_n_n : DotDims S8000x5 S5x128 S8000x128 where
  lhsContracting := [1]
  rhsContracting := [0]
  lhsNonContracting := [0]
  rhsNonContracting := [1]
  lhsBatch := []
  rhsBatch := []
  wf := dot_S8000x5_S5x128_S8000x128_1_0_0_1_n_n_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def gather_S80000x128_S1360000x1_S1360000x128_1_0_n_n_0_1_1128 : GatherDims S80000x128 S1360000x1 S1360000x128 where
  offsetDims := [1]
  collapsedSliceDims := [0]
  operandBatchingDims := []
  startIndicesBatchingDims := []
  startIndexMap := [0]
  indexVectorDim := 1
  sliceSizes := ![1, 128]
  wf := gather_S80000x128_S1360000x1_S1360000x128_1_0_n_n_0_1_1128_wf
def scatter_S80000x128_S1360000x1_S1360000x128_1_0_0_1 : ScatterDims S80000x128 S1360000x1 S1360000x128 where
  updateWindowDims := [1]
  insertedWindowDims := [0]
  scatterDimsToOperandDims := [0]
  indexVectorDim := 1
  wf := scatter_S80000x128_S1360000x1_S1360000x128_1_0_0_1_wf
def gather_S80000x128_S8x5x1_S8x5x128_2_0_n_n_0_2_1128 : GatherDims S80000x128 S8x5x1 S8x5x128 where
  offsetDims := [2]
  collapsedSliceDims := [0]
  operandBatchingDims := []
  startIndicesBatchingDims := []
  startIndexMap := [0]
  indexVectorDim := 2
  sliceSizes := ![1, 128]
  wf := gather_S80000x128_S8x5x1_S8x5x128_2_0_n_n_0_2_1128_wf
def dot_S8x651_S651x256_S8x256_1_0_0_1_n_n : DotDims S8x651 S651x256 S8x256 where
  lhsContracting := [1]
  rhsContracting := [0]
  lhsNonContracting := [0]
  rhsNonContracting := [1]
  lhsBatch := []
  rhsBatch := []
  wf := dot_S8x651_S651x256_S8x256_1_0_0_1_n_n_wf
def dot_S8x256_S256x256_S8x256_1_0_0_1_n_n : DotDims S8x256 S256x256 S8x256 where
  lhsContracting := [1]
  rhsContracting := [0]
  lhsNonContracting := [0]
  rhsNonContracting := [1]
  lhsBatch := []
  rhsBatch := []
  wf := dot_S8x256_S256x256_S8x256_1_0_0_1_n_n_wf

abbrev win0_0 : Pipeline.Window sig grid0 :=
  Pipeline.Window.ofSpec (Memref.whole main_v45) S8000x5.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v46) S5x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v48) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v47) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v49) S8000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v78) S8x651.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v79) S651x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v81) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v80) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v82) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v83) S8x256.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S8x10000x5 : Shape := ⟨3, ![8, 10000, 5]⟩
abbrev S8x2x160000 : Shape := ⟨3, ![8, 2, 160000]⟩
abbrev S8 : Shape := ⟨1, ![8]⟩
abbrev S8x4 : Shape := ⟨2, ![8, 4]⟩
abbrev S8x10 : Shape := ⟨2, ![8, 10]⟩
abbrev S8x1 : Shape := ⟨2, ![8, 1]⟩
abbrev S128x5 : Shape := ⟨2, ![128, 5]⟩
abbrev S128 : Shape := ⟨1, ![128]⟩
abbrev S128x128 : Shape := ⟨2, ![128, 128]⟩
abbrev S256x651 : Shape := ⟨2, ![256, 651]⟩
abbrev S256 : Shape := ⟨1, ![256]⟩
abbrev S256x256 : Shape := ⟨2, ![256, 256]⟩
abbrev S80000x5 : Shape := ⟨2, ![80000, 5]⟩
abbrev S_ : Shape := ⟨0, ![]⟩
abbrev S8x1x1 : Shape := ⟨3, ![8, 1, 1]⟩
abbrev S2x8x160000 : Shape := ⟨3, ![2, 8, 160000]⟩
abbrev S2x1280000 : Shape := ⟨2, ![2, 1280000]⟩
abbrev S1x1280000 : Shape := ⟨2, ![1, 1280000]⟩
abbrev S1280000 : Shape := ⟨1, ![1280000]⟩
abbrev S8x5 : Shape := ⟨2, ![8, 5]⟩
abbrev S5x128 : Shape := ⟨2, ![5, 128]⟩
abbrev S80000x128 : Shape := ⟨2, ![80000, 128]⟩
abbrev S80000 : Shape := ⟨1, ![80000]⟩
abbrev S1360000 : Shape := ⟨1, ![1360000]⟩
abbrev S1360000x1 : Shape := ⟨2, ![1360000, 1]⟩
abbrev S1360000x128 : Shape := ⟨2, ![1360000, 128]⟩
abbrev S1x128 : Shape := ⟨2, ![1, 128]⟩
abbrev S8x5x1 : Shape := ⟨3, ![8, 5, 1]⟩
abbrev S8x5x128 : Shape := ⟨3, ![8, 5, 128]⟩
abbrev S8x640 : Shape := ⟨2, ![8, 640]⟩
abbrev S8x651 : Shape := ⟨2, ![8, 651]⟩
abbrev S651x256 : Shape := ⟨2, ![651, 256]⟩
abbrev S8x256 : Shape := ⟨2, ![8, 256]⟩
abbrev S1x256 : Shape := ⟨2, ![1, 256]⟩

abbrev nBuf : Space → Nat
  | .hbm => 178
  | .vmem => 0
  | .smem => 0
  | _ => 0

abbrev hbmTy0_0 (i : Nat) : BufTy := match i % 128 with
  | 0 => ⟨S8x10000x5, .f32⟩
  | 1 => ⟨S8x2x160000, .i32⟩
  | 2 => ⟨S8, .i32⟩
  | 3 => ⟨S8x4, .i32⟩
  | 4 => ⟨S8x10, .f32⟩
  | 5 => ⟨S8x1, .f32⟩
  | 6 => ⟨S128x5, .f32⟩
  | 7 => ⟨S128, .f32⟩
  | 8 => ⟨S128x128, .f32⟩
  | 9 => ⟨S128, .f32⟩
  | 10 => ⟨S256x651, .f32⟩
  | 11 => ⟨S256, .f32⟩
  | 12 => ⟨S256x256, .f32⟩
  | 13 => ⟨S256, .f32⟩
  | 14 => ⟨S80000x5, .f32⟩
  | 15 => ⟨S8, .i32⟩
  | 16 => ⟨S_, .i32⟩
  | 17 => ⟨S8, .i32⟩
  | 18 => ⟨S8, .i32⟩
  | 19 => ⟨S8x1x1, .i32⟩
  | 20 => ⟨S8x2x160000, .i32⟩
  | 21 => ⟨S8x2x160000, .i32⟩
  | 22 => ⟨S2x8x160000, .i32⟩
  | 23 => ⟨S2x1280000, .i32⟩
  | 24 => ⟨S1x1280000, .i32⟩
  | 25 => ⟨S1280000, .i32⟩
  | 26 => ⟨S1x1280000, .i32⟩
  | 27 => ⟨S1280000, .i32⟩
  | 28 => ⟨S8, .i32⟩
  | 29 => ⟨S8x1, .i32⟩
  | 30 => ⟨S8x4, .i32⟩
  | 31 => ⟨S8x4, .i32⟩
  | 32 => ⟨S8x1, .i32⟩
  | 33 => ⟨S8x5, .i32⟩
  | 34 => ⟨S5x128, .f32⟩
  | 35 => ⟨S80000x128, .f32⟩
  | 36 => ⟨S80000, .i32⟩
  | 37 => ⟨S1360000, .i32⟩
  | 38 => ⟨S1360000, .i32⟩
  | 39 => ⟨S_, .f32⟩
  | 40 => ⟨S1360000, .f32⟩
  | 41 => ⟨S_, .f32⟩
  | 42 => ⟨S80000, .f32⟩
  | 43 => ⟨S1360000x1, .i32⟩
  | 44 => ⟨S80000, .f32⟩
  | 45 => ⟨S_, .f32⟩
  | 46 => ⟨S80000, .f32⟩
  | 47 => ⟨S80000, .i1⟩
  | 48 => ⟨S80000, .f32⟩
  | 49 => ⟨S_, .f32⟩
  | 50 => ⟨S_, .f32⟩
  | 51 => ⟨S80000, .f32⟩
  | 52 => ⟨S80000, .f32⟩
  | 53 => ⟨S_, .i32⟩
  | 54 => ⟨S1360000, .i32⟩
  | 55 => ⟨S1360000, .i1⟩
  | 56 => ⟨S_, .i32⟩
  | 57 => ⟨S1360000, .i32⟩
  | 58 => ⟨S1360000, .i32⟩
  | 59 => ⟨S1360000, .i32⟩
  | 60 => ⟨S1360000x1, .i32⟩
  | 61 => ⟨S1360000, .f32⟩
  | 62 => ⟨S_, .i32⟩
  | 63 => ⟨S1360000, .i32⟩
  | 64 => ⟨S1360000, .i1⟩
  | 65 => ⟨S_, .i32⟩
  | 66 => ⟨S1360000, .i32⟩
  | 67 => ⟨S1360000, .i32⟩
  | 68 => ⟨S1360000, .i32⟩
  | 69 => ⟨S1360000x1, .i32⟩
  | 70 => ⟨S1360000, .f32⟩
  | 71 => ⟨S1360000, .f32⟩
  | 72 => ⟨S_, .i32⟩
  | 73 => ⟨S1360000, .i32⟩
  | 74 => ⟨S1360000, .i1⟩
  | 75 => ⟨S_, .i32⟩
  | 76 => ⟨S1360000, .i32⟩
  | 77 => ⟨S1360000, .i32⟩
  | 78 => ⟨S1360000, .i32⟩
  | 79 => ⟨S1360000x1, .i32⟩
  | 80 => ⟨S1360000x128, .f32⟩
  | 81 => ⟨S1360000x1, .f32⟩
  | 82 => ⟨S1360000x128, .f32⟩
  | 83 => ⟨S1360000x128, .f32⟩
  | 84 => ⟨S_, .f32⟩
  | 85 => ⟨S80000x128, .f32⟩
  | 86 => ⟨S1360000x1, .i32⟩
  | 87 => ⟨S80000x128, .f32⟩
  | 88 => ⟨S1x128, .f32⟩
  | 89 => ⟨S80000x128, .f32⟩
  | 90 => ⟨S80000x128, .f32⟩
  | 91 => ⟨S_, .f32⟩
  | 92 => ⟨S80000x128, .f32⟩
  | 93 => ⟨S80000x128, .f32⟩
  | 94 => ⟨S128x128, .f32⟩
  | 95 => ⟨S80000x128, .f32⟩
  | 96 => ⟨S80000, .i32⟩
  | 97 => ⟨S1360000, .i32⟩
  | 98 => ⟨S1360000, .i32⟩
  | 99 => ⟨S_, .f32⟩
  | 100 => ⟨S1360000, .f32⟩
  | 101 => ⟨S_, .f32⟩
  | 102 => ⟨S80000, .f32⟩
  | 103 => ⟨S1360000x1, .i32⟩
  | 104 => ⟨S80000, .f32⟩
  | 105 => ⟨S_, .f32⟩
  | 106 => ⟨S80000, .f32⟩
  | 107 => ⟨S80000, .i1⟩
  | 108 => ⟨S80000, .f32⟩
  | 109 => ⟨S_, .f32⟩
  | 110 => ⟨S_, .f32⟩
  | 111 => ⟨S80000, .f32⟩
  | 112 => ⟨S80000, .f32⟩
  | 113 => ⟨S_, .i32⟩
  | 114 => ⟨S1360000, .i32⟩
  | 115 => ⟨S1360000, .i1⟩
  | 116 => ⟨S_, .i32⟩
  | 117 => ⟨S1360000, .i32⟩
  | 118 => ⟨S1360000, .i32⟩
  | 119 => ⟨S1360000, .i32⟩
  | 120 => ⟨S1360000x1, .i32⟩
  | 121 => ⟨S1360000, .f32⟩
  | 122 => ⟨S_, .i32⟩
  | 123 => ⟨S1360000, .i32⟩
  | 124 => ⟨S1360000, .i1⟩
  | 125 => ⟨S_, .i32⟩
  | 126 => ⟨S1360000, .i32⟩
  | 127 => ⟨S1360000, .i32⟩
  | _ => ⟨S8x10000x5, .f32⟩

abbrev hbmTy0_1 (i : Nat) : BufTy := match i % 128 with
  | 0 => ⟨S1360000, .i32⟩
  | 1 => ⟨S1360000x1, .i32⟩
  | 2 => ⟨S1360000, .f32⟩
  | 3 => ⟨S1360000, .f32⟩
  | 4 => ⟨S_, .i32⟩
  | 5 => ⟨S1360000, .i32⟩
  | 6 => ⟨S1360000, .i1⟩
  | 7 => ⟨S_, .i32⟩
  | 8 => ⟨S1360000, .i32⟩
  | 9 => ⟨S1360000, .i32⟩
  | 10 => ⟨S1360000, .i32⟩
  | 11 => ⟨S1360000x1, .i32⟩
  | 12 => ⟨S1360000x128, .f32⟩
  | 13 => ⟨S1360000x1, .f32⟩
  | 14 => ⟨S1360000x128, .f32⟩
  | 15 => ⟨S1360000x128, .f32⟩
  | 16 => ⟨S_, .f32⟩
  | 17 => ⟨S80000x128, .f32⟩
  | 18 => ⟨S1360000x1, .i32⟩
  | 19 => ⟨S80000x128, .f32⟩
  | 20 => ⟨S1x128, .f32⟩
  | 21 => ⟨S80000x128, .f32⟩
  | 22 => ⟨S80000x128, .f32⟩
  | 23 => ⟨S_, .f32⟩
  | 24 => ⟨S80000x128, .f32⟩
  | 25 => ⟨S80000x128, .f32⟩
  | 26 => ⟨S_, .i32⟩
  | 27 => ⟨S8x5, .i32⟩
  | 28 => ⟨S8x5, .i1⟩
  | 29 => ⟨S_, .i32⟩
  | 30 => ⟨S8x5, .i32⟩
  | 31 => ⟨S8x5, .i32⟩
  | 32 => ⟨S8x5, .i32⟩
  | 33 => ⟨S8x5x1, .i32⟩
  | 34 => ⟨S8x5x128, .f32⟩
  | 35 => ⟨S8x640, .f32⟩
  | 36 => ⟨S8x651, .f32⟩
  | 37 => ⟨S651x256, .f32⟩
  | 38 => ⟨S8x256, .f32⟩
  | 39 => ⟨S1x256, .f32⟩
  | 40 => ⟨S8x256, .f32⟩
  | 41 => ⟨S8x256, .f32⟩
  | 42 => ⟨S_, .f32⟩
  | 43 => ⟨S8x256, .f32⟩
  | 44 => ⟨S8x256, .f32⟩
  | 45 => ⟨S256x256, .f32⟩
  | 46 => ⟨S8x256, .f32⟩
  | 47 => ⟨S1x256, .f32⟩
  | 48 => ⟨S8x256, .f32⟩
  | 49 => ⟨S8x256, .f32⟩
  | _ => ⟨S8x10000x5, .f32⟩

abbrev hbmTy (i : Nat) : BufTy := match i / 128 with
  | 0 => hbmTy0_0 i
  | 1 => hbmTy0_1 i
  | _ => ⟨S8x10000x5, .f32⟩

abbrev bufTy : (tb : Table) → Fin (tcTables nBuf tb) → BufTy
  | .hbm, ⟨i, _⟩ => hbmTy i
  | _, _ => ⟨S8x10000x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_c : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst : Ref sig .tc := ⟨.hbm, 39, rfl⟩
abbrev main_v24 : Ref sig .tc := ⟨.hbm, 40, rfl⟩
abbrev main_cst_0 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_1 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_2 : Ref sig .tc := ⟨.hbm, 49, rfl⟩
abbrev main_call0_v0 : Ref sig .tc := ⟨.hbm, 50, rfl⟩
abbrev main_call0_v1 : Ref sig .tc := ⟨.hbm, 51, rfl⟩
abbrev main_v31 : Ref sig .tc := ⟨.hbm, 52, rfl⟩
abbrev main_c_3 : Ref sig .tc := ⟨.hbm, 53, rfl⟩
abbrev main_v32 : Ref sig .tc := ⟨.hbm, 54, rfl⟩
abbrev main_v33 : Ref sig .tc := ⟨.hbm, 55, rfl⟩
abbrev main_c_4 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_c_5 : Ref sig .tc := ⟨.hbm, 62, rfl⟩
abbrev main_v39 : Ref sig .tc := ⟨.hbm, 63, rfl⟩
abbrev main_v40 : Ref sig .tc := ⟨.hbm, 64, rfl⟩
abbrev main_c_6 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_c_7 : Ref sig .tc := ⟨.hbm, 72, rfl⟩
abbrev main_v47 : Ref sig .tc := ⟨.hbm, 73, rfl⟩
abbrev main_v48 : Ref sig .tc := ⟨.hbm, 74, rfl⟩
abbrev main_c_8 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_9 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_call1_cst : Ref sig .tc := ⟨.hbm, 91, rfl⟩
abbrev main_call1_v0 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_cst_10 : Ref sig .tc := ⟨.hbm, 99, rfl⟩
abbrev main_v69 : Ref sig .tc := ⟨.hbm, 100, rfl⟩
abbrev main_cst_11 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_cst_12 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_cst_13 : Ref sig .tc := ⟨.hbm, 109, rfl⟩
abbrev main_call2_v0 : Ref sig .tc := ⟨.hbm, 110, rfl⟩
abbrev main_call2_v1 : Ref sig .tc := ⟨.hbm, 111, rfl⟩
abbrev main_v76 : Ref sig .tc := ⟨.hbm, 112, rfl⟩
abbrev main_c_14 : Ref sig .tc := ⟨.hbm, 113, rfl⟩
abbrev main_v77 : Ref sig .tc := ⟨.hbm, 114, rfl⟩
abbrev main_v78 : Ref sig .tc := ⟨.hbm, 115, rfl⟩
abbrev main_c_15 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_c_16 : Ref sig .tc := ⟨.hbm, 122, rfl⟩
abbrev main_v84 : Ref sig .tc := ⟨.hbm, 123, rfl⟩
abbrev main_v85 : Ref sig .tc := ⟨.hbm, 124, rfl⟩
abbrev main_c_17 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_c_18 : Ref sig .tc := ⟨.hbm, 132, rfl⟩
abbrev main_v92 : Ref sig .tc := ⟨.hbm, 133, rfl⟩
abbrev main_v93 : Ref sig .tc := ⟨.hbm, 134, rfl⟩
abbrev main_c_19 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_cst_20 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_call3_cst : Ref sig .tc := ⟨.hbm, 151, rfl⟩
abbrev main_call3_v0 : Ref sig .tc := ⟨.hbm, 152, rfl⟩
abbrev main_v108 : Ref sig .tc := ⟨.hbm, 153, rfl⟩
abbrev main_c_21 : Ref sig .tc := ⟨.hbm, 154, rfl⟩
abbrev main_v109 : Ref sig .tc := ⟨.hbm, 155, rfl⟩
abbrev main_v110 : Ref sig .tc := ⟨.hbm, 156, rfl⟩
abbrev main_c_22 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_call4_cst : Ref sig .tc := ⟨.hbm, 170, rfl⟩
abbrev main_call4_v0 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩

abbrev nD : Nat := 1
abbrev τ : Topo := Topo.v7x

variable {F : FTy → Type} [FloatOps F]

class Facts₀ : Prop where
  shapeCasts_S8x10000x5_S80000x5 : S8x10000x5.ShapeCasts S80000x5
  bcast_S_S8 : S_.BroadcastsInDim S8 (![] : Fin 0 → Fin S8.rank)
  bcast_S8_S8x1x1_0 : S8.BroadcastsInDim S8x1x1 (![0] : Fin 1 → Fin S8x1x1.rank)
  bcast_S8x1x1_S8x2x160000_0_1_2 : S8x1x1.BroadcastsInDim S8x2x160000 (![0, 1, 2] : Fin 3 → Fin S8x2x160000.rank)
  transposes_S8x2x160000_S2x8x160000_1_0_2 : S8x2x160000.Transposes [1, 0, 2] S2x8x160000
  shapeCasts_S2x8x160000_S2x1280000 : S2x8x160000.ShapeCasts S2x1280000
  slices_S2x1280000_S1x1280000_0_0 : S2x1280000.Slices ![0, 0] S1x1280000
  shapeCasts_S1x1280000_S1280000 : S1x1280000.ShapeCasts S1280000
  slices_S2x1280000_S1x1280000_1_0 : S2x1280000.Slices ![1, 0] S1x1280000
  bcast_S8_S8x1_0 : S8.BroadcastsInDim S8x1 (![0] : Fin 1 → Fin S8x1.rank)
  bcast_S8x1_S8x4_0_1 : S8x1.BroadcastsInDim S8x4 (![0, 1] : Fin 2 → Fin S8x4.rank)
  concatenates_S8x4_S8x1_S8x5_d1 : Shape.Concatenates [S8x4, S8x1] S8x5 1
  transposes_S128x5_S5x128_1_0 : S128x5.Transposes [1, 0] S5x128
  concatenates_S1280000_S80000_S1360000_d0 : Shape.Concatenates [S1280000, S80000] S1360000 0
  bcast_S_S1360000 : S_.BroadcastsInDim S1360000 (![] : Fin 0 → Fin S1360000.rank)
  bcast_S_S80000 : S_.BroadcastsInDim S80000 (![] : Fin 0 → Fin S80000.rank)
  bcast_S1360000_S1360000x1_0 : S1360000.BroadcastsInDim S1360000x1 (![0] : Fin 1 → Fin S1360000x1.rank)
  bcast_S1360000x1_S1360000x128_0_1 : S1360000x1.BroadcastsInDim S1360000x128 (![0, 1] : Fin 2 → Fin S1360000x128.rank)
  bcast_S_S80000x128 : S_.BroadcastsInDim S80000x128 (![] : Fin 0 → Fin S80000x128.rank)
  bcast_S128_S1x128_1 : S128.BroadcastsInDim S1x128 (![1] : Fin 1 → Fin S1x128.rank)
  bcast_S1x128_S80000x128_0_1 : S1x128.BroadcastsInDim S80000x128 (![0, 1] : Fin 2 → Fin S80000x128.rank)
  transposes_S128x128_S128x128_1_0 : S128x128.Transposes [1, 0] S128x128
  bcast_S_S8x5 : S_.BroadcastsInDim S8x5 (![] : Fin 0 → Fin S8x5.rank)
  bcast_S8x5_S8x5x1_0_1 : S8x5.BroadcastsInDim S8x5x1 (![0, 1] : Fin 2 → Fin S8x5x1.rank)
  shapeCasts_S8x5x128_S8x640 : S8x5x128.ShapeCasts S8x640
  concatenates_S8x640_S8x10_S8x1_S8x651_d1 : Shape.Concatenates [S8x640, S8x10, S8x1] S8x651 1
  transposes_S256x651_S651x256_1_0 : S256x651.Transposes [1, 0] S651x256
  bcast_S256_S1x256_1 : S256.BroadcastsInDim S1x256 (![1] : Fin 1 → Fin S1x256.rank)
  bcast_S1x256_S8x256_0_1 : S1x256.BroadcastsInDim S8x256 (![0, 1] : Fin 2 → Fin S8x256.rank)
  bcast_S_S8x256 : S_.BroadcastsInDim S8x256 (![] : Fin 0 → Fin S8x256.rank)
  transposes_S256x256_S256x256_1_0 : S256x256.Transposes [1, 0] S256x256
  dot_S80000x5_S5x128_S80000x128_1_0_0_1_n_n_wf : DotDims.WF S80000x5 S5x128 S80000x128 [1] [0] [0] [1] [] []
  scatter_S80000_S1360000x1_S1360000_n_0_0_1_wf : ScatterDims.WF S80000 S1360000x1 S1360000 [] [0] [0] 1
  gather_S80000_S1360000x1_S1360000_n_0_n_n_0_1_1_wf : GatherDims.WF S80000 S1360000x1 S1360000 [] [0] [] [0] [] 1 ![1]
  gather_S80000x128_S1360000x1_S1360000x128_1_0_n_n_0_1_1128_wf : GatherDims.WF S80000x128 S1360000x1 S1360000x128 [1] [0] [] [0] [] 1 ![1, 128]
  scatter_S80000x128_S1360000x1_S1360000x128_1_0_0_1_wf : ScatterDims.WF S80000x128 S1360000x1 S1360000x128 [1] [0] [0] 1
  dot_S80000x128_S128x128_S80000x128_1_0_0_1_n_n_wf : DotDims.WF S80000x128 S128x128 S80000x128 [1] [0] [0] [1] [] []
  gather_S80000x128_S8x5x1_S8x5x128_2_0_n_n_0_2_1128_wf : GatherDims.WF S80000x128 S8x5x1 S8x5x128 [2] [0] [] [0] [] 2 ![1, 128]
  dot_S8x651_S651x256_S8x256_1_0_0_1_n_n_wf : DotDims.WF S8x651 S651x256 S8x256 [1] [0] [0] [1] [] []
  dot_S8x256_S256x256_S8x256_1_0_0_1_n_n_wf : DotDims.WF S8x256 S256x256 S8x256 [1] [0] [0] [1] [] []

variable [Facts₀]

def dot_S80000x5_S5x128_S80000x128_1_0_0_1_n_n : DotDims S80000x5 S5x128 S80000x128 where
  lhsContracting := [1]
  rhsContracting := [0]
  lhsNonContracting := [0]
  rhsNonContracting := [1]
  lhsBatch := []
  rhsBatch := []
  wf := dot_S80000x5_S5x128_S80000x128_1_0_0_1_n_n_wf
def scatter_S80000_S1360000x1_S1360000_n_0_0_1 : ScatterDims S80000 S1360000x1 S1360000 where
  updateWindowDims := []
  insertedWindowDims := [0]
  scatterDimsToOperandDims := [0]
  indexVectorDim := 1
  wf := scatter_S80000_S1360000x1_S1360000_n_0_0_1_wf
def gather_S80000_S1360000x1_S1360000_n_0_n_n_0_1_1 : GatherDims S80000 S1360000x1 S1360000 where
  offsetDims := []
  collapsedSliceDims := [0]
  operandBatchingDims := []
  startIndicesBatchingDims := []
  startIndexMap := [0]
  indexVectorDim := 1
  sliceSizes := ![1]
  wf := gather_S80000_S1360000x1_S1360000_n_0_n_n_0_1_1_wf
def gather_S80000x128_S1360000x1_S1360000x128_1_0_n_n_0_1_1128 : GatherDims S80000x128 S1360000x1 S1360000x128 where
  offsetDims := [1]
  collapsedSliceDims := [0]
  operandBatchingDims := []
  startIndicesBatchingDims := []
  startIndexMap := [0]
  indexVectorDim := 1
  sliceSizes := ![1, 128]
  wf := gather_S80000x128_S1360000x1_S1360000x128_1_0_n_n_0_1_1128_wf
def scatter_S80000x128_S1360000x1_S1360000x128_1_0_0_1 : ScatterDims S80000x128 S1360000x1 S1360000x128 where
  updateWindowDims := [1]
  insertedWindowDims := [0]
  scatterDimsToOperandDims := [0]
  indexVectorDim := 1
  wf := scatter_S80000x128_S1360000x1_S1360000x128_1_0_0_1_wf
def dot_S80000x128_S128x128_S80000x128_1_0_0_1_n_n : DotDims S80000x128 S128x128 S80000x128 where
  lhsContracting := [1]
  rhsContracting := [0]
  lhsNonContracting := [0]
  rhsNonContracting := [1]
  lhsBatch := []
  rhsBatch := []
  wf := dot_S80000x128_S128x128_S80000x128_1_0_0_1_n_n_wf
def gather_S80000x128_S8x5x1_S8x5x128_2_0_n_n_0_2_1128 : GatherDims S80000x128 S8x5x1 S8x5x128 where
  offsetDims := [2]
  collapsedSliceDims := [0]
  operandBatchingDims := []
  startIndicesBatchingDims := []
  startIndexMap := [0]
  indexVectorDim := 2
  sliceSizes := ![1, 128]
  wf := gather_S80000x128_S8x5x1_S8x5x128_2_0_n_n_0_2_1128_wf
def dot_S8x651_S651x256_S8x256_1_0_0_1_n_n : DotDims S8x651 S651x256 S8x256 where
  lhsContracting := [1]
  rhsContracting := [0]
  lhsNonContracting := [0]
  rhsNonContracting := [1]
  lhsBatch := []
  rhsBatch := []
  wf := dot_S8x651_S651x256_S8x256_1_0_0_1_n_n_wf
def dot_S8x256_S256x256_S8x256_1_0_0_1_n_n : DotDims S8x256 S256x256 S8x256 where
  lhsContracting := [1]
  rhsContracting := [0]
  lhsNonContracting := [0]
  rhsNonContracting := [1]
  lhsBatch := []
  rhsBatch := []
  wf := dot_S8x256_S256x256_S8x256_1_0_0_1_n_n_wf

class Facts : Prop extends Facts₀ where

variable [Facts]
-- ==== Proof.KBodyK.lean ====
/-
  The two kernel bodies of `Kernel` as Hoare triples, and the proof data of their pipelines.

  Each body loads its whole input blocks, computes one value from them and stores it over the whole output block, so after
  the body the output's staging buffer holds that value of the input blocks (`res0`, `res1`) and the inputs' buffers are
  untouched. Stated at a PARAMETER `V`, the contents of the unscoped buffers when the region is entered: an input window's
  buffer holds, at every grid point, the block of its array cut out at that point's block index (`blk0`, `blk1`), whether
  it was fetched there or carried over from the point before.
-/
import proofs.«159750_j81578608820912_2_alg».proof.Proof.Gen.Kernel.Launch
import proofs.«159750_j81578608820912_2_alg».proof.Proof.Gen.Kernel.Skeleton
import proofs.«159750_j81578608820912_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The first region: the fused dense block on a tile of 8000 rows -/

/-- Window `w`'s block at grid point `t`, cut out of its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or carried over. -/
theorem before0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)
/-- Input window 1's staging buffer holds its block at every point, fetched there or carried over. -/
theorem before0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)
/-- Input window 2's staging buffer holds its block at every point, fetched there or carried over. -/
theorem before0_2_of {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)
/-- Input window 3's staging buffer holds its block at every point, fetched there or carried over. -/
theorem before0_3_of {c : Dev nD} (dat : Dat τ (Elt F) Unit ℕ (UR sig nD τ) ℕ cfg0 c) (hA : dat.A 3 = V c (Pipeline.arrRef spec0 3))
    (hafter : ∀ t, dat.after 3 t = blk0 V c 3 t) (t : Fin cfg0.N) (d) : dat.before 3 t d = blk0 V c 3 t :=
  (dat.before_in_eq_fetched 3 rfl (fun _ => rfl) (fun _ _ _ => rfl) (fun t => by rw [hafter]; unfold Dat.blockOf blk0; rw [hA]; try rfl) t d).trans
    (by unfold Dat.fetched Dat.blockOf blk0; rw [hA]; try rfl)

/-- The whole blocks the body reads and writes. -/
abbrev rA0 : Rect S8000x5 := Rect.unit (s := S8000x5) ![0, 0] S8000x5.size inb_S8000x5_S8000x5_0_0
abbrev rB0 : Rect S5x128 := Rect.unit (s := S5x128) ![0, 0] S5x128.size inb_S5x128_S5x128_0_0
abbrev rC0 : Rect S1x128 := Rect.unit (s := S1x128) ![0, 0] S1x128.size inb_S1x128_S1x128_0_0
abbrev rD0 : Rect S128x128 := Rect.unit (s := S128x128) ![0, 0] S128x128.size inb_S128x128_S128x128_0_0
abbrev rO0 : Rect S8000x128 := Rect.unit (s := S8000x128) ![0, 0] S8000x128.size inb_S8000x128_S8000x128_0_0

/-- The output buffer after the body, from the four input blocks: its one store, of the body's value of the loaded blocks. -/
def res0 (x0 : Vec F S8000x5 .f32) (x1 : Vec F S5x128 .f32) (x2 : Vec F S1x128 .f32) (x3 : Vec F S128x128 .f32) : Vec F S8000x128 .f32 :=
  View.canon [⟨rO0, k0_pay1 (View.ld x0 rA0) (View.ld x1 rB0) (View.ld x2 rC0) (View.ld x3 rD0)⟩]

/-- The one store covers the whole output block. -/
theorem res0_cover (p0 : Vec F S8000x128 .f32) (y : S8000x128.Idx) :
    ∃ pc ∈ ([⟨rO0, p0⟩] : List (View.Piece (Elt F) S8000x128 .f32)), y ∈ pc.1.set :=
  View.cover_of_tiled [⟨rO0, p0⟩] S8000x128.size (by rfl) y

set_option maxHeartbeats 4000000 in
/-- The body on whole staging buffers, the inputs' at contents `x0 … x3` and the output's at anything, runs to the continuation
    with the inputs' as they were and the output's at `res0` of the inputs'. -/
theorem body0_triple (c : Dev nD) (E : Set ℕ) (i : grid0.Coords) (arg1 : Memref sig .tc .vmem S8000x5 .f32) (harg1 : arg1.IsWhole) (arg2 : Memref sig .tc .vmem S5x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S8000x128 .f32) (harg5 : arg5.IsWhole)
    (x0 : Vec F S8000x5 .f32) (x1 : Vec F S5x128 .f32) (x2 : Vec F S1x128 .f32) (x3 : Vec F S128x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (res0 x0 x1 x2 x3)) -∗ K ⟨⟩))
      ⊢ wp frame (wpE (defs₀ (F := F)) Variants.none c none) E (cc0__fused_layer_kernel i arg1 harg1 arg2 harg2 arg3 harg3 arg4 harg4 arg5 harg5) K := by
  simp only [cc0__fused_layer_kernel_eq_skeleton]; unfold cc0__fused_layer_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (res0_cover _)

/-- The proof data of the first pipeline on core `c`: the arrays as the region finds them; after the body at point `t` each
    input's buffer at its block and the output's at `res0` of the input blocks; nothing owed, full shares. -/
def pd0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => res0 (blk0 V c 0 t) (blk0 V c 1 t) (blk0 V c 2 t) (blk0 V c 3 t)
  Φ _ := Pipeline.ΦA spec0 c
  q _ := fullShare
  owed _ := 0

theorem pd0_A (c : Dev nD) (w : Fin cfg0.W) : (pd0 V c).A w = V c (Pipeline.arrRef spec0 w) := by
  dsimp only [pd0]
theorem pd0_after_0 (c : Dev nD) (t : Fin cfg0.N) : (pd0 V c).after 0 t = blk0 V c 0 t := by dsimp only [pd0]
theorem pd0_after_1 (c : Dev nD) (t : Fin cfg0.N) : (pd0 V c).after 1 t = blk0 V c 1 t := by dsimp only [pd0]
theorem pd0_after_2 (c : Dev nD) (t : Fin cfg0.N) : (pd0 V c).after 2 t = blk0 V c 2 t := by dsimp only [pd0]
theorem pd0_after_3 (c : Dev nD) (t : Fin cfg0.N) : (pd0 V c).after 3 t = blk0 V c 3 t := by dsimp only [pd0]
theorem pd0_after_4 (c : Dev nD) (t : Fin cfg0.N) : (pd0 V c).after 4 t = res0 (blk0 V c 0 t) (blk0 V c 1 t) (blk0 V c 2 t) (blk0 V c 3 t) := by dsimp only [pd0]
theorem pd0_before_0 (c : Dev nD) (t : Fin cfg0.N) (d) : (pd0 V c).before 0 t d = blk0 V c 0 t :=
  before0_0_of V (pd0 V c) (pd0_A V c 0) (pd0_after_0 V c) t d
theorem pd0_before_1 (c : Dev nD) (t : Fin cfg0.N) (d) : (pd0 V c).before 1 t d = blk0 V c 1 t :=
  before0_1_of V (pd0 V c) (pd0_A V c 1) (pd0_after_1 V c) t d
theorem pd0_before_2 (c : Dev nD) (t : Fin cfg0.N) (d) : (pd0 V c).before 2 t d = blk0 V c 2 t :=
  before0_2_of V (pd0 V c) (pd0_A V c 2) (pd0_after_2 V c) t d
theorem pd0_before_3 (c : Dev nD) (t : Fin cfg0.N) (d) : (pd0 V c).before 3 t d = blk0 V c 3 t :=
  before0_3_of V (pd0 V c) (pd0_A V c 3) (pd0_after_3 V c) t d

/-- What the body is called with at point `t`, the windows one by one, -/
def pre0 (c : Dev nD) (t : Fin cfg0.N) : sProp 𝕄 :=
  iprop((pd0 V c).Φ t.castSucc ∗ (pd0 V c).owesAt () t.castSucc
    ∗ (∃ d, owns (c : Thread nD τ) (st0_0 t) fullShare ((pd0 V c).before 0 t d))
    ∗ (∃ d, owns (c : Thread nD τ) (st0_1 t) fullShare ((pd0 V c).before 1 t d))
    ∗ (∃ d, owns (c : Thread nD τ) (st0_2 t) fullShare ((pd0 V c).before 2 t d))
    ∗ (∃ d, owns (c : Thread nD τ) (st0_3 t) fullShare ((pd0 V c).before 3 t d))
    ∗ (∃ d, owns (c : Thread nD τ) (st0_4 t) fullShare ((pd0 V c).before 4 t d)))

/-- and what it returns. -/
def post0 (c : Dev nD) (t : Fin cfg0.N) : sProp 𝕄 :=
  iprop((pd0 V c).Φ t.succ ∗ (pd0 V c).owesAt () t.succ
    ∗ owns (c : Thread nD τ) (st0_0 t) fullShare ((pd0 V c).after 0 t)
    ∗ owns (c : Thread nD τ) (st0_1 t) fullShare ((pd0 V c).after 1 t)
    ∗ owns (c : Thread nD τ) (st0_2 t) fullShare ((pd0 V c).after 2 t)
    ∗ owns (c : Thread nD τ) (st0_3 t) fullShare ((pd0 V c).after 3 t)
    ∗ owns (c : Thread nD τ) (st0_4 t) fullShare ((pd0 V c).after 4 t))

/-- The body at any point: the inputs' buffers hold their blocks, so the triple applies; the rest passes through unread. -/
theorem body0_at (c : Dev nD) (t : Fin cfg0.N) :
    pre0 V c t ⊢ wp frame (wpE (defs₀ (F := F)) Variants.none c none) Set.univ (bodyAt0 t) (fun _ => post0 V c t) := by
  unfold pre0 post0 bodyAt0
  simp only [pd0_before_0, pd0_before_1, pd0_before_2, pd0_before_3]
  rw [show (pd0 V c).Φ t.succ = (pd0 V c).Φ t.castSucc from rfl,
    show (pd0 V c).owesAt () t.succ = (pd0 V c).owesAt () t.castSucc from rfl,
    pd0_after_0, pd0_after_1, pd0_after_2, pd0_after_3, pd0_after_4]
  iintro ⟨HΦ, Ho, ⟨%d0, H0⟩, ⟨%d1, H1⟩, ⟨%d2, H2⟩, ⟨%d3, H3⟩, ⟨%d4, H4⟩⟩
  iapply (body0_triple c Set.univ (grid0.coords t) _ _ _ _ _ _ _ _ _ _ (blk0 V c 0 t) (blk0 V c 1 t) (blk0 V c 2 t) (blk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body0_obl (c : Dev nD) : BodyObligation (pd0 (F := F) V c) (defs₀ (F := F)) Variants.none () Set.univ := fun t => by
  rw [bigSep_W0, bigSep_W0]
  exact body0_at V c t

/-! # The second region: the two-layer head on the 8 rows -/

/-- Window `w`'s block at grid point `t`, cut out of its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or carried over. -/
theorem before1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
/-- Input window 1's staging buffer holds its block at every point, fetched there or carried over. -/
theorem before1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)
/-- Input window 2's staging buffer holds its block at every point, fetched there or carried over. -/
theorem before1_2_of {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)
/-- Input window 3's staging buffer holds its block at every point, fetched there or carried over. -/
theorem before1_3_of {c : Dev nD} (dat : Dat τ (Elt F) Unit ℕ (UR sig nD τ) ℕ cfg1 c) (hA : dat.A 3 = V c (Pipeline.arrRef spec1 3))
    (hafter : ∀ t, dat.after 3 t = blk1 V c 3 t) (t : Fin cfg1.N) (d) : dat.before 3 t d = blk1 V c 3 t :=
  (dat.before_in_eq_fetched 3 rfl (fun _ => rfl) (fun _ _ _ => rfl) (fun t => by rw [hafter]; unfold Dat.blockOf blk1; rw [hA]; try rfl) t d).trans
    (by unfold Dat.fetched Dat.blockOf blk1; rw [hA]; try rfl)
/-- Input window 4's staging buffer holds its block at every point, fetched there or carried over. -/
theorem before1_4_of {c : Dev nD} (dat : Dat τ (Elt F) Unit ℕ (UR sig nD τ) ℕ cfg1 c) (hA : dat.A 4 = V c (Pipeline.arrRef spec1 4))
    (hafter : ∀ t, dat.after 4 t = blk1 V c 4 t) (t : Fin cfg1.N) (d) : dat.before 4 t d = blk1 V c 4 t :=
  (dat.before_in_eq_fetched 4 rfl (fun _ => rfl) (fun _ _ _ => rfl) (fun t => by rw [hafter]; unfold Dat.blockOf blk1; rw [hA]; try rfl) t d).trans
    (by unfold Dat.fetched Dat.blockOf blk1; rw [hA]; try rfl)

/-- The whole blocks the body reads and writes. -/
abbrev rA1 : Rect S8x651 := Rect.unit (s := S8x651) ![0, 0] S8x651.size inb_S8x651_S8x651_0_0
abbrev rB1 : Rect S651x256 := Rect.unit (s := S651x256) ![0, 0] S651x256.size inb_S651x256_S651x256_0_0
abbrev rC1 : Rect S1x256 := Rect.unit (s := S1x256) ![0, 0] S1x256.size inb_S1x256_S1x256_0_0
abbrev rD1 : Rect S256x256 := Rect.unit (s := S256x256) ![0, 0] S256x256.size inb_S256x256_S256x256_0_0
abbrev rO1 : Rect S8x256 := Rect.unit (s := S8x256) ![0, 0] S8x256.size inb_S8x256_S8x256_0_0

/-- The output buffer after the body, from the five input blocks: its one store, of the body's value of the loaded blocks. -/
def res1 (x0 : Vec F S8x651 .f32) (x1 : Vec F S651x256 .f32) (x2 : Vec F S1x256 .f32) (x3 : Vec F S256x256 .f32) (x4 : Vec F S1x256 .f32) : Vec F S8x256 .f32 :=
  View.canon [⟨rO1, k1_pay1 (View.ld x0 rA1) (View.ld x1 rB1) (View.ld x2 rC1) (View.ld x3 rD1) (View.ld x4 rC1)⟩]

/-- The one store covers the whole output block. -/
theorem res1_cover (p0 : Vec F S8x256 .f32) (y : S8x256.Idx) :
    ∃ pc ∈ ([⟨rO1, p0⟩] : List (View.Piece (Elt F) S8x256 .f32)), y ∈ pc.1.set :=
  View.cover_of_tiled [⟨rO1, p0⟩] S8x256.size (by rfl) y

set_option maxHeartbeats 4000000 in
/-- The body on whole staging buffers, the inputs' at contents `x0 … x4` and the output's at anything, runs to the continuation
    with the inputs' as they were and the output's at `res1` of the inputs'. -/
theorem body1_triple (c : Dev nD) (E : Set ℕ) (i : grid1.Coords) (arg1 : Memref sig .tc .vmem S8x651 .f32) (harg1 : arg1.IsWhole) (arg2 : Memref sig .tc .vmem S651x256 .f32) (harg2 : arg2.IsWhole) (arg3 : Memref sig .tc .vmem S1x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S8x256 .f32) (harg6 : arg6.IsWhole)
    (x0 : Vec F S8x651 .f32) (x1 : Vec F S651x256 .f32) (x2 : Vec F S1x256 .f32) (x3 : Vec F S256x256 .f32) (x4 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (res1 x0 x1 x2 x3 x4)) -∗ K ⟨⟩))
      ⊢ wp frame (wpE (defs₀ (F := F)) Variants.none c none) E (cc1__head_mlp_kernel i arg1 harg1 arg2 harg2 arg3 harg3 arg4 harg4 arg5 harg5 arg6 harg6) K := by
  simp only [cc1__head_mlp_kernel_eq_skeleton]; unfold cc1__head_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (res1_cover _)

/-- The proof data of the second pipeline on core `c`: the arrays as the region finds them; after the body each input's
    buffer at its block and the output's at `res1` of the input blocks; nothing owed, full shares. -/
def pd1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => res1 (blk1 V c 0 t) (blk1 V c 1 t) (blk1 V c 2 t) (blk1 V c 3 t) (blk1 V c 4 t)
  Φ _ := Pipeline.ΦA spec1 c
  q _ := fullShare
  owed _ := 0

theorem pd1_A (c : Dev nD) (w : Fin cfg1.W) : (pd1 V c).A w = V c (Pipeline.arrRef spec1 w) := by
  dsimp only [pd1]
theorem pd1_after_0 (c : Dev nD) (t : Fin cfg1.N) : (pd1 V c).after 0 t = blk1 V c 0 t := by dsimp only [pd1]
theorem pd1_after_1 (c : Dev nD) (t : Fin cfg1.N) : (pd1 V c).after 1 t = blk1 V c 1 t := by dsimp only [pd1]
theorem pd1_after_2 (c : Dev nD) (t : Fin cfg1.N) : (pd1 V c).after 2 t = blk1 V c 2 t := by dsimp only [pd1]
theorem pd1_after_3 (c : Dev nD) (t : Fin cfg1.N) : (pd1 V c).after 3 t = blk1 V c 3 t := by dsimp only [pd1]
theorem pd1_after_4 (c : Dev nD) (t : Fin cfg1.N) : (pd1 V c).after 4 t = blk1 V c 4 t := by dsimp only [pd1]
theorem pd1_after_5 (c : Dev nD) (t : Fin cfg1.N) : (pd1 V c).after 5 t = res1 (blk1 V c 0 t) (blk1 V c 1 t) (blk1 V c 2 t) (blk1 V c 3 t) (blk1 V c 4 t) := by dsimp only [pd1]
theorem pd1_before_0 (c : Dev nD) (t : Fin cfg1.N) (d) : (pd1 V c).before 0 t d = blk1 V c 0 t :=
  before1_0_of V (pd1 V c) (pd1_A V c 0) (pd1_after_0 V c) t d
theorem pd1_before_1 (c : Dev nD) (t : Fin cfg1.N) (d) : (pd1 V c).before 1 t d = blk1 V c 1 t :=
  before1_1_of V (pd1 V c) (pd1_A V c 1) (pd1_after_1 V c) t d
theorem pd1_before_2 (c : Dev nD) (t : Fin cfg1.N) (d) : (pd1 V c).before 2 t d = blk1 V c 2 t :=
  before1_2_of V (pd1 V c) (pd1_A V c 2) (pd1_after_2 V c) t d
theorem pd1_before_3 (c : Dev nD) (t : Fin cfg1.N) (d) : (pd1 V c).before 3 t d = blk1 V c 3 t :=
  before1_3_of V (pd1 V c) (pd1_A V c 3) (pd1_after_3 V c) t d
theorem pd1_before_4 (c : Dev nD) (t : Fin cfg1.N) (d) : (pd1 V c).before 4 t d = blk1 V c 4 t :=
  before1_4_of V (pd1 V c) (pd1_A V c 4) (pd1_after_4 V c) t d

/-- What the body is called with at point `t`, the windows one by one, -/
def pre1 (c : Dev nD) (t : Fin cfg1.N) : sProp 𝕄 :=
  iprop((pd1 V c).Φ t.castSucc ∗ (pd1 V c).owesAt () t.castSucc
    ∗ (∃ d, owns (c : Thread nD τ) (st1_0 t) fullShare ((pd1 V c).before 0 t d))
    ∗ (∃ d, owns (c : Thread nD τ) (st1_1 t) fullShare ((pd1 V c).before 1 t d))
    ∗ (∃ d, owns (c : Thread nD τ) (st1_2 t) fullShare ((pd1 V c).before 2 t d))
    ∗ (∃ d, owns (c : Thread nD τ) (st1_3 t) fullShare ((pd1 V c).before 3 t d))
    ∗ (∃ d, owns (c : Thread nD τ) (st1_4 t) fullShare ((pd1 V c).before 4 t d))
    ∗ (∃ d, owns (c : Thread nD τ) (st1_5 t) fullShare ((pd1 V c).before 5 t d)))

/-- and what it returns. -/
def post1 (c : Dev nD) (t : Fin cfg1.N) : sProp 𝕄 :=
  iprop((pd1 V c).Φ t.succ ∗ (pd1 V c).owesAt () t.succ
    ∗ owns (c : Thread nD τ) (st1_0 t) fullShare ((pd1 V c).after 0 t)
    ∗ owns (c : Thread nD τ) (st1_1 t) fullShare ((pd1 V c).after 1 t)
    ∗ owns (c : Thread nD τ) (st1_2 t) fullShare ((pd1 V c).after 2 t)
    ∗ owns (c : Thread nD τ) (st1_3 t) fullShare ((pd1 V c).after 3 t)
    ∗ owns (c : Thread nD τ) (st1_4 t) fullShare ((pd1 V c).after 4 t)
    ∗ owns (c : Thread nD τ) (st1_5 t) fullShare ((pd1 V c).after 5 t))

/-- The body at any point: the inputs' buffers hold their blocks, so the triple applies; the rest passes through unread. -/
theorem body1_at (c : Dev nD) (t : Fin cfg1.N) :
    pre1 V c t ⊢ wp frame (wpE (defs₀ (F := F)) Variants.none c none) Set.univ (bodyAt1 t) (fun _ => post1 V c t) := by
  unfold pre1 post1 bodyAt1
  simp only [pd1_before_0, pd1_before_1, pd1_before_2, pd1_before_3, pd1_before_4]
  rw [show (pd1 V c).Φ t.succ = (pd1 V c).Φ t.castSucc from rfl,
    show (pd1 V c).owesAt () t.succ = (pd1 V c).owesAt () t.castSucc from rfl,
    pd1_after_0, pd1_after_1, pd1_after_2, pd1_after_3, pd1_after_4, pd1_after_5]
  iintro ⟨HΦ, Ho, ⟨%d0, H0⟩, ⟨%d1, H1⟩, ⟨%d2, H2⟩, ⟨%d3, H3⟩, ⟨%d4, H4⟩, ⟨%d5, H5⟩⟩
  iapply (body1_triple c Set.univ (grid1.coords t) _ _ _ _ _ _ _ _ _ _ _ _ (blk1 V c 0 t) (blk1 V c 1 t) (blk1 V c 2 t) (blk1 V c 3 t) (blk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body1_obl (c : Dev nD) : BodyObligation (pd1 (F := F) V c) (defs₀ (F := F)) Variants.none () Set.univ := fun t => by
  rw [bigSep_W1, bigSep_W1]
  exact body1_at V c t

end Cert.Kernel.Hand

end
-- ==== Proof.KRunK.lean ====
/-
  The run of `Kernel`'s @main: six stretches of host operations and two kernel regions, in order.

  Between two items every unscoped buffer of a core is held whole at a known valuation: the launch memory, then the host
  operations folded over it stretch by stretch, and after a region the region's arrays at what its pipeline leaves (an
  input array as entered, the output array at its blocks' write-backs) with every other buffer as entered. Every weakly
  fair execution therefore terminates with all unscoped buffers at the last valuation `W8`. Read at an argument, no
  stretch and no region writes it, so it ends as launched (the frame); read at the result buffer, it is what the second
  pipeline leaves in its output array.
-/
import proofs.«159750_j81578608820912_2_alg».proof.Proof.KBodyK
import proofs.«159750_j81578608820912_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
/-- After the first, second and third stretch (the third is the first region's entry). -/
abbrev W1 : Dev nD → Valuation τ sig (Elt F) := fun c => StableHlo.after hostOps0 (W0 m ρ c)
abbrev W2 : Dev nD → Valuation τ sig (Elt F) := fun c => StableHlo.after hostOps0_1 (W1 m ρ c)
abbrev W3 : Dev nD → Valuation τ sig (Elt F) := fun c => StableHlo.after hostOps0_2 (W2 m ρ c)
/-- The same read at the core's references: what the first region's proof data take. -/
abbrev E3 : (c : Dev nD) → (b : Ref sig .tc) → Buf (Elt F) ((c : Thread nD τ).loc b) := fun c b => W3 m ρ c b
/-- At the first region's exit: its arrays at what the pipeline leaves, every other buffer as entered. -/
def W4 (c : Dev nD) : Valuation τ sig (Elt F) :=
  Pipeline.withArrays spec0 c (W3 m ρ c) fun w => (pd0 (E3 m ρ) c).arrAt w cfg0.N
theorem W4_arr (c : Dev nD) (w : Fin cfg0.W) :
    W4 m ρ c (Proc.devRef .tc (Pipeline.arrRef spec0 w)) = (pd0 (E3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev E4 : (c : Dev nD) → (b : Ref sig .tc) → Buf (Elt F) ((c : Thread nD τ).loc b) := fun c b => W4 m ρ c b
theorem exit0_arr (c : Dev nD) (w : Fin cfg0.W) : (pd0 (E3 m ρ) c).arrAt w cfg0.N = E4 m ρ c (Pipeline.arrRef spec0 w) :=
  (W4_arr m ρ c w).symm
theorem exit0_rest (c : Dev nD) : ∀ b, b ∉ Finset.univ.image (Pipeline.arrRef spec0) → E4 m ρ c b = E3 m ρ c b :=
  fun b hb => W4_of_ne m ρ c b fun w e => hb (Finset.mem_image.mpr ⟨w, Finset.mem_univ _, e⟩)

/-- After the fourth, fifth and sixth stretch (the sixth is the second region's entry). -/
abbrev W5 : Dev nD → Valuation τ sig (Elt F) := fun c => StableHlo.after hostOps1 (W4 m ρ c)
abbrev W6 : Dev nD → Valuation τ sig (Elt F) := fun c => StableHlo.after hostOps1_1 (W5 m ρ c)
abbrev W7 : Dev nD → Valuation τ sig (Elt F) := fun c => StableHlo.after hostOps1_2 (W6 m ρ c)
abbrev E7 : (c : Dev nD) → (b : Ref sig .tc) → Buf (Elt F) ((c : Thread nD τ).loc b) := fun c b => W7 m ρ c b
/-- At the second region's exit. -/
def W8 (c : Dev nD) : Valuation τ sig (Elt F) :=
  Pipeline.withArrays spec1 c (W7 m ρ c) fun w => (pd1 (E7 m ρ) c).arrAt w cfg1.N
theorem W8_arr (c : Dev nD) (w : Fin cfg1.W) :
    W8 m ρ c (Proc.devRef .tc (Pipeline.arrRef spec1 w)) = (pd1 (E7 m ρ) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m ρ c (Proc.devRef .tc b) = W7 m ρ c (Proc.devRef .tc b) := by
  unfold W8; exact Pipeline.withArrays_of_ne spec1 c _ _ b hb
abbrev E8 : (c : Dev nD) → (b : Ref sig .tc) → Buf (Elt F) ((c : Thread nD τ).loc b) := fun c b => W8 m ρ c b
theorem exit1_arr (c : Dev nD) (w : Fin cfg1.W) : (pd1 (E7 m ρ) c).arrAt w cfg1.N = E8 m ρ c (Pipeline.arrRef spec1 w) :=
  (W8_arr m ρ c w).symm
theorem exit1_rest (c : Dev nD) : ∀ b, b ∉ Finset.univ.image (Pipeline.arrRef spec1) → E8 m ρ c b = E7 m ρ c b :=
  fun b hb => W8_of_ne m ρ c b fun w e => hb (Finset.mem_image.mpr ⟨w, Finset.mem_univ _, e⟩)

/-- A buffer that no stretch writes and that is no array of either region ends as launched. -/
theorem W8_untouched (c : Dev nD) (r : Ref sig .tc)
    (h0 : r ∉ hostOps0_W) (h1 : r ∉ hostOps0_1_W) (h2 : r ∉ hostOps0_2_W) (h3 : ∀ w, Pipeline.arrRef spec0 w ≠ r)
    (h4 : r ∉ hostOps1_W) (h5 : r ∉ hostOps1_1_W) (h6 : r ∉ hostOps1_2_W) (h7 : ∀ w, Pipeline.arrRef spec1 w ≠ r) :
    W8 m ρ c (Proc.devRef .tc r) = m ((c : Thread nD τ).loc r) :=
  calc W8 m ρ c (Proc.devRef .tc r)
    _ = W7 m ρ c (Proc.devRef .tc r) := W8_of_ne m ρ c r h7
    _ = W6 m ρ c (Proc.devRef .tc r) := StableHlo.after_of_writes_sub hostOps1_2 _ hostOps1_2_writes h6
    _ = W5 m ρ c (Proc.devRef .tc r) := StableHlo.after_of_writes_sub hostOps1_1 _ hostOps1_1_writes h5
    _ = W4 m ρ c (Proc.devRef .tc r) := StableHlo.after_of_writes_sub hostOps1 _ hostOps1_writes h4
    _ = W3 m ρ c (Proc.devRef .tc r) := W4_of_ne m ρ c r h3
    _ = W2 m ρ c (Proc.devRef .tc r) := StableHlo.after_of_writes_sub hostOps0_2 _ hostOps0_2_writes h2
    _ = W1 m ρ c (Proc.devRef .tc r) := StableHlo.after_of_writes_sub hostOps0_1 _ hostOps0_1_writes h1
    _ = W0 m ρ c (Proc.devRef .tc r) := StableHlo.after_of_writes_sub hostOps0 _ hostOps0_writes h0
    _ = m ((c : Thread nD τ).loc r) := rfl

/-! ## The proof data family and the thread state -/

abbrev noTables : (p : Fin 2) → (pcfgs (F := F) p).Adm := fun p => (cfgs p).toPCfg_adm
/-- Each pipeline's proof data at its region's entry contents. -/
def pds : (p : Fin 2) → (c : Dev nD) → Dat τ (Elt F) Unit ℕ (UR sig nD τ) ℕ (Pipeline.pin (pcfgs (F := F)) noTables p) c
  | ⟨0, _⟩ => fun c => pd0 (E3 m ρ) c
  | ⟨1, _⟩ => fun c => pd1 (E7 m ρ) c
abbrev vnone : Variants := Variants.none
abbrev noLv : GSem nD τ sig → Finset Unit := fun _ => ∅
abbrev lv0 : GSem nD τ sig → Unit → ℕ := fun _ _ => 0
/-- What rides beside the buffers through every item: the generator register at some state, and nothing owed. -/
abbrev rest (c : Dev nD) : sProp 𝕄 := iprop((∃ r, prngReg c r) ∗ ∃ W, owes (c : Thread nD τ) (0 : CellTallies nD τ sig Unit) W)
/-- A stretch of host operations as an item, from the contents `W`. -/
abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ vnone noLv lv0 :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W rest

theorem uc_mem (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state: every unscoped buffer at `W8`, the generator register at some state. -/
abbrev lastState (c : Dev nD) : sProp 𝕄 := iprop(StableHlo.held (c : Thread nD τ) (Pipeline.ucRefs τ sig) (W8 m ρ c) ∗ ∃ r, prngReg c r)

/-! ## The regions as items -/

set_option backward.isDefEq.respectTransparency.types false in
/-- The first region: entered with every unscoped buffer at `W3`, left with them at `W4`. -/
def region0 : Pipeline.RegionSeg (pcfgs (F := F)) noTables (pds m ρ) () defs₀ vnone noLv lv0 0 where
  win := launch0.win.to₀
  block_pos := launch0.block_pos
  stage_whole := launch0.stage_whole
  K := PEmpty
  osem k := k.elim
  ho := Pipeline.OwnSemFacts.none _
  hbody c := (body0_obl (E3 m ρ) c).loose
  hwaits := Pipeline.hwaits_of_owed_zero _ _ _ _ noLv lv0 0 fun _ _ => rfl
  pre c := iprop(StableHlo.held (c : Thread nD τ) (Pipeline.ucRefs τ sig) (W3 m ρ c) ∗ rest c)
  post c := iprop(StableHlo.held (c : Thread nD τ) (Pipeline.ucRefs τ sig) (W4 m ρ c) ∗ rest c)
  X c := iprop(∃ r, prngReg c r)
  Y c := iprop(∃ r, prngReg c r)
  Z c := Pipeline.unscopedRest (Ix := Unit) (Name := ℕ) (U := UR sig nD τ) (Lvl := ℕ) spec0 c (E3 m ρ c)
  hentry c := by
    rw [Pipeline.ownSems0_none]
    have hsplit := Pipeline.arrays_of_unscopedBufs (p := 0) (pcfgs (F := F)) noTables (pds m ρ) launch0.win launch0.arr_whole c
      ((pds m ρ 0 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pds m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pds m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) noTables (Ix := Unit) (Name := ℕ) (U := UR sig nD τ) (Lvl := ℕ)
      launch0.win launch0.arr_whole c (pds m ρ) ((pds m ρ 0 c).share_full fun _ => rfl)
      (E3 m ρ c) (E4 m ρ c) ((pds m ρ 0 c).arrAt · cfg0.N) (exit0_arr m ρ c) (exit0_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered with every unscoped buffer at `W7`, left with them at `W8`. -/
def region1 : Pipeline.RegionSeg (pcfgs (F := F)) noTables (pds m ρ) () defs₀ vnone noLv lv0 1 where
  win := launch1.win.to₀
  block_pos := launch1.block_pos
  stage_whole := launch1.stage_whole
  K := PEmpty
  osem k := k.elim
  ho := Pipeline.OwnSemFacts.none _
  hbody c := (body1_obl (E7 m ρ) c).loose
  hwaits := Pipeline.hwaits_of_owed_zero _ _ _ _ noLv lv0 1 fun _ _ => rfl
  pre c := iprop(StableHlo.held (c : Thread nD τ) (Pipeline.ucRefs τ sig) (W7 m ρ c) ∗ rest c)
  post c := iprop(lastState m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E7 m ρ c)
  hentry c := by
    rw [Pipeline.ownSems0_none]
    have hsplit := Pipeline.arrays_of_unscopedBufs (p := 1) (pcfgs (F := F)) noTables (pds m ρ) launch1.win launch1.arr_whole c
      ((pds m ρ 1 c).share_full fun _ => rfl) (E7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pds m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pds m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) noTables (Ix := Unit) (Name := ℕ) (U := UR sig nD τ) (Lvl := ℕ)
      launch1.win launch1.arr_whole c (pds m ρ) ((pds m ρ 1 c).share_full fun _ => rfl)
      (E7 m ρ c) (E8 m ρ c) ((pds m ρ 1 c).arrAt · cfg1.N) (exit1_arr m ρ c) (exit1_rest m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as items, and the launch -/

/-- @main's eight items in order. -/
abbrev items : List (Pipeline.Seg (pcfgs (F := F)) noTables (pds m ρ) () defs₀ vnone noLv lv0) :=
  [ .host (stretch hostOps0 hostOps0_sub hostOps0_fresh (W0 m ρ)),
    .host (stretch hostOps0_1 hostOps0_1_sub hostOps0_1_fresh (W1 m ρ)),
    .host (stretch hostOps0_2 hostOps0_2_sub hostOps0_2_fresh (W2 m ρ)),
    .region (region0 m ρ),
    .host (stretch hostOps1 hostOps1_sub hostOps1_fresh (W4 m ρ)),
    .host (stretch hostOps1_1 hostOps1_1_sub hostOps1_1_fresh (W5 m ρ)),
    .host (stretch hostOps1_2 hostOps1_2_sub hostOps1_2_fresh (W6 m ρ)),
    .region (region1 m ρ) ]

set_option backward.isDefEq.respectTransparency.types false in
/-- Every weakly fair execution of @main from memory `m` with zero counters terminates, nothing faulting, with every
    unscoped buffer of every core at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) noTables (pds m ρ) () cellOf_inj emb₁ defs₀ vnone noLv lv0 m ρ main (items m ρ)
    (fun c Q => by
      rewrite [main_chain c, Pipeline.Seg.run_eq_chain,
        show (items m ρ).map Pipeline.Seg.prog = [
          StableHlo.seq hostOps0,
          StableHlo.seq hostOps0_1,
          StableHlo.seq hostOps0_2,
          Prog.lift (.customCall (Pipeline.entry 0) ()),
          StableHlo.seq hostOps1,
          StableHlo.seq hostOps1_1,
          StableHlo.seq hostOps1_2,
          Prog.lift (.customCall (Pipeline.entry 1) ()) ] from rfl]
      exact .rfl)
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ rest c)) (Tₙ := lastState m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach noLv lv0 fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c => h c)

/-- An argument ends as launched. -/
theorem W8_arg (c : Dev nD) (r : Ref sig .tc)
    (h0 : r ∉ hostOps0_W) (h1 : r ∉ hostOps0_1_W) (h2 : r ∉ hostOps0_2_W) (h3 : ∀ w, Pipeline.arrRef spec0 w ≠ r)
    (h4 : r ∉ hostOps1_W) (h5 : r ∉ hostOps1_1_W) (h6 : r ∉ hostOps1_2_W) (h7 : ∀ w, Pipeline.arrRef spec1 w ≠ r)
    (hu : ¬ (Proc.devRef .tc r : DevRef τ sig).isScoped) (s : MemSt nD τ sig (Elt F))
    (h : ∀ b ∈ Pipeline.ucRefs τ sig, s.mem (((c : Thread nD τ)).1, b) = W8 m ρ c b) :
    s.mem ((c.tc : Thread nD τ).loc r) = m ((c.tc : Thread nD τ).loc r) :=
  (h _ (uc_mem r hu)).trans (W8_untouched m ρ c r h0 h1 h2 h3 h4 h5 h6 h7)

/-- THE FRAME: every weakly fair execution terminates, nothing faulting, with the fourteen argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨
    W8_arg m ρ c main_arg0 (by decide) (by decide) (by decide) (by decide) (by decide) (by decide) (by decide) (by decide) (by decide) r.2 (h c),
    W8_arg m ρ c main_arg1 (by decide) (by decide) (by decide) (by decide) (by decide) (by decide) (by decide) (by decide) (by decide) r.2 (h c),
    W8_arg m ρ c main_arg2 (by decide) (by decide) (by decide) (by decide) (by decide) (by decide) (by decide) (by decide) (by decide) r.2 (h c),
    W8_arg m ρ c main_arg3 (by decide) (by decide) (by decide) (by decide) (by decide) (by decide) (by decide) (by decide) (by decide) r.2 (h c),
    W8_arg m ρ c main_arg4 (by decide) (by decide) (by decide) (by decide) (by decide) (by decide) (by decide) (by decide) (by decide) r.2 (h c),
    W8_arg m ρ c main_arg5 (by decide) (by decide) (by decide) (by decide) (by decide) (by decide) (by decide) (by decide) (by decide) r.2 (h c),
    W8_arg m ρ c main_arg6 (by decide) (by decide) (by decide) (by decide) (by decide) (by decide) (by decide) (by decide) (by decide) r.2 (h c),
    W8_arg m ρ c main_arg7 (by decide) (by decide) (by decide) (by decide) (by decide) (by decide) (by decide) (by decide) (by decide) r.2 (h c),
    W8_arg m ρ c main_arg8 (by decide) (by decide) (by decide) (by decide) (by decide) (by decide) (by decide) (by decide) (by decide) r.2 (h c),
    W8_arg m ρ c main_arg9 (by decide) (by decide) (by decide) (by decide) (by decide) (by decide) (by decide) (by decide) (by decide) r.2 (h c),
    W8_arg m ρ c main_arg10 (by decide) (by decide) (by decide) (by decide) (by decide) (by decide) (by decide) (by decide) (by decide) r.2 (h c),
    W8_arg m ρ c main_arg11 (by decide) (by decide) (by decide) (by decide) (by decide) (by decide) (by decide) (by decide) (by decide) r.2 (h c),
    W8_arg m ρ c main_arg12 (by decide) (by decide) (by decide) (by decide) (by decide) (by decide) (by decide) (by decide) (by decide) r.2 (h c),
    W8_arg m ρ c main_arg13 (by decide) (by decide) (by decide) (by decide) (by decide) (by decide) (by decide) (by decide) (by decide) r.2 (h c)⟩) (run_all m ρ)

/-- THE RESULT: the same executions end with the result buffer at what the second pipeline leaves in its output array,
    and the arguments as launched. -/
theorem run_value : θ_run defs (onTc (τ := τ) (main (F := F))) ⟨m, fun _ => 0, ρ⟩ (fun r => ∀ c : Dev nD,
      r.2.mem ((c.tc : Thread nD τ).loc main_v83) = (pd1 (E7 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨(h c _ (uc_mem main_v83 (by decide))).trans (W8_arr m ρ c 5),
    W8_arg m ρ c main_arg0 (by decide) (by decide) (by decide) (by decide) (by decide) (by decide) (by decide) (by decide) (by decide) r.2 (h c),
    W8_arg m ρ c main_arg1 (by decide) (by decide) (by decide) (by decide) (by decide) (by decide) (by decide) (by decide) (by decide) r.2 (h c),
    W8_arg m ρ c main_arg2 (by decide) (by decide) (by decide) (by decide) (by decide) (by decide) (by decide) (by decide) (by decide) r.2 (h c),
    W8_arg m ρ c main_arg3 (by decide) (by decide) (by decide) (by decide) (by decide) (by decide) (by decide) (by decide) (by decide) r.2 (h c),
    W8_arg m ρ c main_arg4 (by decide) (by decide) (by decide) (by decide) (by decide) (by decide) (by decide) (by decide) (by decide) r.2 (h c),
    W8_arg m ρ c main_arg5 (by decide) (by decide) (by decide) (by decide) (by decide) (by decide) (by decide) (by decide) (by decide) r.2 (h c),
    W8_arg m ρ c main_arg6 (by decide) (by decide) (by decide) (by decide) (by decide) (by decide) (by decide) (by decide) (by decide) r.2 (h c),
    W8_arg m ρ c main_arg7 (by decide) (by decide) (by decide) (by decide) (by decide) (by decide) (by decide) (by decide) (by decide) r.2 (h c),
    W8_arg m ρ c main_arg8 (by decide) (by decide) (by decide) (by decide) (by decide) (by decide) (by decide) (by decide) (by decide) r.2 (h c),
    W8_arg m ρ c main_arg9 (by decide) (by decide) (by decide) (by decide) (by decide) (by decide) (by decide) (by decide) (by decide) r.2 (h c),
    W8_arg m ρ c main_arg10 (by decide) (by decide) (by decide) (by decide) (by decide) (by decide) (by decide) (by decide) (by decide) r.2 (h c),
    W8_arg m ρ c main_arg11 (by decide) (by decide) (by decide) (by decide) (by decide) (by decide) (by decide) (by decide) (by decide) r.2 (h c),
    W8_arg m ρ c main_arg12 (by decide) (by decide) (by decide) (by decide) (by decide) (by decide) (by decide) (by decide) (by decide) r.2 (h c),
    W8_arg m ρ c main_arg13 (by decide) (by decide) (by decide) (by decide) (by decide) (by decide) (by decide) (by decide) (by decide) r.2 (h c)⟩) (run_all m ρ)

end Cert.Kernel.Hand

end
-- ==== Proof.KBodyI.lean ====
/-
  The two kernel bodies of `KernelIdeal` as Hoare triples, and the proof data of their pipelines.

  Each body loads its whole input blocks, computes one value from them and stores it over the whole output block, so after
  the body the output's staging buffer holds that value of the input blocks (`res0`, `res1`) and the inputs' buffers are
  untouched. Stated at a PARAMETER `V`, the contents of the unscoped buffers when the region is entered: an input window's
  buffer holds, at every grid point, the block of its array cut out at that point's block index (`blk0`, `blk1`), whether
  it was fetched there or carried over from the point before.
-/
import proofs.«159750_j81578608820912_2_alg».proof.Proof.Gen.KernelIdeal.Launch
import proofs.«159750_j81578608820912_2_alg».proof.Proof.Gen.KernelIdeal.Skeleton
import proofs.«159750_j81578608820912_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The first region: the fused dense block on a tile of 8000 rows -/

/-- Window `w`'s block at grid point `t`, cut out of its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or carried over. -/
theorem before0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)
/-- Input window 1's staging buffer holds its block at every point, fetched there or carried over. -/
theorem before0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)
/-- Input window 2's staging buffer holds its block at every point, fetched there or carried over. -/
theorem before0_2_of {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)
/-- Input window 3's staging buffer holds its block at every point, fetched there or carried over. -/
theorem before0_3_of {c : Dev nD} (dat : Dat τ (Elt F) Unit ℕ (UR sig nD τ) ℕ cfg0 c) (hA : dat.A 3 = V c (Pipeline.arrRef spec0 3))
    (hafter : ∀ t, dat.after 3 t = blk0 V c 3 t) (t : Fin cfg0.N) (d) : dat.before 3 t d = blk0 V c 3 t :=
  (dat.before_in_eq_fetched 3 rfl (fun _ => rfl) (fun _ _ _ => rfl) (fun t => by rw [hafter]; unfold Dat.blockOf blk0; rw [hA]; try rfl) t d).trans
    (by unfold Dat.fetched Dat.blockOf blk0; rw [hA]; try rfl)

/-- The whole blocks the body reads and writes. -/
abbrev rA0 : Rect S8000x5 := Rect.unit (s := S8000x5) ![0, 0] S8000x5.size inb_S8000x5_S8000x5_0_0
abbrev rB0 : Rect S5x128 := Rect.unit (s := S5x128) ![0, 0] S5x128.size inb_S5x128_S5x128_0_0
abbrev rC0 : Rect S1x128 := Rect.unit (s := S1x128) ![0, 0] S1x128.size inb_S1x128_S1x128_0_0
abbrev rD0 : Rect S128x128 := Rect.unit (s := S128x128) ![0, 0] S128x128.size inb_S128x128_S128x128_0_0
abbrev rO0 : Rect S8000x128 := Rect.unit (s := S8000x128) ![0, 0] S8000x128.size inb_S8000x128_S8000x128_0_0

/-- The output buffer after the body, from the four input blocks: its one store, of the body's value of the loaded blocks. -/
def res0 (x0 : Vec F S8000x5 .f32) (x1 : Vec F S5x128 .f32) (x2 : Vec F S1x128 .f32) (x3 : Vec F S128x128 .f32) : Vec F S8000x128 .f32 :=
  View.canon [⟨rO0, k0_pay1 (View.ld x0 rA0) (View.ld x1 rB0) (View.ld x2 rC0) (View.ld x3 rD0)⟩]

/-- The one store covers the whole output block. -/
theorem res0_cover (p0 : Vec F S8000x128 .f32) (y : S8000x128.Idx) :
    ∃ pc ∈ ([⟨rO0, p0⟩] : List (View.Piece (Elt F) S8000x128 .f32)), y ∈ pc.1.set :=
  View.cover_of_tiled [⟨rO0, p0⟩] S8000x128.size (by rfl) y

set_option maxHeartbeats 4000000 in
/-- The body on whole staging buffers, the inputs' at contents `x0 … x3` and the output's at anything, runs to the continuation
    with the inputs' as they were and the output's at `res0` of the inputs'. -/
theorem body0_triple (c : Dev nD) (E : Set ℕ) (i : grid0.Coords) (arg1 : Memref sig .tc .vmem S8000x5 .f32) (harg1 : arg1.IsWhole) (arg2 : Memref sig .tc .vmem S5x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S8000x128 .f32) (harg5 : arg5.IsWhole)
    (x0 : Vec F S8000x5 .f32) (x1 : Vec F S5x128 .f32) (x2 : Vec F S1x128 .f32) (x3 : Vec F S128x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (res0 x0 x1 x2 x3)) -∗ K ⟨⟩))
      ⊢ wp frame (wpE (defs₀ (F := F)) Variants.none c none) E (cc0__fused_layer_kernel i arg1 harg1 arg2 harg2 arg3 harg3 arg4 harg4 arg5 harg5) K := by
  simp only [cc0__fused_layer_kernel_eq_skeleton]; unfold cc0__fused_layer_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (res0_cover _)

/-- The proof data of the first pipeline on core `c`: the arrays as the region finds them; after the body at point `t` each
    input's buffer at its block and the output's at `res0` of the input blocks; nothing owed, full shares. -/
def pd0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => res0 (blk0 V c 0 t) (blk0 V c 1 t) (blk0 V c 2 t) (blk0 V c 3 t)
  Φ _ := Pipeline.ΦA spec0 c
  q _ := fullShare
  owed _ := 0

theorem pd0_A (c : Dev nD) (w : Fin cfg0.W) : (pd0 V c).A w = V c (Pipeline.arrRef spec0 w) := by
  dsimp only [pd0]
theorem pd0_after_0 (c : Dev nD) (t : Fin cfg0.N) : (pd0 V c).after 0 t = blk0 V c 0 t := by dsimp only [pd0]
theorem pd0_after_1 (c : Dev nD) (t : Fin cfg0.N) : (pd0 V c).after 1 t = blk0 V c 1 t := by dsimp only [pd0]
theorem pd0_after_2 (c : Dev nD) (t : Fin cfg0.N) : (pd0 V c).after 2 t = blk0 V c 2 t := by dsimp only [pd0]
theorem pd0_after_3 (c : Dev nD) (t : Fin cfg0.N) : (pd0 V c).after 3 t = blk0 V c 3 t := by dsimp only [pd0]
theorem pd0_after_4 (c : Dev nD) (t : Fin cfg0.N) : (pd0 V c).after 4 t = res0 (blk0 V c 0 t) (blk0 V c 1 t) (blk0 V c 2 t) (blk0 V c 3 t) := by dsimp only [pd0]
theorem pd0_before_0 (c : Dev nD) (t : Fin cfg0.N) (d) : (pd0 V c).before 0 t d = blk0 V c 0 t :=
  before0_0_of V (pd0 V c) (pd0_A V c 0) (pd0_after_0 V c) t d
theorem pd0_before_1 (c : Dev nD) (t : Fin cfg0.N) (d) : (pd0 V c).before 1 t d = blk0 V c 1 t :=
  before0_1_of V (pd0 V c) (pd0_A V c 1) (pd0_after_1 V c) t d
theorem pd0_before_2 (c : Dev nD) (t : Fin cfg0.N) (d) : (pd0 V c).before 2 t d = blk0 V c 2 t :=
  before0_2_of V (pd0 V c) (pd0_A V c 2) (pd0_after_2 V c) t d
theorem pd0_before_3 (c : Dev nD) (t : Fin cfg0.N) (d) : (pd0 V c).before 3 t d = blk0 V c 3 t :=
  before0_3_of V (pd0 V c) (pd0_A V c 3) (pd0_after_3 V c) t d

/-- What the body is called with at point `t`, the windows one by one, -/
def pre0 (c : Dev nD) (t : Fin cfg0.N) : sProp 𝕄 :=
  iprop((pd0 V c).Φ t.castSucc ∗ (pd0 V c).owesAt () t.castSucc
    ∗ (∃ d, owns (c : Thread nD τ) (st0_0 t) fullShare ((pd0 V c).before 0 t d))
    ∗ (∃ d, owns (c : Thread nD τ) (st0_1 t) fullShare ((pd0 V c).before 1 t d))
    ∗ (∃ d, owns (c : Thread nD τ) (st0_2 t) fullShare ((pd0 V c).before 2 t d))
    ∗ (∃ d, owns (c : Thread nD τ) (st0_3 t) fullShare ((pd0 V c).before 3 t d))
    ∗ (∃ d, owns (c : Thread nD τ) (st0_4 t) fullShare ((pd0 V c).before 4 t d)))

/-- and what it returns. -/
def post0 (c : Dev nD) (t : Fin cfg0.N) : sProp 𝕄 :=
  iprop((pd0 V c).Φ t.succ ∗ (pd0 V c).owesAt () t.succ
    ∗ owns (c : Thread nD τ) (st0_0 t) fullShare ((pd0 V c).after 0 t)
    ∗ owns (c : Thread nD τ) (st0_1 t) fullShare ((pd0 V c).after 1 t)
    ∗ owns (c : Thread nD τ) (st0_2 t) fullShare ((pd0 V c).after 2 t)
    ∗ owns (c : Thread nD τ) (st0_3 t) fullShare ((pd0 V c).after 3 t)
    ∗ owns (c : Thread nD τ) (st0_4 t) fullShare ((pd0 V c).after 4 t))

/-- The body at any point: the inputs' buffers hold their blocks, so the triple applies; the rest passes through unread. -/
theorem body0_at (c : Dev nD) (t : Fin cfg0.N) :
    pre0 V c t ⊢ wp frame (wpE (defs₀ (F := F)) Variants.none c none) Set.univ (bodyAt0 t) (fun _ => post0 V c t) := by
  unfold pre0 post0 bodyAt0
  simp only [pd0_before_0, pd0_before_1, pd0_before_2, pd0_before_3]
  rw [show (pd0 V c).Φ t.succ = (pd0 V c).Φ t.castSucc from rfl,
    show (pd0 V c).owesAt () t.succ = (pd0 V c).owesAt () t.castSucc from rfl,
    pd0_after_0, pd0_after_1, pd0_after_2, pd0_after_3, pd0_after_4]
  iintro ⟨HΦ, Ho, ⟨%d0, H0⟩, ⟨%d1, H1⟩, ⟨%d2, H2⟩, ⟨%d3, H3⟩, ⟨%d4, H4⟩⟩
  iapply (body0_triple c Set.univ (grid0.coords t) _ _ _ _ _ _ _ _ _ _ (blk0 V c 0 t) (blk0 V c 1 t) (blk0 V c 2 t) (blk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body0_obl (c : Dev nD) : BodyObligation (pd0 (F := F) V c) (defs₀ (F := F)) Variants.none () Set.univ := fun t => by
  rw [bigSep_W0, bigSep_W0]
  exact body0_at V c t

/-! # The second region: the two-layer head on the 8 rows -/

/-- Window `w`'s block at grid point `t`, cut out of its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or carried over. -/
theorem before1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
/-- Input window 1's staging buffer holds its block at every point, fetched there or carried over. -/
theorem before1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)
/-- Input window 2's staging buffer holds its block at every point, fetched there or carried over. -/
theorem before1_2_of {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)
/-- Input window 3's staging buffer holds its block at every point, fetched there or carried over. -/
theorem before1_3_of {c : Dev nD} (dat : Dat τ (Elt F) Unit ℕ (UR sig nD τ) ℕ cfg1 c) (hA : dat.A 3 = V c (Pipeline.arrRef spec1 3))
    (hafter : ∀ t, dat.after 3 t = blk1 V c 3 t) (t : Fin cfg1.N) (d) : dat.before 3 t d = blk1 V c 3 t :=
  (dat.before_in_eq_fetched 3 rfl (fun _ => rfl) (fun _ _ _ => rfl) (fun t => by rw [hafter]; unfold Dat.blockOf blk1; rw [hA]; try rfl) t d).trans
    (by unfold Dat.fetched Dat.blockOf blk1; rw [hA]; try rfl)
/-- Input window 4's staging buffer holds its block at every point, fetched there or carried over. -/
theorem before1_4_of {c : Dev nD} (dat : Dat τ (Elt F) Unit ℕ (UR sig nD τ) ℕ cfg1 c) (hA : dat.A 4 = V c (Pipeline.arrRef spec1 4))
    (hafter : ∀ t, dat.after 4 t = blk1 V c 4 t) (t : Fin cfg1.N) (d) : dat.before 4 t d = blk1 V c 4 t :=
  (dat.before_in_eq_fetched 4 rfl (fun _ => rfl) (fun _ _ _ => rfl) (fun t => by rw [hafter]; unfold Dat.blockOf blk1; rw [hA]; try rfl) t d).trans
    (by unfold Dat.fetched Dat.blockOf blk1; rw [hA]; try rfl)

/-- The whole blocks the body reads and writes. -/
abbrev rA1 : Rect S8x651 := Rect.unit (s := S8x651) ![0, 0] S8x651.size inb_S8x651_S8x651_0_0
abbrev rB1 : Rect S651x256 := Rect.unit (s := S651x256) ![0, 0] S651x256.size inb_S651x256_S651x256_0_0
abbrev rC1 : Rect S1x256 := Rect.unit (s := S1x256) ![0, 0] S1x256.size inb_S1x256_S1x256_0_0
abbrev rD1 : Rect S256x256 := Rect.unit (s := S256x256) ![0, 0] S256x256.size inb_S256x256_S256x256_0_0
abbrev rO1 : Rect S8x256 := Rect.unit (s := S8x256) ![0, 0] S8x256.size inb_S8x256_S8x256_0_0

/-- The output buffer after the body, from the five input blocks: its one store, of the body's value of the loaded blocks. -/
def res1 (x0 : Vec F S8x651 .f32) (x1 : Vec F S651x256 .f32) (x2 : Vec F S1x256 .f32) (x3 : Vec F S256x256 .f32) (x4 : Vec F S1x256 .f32) : Vec F S8x256 .f32 :=
  View.canon [⟨rO1, k1_pay1 (View.ld x0 rA1) (View.ld x1 rB1) (View.ld x2 rC1) (View.ld x3 rD1) (View.ld x4 rC1)⟩]

/-- The one store covers the whole output block. -/
theorem res1_cover (p0 : Vec F S8x256 .f32) (y : S8x256.Idx) :
    ∃ pc ∈ ([⟨rO1, p0⟩] : List (View.Piece (Elt F) S8x256 .f32)), y ∈ pc.1.set :=
  View.cover_of_tiled [⟨rO1, p0⟩] S8x256.size (by rfl) y

set_option maxHeartbeats 4000000 in
/-- The body on whole staging buffers, the inputs' at contents `x0 … x4` and the output's at anything, runs to the continuation
    with the inputs' as they were and the output's at `res1` of the inputs'. -/
theorem body1_triple (c : Dev nD) (E : Set ℕ) (i : grid1.Coords) (arg1 : Memref sig .tc .vmem S8x651 .f32) (harg1 : arg1.IsWhole) (arg2 : Memref sig .tc .vmem S651x256 .f32) (harg2 : arg2.IsWhole) (arg3 : Memref sig .tc .vmem S1x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S8x256 .f32) (harg6 : arg6.IsWhole)
    (x0 : Vec F S8x651 .f32) (x1 : Vec F S651x256 .f32) (x2 : Vec F S1x256 .f32) (x3 : Vec F S256x256 .f32) (x4 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (res1 x0 x1 x2 x3 x4)) -∗ K ⟨⟩))
      ⊢ wp frame (wpE (defs₀ (F := F)) Variants.none c none) E (cc1__head_mlp_kernel i arg1 harg1 arg2 harg2 arg3 harg3 arg4 harg4 arg5 harg5 arg6 harg6) K := by
  simp only [cc1__head_mlp_kernel_eq_skeleton]; unfold cc1__head_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (res1_cover _)

/-- The proof data of the second pipeline on core `c`: the arrays as the region finds them; after the body each input's
    buffer at its block and the output's at `res1` of the input blocks; nothing owed, full shares. -/
def pd1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => res1 (blk1 V c 0 t) (blk1 V c 1 t) (blk1 V c 2 t) (blk1 V c 3 t) (blk1 V c 4 t)
  Φ _ := Pipeline.ΦA spec1 c
  q _ := fullShare
  owed _ := 0

theorem pd1_A (c : Dev nD) (w : Fin cfg1.W) : (pd1 V c).A w = V c (Pipeline.arrRef spec1 w) := by
  dsimp only [pd1]
theorem pd1_after_0 (c : Dev nD) (t : Fin cfg1.N) : (pd1 V c).after 0 t = blk1 V c 0 t := by dsimp only [pd1]
theorem pd1_after_1 (c : Dev nD) (t : Fin cfg1.N) : (pd1 V c).after 1 t = blk1 V c 1 t := by dsimp only [pd1]
theorem pd1_after_2 (c : Dev nD) (t : Fin cfg1.N) : (pd1 V c).after 2 t = blk1 V c 2 t := by dsimp only [pd1]
theorem pd1_after_3 (c : Dev nD) (t : Fin cfg1.N) : (pd1 V c).after 3 t = blk1 V c 3 t := by dsimp only [pd1]
theorem pd1_after_4 (c : Dev nD) (t : Fin cfg1.N) : (pd1 V c).after 4 t = blk1 V c 4 t := by dsimp only [pd1]
theorem pd1_after_5 (c : Dev nD) (t : Fin cfg1.N) : (pd1 V c).after 5 t = res1 (blk1 V c 0 t) (blk1 V c 1 t) (blk1 V c 2 t) (blk1 V c 3 t) (blk1 V c 4 t) := by dsimp only [pd1]
theorem pd1_before_0 (c : Dev nD) (t : Fin cfg1.N) (d) : (pd1 V c).before 0 t d = blk1 V c 0 t :=
  before1_0_of V (pd1 V c) (pd1_A V c 0) (pd1_after_0 V c) t d
theorem pd1_before_1 (c : Dev nD) (t : Fin cfg1.N) (d) : (pd1 V c).before 1 t d = blk1 V c 1 t :=
  before1_1_of V (pd1 V c) (pd1_A V c 1) (pd1_after_1 V c) t d
theorem pd1_before_2 (c : Dev nD) (t : Fin cfg1.N) (d) : (pd1 V c).before 2 t d = blk1 V c 2 t :=
  before1_2_of V (pd1 V c) (pd1_A V c 2) (pd1_after_2 V c) t d
theorem pd1_before_3 (c : Dev nD) (t : Fin cfg1.N) (d) : (pd1 V c).before 3 t d = blk1 V c 3 t :=
  before1_3_of V (pd1 V c) (pd1_A V c 3) (pd1_after_3 V c) t d
theorem pd1_before_4 (c : Dev nD) (t : Fin cfg1.N) (d) : (pd1 V c).before 4 t d = blk1 V c 4 t :=
  before1_4_of V (pd1 V c) (pd1_A V c 4) (pd1_after_4 V c) t d

/-- What the body is called with at point `t`, the windows one by one, -/
def pre1 (c : Dev nD) (t : Fin cfg1.N) : sProp 𝕄 :=
  iprop((pd1 V c).Φ t.castSucc ∗ (pd1 V c).owesAt () t.castSucc
    ∗ (∃ d, owns (c : Thread nD τ) (st1_0 t) fullShare ((pd1 V c).before 0 t d))
    ∗ (∃ d, owns (c : Thread nD τ) (st1_1 t) fullShare ((pd1 V c).before 1 t d))
    ∗ (∃ d, owns (c : Thread nD τ) (st1_2 t) fullShare ((pd1 V c).before 2 t d))
    ∗ (∃ d, owns (c : Thread nD τ) (st1_3 t) fullShare ((pd1 V c).before 3 t d))
    ∗ (∃ d, owns (c : Thread nD τ) (st1_4 t) fullShare ((pd1 V c).before 4 t d))
    ∗ (∃ d, owns (c : Thread nD τ) (st1_5 t) fullShare ((pd1 V c).before 5 t d)))

/-- and what it returns. -/
def post1 (c : Dev nD) (t : Fin cfg1.N) : sProp 𝕄 :=
  iprop((pd1 V c).Φ t.succ ∗ (pd1 V c).owesAt () t.succ
    ∗ owns (c : Thread nD τ) (st1_0 t) fullShare ((pd1 V c).after 0 t)
    ∗ owns (c : Thread nD τ) (st1_1 t) fullShare ((pd1 V c).after 1 t)
    ∗ owns (c : Thread nD τ) (st1_2 t) fullShare ((pd1 V c).after 2 t)
    ∗ owns (c : Thread nD τ) (st1_3 t) fullShare ((pd1 V c).after 3 t)
    ∗ owns (c : Thread nD τ) (st1_4 t) fullShare ((pd1 V c).after 4 t)
    ∗ owns (c : Thread nD τ) (st1_5 t) fullShare ((pd1 V c).after 5 t))

/-- The body at any point: the inputs' buffers hold their blocks, so the triple applies; the rest passes through unread. -/
theorem body1_at (c : Dev nD) (t : Fin cfg1.N) :
    pre1 V c t ⊢ wp frame (wpE (defs₀ (F := F)) Variants.none c none) Set.univ (bodyAt1 t) (fun _ => post1 V c t) := by
  unfold pre1 post1 bodyAt1
  simp only [pd1_before_0, pd1_before_1, pd1_before_2, pd1_before_3, pd1_before_4]
  rw [show (pd1 V c).Φ t.succ = (pd1 V c).Φ t.castSucc from rfl,
    show (pd1 V c).owesAt () t.succ = (pd1 V c).owesAt () t.castSucc from rfl,
    pd1_after_0, pd1_after_1, pd1_after_2, pd1_after_3, pd1_after_4, pd1_after_5]
  iintro ⟨HΦ, Ho, ⟨%d0, H0⟩, ⟨%d1, H1⟩, ⟨%d2, H2⟩, ⟨%d3, H3⟩, ⟨%d4, H4⟩, ⟨%d5, H5⟩⟩
  iapply (body1_triple c Set.univ (grid1.coords t) _ _ _ _ _ _ _ _ _ _ _ _ (blk1 V c 0 t) (blk1 V c 1 t) (blk1 V c 2 t) (blk1 V c 3 t) (blk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body1_obl (c : Dev nD) : BodyObligation (pd1 (F := F) V c) (defs₀ (F := F)) Variants.none () Set.univ := fun t => by
  rw [bigSep_W1, bigSep_W1]
  exact body1_at V c t

end Cert.KernelIdeal.Hand

end
-- ==== Proof.KRunI.lean ====
/-
  The run of `KernelIdeal`'s @main: six stretches of host operations and two kernel regions, in order.

  Between two items every unscoped buffer of a core is held whole at a known valuation: the launch memory, then the host
  operations folded over it stretch by stretch, and after a region the region's arrays at what its pipeline leaves (an
  input array as entered, the output array at its blocks' write-backs) with every other buffer as entered. Every weakly
  fair execution therefore terminates with all unscoped buffers at the last valuation `W8`. Read at an argument, no
  stretch and no region writes it, so it ends as launched (the frame); read at the result buffer, it is what the second
  pipeline leaves in its output array.
-/
import proofs.«159750_j81578608820912_2_alg».proof.Proof.KBodyI
import proofs.«159750_j81578608820912_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
/-- After the first, second and third stretch (the third is the first region's entry). -/
abbrev W1 : Dev nD → Valuation τ sig (Elt F) := fun c => StableHlo.after hostOps0 (W0 m ρ c)
abbrev W2 : Dev nD → Valuation τ sig (Elt F) := fun c => StableHlo.after hostOps0_1 (W1 m ρ c)
abbrev W3 : Dev nD → Valuation τ sig (Elt F) := fun c => StableHlo.after hostOps0_2 (W2 m ρ c)
/-- The same read at the core's references: what the first region's proof data take. -/
abbrev E3 : (c : Dev nD) → (b : Ref sig .tc) → Buf (Elt F) ((c : Thread nD τ).loc b) := fun c b => W3 m ρ c b
/-- At the first region's exit: its arrays at what the pipeline leaves, every other buffer as entered. -/
def W4 (c : Dev nD) : Valuation τ sig (Elt F) :=
  Pipeline.withArrays spec0 c (W3 m ρ c) fun w => (pd0 (E3 m ρ) c).arrAt w cfg0.N
theorem W4_arr (c : Dev nD) (w : Fin cfg0.W) :
    W4 m ρ c (Proc.devRef .tc (Pipeline.arrRef spec0 w)) = (pd0 (E3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev E4 : (c : Dev nD) → (b : Ref sig .tc) → Buf (Elt F) ((c : Thread nD τ).loc b) := fun c b => W4 m ρ c b
theorem exit0_arr (c : Dev nD) (w : Fin cfg0.W) : (pd0 (E3 m ρ) c).arrAt w cfg0.N = E4 m ρ c (Pipeline.arrRef spec0 w) :=
  (W4_arr m ρ c w).symm
theorem exit0_rest (c : Dev nD) : ∀ b, b ∉ Finset.univ.image (Pipeline.arrRef spec0) → E4 m ρ c b = E3 m ρ c b :=
  fun b hb => W4_of_ne m ρ c b fun w e => hb (Finset.mem_image.mpr ⟨w, Finset.mem_univ _, e⟩)

/-- After the fourth, fifth and sixth stretch (the sixth is the second region's entry). -/
abbrev W5 : Dev nD → Valuation τ sig (Elt F) := fun c => StableHlo.after hostOps1 (W4 m ρ c)
abbrev W6 : Dev nD → Valuation τ sig (Elt F) := fun c => StableHlo.after hostOps1_1 (W5 m ρ c)
abbrev W7 : Dev nD → Valuation τ sig (Elt F) := fun c => StableHlo.after hostOps1_2 (W6 m ρ c)
abbrev E7 : (c : Dev nD) → (b : Ref sig .tc) → Buf (Elt F) ((c : Thread nD τ).loc b) := fun c b => W7 m ρ c b
/-- At the second region's exit. -/
def W8 (c : Dev nD) : Valuation τ sig (Elt F) :=
  Pipeline.withArrays spec1 c (W7 m ρ c) fun w => (pd1 (E7 m ρ) c).arrAt w cfg1.N
theorem W8_arr (c : Dev nD) (w : Fin cfg1.W) :
    W8 m ρ c (Proc.devRef .tc (Pipeline.arrRef spec1 w)) = (pd1 (E7 m ρ) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m ρ c (Proc.devRef .tc b) = W7 m ρ c (Proc.devRef .tc b) := by
  unfold W8; exact Pipeline.withArrays_of_ne spec1 c _ _ b hb
abbrev E8 : (c : Dev nD) → (b : Ref sig .tc) → Buf (Elt F) ((c : Thread nD τ).loc b) := fun c b => W8 m ρ c b
theorem exit1_arr (c : Dev nD) (w : Fin cfg1.W) : (pd1 (E7 m ρ) c).arrAt w cfg1.N = E8 m ρ c (Pipeline.arrRef spec1 w) :=
  (W8_arr m ρ c w).symm
theorem exit1_rest (c : Dev nD) : ∀ b, b ∉ Finset.univ.image (Pipeline.arrRef spec1) → E8 m ρ c b = E7 m ρ c b :=
  fun b hb => W8_of_ne m ρ c b fun w e => hb (Finset.mem_image.mpr ⟨w, Finset.mem_univ _, e⟩)

/-- A buffer that no stretch writes and that is no array of either region ends as launched. -/
theorem W8_untouched (c : Dev nD) (r : Ref sig .tc)
    (h0 : r ∉ hostOps0_W) (h1 : r ∉ hostOps0_1_W) (h2 : r ∉ hostOps0_2_W) (h3 : ∀ w, Pipeline.arrRef spec0 w ≠ r)
    (h4 : r ∉ hostOps1_W) (h5 : r ∉ hostOps1_1_W) (h6 : r ∉ hostOps1_2_W) (h7 : ∀ w, Pipeline.arrRef spec1 w ≠ r) :
    W8 m ρ c (Proc.devRef .tc r) = m ((c : Thread nD τ).loc r) :=
  calc W8 m ρ c (Proc.devRef .tc r)
    _ = W7 m ρ c (Proc.devRef .tc r) := W8_of_ne m ρ c r h7
    _ = W6 m ρ c (Proc.devRef .tc r) := StableHlo.after_of_writes_sub hostOps1_2 _ hostOps1_2_writes h6
    _ = W5 m ρ c (Proc.devRef .tc r) := StableHlo.after_of_writes_sub hostOps1_1 _ hostOps1_1_writes h5
    _ = W4 m ρ c (Proc.devRef .tc r) := StableHlo.after_of_writes_sub hostOps1 _ hostOps1_writes h4
    _ = W3 m ρ c (Proc.devRef .tc r) := W4_of_ne m ρ c r h3
    _ = W2 m ρ c (Proc.devRef .tc r) := StableHlo.after_of_writes_sub hostOps0_2 _ hostOps0_2_writes h2
    _ = W1 m ρ c (Proc.devRef .tc r) := StableHlo.after_of_writes_sub hostOps0_1 _ hostOps0_1_writes h1
    _ = W0 m ρ c (Proc.devRef .tc r) := StableHlo.after_of_writes_sub hostOps0 _ hostOps0_writes h0
    _ = m ((c : Thread nD τ).loc r) := rfl

/-! ## The proof data family and the thread state -/

abbrev noTables : (p : Fin 2) → (pcfgs (F := F) p).Adm := fun p => (cfgs p).toPCfg_adm
/-- Each pipeline's proof data at its region's entry contents. -/
def pds : (p : Fin 2) → (c : Dev nD) → Dat τ (Elt F) Unit ℕ (UR sig nD τ) ℕ (Pipeline.pin (pcfgs (F := F)) noTables p) c
  | ⟨0, _⟩ => fun c => pd0 (E3 m ρ) c
  | ⟨1, _⟩ => fun c => pd1 (E7 m ρ) c
abbrev vnone : Variants := Variants.none
abbrev noLv : GSem nD τ sig → Finset Unit := fun _ => ∅
abbrev lv0 : GSem nD τ sig → Unit → ℕ := fun _ _ => 0
/-- What rides beside the buffers through every item: the generator register at some state, and nothing owed. -/
abbrev rest (c : Dev nD) : sProp 𝕄 := iprop((∃ r, prngReg c r) ∗ ∃ W, owes (c : Thread nD τ) (0 : CellTallies nD τ sig Unit) W)
/-- A stretch of host operations as an item, from the contents `W`. -/
abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ vnone noLv lv0 :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W rest

theorem uc_mem (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state: every unscoped buffer at `W8`, the generator register at some state. -/
abbrev lastState (c : Dev nD) : sProp 𝕄 := iprop(StableHlo.held (c : Thread nD τ) (Pipeline.ucRefs τ sig) (W8 m ρ c) ∗ ∃ r, prngReg c r)

/-! ## The regions as items -/

set_option backward.isDefEq.respectTransparency.types false in
/-- The first region: entered with every unscoped buffer at `W3`, left with them at `W4`. -/
def region0 : Pipeline.RegionSeg (pcfgs (F := F)) noTables (pds m ρ) () defs₀ vnone noLv lv0 0 where
  win := launch0.win.to₀
  block_pos := launch0.block_pos
  stage_whole := launch0.stage_whole
  K := PEmpty
  osem k := k.elim
  ho := Pipeline.OwnSemFacts.none _
  hbody c := (body0_obl (E3 m ρ) c).loose
  hwaits := Pipeline.hwaits_of_owed_zero _ _ _ _ noLv lv0 0 fun _ _ => rfl
  pre c := iprop(StableHlo.held (c : Thread nD τ) (Pipeline.ucRefs τ sig) (W3 m ρ c) ∗ rest c)
  post c := iprop(StableHlo.held (c : Thread nD τ) (Pipeline.ucRefs τ sig) (W4 m ρ c) ∗ rest c)
  X c := iprop(∃ r, prngReg c r)
  Y c := iprop(∃ r, prngReg c r)
  Z c := Pipeline.unscopedRest (Ix := Unit) (Name := ℕ) (U := UR sig nD τ) (Lvl := ℕ) spec0 c (E3 m ρ c)
  hentry c := by
    rw [Pipeline.ownSems0_none]
    have hsplit := Pipeline.arrays_of_unscopedBufs (p := 0) (pcfgs (F := F)) noTables (pds m ρ) launch0.win launch0.arr_whole c
      ((pds m ρ 0 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pds m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pds m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) noTables (Ix := Unit) (Name := ℕ) (U := UR sig nD τ) (Lvl := ℕ)
      launch0.win launch0.arr_whole c (pds m ρ) ((pds m ρ 0 c).share_full fun _ => rfl)
      (E3 m ρ c) (E4 m ρ c) ((pds m ρ 0 c).arrAt · cfg0.N) (exit0_arr m ρ c) (exit0_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered with every unscoped buffer at `W7`, left with them at `W8`. -/
def region1 : Pipeline.RegionSeg (pcfgs (F := F)) noTables (pds m ρ) () defs₀ vnone noLv lv0 1 where
  win := launch1.win.to₀
  block_pos := launch1.block_pos
  stage_whole := launch1.stage_whole
  K := PEmpty
  osem k := k.elim
  ho := Pipeline.OwnSemFacts.none _
  hbody c := (body1_obl (E7 m ρ) c).loose
  hwaits := Pipeline.hwaits_of_owed_zero _ _ _ _ noLv lv0 1 fun _ _ => rfl
  pre c := iprop(StableHlo.held (c : Thread nD τ) (Pipeline.ucRefs τ sig) (W7 m ρ c) ∗ rest c)
  post c := iprop(lastState m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E7 m ρ c)
  hentry c := by
    rw [Pipeline.ownSems0_none]
    have hsplit := Pipeline.arrays_of_unscopedBufs (p := 1) (pcfgs (F := F)) noTables (pds m ρ) launch1.win launch1.arr_whole c
      ((pds m ρ 1 c).share_full fun _ => rfl) (E7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pds m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pds m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) noTables (Ix := Unit) (Name := ℕ) (U := UR sig nD τ) (Lvl := ℕ)
      launch1.win launch1.arr_whole c (pds m ρ) ((pds m ρ 1 c).share_full fun _ => rfl)
      (E7 m ρ c) (E8 m ρ c) ((pds m ρ 1 c).arrAt · cfg1.N) (exit1_arr m ρ c) (exit1_rest m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as items, and the launch -/

/-- @main's eight items in order. -/
abbrev items : List (Pipeline.Seg (pcfgs (F := F)) noTables (pds m ρ) () defs₀ vnone noLv lv0) :=
  [ .host (stretch hostOps0 hostOps0_sub hostOps0_fresh (W0 m ρ)),
    .host (stretch hostOps0_1 hostOps0_1_sub hostOps0_1_fresh (W1 m ρ)),
    .host (stretch hostOps0_2 hostOps0_2_sub hostOps0_2_fresh (W2 m ρ)),
    .region (region0 m ρ),
    .host (stretch hostOps1 hostOps1_sub hostOps1_fresh (W4 m ρ)),
    .host (stretch hostOps1_1 hostOps1_1_sub hostOps1_1_fresh (W5 m ρ)),
    .host (stretch hostOps1_2 hostOps1_2_sub hostOps1_2_fresh (W6 m ρ)),
    .region (region1 m ρ) ]

set_option backward.isDefEq.respectTransparency.types false in
/-- Every weakly fair execution of @main from memory `m` with zero counters terminates, nothing faulting, with every
    unscoped buffer of every core at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) noTables (pds m ρ) () cellOf_inj emb₁ defs₀ vnone noLv lv0 m ρ main (items m ρ)
    (fun c Q => by
      rewrite [main_chain c, Pipeline.Seg.run_eq_chain,
        show (items m ρ).map Pipeline.Seg.prog = [
          StableHlo.seq hostOps0,
          StableHlo.seq hostOps0_1,
          StableHlo.seq hostOps0_2,
          Prog.lift (.customCall (Pipeline.entry 0) ()),
          StableHlo.seq hostOps1,
          StableHlo.seq hostOps1_1,
          StableHlo.seq hostOps1_2,
          Prog.lift (.customCall (Pipeline.entry 1) ()) ] from rfl]
      exact .rfl)
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ rest c)) (Tₙ := lastState m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach noLv lv0 fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c => h c)

/-- An argument ends as launched. -/
theorem W8_arg (c : Dev nD) (r : Ref sig .tc)
    (h0 : r ∉ hostOps0_W) (h1 : r ∉ hostOps0_1_W) (h2 : r ∉ hostOps0_2_W) (h3 : ∀ w, Pipeline.arrRef spec0 w ≠ r)
    (h4 : r ∉ hostOps1_W) (h5 : r ∉ hostOps1_1_W) (h6 : r ∉ hostOps1_2_W) (h7 : ∀ w, Pipeline.arrRef spec1 w ≠ r)
    (hu : ¬ (Proc.devRef .tc r : DevRef τ sig).isScoped) (s : MemSt nD τ sig (Elt F))
    (h : ∀ b ∈ Pipeline.ucRefs τ sig, s.mem (((c : Thread nD τ)).1, b) = W8 m ρ c b) :
    s.mem ((c.tc : Thread nD τ).loc r) = m ((c.tc : Thread nD τ).loc r) :=
  (h _ (uc_mem r hu)).trans (W8_untouched m ρ c r h0 h1 h2 h3 h4 h5 h6 h7)

/-- THE FRAME: every weakly fair execution terminates, nothing faulting, with the fourteen argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨
    W8_arg m ρ c main_arg0 (by decide) (by decide) (by decide) (by decide) (by decide) (by decide) (by decide) (by decide) (by decide) r.2 (h c),
    W8_arg m ρ c main_arg1 (by decide) (by decide) (by decide) (by decide) (by decide) (by decide) (by decide) (by decide) (by decide) r.2 (h c),
    W8_arg m ρ c main_arg2 (by decide) (by decide) (by decide) (by decide) (by decide) (by decide) (by decide) (by decide) (by decide) r.2 (h c),
    W8_arg m ρ c main_arg3 (by decide) (by decide) (by decide) (by decide) (by decide) (by decide) (by decide) (by decide) (by decide) r.2 (h c),
    W8_arg m ρ c main_arg4 (by decide) (by decide) (by decide) (by decide) (by decide) (by decide) (by decide) (by decide) (by decide) r.2 (h c),
    W8_arg m ρ c main_arg5 (by decide) (by decide) (by decide) (by decide) (by decide) (by decide) (by decide) (by decide) (by decide) r.2 (h c),
    W8_arg m ρ c main_arg6 (by decide) (by decide) (by decide) (by decide) (by decide) (by decide) (by decide) (by decide) (by decide) r.2 (h c),
    W8_arg m ρ c main_arg7 (by decide) (by decide) (by decide) (by decide) (by decide) (by decide) (by decide) (by decide) (by decide) r.2 (h c),
    W8_arg m ρ c main_arg8 (by decide) (by decide) (by decide) (by decide) (by decide) (by decide) (by decide) (by decide) (by decide) r.2 (h c),
    W8_arg m ρ c main_arg9 (by decide) (by decide) (by decide) (by decide) (by decide) (by decide) (by decide) (by decide) (by decide) r.2 (h c),
    W8_arg m ρ c main_arg10 (by decide) (by decide) (by decide) (by decide) (by decide) (by decide) (by decide) (by decide) (by decide) r.2 (h c),
    W8_arg m ρ c main_arg11 (by decide) (by decide) (by decide) (by decide) (by decide) (by decide) (by decide) (by decide) (by decide) r.2 (h c),
    W8_arg m ρ c main_arg12 (by decide) (by decide) (by decide) (by decide) (by decide) (by decide) (by decide) (by decide) (by decide) r.2 (h c),
    W8_arg m ρ c main_arg13 (by decide) (by decide) (by decide) (by decide) (by decide) (by decide) (by decide) (by decide) (by decide) r.2 (h c)⟩) (run_all m ρ)

/-- THE RESULT: the same executions end with the result buffer at what the second pipeline leaves in its output array,
    and the arguments as launched. -/
theorem run_value : θ_run defs (onTc (τ := τ) (main (F := F))) ⟨m, fun _ => 0, ρ⟩ (fun r => ∀ c : Dev nD,
      r.2.mem ((c.tc : Thread nD τ).loc main_v83) = (pd1 (E7 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨(h c _ (uc_mem main_v83 (by decide))).trans (W8_arr m ρ c 5),
    W8_arg m ρ c main_arg0 (by decide) (by decide) (by decide) (by decide) (by decide) (by decide) (by decide) (by decide) (by decide) r.2 (h c),
    W8_arg m ρ c main_arg1 (by decide) (by decide) (by decide) (by decide) (by decide) (by decide) (by decide) (by decide) (by decide) r.2 (h c),
    W8_arg m ρ c main_arg2 (by decide) (by decide) (by decide) (by decide) (by decide) (by decide) (by decide) (by decide) (by decide) r.2 (h c),
    W8_arg m ρ c main_arg3 (by decide) (by decide) (by decide) (by decide) (by decide) (by decide) (by decide) (by decide) (by decide) r.2 (h c),
    W8_arg m ρ c main_arg4 (by decide) (by decide) (by decide) (by decide) (by decide) (by decide) (by decide) (by decide) (by decide) r.2 (h c),
    W8_arg m ρ c main_arg5 (by decide) (by decide) (by decide) (by decide) (by decide) (by decide) (by decide) (by decide) (by decide) r.2 (h c),
    W8_arg m ρ c main_arg6 (by decide) (by decide) (by decide) (by decide) (by decide) (by decide) (by decide) (by decide) (by decide) r.2 (h c),
    W8_arg m ρ c main_arg7 (by decide) (by decide) (by decide) (by decide) (by decide) (by decide) (by decide) (by decide) (by decide) r.2 (h c),
    W8_arg m ρ c main_arg8 (by decide) (by decide) (by decide) (by decide) (by decide) (by decide) (by decide) (by decide) (by decide) r.2 (h c),
    W8_arg m ρ c main_arg9 (by decide) (by decide) (by decide) (by decide) (by decide) (by decide) (by decide) (by decide) (by decide) r.2 (h c),
    W8_arg m ρ c main_arg10 (by decide) (by decide) (by decide) (by decide) (by decide) (by decide) (by decide) (by decide) (by decide) r.2 (h c),
    W8_arg m ρ c main_arg11 (by decide) (by decide) (by decide) (by decide) (by decide) (by decide) (by decide) (by decide) (by decide) r.2 (h c),
    W8_arg m ρ c main_arg12 (by decide) (by decide) (by decide) (by decide) (by decide) (by decide) (by decide) (by decide) (by decide) r.2 (h c),
    W8_arg m ρ c main_arg13 (by decide) (by decide) (by decide) (by decide) (by decide) (by decide) (by decide) (by decide) (by decide) r.2 (h c)⟩) (run_all m ρ)

end Cert.KernelIdeal.Hand

end
-- ==== Proof.Spec.lean ====
/-
  The mathematics of the two programs, index by index, over the extended reals.

  A batch of 8 graphs of 10000 nodes is one graph on 80000 nodes; its 1280000 edges and 80000 self loops are one list
  of 1360000 edges. An edge `e` is read three ways: `src e` is the row the gathers read through the source index
  (a negative index wrapped, then clamped into range), `dst e` the row a gather reads through the destination index
  (the same wrapping and clamping), and `land e` the node the segment sum adds edge `e`'s message to — the raw
  destination index when it is in range, nothing otherwise (an out-of-range update is dropped). An edge that lands on
  `n` has `dst e = n`: in range the wrapping and the clamping change nothing.

  `deg n` counts the edges landing on `n`; `dinv n` is `deg n ^ (-1/2)` where the degree is positive and `0` elsewhere.
  One graph-convolution layer sends features `h` to `∑_{e lands on n} h(src e) · dinv(src e) · dinv(n)` (times the
  weights, plus the bias). The REFERENCE multiplies by the weights first and scales every message by
  `dinv(src e) · dinv(dst e)`; the KERNEL scales the features by `dinv` before the gather and the sums by `dinv` after,
  and in the first layer sums the 5 raw features and multiplies by the weights afterwards. Both then read the second
  layer at the 8 × 5 positions `pos p q`.
-/
import Idealize.ShloMosaic.PureOps.Ideal
import Idealize.ShloMosaic.PureOps.Ideal.Laws
import Idealize.ShloMosaic.Lib.ValueIdx

noncomputable section

namespace Cert.Gcn

open Idealize.ShloMosaic
open scoped BigOperators

/-- The nodes of the batched graph. -/
abbrev Nn : ℕ := 80000
/-- Its edges, the self loops last. -/
abbrev Ne : ℕ := 1360000

/-- How the programs read the edge list. -/
structure Graph where
  /-- the row a gather reads through edge `e`'s source index -/
  src : Fin Ne → Fin Nn
  /-- the row a gather reads through edge `e`'s destination index -/
  dst : Fin Ne → Fin Nn
  /-- the node the segment sum adds edge `e`'s message to, if any -/
  land : Fin Ne → Option (Fin Nn)
  /-- an edge that lands on `n` is read, through its destination index, at row `n` -/
  land_dst : ∀ e n, land e = some n → dst e = n

variable (g : Graph)

/-- The segment sum: the messages of the edges that land on `n`, added up. -/
def seg (u : Fin Ne → EReal) (n : Fin Nn) : EReal :=
  ∑ e ∈ Finset.univ.filter (fun e => g.land e = some n), u e

/-- The degree of node `n`: the number of edges landing on it. -/
def deg (n : Fin Nn) : EReal := seg g (fun _ => 1) n

/-- `deg ^ (-1/2)` where the degree is positive, `0` elsewhere (`jnp.where(deg > 0, rsqrt(deg), 0)`). -/
def dinv (n : Fin Nn) : EReal :=
  Scalar.select (Ideal.cmp .ogt (deg g n) 0) (Ideal.rsqrt (deg g n)) 0

/-- `max y 0`. -/
def relu (y : EReal) : EReal := max y 0

section Layers

variable (x : Fin Nn → Fin 5 → EReal) (W1 : Fin 128 → Fin 5 → EReal) (b1 : Fin 128 → EReal)
  (W2 : Fin 128 → Fin 128 → EReal) (b2 : Fin 128 → EReal) (pos : Fin 8 → Fin 5 → Fin Nn)

/-! ### The kernel's arrangement -/

/-- The 5 raw features aggregated: scaled by `dinv` at the source, summed over the landing edges, scaled at the node. -/
def aggK (n : Fin Nn) (k : Fin 5) : EReal :=
  dinv g n * seg g (fun e => x (g.src e) k * dinv g (g.src e)) n

/-- The fused dense block on a row `a` of 5 aggregated features: `relu(a · W1ᵀ + b1) · W2ᵀ`. -/
def fused (a : Fin 5 → EReal) (j : Fin 128) : EReal :=
  ∑ k' : Fin 128, relu ((∑ k : Fin 5, a k * W1 k' k) + b1 k') * W2 j k'

/-- The second layer's 128 features before aggregation, at node `n`. -/
def h2K (n : Fin Nn) (j : Fin 128) : EReal := fused W1 b1 W2 (aggK g x n) j

/-- The second aggregation of any 128 features `h`: scaled at the source, summed, scaled at the node. -/
def agg2 (h : Fin Nn → Fin 128 → EReal) (n : Fin Nn) (j : Fin 128) : EReal :=
  dinv g n * seg g (fun e => h (g.src e) j * dinv g (g.src e)) n

/-- What the kernel hands its head at position `(p, q)`: the second layer there, bias and relu applied after the gather. -/
def PK (p : Fin 8) (q : Fin 5) (j : Fin 128) : EReal :=
  relu (agg2 g (h2K g x W1 b1 W2) (pos p q) j + b2 j)

/-! ### The reference's arrangement -/

/-- An edge's weight: `dinv` at its source row times `dinv` at its destination row. -/
def norm (e : Fin Ne) : EReal := dinv g (g.src e) * dinv g (g.dst e)

/-- One reference layer on features `h` already multiplied by the weights: scaled messages summed, plus the bias. -/
def layerR (h : Fin Nn → Fin 128 → EReal) (b : Fin 128 → EReal) (n : Fin Nn) (j : Fin 128) : EReal :=
  seg g (fun e => h (g.src e) j * norm g e) n + b j

/-- The first layer's features times the weights. -/
def h1R (n : Fin Nn) (j : Fin 128) : EReal := ∑ k : Fin 5, x n k * W1 j k

/-- The first layer's output after relu. -/
def x1R (n : Fin Nn) (j : Fin 128) : EReal := relu (layerR g (h1R x W1) b1 n j)

/-- The second layer's features times the weights. -/
def h2R (n : Fin Nn) (j : Fin 128) : EReal := ∑ k : Fin 128, x1R g x W1 b1 n k * W2 j k

/-- What the reference hands its head at position `(p, q)`: the second layer's output after relu, gathered there. -/
def PR (p : Fin 8) (q : Fin 5) (j : Fin 128) : EReal :=
  relu (layerR g (h2R g x W1 b1 W2) b2 (pos p q) j)

end Layers

/-! ### The head, the same on both sides -/

/-- The two-layer head on a row `c` of 651 features: `relu(c · Wp1ᵀ + bp1) · Wp2ᵀ + bp2`. -/
def head (Wp1 : Fin 256 → Fin 651 → EReal) (bp1 : Fin 256 → EReal) (Wp2 : Fin 256 → Fin 256 → EReal)
    (bp2 : Fin 256 → EReal) (c : Fin 651 → EReal) (q : Fin 256) : EReal :=
  (∑ k : Fin 256, relu ((∑ i : Fin 651, c i * Wp1 k i) + bp1 k) * Wp2 q k) + bp2 q

end Cert.Gcn

end
-- ==== Proof.LibDenseLayer.lean ====
/-
  Dense layers over the extended reals, read one output element at a time.

  A dense layer sends a row `h` (length `K`) to the row whose entry `n` is `∑ k, h k * W k n + b n`; a hidden layer
  then rectifies and masks it: entry `n` becomes `max y 0 * m n`.  This file states those row functions and proves, for
  any extents `R`, `K`, `N`, that the vector-level operations computing a layer on an `[R, K]` block —
  a matrix product into a zero accumulator (or a host dot product) over the plain `[R,K] × [K,N]` dimension numbers,
  a bias row broadcast over the rows, and either `select (y > 0) (y * m) 0` or `max y 0 * m` — read at entry `(p, q)`
  are the row function of row `p` of the operands, at `q`.  The two rectifier spellings agree on every extended real:
  for `y ≤ 0` both are `0` because `0 * m = 0` whatever `m` is.
-/
import Idealize.ShloMosaic.PureOps.Ideal.Laws
import Idealize.ShloMosaic.Lib.ValueIdx
import Idealize.ShloMosaic.Lib.ValueLayout
import Idealize.ShloMosaic.Lib.Pipeline.Value

noncomputable section

open Idealize.ShloMosaic Idealize.ShloMosaic.ValueIdx

namespace Cert.DenseLayer

/-! ## The row functions -/

/-- Entry `n` of a dense layer's output row: the input row against column `n` of the weights, plus the bias. -/
def dense {K N : ℕ} (h : Fin K → EReal) (W : Fin K → Fin N → EReal) (b : Fin N → EReal) : Fin N → EReal :=
  fun n => (∑ k : Fin K, h k * W k n) + b n

/-- Rectify, then scale by the mask entry. -/
def act (y m : EReal) : EReal := max y 0 * m

/-- A hidden layer's output row: dense, rectified, masked. -/
def layer {K N : ℕ} (h : Fin K → EReal) (W : Fin K → Fin N → EReal) (b : Fin N → EReal) (m : Fin N → EReal) :
    Fin N → EReal :=
  fun n => act (dense h W b n) (m n)

/-- Choosing `y * m` where `y > 0` and `0` elsewhere is `max y 0 * m`: where `y ≤ 0` the product `0 * m` is `0`. -/
theorem select_gt_eq_act (y m : EReal) : Scalar.select (Ideal.cmp .ogt y 0) (y * m) 0 = act y m := by
  unfold act Scalar.select Ideal.cmp
  by_cases h : (0 : EReal) < y
  · simp [h, max_eq_left h.le]
  · simp [h, max_eq_right (not_lt.mp h)]

/-! ## The plain matrix product read at an entry -/

/-- Over the plain dimension numbers the contraction index is the one coordinate `k`, the left operand is read at
    `(p, k)` and the right at `(k, q)`. -/
theorem plain_sum {M K N : ℕ} (a : (⟨2, ![M, K]⟩ : Shape).Idx → EReal) (b : (⟨2, ![K, N]⟩ : Shape).Idx → EReal)
    (p : Fin M) (q : Fin N) :
    ∑ k : (DotDims.plain M K N).contr.Idx,
        a ((DotDims.plain M K N).lhsIdx (ix2 p q) k) * b ((DotDims.plain M K N).rhsIdx (ix2 p q) k)
      = ∑ k : Fin K, a (ix2 p k) * b (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => rfl
      | ⟨1, _⟩ => exact hk)
  have er : (DotDims.plain M K N).rhsIdx (ix2 p q) ((contrEquiv1 (DotDims.plain M K N) K rfl rfl).symm k) = ix2 k q :=
    funext fun a => Fin.ext (by
      match a with
      | ⟨0, _⟩ => exact hk
      | ⟨1, _⟩ => rfl)
  rw [el, er]

/-- A matrix product into the zero accumulator, over dimension numbers that are the plain ones, at entry `(p, q)`. -/
theorem matmul_plain_apply {R K N : ℕ} {φ₁ φ₂ : FTy} (d : DotDims ⟨2, ![R, K]⟩ ⟨2, ![K, N]⟩ ⟨2, ![R, N]⟩)
    (hd : d = DotDims.plain R K N) (prec : Option ContractPrecision)
    (a : FVec Ideal ⟨2, ![R, K]⟩ φ₁) (b : FVec Ideal ⟨2, ![K, N]⟩ φ₂) (p : Fin R) (q : Fin N) :
    matmul d prec a b (constant ⟨2, ![R, N]⟩ .f32 0x00000000#32) (ix2 p q) = ∑ k : Fin K, a (ix2 p k) * b (ix2 k q) := by
  subst hd
  show FloatOps.matmul _ prec a b (constant ⟨2, ![R, N]⟩ .f32 0x00000000#32) (ix2 p q) = _
  rw [Ideal.matmul_constant_zero_apply]
  exact plain_sum a b p q

/-- The host's dot product over the plain dimension numbers, at entry `(p, q)`. -/
theorem dotGeneral_plain_apply {R K N : ℕ} {φ₁ φ₂ : FTy} (d : DotDims ⟨2, ![R, K]⟩ ⟨2, ![K, N]⟩ ⟨2, ![R, N]⟩)
    (hd : d = DotDims.plain R K N) (prec : Option ContractPrecision)
    (a : FVec Ideal ⟨2, ![R, K]⟩ φ₁) (b : FVec Ideal ⟨2, ![K, N]⟩ φ₂) (p : Fin R) (q : Fin N) :
    Host.dotGeneral d prec a b (ix2 p q) = ∑ k : Fin K, a (ix2 p k) * b (ix2 k q) := by
  subst hd
  simp only [Host.dotGeneral]
  rw [Ideal.dotGeneral_apply]
  exact plain_sum a b p q

/-! ## The bias row -/

/-- A bias vector cast to one row and broadcast over `R` rows reads `b q` at `(p, q)`. -/
theorem bias_rows_apply {α : Type} {R N : ℕ} (b : (⟨1, ![N]⟩ : Shape).Idx → α)
    (sc : (⟨1, ![N]⟩ : Shape).ShapeCasts ⟨2, ![1, N]⟩) (bc : (⟨2, ![1, N]⟩ : Shape).Broadcasts ⟨2, ![R, N]⟩)
    (p : Fin R) (q : Fin N) :
    broadcastTo ⟨2, ![R, N]⟩ (shapeCast ⟨2, ![1, N]⟩ b sc) bc (ix2 p q) = b (ix1 q) :=
  (broadcastTo_1b_ab_apply _ bc p q).trans (shapeCast_a_1a_apply b sc 0 q)

/-- The host's spelling: the vector placed on axis 1 of a one-row array, that row placed on both axes of the
    `[R, N]` array. -/
theorem bias_rows_host_apply {α : Type} {R N : ℕ} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![R, N]⟩ ![0, 1]) (p : Fin R) (q : Fin N) :
    broadcastInDim ⟨2, ![R, N]⟩ ![0, 1] h2 (broadcastInDim ⟨2, ![1, N]⟩ ![1] h1 b) (ix2 p q) = b (ix1 q) := by
  have hq : q.val = if N = 1 then 0 else q.val := by
    split
    · have := q.isLt; omega
    · rfl
  refine (broadcastInDim_apply _ h2 _ (ix2 p q) (ix2 (0 : Fin 1) q) fun a => ?_).trans
    (broadcastInDim_apply _ h1 b (ix2 (0 : Fin 1) q) (ix1 q) fun a => ?_)
  · match a with
    | ⟨0, _⟩ => rfl
    | ⟨1, _⟩ => exact hq
  · match a with
    | ⟨0, _⟩ => exact hq

/-! ## Rectifier and mask -/

/-- The kernel's spelling, at any entry: `y * m` where `y` exceeds the zero splat, the zero splat elsewhere. -/
theorem select_gt_apply {s : Shape} (y m : FVec Ideal s .f32) (i : s.Idx) :
    select (cmpf .ogt y (broadcast s (Scalar.ofBits .f32 0x00000000#32))) (mulf y m)
        (broadcast s (Scalar.ofBits .f32 0x00000000#32)) i = act (y i) (m i) := by
  show Scalar.select (Ideal.cmp .ogt (y i) (Ideal.ofBits .f32 0x00000000#32)) (y i * m i) (Ideal.ofBits .f32 0x00000000#32) = _
  rw [Ideal.ofBits_zero_f32]
  exact select_gt_eq_act _ _

/-- The host's spelling, at any entry: the maximum with the zero scalar broadcast to the shape, times the mask. -/
theorem relu_mask_host_apply {s : Shape} (y m : FVec Ideal s .f32) (h0 : (⟨0, ![]⟩ : Shape).BroadcastsInDim s ![])
    (i : s.Idx) :
    mulf (maximumf y (broadcastInDim s ![] h0 (constant (F := Ideal) ⟨0, ![]⟩ .f32 0x00000000#32))) m i = act (y i) (m i) := by
  show max (y i) (broadcastInDim s ![] h0 (constant (F := Ideal) ⟨0, ![]⟩ .f32 0x00000000#32) i) * m i = _
  rw [broadcastInDim_apply _ h0 _ i ix0 (fun a => a.elim0)]
  show max (y i) (Ideal.ofBits .f32 0x00000000#32) * m i = _
  rw [Ideal.ofBits_zero_f32]
  rfl

/-! ## Whole arrays, row by row

  The same layers on `[R, ·]` arrays: entry `(r, n)` of the output depends on row `r` of the row-indexed operands
  only, so a layer computed on a block of rows is that block of rows of the layer computed on the whole arrays. -/

/-- Row `r` of a two-axis array. -/
abbrev row {R C : ℕ} (A : (⟨2, ![R, C]⟩ : Shape).Idx → EReal) (r : Fin R) : Fin C → EReal := fun k => A (ix2 r k)
/-- A two-axis array as a function of its two coordinates. -/
abbrev mat {K N : ℕ} (W : (⟨2, ![K, N]⟩ : Shape).Idx → EReal) : Fin K → Fin N → EReal := fun k n => W (ix2 k n)
/-- A one-axis array as a function of its coordinate. -/
abbrev vec {N : ℕ} (b : (⟨1, ![N]⟩ : Shape).Idx → EReal) : Fin N → EReal := fun n => b (ix1 n)

/-- The dense layer on every row: entry `(r, n)` is `∑ k, H (r, k) * W (k, n) + b n`. -/
def denseArr {R K N : ℕ} (H : (⟨2, ![R, K]⟩ : Shape).Idx → EReal) (W : (⟨2, ![K, N]⟩ : Shape).Idx → EReal)
    (b : (⟨1, ![N]⟩ : Shape).Idx → EReal) : (⟨2, ![R, N]⟩ : Shape).Idx → EReal :=
  fun i => dense (row H ⟨(i 0).val, idx2_lt0 i⟩) (mat W) (vec b) ⟨(i 1).val, idx2_lt1 i⟩

/-- Rectifier and mask, entry by entry. -/
def actArr {s : Shape} (Y M : s.Idx → EReal) : s.Idx → EReal := fun i => act (Y i) (M i)

/-- A hidden layer on every row. -/
def layerArr {R K N : ℕ} (H : (⟨2, ![R, K]⟩ : Shape).Idx → EReal) (W : (⟨2, ![K, N]⟩ : Shape).Idx → EReal)
    (b : (⟨1, ![N]⟩ : Shape).Idx → EReal) (M : (⟨2, ![R, N]⟩ : Shape).Idx → EReal) :
    (⟨2, ![R, N]⟩ : Shape).Idx → EReal :=
  actArr (denseArr H W b) M

theorem denseArr_ix2 {R K N : ℕ} (H : (⟨2, ![R, K]⟩ : Shape).Idx → EReal) (W : (⟨2, ![K, N]⟩ : Shape).Idx → EReal)
    (b : (⟨1, ![N]⟩ : Shape).Idx → EReal) (p : Fin R) (q : Fin N) :
    denseArr H W b (ix2 p q) = dense (row H p) (mat W) (vec b) q := rfl

/-- The kernel's dense step as an array: product into the zero accumulator plus the broadcast bias row. -/
theorem kernel_dense_eq {R K N : ℕ} {φ₁ φ₂ : FTy} (d : DotDims ⟨2, ![R, K]⟩ ⟨2, ![K, N]⟩ ⟨2, ![R, N]⟩)
    (hd : d = DotDims.plain R K N) (prec : Option ContractPrecision)
    (a : FVec Ideal ⟨2, ![R, K]⟩ φ₁) (W : FVec Ideal ⟨2, ![K, N]⟩ φ₂) (b : FVec Ideal ⟨1, ![N]⟩ .f32)
    (sc : (⟨1, ![N]⟩ : Shape).ShapeCasts ⟨2, ![1, N]⟩) (bc : (⟨2, ![1, N]⟩ : Shape).Broadcasts ⟨2, ![R, N]⟩) :
    addf (matmul d prec a W (constant ⟨2, ![R, N]⟩ .f32 0x00000000#32))
        (broadcastTo ⟨2, ![R, N]⟩ (shapeCast ⟨2, ![1, N]⟩ b sc) bc) = denseArr a W b := by
  funext i
  obtain ⟨p, q, rfl⟩ : ∃ (p : Fin R) (q : Fin N), i = ix2 p q := ⟨i 0, i 1, eq_ix2 i⟩
  show matmul d prec a W (constant ⟨2, ![R, N]⟩ .f32 0x00000000#32) (ix2 p q)
      + broadcastTo ⟨2, ![R, N]⟩ (shapeCast ⟨2, ![1, N]⟩ b sc) bc (ix2 p q) = _
  rw [matmul_plain_apply d hd, bias_rows_apply]
  rfl

/-- The kernel's rectifier-and-mask as an array. -/
theorem kernel_act_eq {s : Shape} (Y M : FVec Ideal s .f32) :
    select (cmpf .ogt Y (broadcast s (Scalar.ofBits .f32 0x00000000#32))) (mulf Y M)
        (broadcast s (Scalar.ofBits .f32 0x00000000#32)) = actArr Y M :=
  funext (select_gt_apply Y M)

/-- The host's dense step as an array. -/
theorem host_dense_eq {R K N : ℕ} {φ₁ φ₂ : FTy} (d : DotDims ⟨2, ![R, K]⟩ ⟨2, ![K, N]⟩ ⟨2, ![R, N]⟩)
    (hd : d = DotDims.plain R K N) (prec : Option ContractPrecision)
    (a : FVec Ideal ⟨2, ![R, K]⟩ φ₁) (W : FVec Ideal ⟨2, ![K, N]⟩ φ₂) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![R, N]⟩ ![0, 1]) :
    addf (Host.dotGeneral d prec a W) (broadcastInDim ⟨2, ![R, N]⟩ ![0, 1] h2 (broadcastInDim ⟨2, ![1, N]⟩ ![1] h1 b))
      = denseArr a W b := by
  funext i
  obtain ⟨p, q, rfl⟩ : ∃ (p : Fin R) (q : Fin N), i = ix2 p q := ⟨i 0, i 1, eq_ix2 i⟩
  show Host.dotGeneral d prec a W (ix2 p q)
      + broadcastInDim ⟨2, ![R, N]⟩ ![0, 1] h2 (broadcastInDim ⟨2, ![1, N]⟩ ![1] h1 b) (ix2 p q) = _
  rw [dotGeneral_plain_apply d hd, bias_rows_host_apply]
  rfl

/-- The host's rectifier-and-mask as an array. -/
theorem host_act_eq {s : Shape} (Y M : FVec Ideal s .f32) (h0 : (⟨0, ![]⟩ : Shape).BroadcastsInDim s ![]) :
    mulf (maximumf Y (broadcastInDim s ![] h0 (constant (F := Ideal) ⟨0, ![]⟩ .f32 0x00000000#32))) M = actArr Y M :=
  funext (relu_mask_host_apply Y M h0)

/-- A change of float format is the identity on extended reals. -/
theorem truncf_eq {s : Shape} {φ ψ : FTy} (v : FVec Ideal s φ) (h : ψ.bits < φ.bits) : truncf ψ v h = v := rfl

/-! ### Row locality -/

/-- Row `p` of `A` is row `r` of `A'`. -/
def RowEq {R R' C : ℕ} (A : (⟨2, ![R, C]⟩ : Shape).Idx → EReal) (A' : (⟨2, ![R', C]⟩ : Shape).Idx → EReal)
    (p : Fin R) (r : Fin R') : Prop :=
  ∀ k : Fin C, A (ix2 p k) = A' (ix2 r k)

theorem denseArr_rowEq {R R' K N : ℕ} {H : (⟨2, ![R, K]⟩ : Shape).Idx → EReal} {H' : (⟨2, ![R', K]⟩ : Shape).Idx → EReal}
    {W W' : (⟨2, ![K, N]⟩ : Shape).Idx → EReal} {b b' : (⟨1, ![N]⟩ : Shape).Idx → EReal} {p : Fin R} {r : Fin R'}
    (hH : RowEq H H' p r) (hW : W = W') (hb : b = b') : RowEq (denseArr H W b) (denseArr H' W' b') p r := by
  intro n
  subst hW hb
  have e : row H p = row H' r := funext hH
  show dense (row H p) (mat W) (vec b) n = dense (row H' r) (mat W) (vec b) n
  rw [e]

theorem actArr_rowEq {R R' C : ℕ} {Y M : (⟨2, ![R, C]⟩ : Shape).Idx → EReal} {Y' M' : (⟨2, ![R', C]⟩ : Shape).Idx → EReal}
    {p : Fin R} {r : Fin R'} (hY : RowEq Y Y' p r) (hM : RowEq M M' p r) : RowEq (actArr Y M) (actArr Y' M') p r := by
  intro n
  show act (Y (ix2 p n)) (M (ix2 p n)) = act (Y' (ix2 r n)) (M' (ix2 r n))
  rw [hY n, hM n]

theorem layerArr_rowEq {R R' K N : ℕ} {H : (⟨2, ![R, K]⟩ : Shape).Idx → EReal} {H' : (⟨2, ![R', K]⟩ : Shape).Idx → EReal}
    {W W' : (⟨2, ![K, N]⟩ : Shape).Idx → EReal} {b b' : (⟨1, ![N]⟩ : Shape).Idx → EReal}
    {M : (⟨2, ![R, N]⟩ : Shape).Idx → EReal} {M' : (⟨2, ![R', N]⟩ : Shape).Idx → EReal} {p : Fin R} {r : Fin R'}
    (hH : RowEq H H' p r) (hW : W = W') (hb : b = b') (hM : RowEq M M' p r) :
    RowEq (layerArr H W b M) (layerArr H' W' b' M') p r :=
  actArr_rowEq (denseArr_rowEq hH hW hb) hM

end Cert.DenseLayer

end
-- ==== Proof.KBlocks.lean ====
/-
  From the blocks the two kernel regions write to the whole output arrays, over the extended reals.

  Each region's body computes its output block from its input blocks entry by entry: a matrix product into a zero
  accumulator, a bias row broadcast over the rows, a maximum with zero, a second matrix product (and, in the head, a
  second bias row). Entry `(r, j)` of the output block depends on row `r` of the row-indexed input block and on the
  whole weight and bias blocks only. In the first region the row-indexed blocks are the ten tiles of 8000 consecutive
  rows of their arrays and the weight and bias blocks are the whole arrays at every grid point, so the ten output
  blocks are the ten tiles of ONE function of the arrays, the fused dense block of each row; the tiles cover the
  80000 rows (row `n` lies in tile `n / 8000`), so that function is what the output array ends holding. In the
  second region there is one grid point and every block is its whole array.
-/
import proofs.«159750_j81578608820912_2_alg».proof.Proof.KBodyI
import proofs.«159750_j81578608820912_2_alg».proof.Proof.Spec
import proofs.«159750_j81578608820912_2_alg».proof.Proof.LibDenseLayer
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Blocks

open Cert.KernelIdeal Cert.KernelIdeal.Gen Cert.KernelIdeal.Hand Cert.Gcn
open Idealize.ShloMosaic Idealize.ShloMosaic.TcCoe Idealize.ShloMosaic.ValueIdx Idealize.SL.Sem
open Idealize.ShloMosaic.Pipeline (Dat)
open Cert.DenseLayer (matmul_plain_apply)

/-! ## The bodies' arithmetic, entry by entry -/

/-- The zero splat the rectifier compares with reads `0`. -/
theorem zero_splat_apply {s : Shape} (i : s.Idx) :
    (broadcast s (Scalar.ofBits (F := Ideal) .f32 0x00000000#32) : FVec Ideal s .f32) i = 0 :=
  Ideal.ofBits_zero_f32

/-- The hidden layer of either body at entry `(p, k)`: the product of row `p` with column `k` of the weights, plus
    entry `k` of the one-row bias block, rectified. -/
theorem hidden_apply {R K N : ℕ} (d : DotDims ⟨2, ![R, K]⟩ ⟨2, ![K, N]⟩ ⟨2, ![R, N]⟩) (hd : d = DotDims.plain R K N)
    (a : FVec Ideal ⟨2, ![R, K]⟩ .bf16) (W : FVec Ideal ⟨2, ![K, N]⟩ .bf16) (b : FVec Ideal ⟨2, ![1, N]⟩ .f32)
    (bc : (⟨2, ![1, N]⟩ : Shape).Broadcasts ⟨2, ![R, N]⟩) (p : Fin R) (k : Fin N) :
    maximumf (addf (matmul d none a W (constant ⟨2, ![R, N]⟩ .f32 0x00000000#32)) (broadcastTo ⟨2, ![R, N]⟩ b bc))
        (broadcast ⟨2, ![R, N]⟩ (Scalar.ofBits .f32 0x00000000#32)) (ix2 p k)
      = relu ((∑ i : Fin K, a (ix2 p i) * W (ix2 i k)) + b (ix2 (0 : Fin 1) k)) := by
  show max (matmul d none a W (constant ⟨2, ![R, N]⟩ .f32 0x00000000#32) (ix2 p k)
      + broadcastTo ⟨2, ![R, N]⟩ b bc (ix2 p k))
      (broadcast ⟨2, ![R, N]⟩ (Scalar.ofBits (F := Ideal) .f32 0x00000000#32) (ix2 p k)) = _
  rw [matmul_plain_apply d hd, broadcastTo_1b_ab_apply, zero_splat_apply]
  rfl

/-- The second product of either body at entry `(p, q)`: the hidden layer of row `p` against column `q` of the second
    weight block. -/
theorem second_apply {R K N M : ℕ} (d : DotDims ⟨2, ![R, K]⟩ ⟨2, ![K, N]⟩ ⟨2, ![R, N]⟩) (hd : d = DotDims.plain R K N)
    (d' : DotDims ⟨2, ![R, N]⟩ ⟨2, ![N, M]⟩ ⟨2, ![R, M]⟩) (hd' : d' = DotDims.plain R N M)
    (a : FVec Ideal ⟨2, ![R, K]⟩ .bf16) (W : FVec Ideal ⟨2, ![K, N]⟩ .bf16) (b : FVec Ideal ⟨2, ![1, N]⟩ .f32)
    (bc : (⟨2, ![1, N]⟩ : Shape).Broadcasts ⟨2, ![R, N]⟩) (W' : FVec Ideal ⟨2, ![N, M]⟩ .bf16)
    (hlt : FTy.bits .bf16 < FTy.bits .f32) (p : Fin R) (q : Fin M) :
    matmul d' none
        (truncf .bf16 (maximumf (addf (matmul d none a W (constant ⟨2, ![R, N]⟩ .f32 0x00000000#32)) (broadcastTo ⟨2, ![R, N]⟩ b bc))
          (broadcast ⟨2, ![R, N]⟩ (Scalar.ofBits .f32 0x00000000#32))) hlt)
        W' (constant ⟨2, ![R, M]⟩ .f32 0x00000000#32) (ix2 p q)
      = ∑ k : Fin N, relu ((∑ i : Fin K, a (ix2 p i) * W (ix2 i k)) + b (ix2 (0 : Fin 1) k)) * W' (ix2 k q) := by
  refine (matmul_plain_apply d' hd' none _ _ p q).trans (Finset.sum_congr rfl fun k _ => ?_)
  exact congrArg (· * W' (ix2 k q)) (hidden_apply d hd a W b bc p k)

/-- The head's body at entry `(p, q)` of its output block is the two-layer head of row `p` of the first input block. -/
theorem head_payload_apply (x0 : Vec Ideal S8x651 .f32) (x1 : Vec Ideal S651x256 .f32) (x2 : Vec Ideal S1x256 .f32)
    (x3 : Vec Ideal S256x256 .f32) (x4 : Vec Ideal S1x256 .f32) (p : Fin 8) (q : Fin 256) :
    k1_pay1 x0 x1 x2 x3 x4 (ix2 p q)
      = head (fun k i => x1 (ix2 i k)) (fun k => x2 (ix2 (0 : Fin 1) k)) (fun q k => x3 (ix2 k q))
          (fun q => x4 (ix2 (0 : Fin 1) q)) (fun i => x0 (ix2 p i)) q := by
  unfold k1_pay1
  simp only [shapeCast_self]
  refine (addf_apply _ _ _).trans ?_
  unfold head
  exact congrArg₂ (· + ·)
    (second_apply dot_S8x651_S651x256_S8x256_1_0_0_1_n_n rfl dot_S8x256_S256x256_S8x256_1_0_0_1_n_n rfl
      (truncf .bf16 x0 bitsLt_bf16_f32) (truncf .bf16 x1 bitsLt_bf16_f32) x2 broadcasts_S1x256_S8x256
      (truncf .bf16 x3 bitsLt_bf16_f32) bitsLt_bf16_f32 p q)
    (broadcastTo_1b_ab_apply x4 broadcasts_S1x256_S8x256 p q)

/-- The fused block's body at entry `(r, j)` of its output tile is the fused dense block of row `r` of the input tile. -/
theorem fused_payload_apply (x0 : Vec Ideal S8000x5 .f32) (x1 : Vec Ideal S5x128 .f32) (x2 : Vec Ideal S1x128 .f32)
    (x3 : Vec Ideal S128x128 .f32) (r : Fin 8000) (j : Fin 128) :
    k0_pay1 x0 x1 x2 x3 (ix2 r j)
      = fused (fun k' k => x1 (ix2 k k')) (fun k' => x2 (ix2 (0 : Fin 1) k')) (fun j k' => x3 (ix2 k' j))
          (fun k => x0 (ix2 r k)) j := by
  unfold k0_pay1
  simp only [shapeCast_self]
  unfold fused
  exact second_apply dot_S8000x5_S5x128_S8000x128_1_0_0_1_n_n rfl dot_S8000x128_S128x128_S8000x128_1_0_0_1_n_n rfl
      (truncf .bf16 x0 bitsLt_bf16_f32) (truncf .bf16 x1 bitsLt_bf16_f32) x2 broadcasts_S1x128_S8000x128
      (truncf .bf16 x3 bitsLt_bf16_f32) bitsLt_bf16_f32 r j

/-! ## The blocks' results as functions of the rows -/

/-- The zero offsets of a whole-block rectangle, however spelt. -/
theorem zero_offsets : (![0, 0] : Fin 2 → Nat) = fun _ => 0 := funext fun a => by fin_cases a <;> rfl

/-- The two-layer head applied to every row of an `[R, 651]` array. -/
def headRows {R : ℕ} (x0 : (⟨2, ![R, 651]⟩ : Shape).Idx → EReal) (x1 : S651x256.Idx → EReal) (x2 : S1x256.Idx → EReal)
    (x3 : S256x256.Idx → EReal) (x4 : S1x256.Idx → EReal) : (⟨2, ![R, 256]⟩ : Shape).Idx → EReal :=
  fun i => head (fun k i' => x1 (ix2 i' k)) (fun k => x2 (ix2 (0 : Fin 1) k)) (fun q k => x3 (ix2 k q))
    (fun q => x4 (ix2 (0 : Fin 1) q)) (fun i' => x0 (ix2 ⟨(i 0).val, idx2_lt0 i⟩ i')) ⟨(i 1).val, idx2_lt1 i⟩

/-- The fused dense block applied to every row of an `[R, 5]` array. -/
def fusedRows {R : ℕ} (x0 : (⟨2, ![R, 5]⟩ : Shape).Idx → EReal) (x1 : S5x128.Idx → EReal) (x2 : S1x128.Idx → EReal)
    (x3 : S128x128.Idx → EReal) : (⟨2, ![R, 128]⟩ : Shape).Idx → EReal :=
  fun i => fused (fun k' k => x1 (ix2 k k')) (fun k' => x2 (ix2 (0 : Fin 1) k')) (fun j k' => x3 (ix2 k' j))
    (fun k => x0 (ix2 ⟨(i 0).val, idx2_lt0 i⟩ k)) ⟨(i 1).val, idx2_lt1 i⟩

/-- The head's output block is the head of every row of its first input block. -/
theorem res1_eq (x0 : Vec Ideal S8x651 .f32) (x1 : Vec Ideal S651x256 .f32) (x2 : Vec Ideal S1x256 .f32)
    (x3 : Vec Ideal S256x256 .f32) (x4 : Vec Ideal S1x256 .f32) :
    res1 x0 x1 x2 x3 x4 = headRows x0 x1 x2 x3 x4 := by
  unfold res1
  rw [View.canon_unit_zero zero_offsets]
  simp only [View.ld_unit_zero (S := S8x651) zero_offsets, View.ld_unit_zero (S := S651x256) zero_offsets, View.ld_unit_zero (S := S1x256) zero_offsets,
    View.ld_unit_zero (S := S256x256) zero_offsets]
  funext i
  obtain ⟨p, q, rfl⟩ : ∃ (p : Fin 8) (q : Fin 256), i = ix2 p q := ⟨i 0, i 1, eq_ix2 i⟩
  exact head_payload_apply x0 x1 x2 x3 x4 p q

/-- The fused block's output tile is the fused dense block of every row of its input tile. -/
theorem res0_eq (x0 : Vec Ideal S8000x5 .f32) (x1 : Vec Ideal S5x128 .f32) (x2 : Vec Ideal S1x128 .f32)
    (x3 : Vec Ideal S128x128 .f32) :
    res0 x0 x1 x2 x3 = fusedRows x0 x1 x2 x3 := by
  unfold res0
  rw [View.canon_unit_zero zero_offsets]
  simp only [View.ld_unit_zero (S := S8000x5) zero_offsets, View.ld_unit_zero (S := S5x128) zero_offsets, View.ld_unit_zero (S := S1x128) zero_offsets,
    View.ld_unit_zero (S := S128x128) zero_offsets]
  funext i
  obtain ⟨r, j, rfl⟩ : ∃ (r : Fin 8000) (j : Fin 128), i = ix2 r j := ⟨i 0, i 1, eq_ix2 i⟩
  exact fused_payload_apply x0 x1 x2 x3 r j

variable (V : (c : Dev nD) → (b : Ref sig .tc) → Buf (Elt Ideal) ((c : Thread nD τ).loc b)) (c : Dev nD)

/-! ## The head: one grid point, every block its whole array -/

/-- At the one grid point every window's block index is zero on both axes. -/
theorem head_block_indices : ∀ t : Fin cfg1.N,
    (win1_0.index t (0 : Fin 2) = 0 ∧ win1_0.index t (1 : Fin 2) = 0)
    ∧ (win1_1.index t (0 : Fin 2) = 0 ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0) :=
  (by decide +kernel : ∀ t : Fin grid1.N, _)

/-- The first input block is the whole `[8, 651]` array: a block's coordinate is its index times its size plus the
    coordinate inside it, and the index is zero. -/
theorem blk1_0_eq (t : Fin cfg1.N) : (blk1 V c 0 t : Vec Ideal S8x651 .f32) = (V c main_v78 : S8x651.Idx → EReal) := by
  obtain ⟨⟨e0, e1⟩, -⟩ := head_block_indices t
  funext y
  unfold blk1
  rw [View.read_apply]
  show V c main_v78 _ = V c main_v78 y
  refine congrArg (V c main_v78) (funext fun a => Fin.ext ?_)
  match a with
  | ⟨0, _⟩ => show win1_0.index t (0 : Fin 2) * 8 + 1 * (y 0).val = (y 0).val; rw [e0]; omega
  | ⟨1, _⟩ => show win1_0.index t (1 : Fin 2) * 651 + 1 * (y 1).val = (y 1).val; rw [e1]; omega

/-- The first weight block is the whole `[651, 256]` array. -/
theorem blk1_1_eq (t : Fin cfg1.N) : (blk1 V c 1 t : Vec Ideal S651x256 .f32) = (V c main_v79 : S651x256.Idx → EReal) := by
  obtain ⟨-, ⟨e0, e1⟩, -⟩ := head_block_indices t
  funext y
  unfold blk1
  rw [View.read_apply]
  show V c main_v79 _ = V c main_v79 y
  refine congrArg (V c main_v79) (funext fun a => Fin.ext ?_)
  match a with
  | ⟨0, _⟩ => show win1_1.index t (0 : Fin 2) * 651 + 1 * (y 0).val = (y 0).val; rw [e0]; omega
  | ⟨1, _⟩ => show win1_1.index t (1 : Fin 2) * 256 + 1 * (y 1).val = (y 1).val; rw [e1]; omega

/-- The first bias block is the whole `[1, 256]` array. -/
theorem blk1_2_eq (t : Fin cfg1.N) : (blk1 V c 2 t : Vec Ideal S1x256 .f32) = (V c main_v81 : S1x256.Idx → EReal) := by
  obtain ⟨-, -, ⟨e0, e1⟩, -⟩ := head_block_indices t
  funext y
  unfold blk1
  rw [View.read_apply]
  show V c main_v81 _ = V c main_v81 y
  refine congrArg (V c main_v81) (funext fun a => Fin.ext ?_)
  match a with
  | ⟨0, _⟩ => show win1_2.index t (0 : Fin 2) * 1 + 1 * (y 0).val = (y 0).val; rw [e0]; omega
  | ⟨1, _⟩ => show win1_2.index t (1 : Fin 2) * 256 + 1 * (y 1).val = (y 1).val; rw [e1]; omega

/-- The second weight block is the whole `[256, 256]` array. -/
theorem blk1_3_eq (t : Fin cfg1.N) : (blk1 V c 3 t : Vec Ideal S256x256 .f32) = (V c main_v80 : S256x256.Idx → EReal) := by
  obtain ⟨-, -, -, ⟨e0, e1⟩, -⟩ := head_block_indices t
  funext y
  unfold blk1
  rw [View.read_apply]
  show V c main_v80 _ = V c main_v80 y
  refine congrArg (V c main_v80) (funext fun a => Fin.ext ?_)
  match a with
  | ⟨0, _⟩ => show win1_3.index t (0 : Fin 2) * 256 + 1 * (y 0).val = (y 0).val; rw [e0]; omega
  | ⟨1, _⟩ => show win1_3.index t (1 : Fin 2) * 256 + 1 * (y 1).val = (y 1).val; rw [e1]; omega

/-- The second bias block is the whole `[1, 256]` array. -/
theorem blk1_4_eq (t : Fin cfg1.N) : (blk1 V c 4 t : Vec Ideal S1x256 .f32) = (V c main_v82 : S1x256.Idx → EReal) := by
  obtain ⟨-, -, -, -, ⟨e0, e1⟩, -⟩ := head_block_indices t
  funext y
  unfold blk1
  rw [View.read_apply]
  show V c main_v82 _ = V c main_v82 y
  refine congrArg (V c main_v82) (funext fun a => Fin.ext ?_)
  match a with
  | ⟨0, _⟩ => show win1_4.index t (0 : Fin 2) * 1 + 1 * (y 0).val = (y 0).val; rw [e0]; omega
  | ⟨1, _⟩ => show win1_4.index t (1 : Fin 2) * 256 + 1 * (y 1).val = (y 1).val; rw [e1]; omega

/-- What the head's output array ends holding: the head of every row of the `[8, 651]` array. -/
abbrev headOut : S8x256.Idx → EReal :=
  headRows (V c main_v78 : S8x651.Idx → EReal) (V c main_v79 : S651x256.Idx → EReal) (V c main_v81 : S1x256.Idx → EReal)
    (V c main_v80 : S256x256.Idx → EReal) (V c main_v82 : S1x256.Idx → EReal)

/-- What the one grid point writes back is the whole of `headOut`, read through the output's block. -/
theorem head_written (t : Fin cfg1.N) :
    (pd1 (F := Ideal) V c).flushed 5 t = ((cfg1.win 5).blk t).view.read (Elt Ideal) (headOut V c) := by
  show (cfg1.win 5).cut (grid1.coords t) ((pd1 (F := Ideal) V c).after 5 t) = _
  rw [pd1_after_5, res1_eq, blk1_0_eq, blk1_1_eq, blk1_2_eq, blk1_3_eq, blk1_4_eq]
  obtain ⟨-, -, -, -, -, e0, e1⟩ := head_block_indices t
  funext j
  rw [View.read_apply]
  show headOut V c _ = headOut V c _
  refine congrArg (headOut V c) (funext fun a => Fin.ext ?_)
  match a with
  | ⟨0, _⟩ => show (j 0).val = win1_5.index t (0 : Fin 2) * 8 + 1 * (j 0).val; rw [e0]; omega
  | ⟨1, _⟩ => show (j 1).val = win1_5.index t (1 : Fin 2) * 256 + 1 * (j 1).val; rw [e1]; omega

/-- An entry of the output array lies in the grid point's block iff each coordinate lies in the block's range. -/
theorem mem_head_block (t : Fin cfg1.N) (i : S8x256.Idx) :
    i ∈ ((cfg1.win 5).blk t).view.set ↔ ∀ a : Fin 2, win1_5.index t a * S8x256.size a ≤ (i a).val ∧ (i a).val < win1_5.index t a * S8x256.size a + S8x256.size a := by
  show i ∈ ((View.whole main_v83).slice (win1_5.rect t)).set ↔ _
  rw [View.set_slice_whole, Rect.mem_set_unit]
  exact Iff.rfl

/-- The one block covers the output array. -/
theorem head_block_covers (i : S8x256.Idx) : ∃ t : Fin cfg1.N, (cfg1.win 5).flush t = true ∧ i ∈ ((cfg1.win 5).blk t).view.set := by
  have hi0 : (i 0).val < 8 := (i 0).isLt
  have hi1 : (i 1).val < 256 := (i 1).isLt
  refine ⟨⟨0, by decide⟩, flush1_5 _, ?_⟩
  rw [mem_head_block]
  obtain ⟨-, -, -, -, -, e0, e1⟩ := head_block_indices ⟨0, by decide⟩
  intro a
  match a with
  | ⟨0, _⟩ => show win1_5.index _ (0 : Fin 2) * 8 ≤ (i 0).val ∧ (i 0).val < win1_5.index _ (0 : Fin 2) * 8 + 8; rw [e0]; omega
  | ⟨1, _⟩ => show win1_5.index _ (1 : Fin 2) * 256 ≤ (i 1).val ∧ (i 1).val < win1_5.index _ (1 : Fin 2) * 256 + 256; rw [e1]; omega

/-- The head's output array after the region is `headOut`. -/
theorem head_array : (pd1 (F := Ideal) V c).arrAt 5 cfg1.N = headOut V c :=
  (pd1 (F := Ideal) V c).arrAt_eq_of_cover 5 (headOut V c) (fun t _ => head_written V c t) (head_block_covers)

/-- Entry `(p, q)` of the head's output array is the two-layer head of row `p` of the `[8, 651]` array, at `q`. -/
theorem region1_value (p : Fin 8) (q : Fin 256) :
    ((pd1 (F := Ideal) V c).arrAt 5 cfg1.N : S8x256.Idx → EReal) (ix2 p q)
      = head (fun k i => (V c main_v79 : S651x256.Idx → EReal) (ix2 i k)) (fun k => (V c main_v81 : S1x256.Idx → EReal) (ix2 (0 : Fin 1) k))
          (fun q k => (V c main_v80 : S256x256.Idx → EReal) (ix2 k q)) (fun q => (V c main_v82 : S1x256.Idx → EReal) (ix2 (0 : Fin 1) q))
          (fun i => (V c main_v78 : S8x651.Idx → EReal) (ix2 p i)) q := by
  rw [head_array]
  rfl

/-! ## The fused block: ten tiles of 8000 rows -/

/-- The index maps over the ten grid points: the input tile moves with the output tile along the rows, the
    output tile at point `t` is tile `t`, and every other block index is zero. -/
theorem tile_indices : ∀ t : Fin cfg0.N,
    (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_0.index t (0 : Fin 2) = win0_4.index t (0 : Fin 2) ∧ win0_0.index t (1 : Fin 2) = 0)
    ∧ (win0_4.index t (0 : Fin 2) = t.val ∧ win0_4.index t (1 : Fin 2) = 0) :=
  (by decide +kernel : ∀ t : Fin grid0.N, _)

/-- The first weight block is the whole `[5, 128]` array at every grid point: a block's coordinate is its index times
    its size plus the coordinate inside it, and the index is zero. -/
theorem blk0_1_eq (t : Fin cfg0.N) : (blk0 V c 1 t : Vec Ideal S5x128 .f32) = (V c main_v46 : S5x128.Idx → EReal) := by
  obtain ⟨⟨e0, e1⟩, -⟩ := tile_indices t
  funext y
  unfold blk0
  rw [View.read_apply]
  show V c main_v46 _ = V c main_v46 y
  refine congrArg (V c main_v46) (funext fun a => Fin.ext ?_)
  match a with
  | ⟨0, _⟩ => show win0_1.index t (0 : Fin 2) * 5 + 1 * (y 0).val = (y 0).val; rw [e0]; omega
  | ⟨1, _⟩ => show win0_1.index t (1 : Fin 2) * 128 + 1 * (y 1).val = (y 1).val; rw [e1]; omega

/-- The bias block is the whole `[1, 128]` array at every grid point. -/
theorem blk0_2_eq (t : Fin cfg0.N) : (blk0 V c 2 t : Vec Ideal S1x128 .f32) = (V c main_v48 : S1x128.Idx → EReal) := by
  obtain ⟨-, ⟨e0, e1⟩, -⟩ := tile_indices t
  funext y
  unfold blk0
  rw [View.read_apply]
  show V c main_v48 _ = V c main_v48 y
  refine congrArg (V c main_v48) (funext fun a => Fin.ext ?_)
  match a with
  | ⟨0, _⟩ => show win0_2.index t (0 : Fin 2) * 1 + 1 * (y 0).val = (y 0).val; rw [e0]; omega
  | ⟨1, _⟩ => show win0_2.index t (1 : Fin 2) * 128 + 1 * (y 1).val = (y 1).val; rw [e1]; omega

/-- The second weight block is the whole `[128, 128]` array at every grid point. -/
theorem blk0_3_eq (t : Fin cfg0.N) : (blk0 V c 3 t : Vec Ideal S128x128 .f32) = (V c main_v47 : S128x128.Idx → EReal) := by
  obtain ⟨-, -, ⟨e0, e1⟩, -⟩ := tile_indices t
  funext y
  unfold blk0
  rw [View.read_apply]
  show V c main_v47 _ = V c main_v47 y
  refine congrArg (V c main_v47) (funext fun a => Fin.ext ?_)
  match a with
  | ⟨0, _⟩ => show win0_3.index t (0 : Fin 2) * 128 + 1 * (y 0).val = (y 0).val; rw [e0]; omega
  | ⟨1, _⟩ => show win0_3.index t (1 : Fin 2) * 128 + 1 * (y 1).val = (y 1).val; rw [e1]; omega

/-- The input tile at point `t`, at entry `y`, is the `[80000, 5]` array at row `8000 ·` (the output's tile index) `+ y 0`. -/
theorem blk0_0_apply (t : Fin cfg0.N) (y : S8000x5.Idx) (n : S80000x5.Idx)
    (h0 : (n 0).val = win0_4.index t (0 : Fin 2) * 8000 + (y 0).val) (h1 : (n 1).val = (y 1).val) :
    (blk0 V c 0 t : Vec Ideal S8000x5 .f32) y = (V c main_v45 : S80000x5.Idx → EReal) n := by
  obtain ⟨-, -, -, ⟨e0, e1⟩, -⟩ := tile_indices t
  unfold blk0
  rw [View.read_apply]
  show V c main_v45 _ = V c main_v45 n
  refine congrArg (V c main_v45) (funext fun a => Fin.ext ?_)
  match a with
  | ⟨0, _⟩ => show win0_0.index t (0 : Fin 2) * 8000 + 1 * (y 0).val = (n 0).val; rw [e0, h0]; omega
  | ⟨1, _⟩ => show win0_0.index t (1 : Fin 2) * 5 + 1 * (y 1).val = (n 1).val; rw [e1, h1]; omega

/-- The fused dense block of a row depends on that row only: two entries in the same column whose rows agree have the
    same value, whatever the heights of the two arrays. -/
theorem fusedRows_congr {R R' : ℕ} (x0 : (⟨2, ![R, 5]⟩ : Shape).Idx → EReal) (x0' : (⟨2, ![R', 5]⟩ : Shape).Idx → EReal)
    (x1 : S5x128.Idx → EReal) (x2 : S1x128.Idx → EReal) (x3 : S128x128.Idx → EReal)
    (i : (⟨2, ![R, 128]⟩ : Shape).Idx) (i' : (⟨2, ![R', 128]⟩ : Shape).Idx)
    (hrow : ∀ k : Fin 5, x0 (ix2 ⟨(i 0).val, idx2_lt0 i⟩ k) = x0' (ix2 ⟨(i' 0).val, idx2_lt0 i'⟩ k))
    (hcol : (i 1).val = (i' 1).val) : fusedRows x0 x1 x2 x3 i = fusedRows x0' x1 x2 x3 i' := by
  unfold fusedRows
  have ej : (⟨(i 1).val, idx2_lt1 i⟩ : Fin 128) = ⟨(i' 1).val, idx2_lt1 i'⟩ := Fin.ext hcol
  rw [ej, show (fun k => x0 (ix2 ⟨(i 0).val, idx2_lt0 i⟩ k)) = fun k => x0' (ix2 ⟨(i' 0).val, idx2_lt0 i'⟩ k) from funext hrow]

/-- What the fused block's output array ends holding: the fused dense block of every row of the `[80000, 5]` array. -/
abbrev fusedOut : S80000x128.Idx → EReal :=
  fusedRows (V c main_v45 : S80000x5.Idx → EReal) (V c main_v46 : S5x128.Idx → EReal) (V c main_v48 : S1x128.Idx → EReal)
    (V c main_v47 : S128x128.Idx → EReal)

/-- What grid point `t` writes back is tile `t` of `fusedOut`: entry `(r, j)` of the output tile is computed from row
    `r` of the input tile, which is row `8000 t + r` of the array, where the output tile's entry sits. -/
theorem tile_written (t : Fin cfg0.N) :
    (pd0 (F := Ideal) V c).flushed 4 t = ((cfg0.win 4).blk t).view.read (Elt Ideal) (fusedOut V c) := by
  show (cfg0.win 4).cut (grid0.coords t) ((pd0 (F := Ideal) V c).after 4 t) = _
  rw [pd0_after_4, res0_eq, blk0_1_eq, blk0_2_eq, blk0_3_eq]
  obtain ⟨-, -, -, -, -, e1⟩ := tile_indices t
  funext j
  rw [View.read_apply]
  refine fusedRows_congr (R := 8000) (R' := 80000) (blk0 V c 0 t) (V c main_v45) _ _ _ _ _ (fun k => ?_) ?_
  · refine blk0_0_apply V c t _ _ ?_ rfl
    show win0_4.index t (0 : Fin 2) * 8000 + 1 * (j 0).val = win0_4.index t (0 : Fin 2) * 8000 + (j 0).val
    omega
  · show (j 1).val = win0_4.index t (1 : Fin 2) * 128 + 1 * (j 1).val
    rw [e1]; omega

/-- An entry of the output array lies in point `t`'s tile iff each coordinate lies in the tile's range. -/
theorem mem_tile (t : Fin cfg0.N) (i : S80000x128.Idx) :
    i ∈ ((cfg0.win 4).blk t).view.set ↔ ∀ a : Fin 2, win0_4.index t a * S8000x128.size a ≤ (i a).val ∧ (i a).val < win0_4.index t a * S8000x128.size a + S8000x128.size a := by
  show i ∈ ((View.whole main_v49).slice (win0_4.rect t)).set ↔ _
  rw [View.set_slice_whole, Rect.mem_set_unit]
  exact Iff.rfl

/-- The ten tiles cover the output array: row `n` lies in tile `n / 8000`. -/
theorem tiles_cover (i : S80000x128.Idx) : ∃ t : Fin cfg0.N, (cfg0.win 4).flush t = true ∧ i ∈ ((cfg0.win 4).blk t).view.set := by
  have hi0 : (i 0).val < 80000 := (i 0).isLt
  have hi1 : (i 1).val < 128 := (i 1).isLt
  have hN : cfg0.N = 10 := by decide
  have ht : (i 0).val / 8000 < cfg0.N := by rw [hN]; omega
  refine ⟨⟨(i 0).val / 8000, ht⟩, flush0_4 _, ?_⟩
  rw [mem_tile]
  obtain ⟨-, -, -, -, e0, e1⟩ := tile_indices ⟨(i 0).val / 8000, ht⟩
  intro a
  match a with
  | ⟨0, _⟩ => show win0_4.index _ (0 : Fin 2) * 8000 ≤ (i 0).val ∧ (i 0).val < win0_4.index _ (0 : Fin 2) * 8000 + 8000; rw [e0]; show (i 0).val / 8000 * 8000 ≤ (i 0).val ∧ (i 0).val < (i 0).val / 8000 * 8000 + 8000; omega
  | ⟨1, _⟩ => show win0_4.index _ (1 : Fin 2) * 128 ≤ (i 1).val ∧ (i 1).val < win0_4.index _ (1 : Fin 2) * 128 + 128; rw [e1]; omega

/-- The fused block's output array after the region is `fusedOut`. -/
theorem fused_array : (pd0 (F := Ideal) V c).arrAt 4 cfg0.N = fusedOut V c :=
  (pd0 (F := Ideal) V c).arrAt_eq_of_cover 4 (fusedOut V c) (fun t _ => tile_written V c t) (tiles_cover)

/-- Entry `(n, j)` of the fused block's output array is the fused dense block of row `n` of the `[80000, 5]` array, at `j`. -/
theorem region0_value (n : Fin 80000) (j : Fin 128) :
    ((pd0 (F := Ideal) V c).arrAt 4 cfg0.N : S80000x128.Idx → EReal) (ix2 n j)
      = fused (fun k' k => (V c main_v46 : S5x128.Idx → EReal) (ix2 k k')) (fun k' => (V c main_v48 : S1x128.Idx → EReal) (ix2 (0 : Fin 1) k'))
          (fun j k' => (V c main_v47 : S128x128.Idx → EReal) (ix2 k' j)) (fun k => (V c main_v45 : S80000x5.Idx → EReal) (ix2 n k)) j := by
  rw [fused_array]
  rfl

end Cert.KernelIdeal.Blocks

end
-- ==== Proof.Shared.lean ====
/-
  From the programs' integer arrays to the graph of `Spec.lean`.

  jnp's `table[idx]` wraps a negative index once (`idx + 80000` when `idx < 0`) and the gather then clamps the row into
  `[0, 79999]`; the segment sum scatters through the RAW index and drops an update whose index is out of range. For an
  index in range none of the three changes anything, which is `row_wrap_of_land`.
-/
import proofs.«159750_j81578608820912_2_alg».proof.Proof.Spec

noncomputable section

namespace Cert.Gcn

open Idealize.ShloMosaic Idealize.ShloMosaic.ValueIdx

/-- jnp indexing's wrap of a negative index into an axis of 80000 rows: `select(v < 0, v + 80000, v)`. -/
def wrap (v : BitVec 32) : BitVec 32 := Scalar.select (IntOp.cmpi .slt v 0#32) (IntOp.addi v 80000#32) v

/-- The row a gather reads at a start index `v`: read signed and clamped into `[0, 79999]`. -/
def row (v : BitVec 32) : Fin Nn := ⟨min v.toInt.toNat (80000 - 1), by show min v.toInt.toNat (80000 - 1) < 80000; omega⟩

/-- The node a scatter index `v` lands on: `v` itself when `0 ≤ v < 80000`, none otherwise. -/
def landOf (v : BitVec 32) : Option (Fin Nn) :=
  if h : 0 ≤ v.toInt ∧ v.toInt < 80000 then some ⟨v.toInt.toNat, by show v.toInt.toNat < 80000; omega⟩ else none

/-- An index in range is neither wrapped nor clamped: the row read through it is the node it lands on. -/
theorem row_wrap_of_land (v : BitVec 32) (n : Fin Nn) (h : landOf v = some n) : row (wrap v) = n := by
  unfold landOf at h
  split at h
  · rename_i hr
    have hn : (⟨v.toInt.toNat, by show v.toInt.toNat < 80000; omega⟩ : Fin Nn) = n := Option.some.inj h
    have hw : wrap v = v := by
      unfold wrap Scalar.select IntOp.cmpi
      have : v.slt 0#32 = false := by
        rw [BitVec.slt_eq_decide]; simp only [BitVec.toInt_zero, decide_eq_false_iff_not, not_lt]
        show (0 : Int) ≤ v.toInt; exact hr.1
      simp [this]
    rw [hw, ← hn]
    apply Fin.ext
    show min v.toInt.toNat (80000 - 1) = v.toInt.toNat
    omega
  · exact absurd h (by simp)

/-- The graph the programs read off the source and destination index lists (each of 1360000 entries). -/
def graphOf (src2 dst2 : (⟨1, ![Ne]⟩ : Shape).Idx → BitVec 32) : Graph where
  src e := row (wrap (src2 (ix1 e)))
  dst e := row (wrap (dst2 (ix1 e)))
  land e := landOf (dst2 (ix1 e))
  land_dst e n h := row_wrap_of_land _ n h

/-- The rows read at the 8 × 5 positions. -/
def posOf (ap : (⟨2, ![8, 5]⟩ : Shape).Idx → BitVec 32) (p : Fin 8) (q : Fin 5) : Fin Nn := row (wrap (ap (ix2 p q)))

/-- A rank-2 array as a function of its two coordinates. -/
def fn2 {α : Type} {a b : ℕ} (A : (⟨2, ![a, b]⟩ : Shape).Idx → α) : Fin a → Fin b → α := fun i j => A (ix2 i j)
/-- A rank-1 array as a function of its coordinate. -/
def fn1 {α : Type} {a : ℕ} (A : (⟨1, ![a]⟩ : Shape).Idx → α) : Fin a → α := fun i => A (ix1 i)
/-- A rank-3 array as a function of its three coordinates. -/
def fn3 {α : Type} {a b c : ℕ} (A : (⟨3, ![a, b, c]⟩ : Shape).Idx → α) : Fin a → Fin b → Fin c → α := fun i j k => A (ix3 i j k)

end Cert.Gcn

end
-- ==== Proof.LibGatherRows.lean ====
/-
  `stablehlo.gather` of whole ROWS of a two-axis table, read at an index.

  What `table[idx]` lowers to for a table `[N, C]` and an integer array `idx`: operand axis 0 is
  collapsed and is the one axis the start index names; operand axis 1 is an offset axis taken
  whole (slice size `C`). On axis 0 the slice has size 1, so the start index — read as a signed
  integer — is clamped into `[0, N − 1]`; on axis 1 the slice is the whole axis, the start is `0`
  and the coordinate is the result's own column. Hence result element `(r, c)` (or `(r, k, c)`)
  is the table at row `min idx[r].toNat (N − 1)`, column `c`. Two index ranks are treated:
  start indices `[R, 1]` (result `[R, C]`) and `[R, K, 1]` (result `[R, K, C]`).
-/
import Idealize.ShloMosaic.Lib.ValueIdx

noncomputable section

open Idealize.ShloMosaic
open Idealize.ShloMosaic.ValueIdx

namespace Cert.LibGatherRows

variable {α : Type}

/-! ## Start indices `[R, 1]`: result `[R, C]` -/

/-- The row gather's dimension numbers for a table `[N, C]`, start indices `[R, 1]` and result
    `[R, C]`: axis 0 collapsed and named by the start index map, axis 1 an offset axis taken
    whole, the index vector on the start indices' last axis. Their conditions `wf` are decided
    on a program's literal extents. -/
abbrev rowsDims (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The start-indices index `[r, 0]` of result index `(r, c)`. -/
abbrev rowsIdx {R C : Nat} (y : (⟨2, ![R, C]⟩ : Shape).Idx) : (⟨2, ![R, 1]⟩ : Shape).Idx :=
  fun a => match a with | ⟨0, _⟩ => ⟨(y 0).val, idx2_lt0 y⟩ | ⟨1, _⟩ => ⟨0, Nat.one_pos⟩

/-- THE ROW GATHER READ AT `(r, c)`: the table at row `idx[r, 0]`, read signed and clamped into
    `[0, N − 1]`, and column `c`. -/
theorem gather_rows_apply {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (y : (⟨2, ![R, C]⟩ : Shape).Idx) :
    Host.gather (rowsDims N C R wf) x idx y
      = x (ix2 ⟨min (idx (rowsIdx y)).toInt.toNat (N - 1), by omega⟩ ⟨(y 1).val, idx2_lt1 y⟩) := by
  unfold Host.gather
  congr 1
  funext a
  refine Fin.ext ?_
  match a with
  | ⟨0, _⟩ =>
    -- the collapsed axis: the clamped start index, no batching and no offset coordinate
    show (rowsDims N C R wf).start y idx 0 + (rowsDims N C R wf).batchCoord y 0 + (rowsDims N C R wf).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N C R wf).startIndexMap from List.mem_singleton.mpr rfl)]
    have hsi : (rowsDims N C R wf).siIdx y ⟨List.idxOf (0 : Fin 2) (rowsDims N C R wf).startIndexMap,
        List.idxOf_lt_length_iff.2 (List.mem_singleton.mpr rfl)⟩ = rowsIdx y := by
      funext b; refine Fin.ext ?_
      match b with
      | ⟨0, _⟩ => rfl
      | ⟨1, _⟩ => rfl
    rw [hsi]
    rfl
  | ⟨1, _⟩ =>
    -- the offset axis: the slice is the whole axis, so start 0, and the coordinate is the result's column
    show (rowsDims N C R wf).start y idx 1 + (rowsDims N C R wf).batchCoord y 1 + (rowsDims N C R wf).offCoord y 1 = (y 1).val
    rw [GatherDims.batchCoord_eq_zero _ _ _ List.not_mem_nil]
    unfold GatherDims.start
    rw [dif_neg (show (1 : Fin 2) ∉ ([0] : List (Fin 2)) from by decide)]
    simp only [Nat.zero_add, Nat.add_zero]
    unfold GatherDims.offCoord
    rw [dif_pos ((GatherDims.mem_sKept _ _).mpr
      ⟨show (1 : Fin 2) ∉ ([0] : List (Fin 2)) from by decide, List.not_mem_nil⟩)]
    rfl

/-- The row gather at an index in range: when `0 ≤ idx[r, 0] < N` as integers, no clamp acts and
    the row read is `idx[r, 0]` itself. -/
theorem gather_rows_apply_of_inRange {N C R w : Nat}
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (y : (⟨2, ![R, C]⟩ : Shape).Idx)
    (h0 : 0 ≤ (idx (rowsIdx y)).toInt) (hlt : (idx (rowsIdx y)).toInt < (N : Int)) :
    Host.gather (rowsDims N C R wf) x idx y
      = x (ix2 ⟨(idx (rowsIdx y)).toInt.toNat, by omega⟩ ⟨(y 1).val, idx2_lt1 y⟩) := by
  have hN : 0 < N := by omega
  have hmin : min (idx (rowsIdx y)).toInt.toNat (N - 1) = (idx (rowsIdx y)).toInt.toNat := by omega
  have hfin : (⟨min (idx (rowsIdx y)).toInt.toNat (N - 1), by omega⟩ : Fin N)
      = ⟨(idx (rowsIdx y)).toInt.toNat, by omega⟩ := Fin.ext hmin
  rw [gather_rows_apply hN wf x idx y, hfin]

/-- The start-indices index of result index `(r, c)` is `[r, 0]`. -/
theorem rowsIdx_ix2 {R C : Nat} (r : Fin R) (c : Fin C) : rowsIdx (ix2 r c) = ix2 r (0 : Fin 1) := by
  funext a; match a with | ⟨0, _⟩ => rfl | ⟨1, _⟩ => rfl

/-- The row gather read at `(r, c)`, the indices written by coordinates: the table at row
    `idx[r, 0]`, read signed and clamped into `[0, N − 1]`, and column `c`. -/
theorem gather_rows_ix2 {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowsDims N C R wf) x idx (ix2 r c)
      = x (ix2 ⟨min (idx (ix2 r (0 : Fin 1))).toInt.toNat (N - 1), by omega⟩ c) := by
  have h := gather_rows_apply hN wf x idx (ix2 r c)
  simp only [rowsIdx_ix2] at h
  exact h

/-- The same at an index in range: when `0 ≤ idx[r, 0] < N` the row read is `idx[r, 0]` itself. -/
theorem gather_rows_ix2_of_inRange {N C R w : Nat}
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C)
    (h0 : 0 ≤ (idx (ix2 r (0 : Fin 1))).toInt) (hlt : (idx (ix2 r (0 : Fin 1))).toInt < (N : Int)) :
    Host.gather (rowsDims N C R wf) x idx (ix2 r c)
      = x (ix2 ⟨(idx (ix2 r (0 : Fin 1))).toInt.toNat, by omega⟩ c) := by
  have hN : 0 < N := by omega
  have hmin : min (idx (ix2 r (0 : Fin 1))).toInt.toNat (N - 1) = (idx (ix2 r (0 : Fin 1))).toInt.toNat := by omega
  have hfin : (⟨min (idx (ix2 r (0 : Fin 1))).toInt.toNat (N - 1), by omega⟩ : Fin N)
      = ⟨(idx (ix2 r (0 : Fin 1))).toInt.toNat, by omega⟩ := Fin.ext hmin
  rw [gather_rows_ix2 hN wf x idx r c, hfin]

/-! ## Start indices `[R, K, 1]`: result `[R, K, C]` -/

/-- A rank-3 index's first coordinate is below the first extent, written as `n0` itself. -/
theorem idx3_lt0 {n0 n1 n2 : Nat} (j : (⟨3, ![n0, n1, n2]⟩ : Shape).Idx) : (j 0).val < n0 := (j 0).isLt
/-- A rank-3 index's second coordinate is below the second extent, written as `n1` itself. -/
theorem idx3_lt1 {n0 n1 n2 : Nat} (j : (⟨3, ![n0, n1, n2]⟩ : Shape).Idx) : (j 1).val < n1 := (j 1).isLt
/-- A rank-3 index's third coordinate is below the third extent, written as `n2` itself. -/
theorem idx3_lt2 {n0 n1 n2 : Nat} (j : (⟨3, ![n0, n1, n2]⟩ : Shape).Idx) : (j 2).val < n2 := (j 2).isLt

/-- The row gather's dimension numbers for a table `[N, C]`, start indices `[R, K, 1]` and result
    `[R, K, C]`: axis 0 collapsed and named by the start index map, axis 1 an offset axis taken
    whole (the result's last axis), the index vector on the start indices' last axis. -/
abbrev rows3Dims (N C R K : Nat)
    (wf : GatherDims.WF ⟨2, ![N, C]⟩ ⟨3, ![R, K, 1]⟩ ⟨3, ![R, K, C]⟩ [2] [0] [] [0] [] 2 ![1, C]) :
    GatherDims ⟨2, ![N, C]⟩ ⟨3, ![R, K, 1]⟩ ⟨3, ![R, K, C]⟩ where
  offsetDims := [2]
  collapsedSliceDims := [0]
  operandBatchingDims := []
  startIndicesBatchingDims := []
  startIndexMap := [0]
  indexVectorDim := 2
  sliceSizes := ![1, C]
  wf := wf

/-- The start-indices index `[r, k, 0]` of result index `(r, k, c)`. -/
abbrev rows3Idx {R K C : Nat} (y : (⟨3, ![R, K, C]⟩ : Shape).Idx) : (⟨3, ![R, K, 1]⟩ : Shape).Idx :=
  fun a => match a with
    | ⟨0, _⟩ => ⟨(y 0).val, idx3_lt0 y⟩ | ⟨1, _⟩ => ⟨(y 1).val, idx3_lt1 y⟩ | ⟨2, _⟩ => ⟨0, Nat.one_pos⟩

/-- THE ROW GATHER READ AT `(r, k, c)`: the table at row `idx[r, k, 0]`, read signed and clamped
    into `[0, N − 1]`, and column `c`. -/
theorem gather_rows3_apply {N C R K w : Nat} (hN : 0 < N)
    (wf : GatherDims.WF ⟨2, ![N, C]⟩ ⟨3, ![R, K, 1]⟩ ⟨3, ![R, K, C]⟩ [2] [0] [] [0] [] 2 ![1, C])
    (x : (⟨2, ![N, C]⟩ : Shape).Idx → α) (idx : IVec ⟨3, ![R, K, 1]⟩ w) (y : (⟨3, ![R, K, C]⟩ : Shape).Idx) :
    Host.gather (rows3Dims N C R K wf) x idx y
      = x (ix2 ⟨min (idx (rows3Idx y)).toInt.toNat (N - 1), by omega⟩ ⟨(y 2).val, idx3_lt2 y⟩) := by
  unfold Host.gather
  congr 1
  funext a
  refine Fin.ext ?_
  match a with
  | ⟨0, _⟩ =>
    -- the collapsed axis: the clamped start index, no batching and no offset coordinate
    show (rows3Dims N C R K wf).start y idx 0 + (rows3Dims N C R K wf).batchCoord y 0
      + (rows3Dims N C R K wf).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rows3Dims N C R K wf).startIndexMap from List.mem_singleton.mpr rfl)]
    have hsi : (rows3Dims N C R K wf).siIdx y ⟨List.idxOf (0 : Fin 2) (rows3Dims N C R K wf).startIndexMap,
        List.idxOf_lt_length_iff.2 (List.mem_singleton.mpr rfl)⟩ = rows3Idx y := by
      funext b; refine Fin.ext ?_
      match b with
      | ⟨0, _⟩ => rfl
      | ⟨1, _⟩ => rfl
      | ⟨2, _⟩ => rfl
    rw [hsi]
    rfl
  | ⟨1, _⟩ =>
    -- the offset axis: the slice is the whole axis, so start 0, and the coordinate is the result's last one
    show (rows3Dims N C R K wf).start y idx 1 + (rows3Dims N C R K wf).batchCoord y 1
      + (rows3Dims N C R K wf).offCoord y 1 = (y 2).val
    rw [GatherDims.batchCoord_eq_zero _ _ _ List.not_mem_nil]
    unfold GatherDims.start
    rw [dif_neg (show (1 : Fin 2) ∉ ([0] : List (Fin 2)) from by decide)]
    simp only [Nat.zero_add, Nat.add_zero]
    unfold GatherDims.offCoord
    rw [dif_pos ((GatherDims.mem_sKept _ _).mpr
      ⟨show (1 : Fin 2) ∉ ([0] : List (Fin 2)) from by decide, List.not_mem_nil⟩)]
    rfl

/-- The row gather at an index in range: when `0 ≤ idx[r, k, 0] < N` as integers, no clamp acts
    and the row read is `idx[r, k, 0]` itself. -/
theorem gather_rows3_apply_of_inRange {N C R K w : Nat}
    (wf : GatherDims.WF ⟨2, ![N, C]⟩ ⟨3, ![R, K, 1]⟩ ⟨3, ![R, K, C]⟩ [2] [0] [] [0] [] 2 ![1, C])
    (x : (⟨2, ![N, C]⟩ : Shape).Idx → α) (idx : IVec ⟨3, ![R, K, 1]⟩ w) (y : (⟨3, ![R, K, C]⟩ : Shape).Idx)
    (h0 : 0 ≤ (idx (rows3Idx y)).toInt) (hlt : (idx (rows3Idx y)).toInt < (N : Int)) :
    Host.gather (rows3Dims N C R K wf) x idx y
      = x (ix2 ⟨(idx (rows3Idx y)).toInt.toNat, by omega⟩ ⟨(y 2).val, idx3_lt2 y⟩) := by
  have hN : 0 < N := by omega
  have hmin : min (idx (rows3Idx y)).toInt.toNat (N - 1) = (idx (rows3Idx y)).toInt.toNat := by omega
  have hfin : (⟨min (idx (rows3Idx y)).toInt.toNat (N - 1), by omega⟩ : Fin N)
      = ⟨(idx (rows3Idx y)).toInt.toNat, by omega⟩ := Fin.ext hmin
  rw [gather_rows3_apply hN wf x idx y, hfin]

/-- The start-indices index of result index `(r, k, c)` is `[r, k, 0]`. -/
theorem rows3Idx_ix3 {R K C : Nat} (r : Fin R) (k : Fin K) (c : Fin C) :
    rows3Idx (ix3 r k c) = ix3 r k (0 : Fin 1) := by
  funext a; match a with | ⟨0, _⟩ => rfl | ⟨1, _⟩ => rfl | ⟨2, _⟩ => rfl

/-- The row gather read at `(r, k, c)`, the indices written by coordinates: the table at row
    `idx[r, k, 0]`, read signed and clamped into `[0, N − 1]`, and column `c`. -/
theorem gather_rows3_ix3 {N C R K w : Nat} (hN : 0 < N)
    (wf : GatherDims.WF ⟨2, ![N, C]⟩ ⟨3, ![R, K, 1]⟩ ⟨3, ![R, K, C]⟩ [2] [0] [] [0] [] 2 ![1, C])
    (x : (⟨2, ![N, C]⟩ : Shape).Idx → α) (idx : IVec ⟨3, ![R, K, 1]⟩ w) (r : Fin R) (k : Fin K) (c : Fin C) :
    Host.gather (rows3Dims N C R K wf) x idx (ix3 r k c)
      = x (ix2 ⟨min (idx (ix3 r k (0 : Fin 1))).toInt.toNat (N - 1), by omega⟩ c) := by
  have h := gather_rows3_apply hN wf x idx (ix3 r k c)
  simp only [rows3Idx_ix3] at h
  exact h

/-- The same at an index in range: when `0 ≤ idx[r, k, 0] < N` the row read is `idx[r, k, 0]` itself. -/
theorem gather_rows3_ix3_of_inRange {N C R K w : Nat}
    (wf : GatherDims.WF ⟨2, ![N, C]⟩ ⟨3, ![R, K, 1]⟩ ⟨3, ![R, K, C]⟩ [2] [0] [] [0] [] 2 ![1, C])
    (x : (⟨2, ![N, C]⟩ : Shape).Idx → α) (idx : IVec ⟨3, ![R, K, 1]⟩ w) (r : Fin R) (k : Fin K) (c : Fin C)
    (h0 : 0 ≤ (idx (ix3 r k (0 : Fin 1))).toInt) (hlt : (idx (ix3 r k (0 : Fin 1))).toInt < (N : Int)) :
    Host.gather (rows3Dims N C R K wf) x idx (ix3 r k c)
      = x (ix2 ⟨(idx (ix3 r k (0 : Fin 1))).toInt.toNat, by omega⟩ c) := by
  have hN : 0 < N := by omega
  have hmin : min (idx (ix3 r k (0 : Fin 1))).toInt.toNat (N - 1)
      = (idx (ix3 r k (0 : Fin 1))).toInt.toNat := by omega
  have hfin : (⟨min (idx (ix3 r k (0 : Fin 1))).toInt.toNat (N - 1), by omega⟩ : Fin N)
      = ⟨(idx (ix3 r k (0 : Fin 1))).toInt.toNat, by omega⟩ := Fin.ext hmin
  rw [gather_rows3_ix3 hN wf x idx r k c, hfin]

end Cert.LibGatherRows
-- ==== Proof.LibScatterAddRows.lean ====
/-
  `stablehlo.scatter` with an `add` body of whole ROWS into a two-axis table (and of scalars
  into a one-axis table), read at one entry, over the extended reals.

  What `x.at[idx].add(v)` / a segment sum lowers to for a table `[N, C]`, scatter indices
  `[R, 1]` and updates `[R, C]`: operand axis 0 is an inserted window axis and the one axis the
  scatter index names; operand axis 1 is a window axis taken whole. Update `(e, c')` therefore
  lands at row `idx[e, 0]` — read as a signed integer, NOT clamped: an index outside `[0, N)`
  drops the update — and column `c'`. Hence entry `(n, c)` of the result is the operand's entry
  plus the sum of `upd (e, c)` over the rows `e` whose index is `n`. The one-axis form
  (table `[N]`, updates `[R]`) is the same without the column.
-/
import Idealize.ShloMosaic.PureOps.Ideal
import Idealize.ShloMosaic.PureOps.Ideal.Laws
import Idealize.ShloMosaic.Lib.ValueIdx

noncomputable section

open Idealize.ShloMosaic
open Idealize.ShloMosaic.ValueIdx
open scoped BigOperators

namespace Cert.LibScatterAddRows

/-! ## Table `[N, C]`, scatter indices `[R, 1]`, updates `[R, C]` -/

/-- The row scatter's dimension numbers for a table `[N, C]`, scatter indices `[R, 1]` and updates
    `[R, C]`: updates axis 1 a window axis, operand axis 0 inserted and named by the scatter index,
    the index vector on the scatter indices' last axis. Their conditions `wf` are decided on a
    program's literal extents. -/
abbrev rowsAddDims (N C R : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

section Rows

variable {N C R w : Nat}
  (wf : ScatterDims.WF ⟨2, ![N, C]⟩ ⟨2, ![R, 1]⟩ ⟨2, ![R, C]⟩ [1] [0] [0] 1)
  (idx : IVec ⟨2, ![R, 1]⟩ w)

/-- On the row axis the window of update `(e, c')` starts at the scatter index `idx[e, 0]`, read signed. -/
theorem rows_start0 (e : Fin R) (c' : Fin C) :
    (rowsAddDims N C R wf).start (ix2 e c') idx 0 = (idx (ix2 e (0 : Fin 1))).toInt := by
  unfold ScatterDims.start
  rw [dif_pos (show (0 : Fin 2) ∈ (rowsAddDims N C R wf).scatterDimsToOperandDims from List.mem_singleton.mpr rfl)]
  have hsi : (rowsAddDims N C R wf).siIdx (ix2 e c') ⟨List.idxOf (0 : Fin 2) (rowsAddDims N C R wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis, which no scatter index names, the window starts at `0`. -/
theorem rows_start1 (e : Fin R) (c' : Fin C) :
    (rowsAddDims N C R wf).start (ix2 e c') idx 1 = 0 := by
  unfold ScatterDims.start
  rw [dif_neg (show (1 : Fin 2) ∉ ([0] : List (Fin 2)) from by decide)]

/-- The row axis is inserted: no window coordinate there. -/
theorem rows_window0 (e : Fin R) (c' : Fin C) :
    (rowsAddDims N C R wf).window (ix2 e c') 0 = 0 := by
  unfold ScatterDims.window
  have h : (0 : Fin 2) ∉ (rowsAddDims N C R wf).sKept := by
    show (0 : Fin 2) ∉ (List.finRange 2).filter (· ∉ ([0] : List (Fin 2)))
    decide
  rw [dif_neg h]

/-- On the column axis the window coordinate is the update's own column. -/
theorem rows_window1 (e : Fin R) (c' : Fin C) :
    (rowsAddDims N C R wf).window (ix2 e c') 1 = c'.val := by
  unfold ScatterDims.window
  have h : (1 : Fin 2) ∈ (rowsAddDims N C R wf).sKept := by
    show (1 : Fin 2) ∈ (List.finRange 2).filter (· ∉ ([0] : List (Fin 2)))
    decide
  rw [dif_pos h]
  rfl

/-- Update `(e, c')` lands at entry `(n, c)` exactly when its scatter index, read signed, is `n`
    and its column is `c` (an index outside `[0, N)` lands nowhere). -/
theorem rows_resultIdx_iff (e : Fin R) (c' : Fin C) (n : Fin N) (c : Fin C) :
    (rowsAddDims N C R wf).resultIdx? (ix2 e c') idx = some (ix2 n c)
      ↔ (idx (ix2 e (0 : Fin 1))).toInt = (n.val : Int) ∧ c' = c := by
  unfold ScatterDims.resultIdx?
  constructor
  · intro h
    split at h
    · rename_i hall
      have hf := Option.some.inj h
      have h0 : ((rowsAddDims N C R wf).start (ix2 e c') idx 0 + (rowsAddDims N C R wf).window (ix2 e c') 0).toNat = n.val :=
        congrArg (fun f => (f 0).val) hf
      have h1 : ((rowsAddDims N C R wf).start (ix2 e c') idx 1 + (rowsAddDims N C R wf).window (ix2 e c') 1).toNat = c.val :=
        congrArg (fun f => (f 1).val) hf
      have b0 := (hall 0).1
      rw [rows_start0, rows_window0] at h0 b0
      rw [rows_start1, rows_window1] at h1
      exact ⟨by omega, Fin.ext (by omega)⟩
    · exact absurd h (by simp)
  · rintro ⟨h0, rfl⟩
    have hall : ∀ a, 0 ≤ (rowsAddDims N C R wf).start (ix2 e c') idx a + (rowsAddDims N C R wf).window (ix2 e c') a
        ∧ (rowsAddDims N C R wf).start (ix2 e c') idx a + (rowsAddDims N C R wf).window (ix2 e c') a
          < ((⟨2, ![N, C]⟩ : Shape).size a : Nat) := by
      intro a
      match a with
      | ⟨0, _⟩ =>
        show 0 ≤ (rowsAddDims N C R wf).start (ix2 e c') idx 0 + (rowsAddDims N C R wf).window (ix2 e c') 0
          ∧ (rowsAddDims N C R wf).start (ix2 e c') idx 0 + (rowsAddDims N C R wf).window (ix2 e c') 0 < (N : Int)
        rw [rows_start0, rows_window0, h0]
        have := n.isLt
        omega
      | ⟨1, _⟩ =>
        show 0 ≤ (rowsAddDims N C R wf).start (ix2 e c') idx 1 + (rowsAddDims N C R wf).window (ix2 e c') 1
          ∧ (rowsAddDims N C R wf).start (ix2 e c') idx 1 + (rowsAddDims N C R wf).window (ix2 e c') 1 < (C : Int)
        rw [rows_start1, rows_window1]
        have := c'.isLt
        omega
    rw [dif_pos hall]
    congr 1
    funext a
    refine Fin.ext ?_
    match a with
    | ⟨0, _⟩ =>
      show ((rowsAddDims N C R wf).start (ix2 e c') idx 0 + (rowsAddDims N C R wf).window (ix2 e c') 0).toNat = n.val
      rw [rows_start0, rows_window0, h0]
      omega
    | ⟨1, _⟩ =>
      show ((rowsAddDims N C R wf).start (ix2 e c') idx 1 + (rowsAddDims N C R wf).window (ix2 e c') 1).toNat = c'.val
      rw [rows_start1, rows_window1]
      omega

end Rows

/-- THE ROW SCATTER-ADD READ AT `(n, c)`: the operand's entry plus the sum, over the update rows `e`
    whose scatter index `idx[e, 0]` (read signed) is `n`, of the update at `(e, c)`. -/
theorem scatterAdd_rows_ix2 {N C R w : Nat}
    (wf : ScatterDims.WF ⟨2, ![N, C]⟩ ⟨2, ![R, 1]⟩ ⟨2, ![R, C]⟩ [1] [0] [0] 1)
    (x : (⟨2, ![N, C]⟩ : Shape).Idx → EReal) (idx : IVec ⟨2, ![R, 1]⟩ w)
    (upd : (⟨2, ![R, C]⟩ : Shape).Idx → EReal) (n : Fin N) (c : Fin C) :
    Ideal.hostScatterAdd (rowsAddDims N C R wf) x idx upd (ix2 n c)
      = x (ix2 n c) + ∑ e ∈ Finset.univ.filter
          (fun e : Fin R => (idx (ix2 e (0 : Fin 1))).toInt = (n.val : Int)), upd (ix2 e c) := by
  unfold Ideal.hostScatterAdd
  congr 1
  rw [Finset.sum_filter, sum_idx2, Finset.sum_filter]
  refine Finset.sum_congr rfl fun e _ => ?_
  have hterm : ∀ c' : Fin C,
      (if (rowsAddDims N C R wf).resultIdx? (ix2 e c') idx = some (ix2 n c) then upd (ix2 e c') else 0)
        = if c' = c then (if (idx (ix2 e (0 : Fin 1))).toInt = (n.val : Int) then upd (ix2 e c) else 0) else 0 := by
    intro c'
    by_cases hc : c' = c
    · subst hc
      rw [if_pos rfl]
      exact if_congr ((rows_resultIdx_iff wf idx e c' n c').trans (and_iff_left rfl)) rfl rfl
    · rw [if_neg hc, if_neg]
      exact fun h => hc ((rows_resultIdx_iff wf idx e c' n c).mp h).2
  rw [Finset.sum_congr rfl fun c' _ => hterm c', Finset.sum_ite_eq' Finset.univ c, if_pos (Finset.mem_univ c)]

/-! ## Table `[N]`, scatter indices `[R, 1]`, updates `[R]` -/

/-- The scalar scatter's dimension numbers for a table `[N]`, scatter indices `[R, 1]` and updates
    `[R]`: no window axis, the operand's one axis inserted and named by the scatter index, the index
    vector on the scatter indices' last axis. -/
abbrev vecAddDims (N R : Nat)
    (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

section Vec

variable {N R w : Nat}
  (wf : ScatterDims.WF ⟨1, ![N]⟩ ⟨2, ![R, 1]⟩ ⟨1, ![R]⟩ [] [0] [0] 1)
  (idx : IVec ⟨2, ![R, 1]⟩ w)

/-- The window of update `e` starts at the scatter index `idx[e, 0]`, read signed. -/
theorem vec_start0 (e : Fin R) :
    (vecAddDims N R wf).start (ix1 e) idx 0 = (idx (ix2 e (0 : Fin 1))).toInt := by
  unfold ScatterDims.start
  rw [dif_pos (show (0 : Fin 1) ∈ (vecAddDims N R wf).scatterDimsToOperandDims from List.mem_singleton.mpr rfl)]
  have hsi : (vecAddDims N R wf).siIdx (ix1 e) ⟨List.idxOf (0 : Fin 1) (vecAddDims N R wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The operand's one axis is inserted: no window coordinate. -/
theorem vec_window0 (e : Fin R) : (vecAddDims N R wf).window (ix1 e) 0 = 0 := by
  unfold ScatterDims.window
  have h : (0 : Fin 1) ∉ (vecAddDims N R wf).sKept := by
    show (0 : Fin 1) ∉ (List.finRange 1).filter (· ∉ ([0] : List (Fin 1)))
    decide
  rw [dif_neg h]

/-- Update `e` lands at entry `n` exactly when its scatter index, read signed, is `n` (an index
    outside `[0, N)` lands nowhere). -/
theorem vec_resultIdx_iff (e : Fin R) (n : Fin N) :
    (vecAddDims N R wf).resultIdx? (ix1 e) idx = some (ix1 n)
      ↔ (idx (ix2 e (0 : Fin 1))).toInt = (n.val : Int) := by
  unfold ScatterDims.resultIdx?
  constructor
  · intro h
    split at h
    · rename_i hall
      have hf := Option.some.inj h
      have h0 : ((vecAddDims N R wf).start (ix1 e) idx 0 + (vecAddDims N R wf).window (ix1 e) 0).toNat = n.val :=
        congrArg (fun f => (f 0).val) hf
      have b0 := (hall 0).1
      rw [vec_start0, vec_window0] at h0 b0
      omega
    · exact absurd h (by simp)
  · intro h0
    have hall : ∀ a, 0 ≤ (vecAddDims N R wf).start (ix1 e) idx a + (vecAddDims N R wf).window (ix1 e) a
        ∧ (vecAddDims N R wf).start (ix1 e) idx a + (vecAddDims N R wf).window (ix1 e) a
          < ((⟨1, ![N]⟩ : Shape).size a : Nat) := by
      intro a
      match a with
      | ⟨0, _⟩ =>
        show 0 ≤ (vecAddDims N R wf).start (ix1 e) idx 0 + (vecAddDims N R wf).window (ix1 e) 0
          ∧ (vecAddDims N R wf).start (ix1 e) idx 0 + (vecAddDims N R wf).window (ix1 e) 0 < (N : Int)
        rw [vec_start0, vec_window0, h0]
        have := n.isLt
        omega
    rw [dif_pos hall]
    congr 1
    funext a
    refine Fin.ext ?_
    match a with
    | ⟨0, _⟩ =>
      show ((vecAddDims N R wf).start (ix1 e) idx 0 + (vecAddDims N R wf).window (ix1 e) 0).toNat = n.val
      rw [vec_start0, vec_window0, h0]
      omega

end Vec

/-- THE SCALAR SCATTER-ADD READ AT `n`: the operand's entry plus the sum, over the updates `e` whose
    scatter index `idx[e, 0]` (read signed) is `n`, of the update `e`. -/
theorem scatterAdd_vec_ix1 {N R w : Nat}
    (wf : ScatterDims.WF ⟨1, ![N]⟩ ⟨2, ![R, 1]⟩ ⟨1, ![R]⟩ [] [0] [0] 1)
    (x : (⟨1, ![N]⟩ : Shape).Idx → EReal) (idx : IVec ⟨2, ![R, 1]⟩ w)
    (upd : (⟨1, ![R]⟩ : Shape).Idx → EReal) (n : Fin N) :
    Ideal.hostScatterAdd (vecAddDims N R wf) x idx upd (ix1 n)
      = x (ix1 n) + ∑ e ∈ Finset.univ.filter
          (fun e : Fin R => (idx (ix2 e (0 : Fin 1))).toInt = (n.val : Int)), upd (ix1 e) := by
  unfold Ideal.hostScatterAdd
  congr 1
  rw [Finset.sum_filter, sum_idx1, Finset.sum_filter]
  exact Finset.sum_congr rfl fun e _ => if_congr (vec_resultIdx_iff wf idx e n) rfl rfl

end Cert.LibScatterAddRows
-- ==== Proof.LibExtReal.lean ====
/-
  General laws of the extended reals under the exact float operations, used to join two
  arrangements of the same computation: a clamp taken under a square root or on its square, a
  variance written as the mean of squared deviations or as the mean of squares less the squared
  mean, a sum over rows regrouped into equal tiles, a dot product over a zero-padded axis, and
  the closure of the finite values (the coerced reals) under the operations that occur.
  Nothing here mentions a program.
-/
import Idealize.ShloMosaic.PureOps.Ideal
import Idealize.ShloMosaic.PureOps.Ideal.Laws
import Idealize.ShloMosaic.Lib.ValueIdx

noncomputable section

namespace Cert.LibExtReal

open Idealize.ShloMosaic
open scoped BigOperators

/-! ## The clamp: under the root, or on the square -/

/-- The coercion of the reals into the extended reals commutes with `max`. -/
theorem coe_max (a b : ℝ) : ((max a b : ℝ) : EReal) = max (a : EReal) (b : EReal) :=
  EReal.coe_strictMono.monotone.map_max

/-- For a real `d ≥ 0` and EVERY extended real `s` (negative, `⊥` and `⊤` included): clamping the
    square root of `s` from below at `d` is the square root of `s` clamped from below at `d * d`.
    (Below zero the root is the junk `⊥`, which the clamp replaces by `d`; on the right the clamp
    replaces `s` by `d * d`, whose root is `d`.) -/
theorem max_sqrt_coe {d : ℝ} (hd : 0 ≤ d) (s : EReal) :
    max (Ideal.sqrt s) (d : EReal) = Ideal.sqrt (max s ((d * d : ℝ) : EReal)) := by
  have hsq : Real.sqrt (d * d) = d := Real.sqrt_mul_self hd
  have hdd : (0 : ℝ) ≤ d * d := mul_self_nonneg d
  induction s using EReal.rec with
  | bot =>
    rw [Ideal.sqrt_bot, max_eq_right bot_le, max_eq_right bot_le, Ideal.sqrt_coe,
      if_neg (not_lt.mpr hdd), hsq]
  | top => rw [Ideal.sqrt_top, max_eq_left le_top, max_eq_left le_top, Ideal.sqrt_top]
  | coe r =>
    rw [Ideal.sqrt_coe]
    by_cases hr : r < 0
    · rw [if_pos hr, max_eq_right bot_le,
        max_eq_right (EReal.coe_le_coe_iff.mpr (hr.le.trans hdd)), Ideal.sqrt_coe,
        if_neg (not_lt.mpr hdd), hsq]
    · have hr0 : 0 ≤ r := not_lt.mp hr
      rw [if_neg hr, ← coe_max, ← coe_max, Ideal.sqrt_coe,
        if_neg (not_lt.mpr (le_max_of_le_left hr0)), Real.sqrt_monotone.map_max, hsq]

/-- For an extended real `m > 0` (`⊤` included) and EVERY extended real `o`: the quotient of `o` by
    the square root of `m` is the product of `o` with the reciprocal square root of `m`. -/
theorem div_sqrt_eq_mul_rsqrt (o : EReal) {m : EReal} (hm : 0 < m) :
    Ideal.div o (Ideal.sqrt m) = o * Ideal.rsqrt m := by
  induction m using EReal.rec with
  | bot => exact absurd hm (not_lt.mpr bot_le)
  | top =>
    rw [Ideal.sqrt_top, Ideal.rsqrt_top, Ideal.div, if_neg EReal.top_ne_zero, EReal.inv_top]
  | coe r =>
    have hr : 0 < r := EReal.coe_pos.mp hm
    have hs : Real.sqrt r ≠ 0 := (Real.sqrt_pos.mpr hr).ne'
    rw [Ideal.sqrt_coe, Ideal.rsqrt_coe, if_neg (not_lt.mpr hr.le), if_neg (not_lt.mpr hr.le),
      if_neg hr.ne', Ideal.div, if_neg (EReal.coe_ne_zero.mpr hs), EReal.coe_inv]

/-- The clamp of a row norm: `2305843 / 2^61`. -/
abbrev D : EReal := ((2305843 / 2305843009213693952 : ℝ) : EReal)

/-- The clamp of a row's sum of squares: `5316911940649 / 2^122`, the square of `D`. -/
abbrev D2 : EReal := ((5316911940649 / 5316911983139663491615228241121378304 : ℝ) : EReal)

/-- The second clamp is the square of the first, as real numbers. -/
theorem d_mul_d_real :
    (2305843 / 2305843009213693952 : ℝ) * (2305843 / 2305843009213693952 : ℝ)
      = 5316911940649 / 5316911983139663491615228241121378304 := by norm_num

/-- `D * D = D2` on the extended reals. -/
theorem D_mul_D : D * D = D2 := by
  show ((2305843 / 2305843009213693952 : ℝ) : EReal) * ((2305843 / 2305843009213693952 : ℝ) : EReal) = _
  rw [← EReal.coe_mul, d_mul_d_real]

/-- `D2` is positive. -/
theorem D2_pos : 0 < D2 := EReal.coe_pos.mpr (by norm_num)

/-- For EVERY extended real `s` (no hypothesis): `max (√s) D = √(max s D2)`. -/
theorem max_sqrt_D (s : EReal) : max (Ideal.sqrt s) D = Ideal.sqrt (max s D2) := by
  have h := max_sqrt_coe (d := 2305843 / 2305843009213693952) (by norm_num) s
  rw [d_mul_d_real] at h
  exact h

/-- For EVERY extended reals `o` and `s` (no finiteness, no sign hypothesis): dividing `o` by the
    clamped root `max (√s) D` is multiplying `o` by the reciprocal root of the clamped square,
    `rsqrt (max s D2)`. -/
theorem div_max_sqrt_D (o s : EReal) :
    Ideal.div o (max (Ideal.sqrt s) D) = o * Ideal.rsqrt (max s D2) := by
  rw [max_sqrt_D, div_sqrt_eq_mul_rsqrt o (lt_of_lt_of_le D2_pos (le_max_right s D2))]

/-- The same through the fields of the exact float instance, as the two programs spell them: the
    host's quotient by the maximum of the host's square root and `D`, against the product with the
    reciprocal square root of the maximum with `D2`. -/
theorem hostDivf_max_sqrt_D {φ : FTy} (o s : Ideal φ) :
    FloatOps.hostDivf o (FloatOps.maximumf (FloatOps.hostUnary .sqrt s) (D : Ideal φ))
      = FloatOps.mulf o (FloatOps.rsqrt (FloatOps.maximumf s (D2 : Ideal φ))) :=
  div_max_sqrt_D o s

/-! ## Finite values

An extended real is finite when it is a coerced real. The finite values are closed under the
operations below; at `⊥` and `⊤` the laws of the next sections fail, so a proof that uses them
first shows its entries finite. -/

/-- `x` is finite: it is the coercion of a real number. -/
def IsReal (x : EReal) : Prop := ∃ r : ℝ, x = (r : EReal)

/-- A coerced real is finite. -/
theorem isReal_coe (r : ℝ) : IsReal (r : EReal) := ⟨r, rfl⟩

/-- Zero is finite. -/
theorem isReal_zero : IsReal 0 := ⟨0, rfl⟩

/-- One is finite. -/
theorem isReal_one : IsReal 1 := ⟨1, rfl⟩

/-- Finite means neither `⊥` nor `⊤`. -/
theorem isReal_iff {x : EReal} : IsReal x ↔ x ≠ ⊥ ∧ x ≠ ⊤ := by
  constructor
  · rintro ⟨r, rfl⟩
    exact ⟨EReal.coe_ne_bot r, EReal.coe_ne_top r⟩
  · rintro ⟨hb, ht⟩
    induction x using EReal.rec with
    | bot => exact absurd rfl hb
    | top => exact absurd rfl ht
    | coe r => exact ⟨r, rfl⟩

/-- Finite means strictly between `⊥` and `⊤`. -/
theorem isReal_iff_lt {x : EReal} : IsReal x ↔ ⊥ < x ∧ x < ⊤ := by
  rw [isReal_iff, bot_lt_iff_ne_bot, lt_top_iff_ne_top]

/-- The sum of two finite values is finite. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- The difference of two finite values is finite. -/
theorem IsReal.sub {x y : EReal} (hx : IsReal x) (hy : IsReal y) : IsReal (x - y) := by
  obtain ⟨a, rfl⟩ := hx; obtain ⟨b, rfl⟩ := hy; exact ⟨a - b, (EReal.coe_sub a b).symm⟩

/-- The product of two finite values is finite. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The negation of a finite value is finite. -/
theorem IsReal.neg {x : EReal} (hx : IsReal x) : IsReal (-x) := by
  obtain ⟨a, rfl⟩ := hx; exact ⟨-a, (EReal.coe_neg a).symm⟩

/-- The maximum of two finite values is finite. -/
theorem IsReal.max {x y : EReal} (hx : IsReal x) (hy : IsReal y) : IsReal (Max.max x y) := by
  obtain ⟨a, rfl⟩ := hx; obtain ⟨b, rfl⟩ := hy; exact ⟨Max.max a b, (coe_max a b).symm⟩

/-- The minimum of two finite values is finite. -/
theorem IsReal.min {x y : EReal} (hx : IsReal x) (hy : IsReal y) : IsReal (Min.min x y) := by
  obtain ⟨a, rfl⟩ := hx; obtain ⟨b, rfl⟩ := hy
  exact ⟨Min.min a b, (EReal.coe_strictMono.monotone.map_min (a := a) (b := b)).symm⟩

/-- A finite sum of finite values is finite. -/
theorem isReal_sum {ι : Type*} (s : Finset ι) (f : ι → EReal) (h : ∀ i ∈ s, IsReal (f i)) :
    IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))

/-- The sum of finite values over a whole finite index type is finite. -/
theorem isReal_sum_univ {ι : Type*} [Fintype ι] (f : ι → EReal) (h : ∀ i, IsReal (f i)) :
    IsReal (∑ i, f i) :=
  isReal_sum Finset.univ f fun i _ => h i

/-- The exact quotient of a finite value by a finite nonzero value is finite. -/
theorem IsReal.div {x y : EReal} (hx : IsReal x) (hy : IsReal y) (h0 : y ≠ 0) :
    IsReal (Ideal.div x y) := by
  obtain ⟨a, rfl⟩ := hx; obtain ⟨b, rfl⟩ := hy
  rw [Ideal.div_coe (EReal.coe_ne_zero.mp h0), ← EReal.coe_mul]
  exact ⟨_, rfl⟩

/-- The exact reciprocal square root of a finite POSITIVE value is finite. -/
theorem IsReal.rsqrt {x : EReal} (hx : IsReal x) (h0 : 0 < x) : IsReal (Ideal.rsqrt x) := by
  obtain ⟨a, rfl⟩ := hx
  have ha : 0 < a := EReal.coe_pos.mp h0
  rw [Ideal.rsqrt_coe, if_neg (not_lt.mpr ha.le), if_neg ha.ne']
  exact ⟨_, rfl⟩

/-- The exact square root of a finite non-negative value is finite. -/
theorem IsReal.sqrt {x : EReal} (hx : IsReal x) (h0 : 0 ≤ x) : IsReal (Ideal.sqrt x) := by
  obtain ⟨a, rfl⟩ := hx
  rw [Ideal.sqrt_coe, if_neg (not_lt.mpr (EReal.coe_nonneg.mp h0))]
  exact ⟨_, rfl⟩

/-- The exact exponential of a finite value is finite. -/
theorem IsReal.exp {x : EReal} (hx : IsReal x) : IsReal (Ideal.exp x) := by
  obtain ⟨a, rfl⟩ := hx; exact ⟨Real.exp a, rfl⟩

/-- The exact logarithm of a finite POSITIVE value is finite. -/
theorem IsReal.log {x : EReal} (hx : IsReal x) (h0 : 0 < x) : IsReal (Ideal.log x) := by
  obtain ⟨a, rfl⟩ := hx
  rw [Ideal.log_coe, if_neg (not_le.mpr (EReal.coe_pos.mp h0))]
  exact ⟨_, rfl⟩

/-- A finite value times itself is non-negative. -/
theorem IsReal.mul_self_nonneg {x : EReal} (hx : IsReal x) : 0 ≤ x * x := by
  obtain ⟨a, rfl⟩ := hx
  rw [← EReal.coe_mul]; exact EReal.coe_nonneg.mpr (_root_.mul_self_nonneg a)

/-- The clamped sum of squares `max s D2` is positive, for every `s`. -/
theorem max_D2_pos (s : EReal) : 0 < Max.max s D2 := lt_of_lt_of_le D2_pos (le_max_right s D2)

/-! ## The variance: mean of squared deviations, or mean of squares less the squared mean -/

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-- The exact quotient of two coerced reals, the divisor nonzero, is the coerced quotient. -/
theorem div_coe_coe (a : ℝ) {N : ℝ} (h0 : N ≠ 0) :
    Ideal.div (a : EReal) (N : EReal) = ((a / N : ℝ) : EReal) := by
  rw [Ideal.div_coe h0, ← EReal.coe_mul, mul_one_div]

/-- On the reals, over any finite index type with `N` elements (`N ≠ 0`), with `μ = (∑ x) / N`:
    `(∑ (x i - μ)²) / N = (∑ (x i)²) / N - μ²`. -/
theorem variance_real {ι : Type*} [Fintype ι] (x : ι → ℝ) {N : ℝ} (hN : (Fintype.card ι : ℝ) = N)
    (h0 : N ≠ 0) :
    (∑ i, (x i - (∑ j, x j) / N) ^ 2) / N = (∑ i, x i ^ 2) / N - ((∑ j, x j) / N) ^ 2 := by
  have hsum : ∑ i, (x i - (∑ j, x j) / N) ^ 2
      = ∑ i, x i ^ 2 - 2 * ((∑ j, x j) / N) * ∑ j, x j + N * ((∑ j, x j) / N) ^ 2 := by
    have e : ∀ i, (x i - (∑ j, x j) / N) ^ 2
        = x i ^ 2 - 2 * ((∑ j, x j) / N) * x i + ((∑ j, x j) / N) ^ 2 := fun i => by ring
    simp only [e, Finset.sum_add_distrib, Finset.sum_sub_distrib, ← Finset.mul_sum, Finset.sum_const,
      Finset.card_univ, nsmul_eq_mul, hN]
  rw [hsum]
  field_simp
  ring

/-- The same for `n > 0` rows indexed by `Fin n`. -/
theorem variance_real_fin {n : ℕ} (hn : 0 < n) (x : Fin n → ℝ) :
    (∑ i, (x i - (∑ j, x j) / (n : ℝ)) ^ 2) / (n : ℝ)
      = (∑ i, x i ^ 2) / (n : ℝ) - ((∑ j, x j) / (n : ℝ)) ^ 2 :=
  variance_real x (by rw [Fintype.card_fin]) (Nat.cast_ne_zero.mpr hn.ne')

/-- The same with each square written as a product, as the programs write it. -/
theorem variance_real_mul {ι : Type*} [Fintype ι] (x : ι → ℝ) {N : ℝ} (hN : (Fintype.card ι : ℝ) = N)
    (h0 : N ≠ 0) :
    (∑ i, (x i - (∑ j, x j) / N) * (x i - (∑ j, x j) / N)) / N
      = (∑ i, x i * x i) / N - ((∑ j, x j) / N) * ((∑ j, x j) / N) := by
  have h := variance_real x hN h0
  simp only [pow_two] at h
  exact h

/-- On the extended reals, every entry a coerced real, over the exact operations (the sums are
    the extended reals' own, the quotients `Ideal.div` by the coerced count `N ≠ 0`): with
    `m = (∑ x) / N`, `(∑ (x i - m) * (x i - m)) / N = (∑ x i * x i) / N - m * m`. -/
theorem variance_coe {ι : Type*} [Fintype ι] (x : ι → ℝ) {N : ℝ} (hN : (Fintype.card ι : ℝ) = N)
    (h0 : N ≠ 0) :
    Ideal.div (∑ i, ((x i : EReal) - Ideal.div (∑ j, (x j : EReal)) (N : EReal))
        * ((x i : EReal) - Ideal.div (∑ j, (x j : EReal)) (N : EReal))) (N : EReal)
      = Ideal.div (∑ i, (x i : EReal) * (x i : EReal)) (N : EReal)
        - Ideal.div (∑ j, (x j : EReal)) (N : EReal) * Ideal.div (∑ j, (x j : EReal)) (N : EReal) := by
  simp only [← coe_sum, div_coe_coe _ h0, ← EReal.coe_sub, ← EReal.coe_mul]
  exact congrArg _ (variance_real_mul x hN h0)

/-- The same for finite entries given as extended reals: for `y : ι → EReal` with every `y i`
    finite, `N` the number of indices, and `m = (∑ y) / N`:
    `(∑ (y i - m) * (y i - m)) / N = (∑ y i * y i) / N - m * m`. -/
theorem variance_of_isReal {ι : Type*} [Fintype ι] (y : ι → EReal) (hy : ∀ i, IsReal (y i)) {N : ℝ}
    (hN : (Fintype.card ι : ℝ) = N) (h0 : N ≠ 0) :
    Ideal.div (∑ i, (y i - Ideal.div (∑ j, y j) (N : EReal)) * (y i - Ideal.div (∑ j, y j) (N : EReal)))
        (N : EReal)
      = Ideal.div (∑ i, y i * y i) (N : EReal)
        - Ideal.div (∑ j, y j) (N : EReal) * Ideal.div (∑ j, y j) (N : EReal) := by
  choose x hx using hy
  obtain rfl : y = fun i => (x i : EReal) := funext hx
  exact variance_coe x hN h0

/-- The instance for 100000 rows: `y : Fin 100000 → EReal` finite, the count `100000`. -/
theorem variance_100000 (y : Fin 100000 → EReal) (hy : ∀ i, IsReal (y i)) :
    Ideal.div (∑ i, (y i - Ideal.div (∑ j, y j) ((100000 : ℝ) : EReal))
        * (y i - Ideal.div (∑ j, y j) ((100000 : ℝ) : EReal))) ((100000 : ℝ) : EReal)
      = Ideal.div (∑ i, y i * y i) ((100000 : ℝ) : EReal)
        - Ideal.div (∑ j, y j) ((100000 : ℝ) : EReal) * Ideal.div (∑ j, y j) ((100000 : ℝ) : EReal) :=
  variance_of_isReal y hy (by rw [Fintype.card_fin]; norm_num) (by norm_num)

/-! ## A sum over rows regrouped into equal tiles -/

/-- Row `r` of tile `t`, tiles of `b` rows, is a row of the `a * b`. -/
theorem tile_lt {a b : ℕ} (t : Fin a) (r : Fin b) : b * t.val + r.val < a * b := by
  have ht : t.val + 1 ≤ a := t.isLt
  calc b * t.val + r.val < b * t.val + b := Nat.add_lt_add_left r.isLt _
    _ = b * (t.val + 1) := (Nat.mul_succ b t.val).symm
    _ ≤ b * a := Nat.mul_le_mul_left b ht
    _ = a * b := Nat.mul_comm b a

/-- In any additive commutative monoid (the extended reals included: no finiteness is needed), a
    sum over `a * b` rows is the sum over the `a` tiles of the sums over each tile's `b` rows,
    for ANY way `idx` of writing row `b * t + r` as an index. -/
theorem sum_tiles_idx {M : Type*} [AddCommMonoid M] {a b : ℕ} (f : Fin (a * b) → M)
    (idx : Fin a → Fin b → Fin (a * b)) (hidx : ∀ t r, (idx t r).val = b * t.val + r.val) :
    ∑ t : Fin a, ∑ r : Fin b, f (idx t r) = ∑ i : Fin (a * b), f i := by
  rw [← Equiv.sum_comp finProdFinEquiv f, Fintype.sum_prod_type]
  refine Finset.sum_congr rfl fun t _ => Finset.sum_congr rfl fun r _ => congrArg f (Fin.ext ?_)
  rw [hidx, finProdFinEquiv_apply_val]
  exact Nat.add_comm _ _

/-- The same with the row index written out. -/
theorem sum_tiles {M : Type*} [AddCommMonoid M] {a b : ℕ} (f : Fin (a * b) → M) :
    ∑ t : Fin a, ∑ r : Fin b, f ⟨b * t.val + r.val, tile_lt t r⟩ = ∑ i : Fin (a * b), f i :=
  sum_tiles_idx f (fun t r => ⟨b * t.val + r.val, tile_lt t r⟩) fun _ _ => rfl

/-- 100000 rows in 50 tiles of 2000, for any way `idx` of writing row `2000 * t + r`. -/
theorem sum_tiles_100000_idx {M : Type*} [AddCommMonoid M] (f : Fin 100000 → M)
    (idx : Fin 50 → Fin 2000 → Fin 100000) (hidx : ∀ t r, (idx t r).val = 2000 * t.val + r.val) :
    ∑ t : Fin 50, ∑ r : Fin 2000, f (idx t r) = ∑ i : Fin 100000, f i :=
  sum_tiles_idx (a := 50) (b := 2000) f idx hidx

/-- 100000 rows in 50 tiles of 2000, the row index written out. -/
theorem sum_tiles_100000 {M : Type*} [AddCommMonoid M] (f : Fin 100000 → M) :
    ∑ t : Fin 50, ∑ r : Fin 2000, f ⟨2000 * t.val + r.val, by have := t.isLt; have := r.isLt; omega⟩
      = ∑ i : Fin 100000, f i :=
  sum_tiles_100000_idx f (fun t r => ⟨2000 * t.val + r.val, by have := t.isLt; have := r.isLt; omega⟩)
    fun _ _ => rfl

/-! ## A dot product over a zero-padded axis -/

/-- Extending two families over `Fin n` to `Fin m` (`n ≤ m`) so that, from `n` on, one factor of
    each product is zero, leaves the sum of products unchanged: the added terms are zero. -/
theorem sum_mul_pad {n m : ℕ} (hnm : n ≤ m) (a b : Fin n → EReal) (a' b' : Fin m → EReal)
    (ha : ∀ k : Fin n, a' (Fin.castLE hnm k) = a k) (hb : ∀ k : Fin n, b' (Fin.castLE hnm k) = b k)
    (h0 : ∀ k : Fin m, n ≤ k.val → a' k = 0 ∨ b' k = 0) :
    ∑ k : Fin m, a' k * b' k = ∑ k : Fin n, a k * b k := by
  obtain ⟨d, rfl⟩ := Nat.exists_eq_add_of_le hnm
  rw [Fin.sum_univ_add]
  have hz : ∑ i : Fin d, a' (Fin.natAdd n i) * b' (Fin.natAdd n i) = 0 :=
    Finset.sum_eq_zero fun i _ => by
      rcases h0 (Fin.natAdd n i) (Nat.le_add_right n i.val) with h | h
      · rw [h, zero_mul]
      · rw [h, mul_zero]
  rw [hz, add_zero]
  exact Finset.sum_congr rfl fun k _ => by rw [← ha k, ← hb k]; rfl

/-- The instance met here: `a b : Fin 100 → EReal` extended by zeros to `Fin 128`. -/
theorem sum_mul_pad_100_128 (a b : Fin 100 → EReal) :
    ∑ k : Fin 128, (if h : k.val < 100 then a ⟨k.val, h⟩ else 0) * (if h : k.val < 100 then b ⟨k.val, h⟩ else 0)
      = ∑ k : Fin 100, a k * b k :=
  sum_mul_pad (by decide) a b _ _
    (fun k => by rw [dif_pos (show (Fin.castLE (by decide : 100 ≤ 128) k).val < 100 from k.isLt)]; rfl)
    (fun k => by rw [dif_pos (show (Fin.castLE (by decide : 100 ≤ 128) k).val < 100 from k.isLt)]; rfl)
    (fun k hk => Or.inl (dif_neg (not_lt.mpr hk)))

/-! ## The variance is non-negative, and the tiled form of the statistics -/

/-- For finite entries `y`, any finite centre `m` and a positive count `N`, the mean of the squared
    deviations from `m` is non-negative. -/
theorem variance_nonneg {ι : Type*} [Fintype ι] (y : ι → EReal) (hy : ∀ i, IsReal (y i)) {m : EReal}
    (hm : IsReal m) {N : ℝ} (hN : 0 < N) :
    0 ≤ Ideal.div (∑ i, (y i - m) * (y i - m)) (N : EReal) := by
  choose x hx using hy
  obtain ⟨μ, rfl⟩ := hm
  simp only [hx, ← EReal.coe_sub, ← EReal.coe_mul, ← coe_sum, div_coe_coe _ hN.ne']
  exact EReal.coe_nonneg.mpr (div_nonneg (Finset.sum_nonneg fun i _ => mul_self_nonneg _) hN.le)

/-- The mean of finite entries over a nonzero count is finite. -/
theorem isReal_mean {ι : Type*} [Fintype ι] (y : ι → EReal) (hy : ∀ i, IsReal (y i)) {N : ℝ} (h0 : N ≠ 0) :
    IsReal (Ideal.div (∑ i, y i) (N : EReal)) :=
  (isReal_sum_univ y hy).div (isReal_coe N) (EReal.coe_ne_zero.mpr h0)

/-- The reciprocal square root of a finite non-negative value plus a finite positive one is finite
    (a variance plus its positive offset). -/
theorem isReal_rsqrt_add {v e : EReal} (hv : IsReal v) (he : IsReal e) (hv0 : 0 ≤ v) (he0 : 0 < e) :
    IsReal (Ideal.rsqrt (v + e)) := by
  obtain ⟨a, rfl⟩ := hv; obtain ⟨b, rfl⟩ := he
  have ha : 0 ≤ a := EReal.coe_nonneg.mp hv0
  have hb : 0 < b := EReal.coe_pos.mp he0
  rw [← EReal.coe_add]
  exact (isReal_coe (a + b)).rsqrt (EReal.coe_pos.mpr (add_pos_of_nonneg_of_pos ha hb))

/-- The batch statistics of 100000 finite rows accumulated as 50 tile sums of 2000 rows (`idx t r`
    any spelling of row `2000 * t + r`): the mean of squares less the squared mean, both from the
    tile sums, is the mean of the squared deviations from the mean over all rows. -/
theorem variance_tiles_100000 (y : Fin 100000 → EReal) (hy : ∀ i, IsReal (y i))
    (idx : Fin 50 → Fin 2000 → Fin 100000) (hidx : ∀ t r, (idx t r).val = 2000 * t.val + r.val) :
    Ideal.div (∑ t : Fin 50, ∑ r : Fin 2000, y (idx t r) * y (idx t r)) ((100000 : ℝ) : EReal)
        - Ideal.div (∑ t : Fin 50, ∑ r : Fin 2000, y (idx t r)) ((100000 : ℝ) : EReal)
          * Ideal.div (∑ t : Fin 50, ∑ r : Fin 2000, y (idx t r)) ((100000 : ℝ) : EReal)
      = Ideal.div (∑ i, (y i - Ideal.div (∑ j, y j) ((100000 : ℝ) : EReal))
          * (y i - Ideal.div (∑ j, y j) ((100000 : ℝ) : EReal))) ((100000 : ℝ) : EReal) := by
  rw [sum_tiles_100000_idx (fun i => y i * y i) idx hidx, sum_tiles_100000_idx y idx hidx]
  exact (variance_100000 y hy).symm

/-! ## The float literals that occur, as extended reals -/

/-- The pattern of `100000.0` denotes the real `100000`. -/
theorem ofBits_100000 : Ideal.ofBits .f32 0x47C35000#32 = ((100000 : ℝ) : EReal) := by
  simp [Ideal.ofBits, Ideal.ieee, -EReal.coe_mul]; norm_num

/-- The pattern of `1.0` denotes `1`. -/
theorem ofBits_one : Ideal.ofBits .f32 0x3F800000#32 = 1 := by
  simp [Ideal.ofBits, Ideal.ieee, -EReal.coe_mul]; norm_num

/-- The pattern `0x2B8CBCCC` (the float nearest `1e-12`) denotes `D = 2305843 / 2^61`. -/
theorem ofBits_D : Ideal.ofBits .f32 0x2B8CBCCC#32 = D := by
  simp [Ideal.ofBits, Ideal.ieee, -EReal.coe_mul]; norm_num

/-- The pattern `0x3727C5AC` (the float nearest `1e-5`) denotes `2748779 / 2^38`. -/
theorem ofBits_1em5 : Ideal.ofBits .f32 0x3727C5AC#32 = ((2748779 / 274877906944 : ℝ) : EReal) := by
  simp [Ideal.ofBits, Ideal.ieee, -EReal.coe_mul]; norm_num

/-- That offset is finite. -/
theorem ofBits_1em5_isReal : IsReal (Ideal.ofBits .f32 0x3727C5AC#32) := ofBits_1em5 ▸ isReal_coe _
/-- That offset is positive. -/
theorem ofBits_1em5_pos : 0 < Ideal.ofBits .f32 0x3727C5AC#32 := by
  rw [ofBits_1em5]; exact EReal.coe_pos.mpr (by norm_num)

end Cert.LibExtReal

end
-- ==== Proof.KHostB.lean ====
/-
  What the host operations between the program's two regions compute, index by index, over the extended reals.

  When the first region is done the buffers hold the second layer's 128 features `h` before aggregation, the per-node
  factor `dinv`, the source and destination index lists and the 8 × 5 positions. The operations that follow scale `h`
  by `dinv` at each node, gather the scaled rows through the source indices (a negative index wrapped once, then the
  row clamped into range), add each edge's row into the node its destination index lands on (an index out of range
  adds nothing), scale the sums by `dinv`, gather the rows at the positions (wrapped and clamped the same way), add
  the bias and take the maximum with zero. At position `(p, q)` and feature `j` that is
  `relu (agg2 g h (pos p q) j + b j)` of Spec.lean, `g` the graph read off the two index lists: `A7_P`.

  The operations after that only lay out the head's operands: the gathered features flattened to rows of 640 beside
  the 10 and the 1 extra features (`A7_cx`), the two weight matrices transposed (`A7_wp1t`, `A7_wp2t`), the two
  biases as one-row matrices (`A7_bp1`, `A7_bp2`).

  Everything is stated from ARBITRARY contents `V4` of the buffers, one index at a time: each array operation is
  read at explicit coordinates (`…_apply`), first over any arrays, and only then are the operations' composed terms
  identified with the contents after the three runs of operations (`s0_v75`, `s1_v76`, `s2_…`).
-/
import proofs.«159750_j81578608820912_2_alg».proof.Proof.Gen.KernelIdeal.Launch
import proofs.«159750_j81578608820912_2_alg».proof.Proof.Shared
import proofs.«159750_j81578608820912_2_alg».proof.Proof.LibGatherRows
import proofs.«159750_j81578608820912_2_alg».proof.Proof.LibScatterAddRows
import proofs.«159750_j81578608820912_2_alg».proof.Proof.LibExtReal
import proofs.«159750_j81578608820912_2_alg».proof.Proof.Gen.KernelIdeal.Regions
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.HostRead2

open Cert.KernelIdeal Cert.KernelIdeal.Gen Cert.Gcn
open Idealize.ShloMosaic Idealize.ShloMosaic.TcCoe Idealize.ShloMosaic.ValueIdx Idealize.SL.Sem Idealize.ShloMosaic.StableHlo
open scoped BigOperators

variable (V4 : Valuation τ sig (Elt Ideal))

/-- The contents after the 31 operations from the scaling of `h` to the bias. -/
abbrev A5 : Valuation τ sig (Elt Ideal) := StableHlo.after hostOps1 V4
/-- The contents after the maximum with zero as well. -/
abbrev A6 : Valuation τ sig (Elt Ideal) := StableHlo.after hostOps1_1 (A5 V4)
/-- The contents the second region starts from: the head's operands laid out too. -/
abbrev A7 : Valuation τ sig (Elt Ideal) := StableHlo.after hostOps1_2 (StableHlo.after hostOps1_1 (StableHlo.after hostOps1 V4))

/-! ### The operations between the regions, one at a time, over any arrays -/

section Point

/-- A per-node factor repeated along the 128 features. -/
theorem bcast_node_apply (d : FVec Ideal S80000 .f32) (n : Fin 80000) (j : Fin 128) :
    broadcastInDim S80000x128 ![0, 1] bcast_S80000x1_S80000x128_0_1 (broadcastInDim S80000x1 ![0] bcast_S80000_S80000x1_0 d) (ix2 n j)
      = d (ix1 n) := by
  refine (broadcastInDim_apply _ bcast_S80000x1_S80000x128_0_1 _ _ (ix2 n (0 : Fin 1)) (fun a => match a with
    | ⟨0, _⟩ => by show n.val = if (80000 : Nat) = 1 then 0 else n.val; rw [if_neg (by decide)]
    | ⟨1, _⟩ => by show 0 = if (1 : Nat) = 1 then 0 else j.val; rw [if_pos rfl])).trans ?_
  exact broadcastInDim_apply _ bcast_S80000_S80000x1_0 d _ (ix1 n) (fun a => match a with
    | ⟨0, _⟩ => by show n.val = if (80000 : Nat) = 1 then 0 else n.val; rw [if_neg (by decide)])

/-- An index list as a column. -/
theorem bcast_col_apply (v : IVec S1360000 32) (e : Fin 1360000) :
    broadcastInDim S1360000x1 ![0] bcast_S1360000_S1360000x1_0 v (ix2 e (0 : Fin 1)) = v (ix1 e) :=
  broadcastInDim_apply _ bcast_S1360000_S1360000x1_0 v _ (ix1 e) (fun a => match a with
    | ⟨0, _⟩ => by show e.val = if (1360000 : Nat) = 1 then 0 else e.val; rw [if_neg (by decide)])

/-- The positions with a trailing unit axis. -/
theorem bcast_pos_apply (v : IVec S8x5 32) (p : Fin 8) (q : Fin 5) :
    broadcastInDim S8x5x1 ![0, 1] bcast_S8x5_S8x5x1_0_1 v (ix3 p q (0 : Fin 1)) = v (ix2 p q) :=
  broadcastInDim_apply _ bcast_S8x5_S8x5x1_0_1 v _ (ix2 p q) (fun a => match a with
    | ⟨0, _⟩ => by show p.val = if (8 : Nat) = 1 then 0 else p.val; rw [if_neg (by decide)]
    | ⟨1, _⟩ => by show q.val = if (5 : Nat) = 1 then 0 else q.val; rw [if_neg (by decide)])

/-- The bias repeated over the 8 × 5 positions. -/
theorem bcast_bias_apply (b : FVec Ideal S128 .f32) (p : Fin 8) (q : Fin 5) (j : Fin 128) :
    broadcastInDim S8x5x128 ![0, 1, 2] bcast_S1x1x128_S8x5x128_0_1_2 (broadcastInDim S1x1x128 ![2] bcast_S128_S1x1x128_2 b) (ix3 p q j)
      = b (ix1 j) := by
  refine (broadcastInDim_apply _ bcast_S1x1x128_S8x5x128_0_1_2 _ _ (ix3 (0 : Fin 1) (0 : Fin 1) j) (fun a => match a with
    | ⟨0, _⟩ => by show 0 = if (1 : Nat) = 1 then 0 else p.val; rw [if_pos rfl]
    | ⟨1, _⟩ => by show 0 = if (1 : Nat) = 1 then 0 else q.val; rw [if_pos rfl]
    | ⟨2, _⟩ => by show j.val = if (128 : Nat) = 1 then 0 else j.val; rw [if_neg (by decide)])).trans ?_
  exact broadcastInDim_apply _ bcast_S128_S1x1x128_2 b _ (ix1 j) (fun a => match a with
    | ⟨0, _⟩ => by show j.val = if (128 : Nat) = 1 then 0 else j.val; rw [if_neg (by decide)])

/-- The source indices, a negative one wrapped once into the 80000 rows, as the program spells it. -/
def wrapE (v : IVec S1360000 32) : IVec S1360000 32 :=
  select (cmpi .slt v (broadcastInDim S1360000 ![] bcast_S_S1360000 (constantI S_ 32 0#32)))
    (addi v (broadcastInDim S1360000 ![] bcast_S_S1360000 (constantI S_ 32 80000#32))) v

theorem wrapE_apply (v : IVec S1360000 32) (i : S1360000.Idx) : wrapE v i = wrap (v i) := rfl

/-- The positions, a negative one wrapped once into the 80000 rows, as the program spells it. -/
def wrapP (v : IVec S8x5 32) : IVec S8x5 32 :=
  select (cmpi .slt v (broadcastInDim S8x5 ![] bcast_S_S8x5 (constantI S_ 32 0#32)))
    (addi v (broadcastInDim S8x5 ![] bcast_S_S8x5 (constantI S_ 32 80000#32))) v

theorem wrapP_apply (v : IVec S8x5 32) (i : S8x5.Idx) : wrapP v i = wrap (v i) := rfl

end Point

/-! ### The program's gathers and scatter-add, read at an index -/

theorem gdims_eq : (gather_S80000x128_S1360000x1_S1360000x128_1_0_n_n_0_1_1128 : GatherDims S80000x128 S1360000x1 S1360000x128)
    = Cert.LibGatherRows.rowsDims 80000 128 1360000 gather_S80000x128_S1360000x1_S1360000x128_1_0_n_n_0_1_1128_wf := rfl

theorem gdims3_eq : (gather_S80000x128_S8x5x1_S8x5x128_2_0_n_n_0_2_1128 : GatherDims S80000x128 S8x5x1 S8x5x128)
    = Cert.LibGatherRows.rows3Dims 80000 128 8 5 gather_S80000x128_S8x5x1_S8x5x128_2_0_n_n_0_2_1128_wf := rfl

theorem sdims_eq : (scatter_S80000x128_S1360000x1_S1360000x128_1_0_0_1 : ScatterDims S80000x128 S1360000x1 S1360000x128)
    = Cert.LibScatterAddRows.rowsAddDims 80000 128 1360000 scatter_S80000x128_S1360000x1_S1360000x128_1_0_0_1_wf := rfl

/-- The per-edge gather reads the table at the row of the edge's start index. -/
theorem gather_edge_apply (x : FVec Ideal S80000x128 .f32) (idx : IVec S1360000x1 32) (e : Fin 1360000) (j : Fin 128) :
    Host.gather gather_S80000x128_S1360000x1_S1360000x128_1_0_n_n_0_1_1128 x idx (ix2 e j)
      = x (ix2 (row (idx (ix2 e (0 : Fin 1)))) j) := by
  rw [gdims_eq]
  exact Cert.LibGatherRows.gather_rows_ix2 (N := 80000) (C := 128) (R := 1360000) (w := 32) (by decide)
    gather_S80000x128_S1360000x1_S1360000x128_1_0_n_n_0_1_1128_wf x idx e j

/-- The gather at the positions reads the table at the row of the position's start index. -/
theorem gather_pos_apply (x : FVec Ideal S80000x128 .f32) (idx : IVec S8x5x1 32) (p : Fin 8) (q : Fin 5) (j : Fin 128) :
    Host.gather gather_S80000x128_S8x5x1_S8x5x128_2_0_n_n_0_2_1128 x idx (ix3 p q j)
      = x (ix2 (row (idx (ix3 p q (0 : Fin 1)))) j) := by
  rw [gdims3_eq]
  exact Cert.LibGatherRows.gather_rows3_ix3 (N := 80000) (C := 128) (R := 8) (K := 5) (w := 32) (by decide)
    gather_S80000x128_S8x5x1_S8x5x128_2_0_n_n_0_2_1128_wf x idx p q j

/-- A scatter index lands on node `n` exactly when, read signed, it is `n`. -/
theorem landOf_eq_some_iff (v : BitVec 32) (n : Fin Nn) : landOf v = some n ↔ v.toInt = (n.val : Int) := by
  unfold landOf
  constructor
  · intro h
    split at h
    · rename_i hr
      have hn := congrArg Fin.val (Option.some.inj h)
      have hn' : v.toInt.toNat = n.val := hn
      omega
    · exact absurd h (by simp)
  · intro h
    have hlt : n.val < 80000 := n.isLt
    rw [dif_pos (by constructor <;> omega)]
    refine congrArg some (Fin.ext ?_)
    show v.toInt.toNat = n.val
    omega

/-- The scatter-add at `(n, j)`: the operand there plus the updates of the rows landing on `n`. -/
theorem scatter_edge_apply (x : FVec Ideal S80000x128 .f32) (idx : IVec S1360000x1 32) (upd : FVec Ideal S1360000x128 .f32)
    (n : Fin 80000) (j : Fin 128) :
    Host.scatterAdd scatter_S80000x128_S1360000x1_S1360000x128_1_0_0_1 x idx upd (ix2 n j)
      = x (ix2 n j) + ∑ e ∈ Finset.univ.filter (fun e : Fin 1360000 => landOf (idx (ix2 e (0 : Fin 1))) = some n), upd (ix2 e j) := by
  rw [sdims_eq]
  refine (Cert.LibScatterAddRows.scatterAdd_rows_ix2 (N := 80000) (C := 128) (R := 1360000) (w := 32)
    scatter_S80000x128_S1360000x1_S1360000x128_1_0_0_1_wf x idx upd n j).trans ?_
  refine congrArg (x (ix2 n j) + ·) (Finset.sum_congr (Finset.filter_congr fun e _ => ?_) (fun _ _ => rfl))
  exact (landOf_eq_some_iff _ n).symm

/-! ### The second aggregation, array by array -/

section Compose

variable (x49 : FVec Ideal S80000x128 .f32) (d : FVec Ideal S80000 .f32) (s14 s15 : IVec S1360000 32)
  (p29 : IVec S8x5 32) (b9 : FVec Ideal S128 .f32)

/-- The features scaled by the per-node factor. -/
def scaled : FVec Ideal S80000x128 .f32 :=
  mulf x49 (broadcastInDim S80000x128 ![0, 1] bcast_S80000x1_S80000x128_0_1 (broadcastInDim S80000x1 ![0] bcast_S80000_S80000x1_0 d))

theorem scaled_apply (n : Fin 80000) (j : Fin 128) : scaled x49 d (ix2 n j) = x49 (ix2 n j) * d (ix1 n) := by
  unfold scaled
  rw [mulf_apply, bcast_node_apply]

/-- One message per edge: the scaled features at the edge's source row. -/
def msgs : FVec Ideal S1360000x128 .f32 :=
  Host.gather gather_S80000x128_S1360000x1_S1360000x128_1_0_n_n_0_1_1128 (scaled x49 d)
    (broadcastInDim S1360000x1 ![0] bcast_S1360000_S1360000x1_0 (wrapE s14))

theorem msgs_apply (e : Fin 1360000) (j : Fin 128) :
    msgs x49 d s14 (ix2 e j) = x49 (ix2 (row (wrap (s14 (ix1 e)))) j) * d (ix1 (row (wrap (s14 (ix1 e))))) := by
  unfold msgs
  rw [gather_edge_apply, bcast_col_apply, wrapE_apply, scaled_apply]

/-- The messages summed into the nodes their edges land on. -/
def summed : FVec Ideal S80000x128 .f32 :=
  Host.scatterAdd scatter_S80000x128_S1360000x1_S1360000x128_1_0_0_1
    (broadcastInDim S80000x128 ![] bcast_S_S80000x128 (constant (F := Ideal) S_ .f32 0x00000000#32))
    (broadcastInDim S1360000x1 ![0] bcast_S1360000_S1360000x1_0 s15) (msgs x49 d s14)

theorem summed_apply (n : Fin 80000) (j : Fin 128) :
    summed x49 d s14 s15 (ix2 n j)
      = ∑ e ∈ Finset.univ.filter (fun e : Fin 1360000 => landOf (s15 (ix1 e)) = some n),
          x49 (ix2 (row (wrap (s14 (ix1 e)))) j) * d (ix1 (row (wrap (s14 (ix1 e))))) := by
  unfold summed
  rw [scatter_edge_apply]
  have hz : broadcastInDim S80000x128 ![] bcast_S_S80000x128 (constant (F := Ideal) S_ .f32 0x00000000#32) (ix2 n j) = 0 :=
    Ideal.ofBits_zero_f32
  rw [hz, zero_add]
  refine Finset.sum_congr (Finset.filter_congr fun e _ => ?_) (fun e _ => msgs_apply x49 d s14 e j)
  rw [bcast_col_apply]

/-- The sums scaled by the per-node factor. -/
def aggd : FVec Ideal S80000x128 .f32 :=
  mulf (broadcastInDim S80000x128 ![0, 1] bcast_S80000x1_S80000x128_0_1 (broadcastInDim S80000x1 ![0] bcast_S80000_S80000x1_0 d))
    (summed x49 d s14 s15)

theorem aggd_apply (n : Fin 80000) (j : Fin 128) :
    aggd x49 d s14 s15 (ix2 n j)
      = d (ix1 n) * ∑ e ∈ Finset.univ.filter (fun e : Fin 1360000 => landOf (s15 (ix1 e)) = some n),
          x49 (ix2 (row (wrap (s14 (ix1 e)))) j) * d (ix1 (row (wrap (s14 (ix1 e))))) := by
  unfold aggd
  rw [mulf_apply, bcast_node_apply, summed_apply]

/-- The aggregated rows at the 8 × 5 positions. -/
def picked : FVec Ideal S8x5x128 .f32 :=
  Host.gather gather_S80000x128_S8x5x1_S8x5x128_2_0_n_n_0_2_1128 (aggd x49 d s14 s15)
    (broadcastInDim S8x5x1 ![0, 1] bcast_S8x5_S8x5x1_0_1 (wrapP p29))

theorem picked_apply (p : Fin 8) (q : Fin 5) (j : Fin 128) :
    picked x49 d s14 s15 p29 (ix3 p q j) = aggd x49 d s14 s15 (ix2 (row (wrap (p29 (ix2 p q)))) j) := by
  unfold picked
  rw [gather_pos_apply, bcast_pos_apply, wrapP_apply]

/-- The bias added. -/
def biased : FVec Ideal S8x5x128 .f32 :=
  addf (picked x49 d s14 s15 p29)
    (broadcastInDim S8x5x128 ![0, 1, 2] bcast_S1x1x128_S8x5x128_0_1_2 (broadcastInDim S1x1x128 ![2] bcast_S128_S1x1x128_2 b9))

/-- The maximum with zero. -/
def outP (y : FVec Ideal S8x5x128 .f32) : FVec Ideal S8x5x128 .f32 :=
  maximumf y (broadcastInDim S8x5x128 ![] bcast_S_S8x5x128 (constant (F := Ideal) S_ .f32 0x00000000#32))

theorem outP_biased_apply (dv : Fin 80000 → EReal) (hd : ∀ n, d (ix1 n) = dv n) (p : Fin 8) (q : Fin 5) (j : Fin 128) :
    outP (biased x49 d s14 s15 p29 b9) (ix3 p q j)
      = relu (dv (row (wrap (p29 (ix2 p q))))
          * (∑ e ∈ Finset.univ.filter (fun e : Fin 1360000 => landOf (s15 (ix1 e)) = some (row (wrap (p29 (ix2 p q))))),
              x49 (ix2 (row (wrap (s14 (ix1 e)))) j) * dv (row (wrap (s14 (ix1 e)))))
          + b9 (ix1 j)) := by
  unfold outP biased
  rw [maximumf_apply, addf_apply, bcast_bias_apply, picked_apply, aggd_apply]
  have hz : broadcastInDim S8x5x128 ![] bcast_S_S8x5x128 (constant (F := Ideal) S_ .f32 0x00000000#32) (ix3 p q j) = 0 :=
    Ideal.ofBits_zero_f32
  rw [hz]
  simp only [hd]
  rfl

end Compose

/-! ### The first two stretches, from any contents -/

section Stretches
variable (W : Valuation τ sig (Elt Ideal))

set_option maxHeartbeats 4000000 in
set_option maxRecDepth 8192 in
theorem s0_v75 :
    (StableHlo.after (hostOps1 (F := Ideal)) W (Proc.devRef .tc main_v75) : FVec Ideal S8x5x128 .f32)
      = biased (W (Proc.devRef .tc main_v49)) (W (Proc.devRef .tc main_v23)) (W (Proc.devRef .tc main_v14))
          (W (Proc.devRef .tc main_v15)) (W (Proc.devRef .tc main_v29)) (W (Proc.devRef .tc main_arg9)) := by
  after_results_simp
  rfl

theorem s1_v76 :
    (StableHlo.after (hostOps1_1 (F := Ideal)) W (Proc.devRef .tc main_v76) : FVec Ideal S8x5x128 .f32)
      = outP (W (Proc.devRef .tc main_v75)) := by
  after_results
  rfl

end Stretches

/-! ### What a stretch leaves unchanged -/

theorem A5_of (r : Ref sig .tc) (h : r ∉ hostOps1_W) : A5 V4 (Proc.devRef .tc r) = V4 (Proc.devRef .tc r) :=
  StableHlo.after_of_writes_sub hostOps1 _ hostOps1_writes h
theorem A6_of (r : Ref sig .tc) (h : r ∉ hostOps1_1_W) : A6 V4 (Proc.devRef .tc r) = A5 V4 (Proc.devRef .tc r) :=
  StableHlo.after_of_writes_sub hostOps1_1 _ hostOps1_1_writes h
theorem A7_of (r : Ref sig .tc) (h : r ∉ hostOps1_2_W) : A7 V4 (Proc.devRef .tc r) = A6 V4 (Proc.devRef .tc r) :=
  StableHlo.after_of_writes_sub hostOps1_2 _ hostOps1_2_writes h

/-! ### The last stretch, from any contents -/

section Last
variable (W : Valuation τ sig (Elt Ideal))

theorem s2_v78 :
    (StableHlo.after (hostOps1_2 (F := Ideal)) W (Proc.devRef .tc main_v78) : S8x651.Idx → EReal)
      = concatenate S8x651 1 [⟨S8x640, shapeCast S8x640 (W (Proc.devRef .tc main_v76)) shapeCasts_S8x5x128_S8x640⟩, ⟨S8x10, W (Proc.devRef .tc main_arg4)⟩, ⟨S8x1, W (Proc.devRef .tc main_arg5)⟩] concatenates_S8x640_S8x10_S8x1_S8x651_d1 := by
  after_results
  rfl

theorem s2_v79 :
    (StableHlo.after (hostOps1_2 (F := Ideal)) W (Proc.devRef .tc main_v79) : S651x256.Idx → EReal)
      = transpose S651x256 [1, 0] (W (Proc.devRef .tc main_arg10)) transposes_S256x651_S651x256_1_0 := by
  after_results

theorem s2_v80 :
    (StableHlo.after (hostOps1_2 (F := Ideal)) W (Proc.devRef .tc main_v80) : S256x256.Idx → EReal)
      = transpose S256x256 [1, 0] (W (Proc.devRef .tc main_arg12)) transposes_S256x256_S256x256_1_0 := by
  after_results

theorem s2_v81 :
    (StableHlo.after (hostOps1_2 (F := Ideal)) W (Proc.devRef .tc main_v81) : S1x256.Idx → EReal)
      = shapeCast S1x256 (W (Proc.devRef .tc main_arg11)) shapeCasts_S256_S1x256 := by
  after_results
  rfl

theorem s2_v82 :
    (StableHlo.after (hostOps1_2 (F := Ideal)) W (Proc.devRef .tc main_v82) : S1x256.Idx → EReal)
      = shapeCast S1x256 (W (Proc.devRef .tc main_arg13)) shapeCasts_S256_S1x256 := by
  after_results
  rfl

end Last

/-! ### The second region's operands, read at an index -/

/-- Nothing between the first region and the relu writes an argument or the positions. -/
theorem A6_arg (r : Ref sig .tc) (h1 : r ∉ hostOps1_1_W) (h0 : r ∉ hostOps1_W) :
    A6 V4 (Proc.devRef .tc r) = V4 (Proc.devRef .tc r) := (A6_of V4 r h1).trans (A5_of V4 r h0)

theorem A7_wp1t (i : Fin 651) (k : Fin 256) : (A7 V4 (Proc.devRef .tc main_v79) : S651x256.Idx → EReal) (ix2 i k) = (V4 (Proc.devRef .tc main_arg10) : S256x651.Idx → EReal) (ix2 k i) := by
  refine (congrFun (s2_v79 (A6 V4)) (ix2 i k)).trans ?_
  rw [A6_arg V4 main_arg10 (by decide) (by decide)]
  exact transpose_ix2_apply _ transposes_S256x651_S651x256_1_0 i k

theorem A7_wp2t (k q : Fin 256) : (A7 V4 (Proc.devRef .tc main_v80) : S256x256.Idx → EReal) (ix2 k q) = (V4 (Proc.devRef .tc main_arg12) : S256x256.Idx → EReal) (ix2 q k) := by
  refine (congrFun (s2_v80 (A6 V4)) (ix2 k q)).trans ?_
  rw [A6_arg V4 main_arg12 (by decide) (by decide)]
  exact transpose_ix2_apply _ transposes_S256x256_S256x256_1_0 k q

theorem A7_bp1 (k : Fin 256) : (A7 V4 (Proc.devRef .tc main_v81) : S1x256.Idx → EReal) (ix2 (0 : Fin 1) k) = (V4 (Proc.devRef .tc main_arg11) : S256.Idx → EReal) (ix1 k) := by
  refine (congrFun (s2_v81 (A6 V4)) (ix2 (0 : Fin 1) k)).trans ?_
  rw [A6_arg V4 main_arg11 (by decide) (by decide)]
  exact shapeCast_a_1a_apply _ shapeCasts_S256_S1x256 (0 : Fin 1) k

theorem A7_bp2 (q : Fin 256) : (A7 V4 (Proc.devRef .tc main_v82) : S1x256.Idx → EReal) (ix2 (0 : Fin 1) q) = (V4 (Proc.devRef .tc main_arg13) : S256.Idx → EReal) (ix1 q) := by
  refine (congrFun (s2_v82 (A6 V4)) (ix2 (0 : Fin 1) q)).trans ?_
  rw [A6_arg V4 main_arg13 (by decide) (by decide)]
  exact shapeCast_a_1a_apply _ shapeCasts_S256_S1x256 (0 : Fin 1) q

/-- The head's input row: the 5 × 128 gathered features flattened, then the 10 and the 1 extra features. -/
def tailT (P : S8x5x128.Idx → EReal) (a4 : S8x10.Idx → EReal) (a5 : S8x1.Idx → EReal) : S8x651.Idx → EReal :=
  concatenate S8x651 1 [⟨S8x640, shapeCast S8x640 P shapeCasts_S8x5x128_S8x640⟩, ⟨S8x10, a4⟩, ⟨S8x1, a5⟩] concatenates_S8x640_S8x10_S8x1_S8x651_d1

theorem A7_cx : A7 V4 (Proc.devRef .tc main_v78) = tailT (A7 V4 (Proc.devRef .tc main_v76)) (V4 (Proc.devRef .tc main_arg4)) (V4 (Proc.devRef .tc main_arg5)) := by
  refine (s2_v78 (A6 V4)).trans ?_
  rw [A6_arg V4 main_arg4 (by decide) (by decide), A6_arg V4 main_arg5 (by decide) (by decide), A7_of V4 main_v76 (by decide)]
  rfl

/-! ### What the second region is handed at the positions -/

/-- The graph the kernel reads: the source and destination index lists the host prefix left in its buffers. -/
abbrev G4 : Cert.Gcn.Graph := graphOf (V4 (Proc.devRef .tc main_v14)) (V4 (Proc.devRef .tc main_v15))

/-- The whole stretch between the regions, as one array. -/
theorem A7_v76_eq :
    (A7 V4 (Proc.devRef .tc main_v76) : FVec Ideal S8x5x128 .f32)
      = outP (biased (V4 (Proc.devRef .tc main_v49)) (V4 (Proc.devRef .tc main_v23)) (V4 (Proc.devRef .tc main_v14))
          (V4 (Proc.devRef .tc main_v15)) (V4 (Proc.devRef .tc main_v29)) (V4 (Proc.devRef .tc main_arg9))) := by
  rw [A7_of V4 main_v76 (by decide)]
  refine (s1_v76 (A5 V4)).trans ?_
  exact congrArg outP (s0_v75 V4)

theorem A7_P (hd : ∀ n : Fin 80000, (V4 (Proc.devRef .tc main_v23) : S80000.Idx → EReal) (ix1 n) = dinv (G4 V4) n) (p : Fin 8) (q : Fin 5) (j : Fin 128) :
    (A7 V4 (Proc.devRef .tc main_v76) : S8x5x128.Idx → EReal) (ix3 p q j)
      = relu (agg2 (G4 V4) (fn2 (V4 (Proc.devRef .tc main_v49))) (posOf (V4 (Proc.devRef .tc main_v29)) p q) j + (V4 (Proc.devRef .tc main_arg9) : S128.Idx → EReal) (ix1 j)) := by
  refine (congrFun (A7_v76_eq V4) (ix3 p q j)).trans ?_
  exact outP_biased_apply _ _ _ _ _ _ (dinv (G4 V4)) hd p q j

end Cert.KernelIdeal.HostRead2

end
-- ==== Proof.KHostA.lean ====
/-
  What the kernel program's host operations compute before its first region.

  The batched edge array `[8, 2, 160000]` is offset graph by graph (graph `b`'s node indices by `10000 · b`), its two
  rows are laid out as two lists of 1280000 indices, and the 80000 self loops `0 … 79999` are appended to each: the
  source list `src2` and the destination list `dst2`, of 1360000 entries each. The features `[8, 10000, 5]` are read
  as one table of 80000 rows. The degree of a node is the segment sum of ones through `dst2`, the normalisation `dinv`
  its inverse square root where positive; the first aggregation scales the features by `dinv`, gathers them through the
  wrapped source indices, sums them through the destination indices and scales by `dinv` again. The weights reach the
  first region transposed, the bias as a row.

  Every statement is over an arbitrary start valuation `Vin` and reads one entry at a time.
-/
import proofs.«159750_j81578608820912_2_alg».proof.Proof.Gen.KernelIdeal.Launch
import proofs.«159750_j81578608820912_2_alg».proof.Proof.Shared
import proofs.«159750_j81578608820912_2_alg».proof.Proof.LibGatherRows
import proofs.«159750_j81578608820912_2_alg».proof.Proof.LibScatterAddRows
import proofs.«159750_j81578608820912_2_alg».proof.Proof.LibExtReal
import proofs.«159750_j81578608820912_2_alg».proof.Proof.Gen.KernelIdeal.Regions
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.HostRead

open Cert.KernelIdeal Cert.KernelIdeal.Gen Cert.Gcn
open Idealize.ShloMosaic Idealize.ShloMosaic.TcCoe Idealize.ShloMosaic.ValueIdx Idealize.ShloMosaic.StableHlo
open scoped BigOperators

variable (Vin : Valuation τ sig (Elt Ideal))

/-- The buffers' contents when the first kernel region is entered. -/
abbrev A3 : Valuation τ sig (Elt Ideal) :=
  StableHlo.after hostOps0_2 (StableHlo.after hostOps0_1 (StableHlo.after hostOps0 Vin))

/-! ## The index lists, the positions and the features as composed terms of the arguments -/

/-- The source index list: row 0 of the edge array, each graph's indices offset by 10000 times its number, the 8
    graphs' lists laid end to end, then the 80000 self loops. -/
def src2T (a1 : S8x2x160000.Idx → BitVec 32) : S1360000.Idx → BitVec 32 :=
  concatenate S1360000 0
    [⟨S1280000, shapeCast _ (extractStridedSlice S1x1280000 ![0, 0]
        (shapeCast _ (transpose S2x8x160000 [1, 0, 2]
          (addi a1 (broadcastInDim S8x2x160000 ![0, 1, 2] bcast_S8x1x1_S8x2x160000_0_1_2
            (broadcastInDim S8x1x1 ![0] bcast_S8_S8x1x1_0
              (muli (iotaInDim S8 32 0) (broadcastInDim S8 ![] bcast_S_S8 (constantI S_ 32 10000#32))))))
          transposes_S8x2x160000_S2x8x160000_1_0_2) shapeCasts_S2x8x160000_S2x1280000)
        slices_S2x1280000_S1x1280000_0_0) shapeCasts_S1x1280000_S1280000⟩,
     ⟨S80000, iotaInDim S80000 32 0⟩]
    concatenates_S1280000_S80000_S1360000_d0

/-- The destination index list: the same of row 1 of the edge array. -/
def dst2T (a1 : S8x2x160000.Idx → BitVec 32) : S1360000.Idx → BitVec 32 :=
  concatenate S1360000 0
    [⟨S1280000, shapeCast _ (extractStridedSlice S1x1280000 ![1, 0]
        (shapeCast _ (transpose S2x8x160000 [1, 0, 2]
          (addi a1 (broadcastInDim S8x2x160000 ![0, 1, 2] bcast_S8x1x1_S8x2x160000_0_1_2
            (broadcastInDim S8x1x1 ![0] bcast_S8_S8x1x1_0
              (muli (iotaInDim S8 32 0) (broadcastInDim S8 ![] bcast_S_S8 (constantI S_ 32 10000#32))))))
          transposes_S8x2x160000_S2x8x160000_1_0_2) shapeCasts_S2x8x160000_S2x1280000)
        slices_S2x1280000_S1x1280000_1_0) shapeCasts_S1x1280000_S1280000⟩,
     ⟨S80000, iotaInDim S80000 32 0⟩]
    concatenates_S1280000_S80000_S1360000_d0

/-- The features as one table of 80000 rows. -/
def xT (a0 : S8x10000x5.Idx → EReal) : S80000x5.Idx → EReal :=
  shapeCast _ a0 shapeCasts_S8x10000x5_S80000x5

theorem A3_src2 : A3 Vin (Proc.devRef .tc main_v14) = src2T (Vin (Proc.devRef .tc main_arg1)) := by
  dsimp only [A3, hostOps0, hostOps0_1, hostOps0_2]
  after_results_simp
  rfl

theorem A3_dst2 : A3 Vin (Proc.devRef .tc main_v15) = dst2T (Vin (Proc.devRef .tc main_arg1)) := by
  dsimp only [A3, hostOps0, hostOps0_1, hostOps0_2]
  after_results_simp
  rfl

theorem A3_x : A3 Vin (Proc.devRef .tc main_v0) = xT (Vin (Proc.devRef .tc main_arg0)) := by
  dsimp only [A3, hostOps0, hostOps0_1, hostOps0_2]
  after_results_simp
  rfl

/-- The 8 × 5 positions: the 4 neighbour positions and the node's own, each offset by 10000 times its graph's number. -/
def allposT (a2 : S8.Idx → BitVec 32) (a3 : S8x4.Idx → BitVec 32) : S8x5.Idx → BitVec 32 :=
  concatenate S8x5 1
    [⟨S8x4, addi a3 (broadcastInDim S8x4 ![0, 1] bcast_S8x1_S8x4_0_1
        (broadcastInDim S8x1 ![0] bcast_S8_S8x1_0
          (muli (iotaInDim S8 32 0) (broadcastInDim S8 ![] bcast_S_S8 (constantI S_ 32 10000#32)))))⟩,
     ⟨S8x1, broadcastInDim S8x1 ![0] bcast_S8_S8x1_0
        (addi a2 (muli (iotaInDim S8 32 0) (broadcastInDim S8 ![] bcast_S_S8 (constantI S_ 32 10000#32))))⟩]
    concatenates_S8x4_S8x1_S8x5_d1

theorem A3_allpos : A3 Vin (Proc.devRef .tc main_v29)
    = allposT (Vin (Proc.devRef .tc main_arg2)) (Vin (Proc.devRef .tc main_arg3)) := by
  dsimp only [A3, hostOps0, hostOps0_1, hostOps0_2]
  after_results_simp
  rfl

/-! ## The weights as the first region reads them -/

theorem A3_w1t_eq : A3 Vin (Proc.devRef .tc main_v46)
    = transpose S5x128 [1, 0] (Vin (Proc.devRef .tc main_arg6)) transposes_S128x5_S5x128_1_0 := by
  dsimp only [A3, hostOps0, hostOps0_1, hostOps0_2]
  after_results_simp

theorem A3_w1t (k : Fin 5) (k' : Fin 128) :
    (A3 Vin (Proc.devRef .tc main_v46) : S5x128.Idx → EReal) (ix2 k k')
      = (Vin (Proc.devRef .tc main_arg6) : S128x5.Idx → EReal) (ix2 k' k) := by
  rw [A3_w1t_eq]
  generalize (Vin (Proc.devRef .tc main_arg6) : S128x5.Idx → EReal) = y
  exact transpose_apply [1, 0] y transposes_S128x5_S5x128_1_0 (ix2 k k') (ix2 k' k) (fun b => match b with
    | ⟨0, _⟩ => rfl
    | ⟨1, _⟩ => rfl)

theorem A3_w2t_eq : A3 Vin (Proc.devRef .tc main_v47)
    = transpose S128x128 [1, 0] (Vin (Proc.devRef .tc main_arg8)) transposes_S128x128_S128x128_1_0 := by
  dsimp only [A3, hostOps0, hostOps0_1, hostOps0_2]
  after_results_simp

theorem A3_w2t (k' j : Fin 128) :
    (A3 Vin (Proc.devRef .tc main_v47) : S128x128.Idx → EReal) (ix2 k' j)
      = (Vin (Proc.devRef .tc main_arg8) : S128x128.Idx → EReal) (ix2 j k') := by
  rw [A3_w2t_eq]
  generalize (Vin (Proc.devRef .tc main_arg8) : S128x128.Idx → EReal) = y
  exact transpose_apply [1, 0] y transposes_S128x128_S128x128_1_0 (ix2 k' j) (ix2 j k') (fun b => match b with
    | ⟨0, _⟩ => rfl
    | ⟨1, _⟩ => rfl)

theorem A3_b1_eq : A3 Vin (Proc.devRef .tc main_v48)
    = shapeCast S1x128 (Vin (Proc.devRef .tc main_arg7)) shapeCasts_S128_S1x128 := by
  dsimp only [A3, hostOps0, hostOps0_1, hostOps0_2]
  after_results_simp
  rfl

theorem A3_b1 (k' : Fin 128) :
    (A3 Vin (Proc.devRef .tc main_v48) : S1x128.Idx → EReal) (ix2 (0 : Fin 1) k')
      = (Vin (Proc.devRef .tc main_arg7) : S128.Idx → EReal) (ix1 k') := by
  rw [A3_b1_eq]
  generalize (Vin (Proc.devRef .tc main_arg7) : S128.Idx → EReal) = y
  exact shapeCast_apply y shapeCasts_S128_S1x128 (ix2 (0 : Fin 1) k') (ix1 k')
    (by show (S128.rowMajor (ix1 k')).val = (S1x128.rowMajor (ix2 (0 : Fin 1) k')).val
        rewrite [Shape.rowMajor_val_one, Shape.rowMajor_val_two]; show k'.val = 0 * 128 + k'.val; omega)
/-! ## The normalisation and the first aggregation as composed terms of the index lists -/

/-- The segment sum of ones through the destination indices. -/
def degT (dst2 : (⟨S1360000, .i32⟩ : BufTy).Contents (Elt Ideal)) : (⟨S80000, .f32⟩ : BufTy).Contents (Elt Ideal) :=
  Host.scatterAdd (F := Ideal) (φ := .f32) scatter_S80000_S1360000x1_S1360000_n_0_0_1
    (broadcastInDim S80000 ![] bcast_S_S80000 (constant (F := Ideal) S_ .f32 0x00000000#32))
    (broadcastInDim S1360000x1 ![0] bcast_S1360000_S1360000x1_0 dst2)
    (broadcastInDim S1360000 ![] bcast_S_S1360000 (constant (F := Ideal) S_ .f32 0x3F800000#32))

/-- Its inverse square root where it is positive, zero elsewhere. -/
def dinvT (dst2 : (⟨S1360000, .i32⟩ : BufTy).Contents (Elt Ideal)) : (⟨S80000, .f32⟩ : BufTy).Contents (Elt Ideal) :=
  select (cmpf (F := Ideal) (φ := .f32) .ogt (degT dst2) (broadcastInDim S80000 ![] bcast_S_S80000 (constant (F := Ideal) S_ .f32 0x00000000#32)))
    (Host.rsqrt (F := Ideal) (φ := .f32) (degT dst2))
    (broadcastInDim S80000 ![] bcast_S_S80000 (id (constant (F := Ideal) S_ .f32 0x00000000#32)))

/-- The features scaled by `dv`, gathered through the wrapped source indices, summed through the destination indices,
    scaled by `dv` again. -/
def aggT (x : (⟨S80000x5, .f32⟩ : BufTy).Contents (Elt Ideal)) (dv : (⟨S80000, .f32⟩ : BufTy).Contents (Elt Ideal))
    (src2 dst2 : (⟨S1360000, .i32⟩ : BufTy).Contents (Elt Ideal)) : (⟨S80000x5, .f32⟩ : BufTy).Contents (Elt Ideal) :=
  mulf (F := Ideal) (φ := .f32) (broadcastInDim S80000x5 ![0, 1] bcast_S80000x1_S80000x5_0_1 (broadcastInDim S80000x1 ![0] bcast_S80000_S80000x1_0 dv))
    (Host.scatterAdd (F := Ideal) (φ := .f32) scatter_S80000x5_S1360000x1_S1360000x5_1_0_0_1
      (broadcastInDim S80000x5 ![] bcast_S_S80000x5 (constant (F := Ideal) S_ .f32 0x00000000#32))
      (broadcastInDim S1360000x1 ![0] bcast_S1360000_S1360000x1_0 dst2)
      (Host.gather gather_S80000x5_S1360000x1_S1360000x5_1_0_n_n_0_1_15
        (mulf (F := Ideal) (φ := .f32) x (broadcastInDim S80000x5 ![0, 1] bcast_S80000x1_S80000x5_0_1
          (broadcastInDim S80000x1 ![0] bcast_S80000_S80000x1_0 dv)))
        (broadcastInDim S1360000x1 ![0] bcast_S1360000_S1360000x1_0
          (select (cmpi .slt src2 (broadcastInDim S1360000 ![] bcast_S_S1360000 (constantI S_ 32 0#32)))
            (addi src2 (broadcastInDim S1360000 ![] bcast_S_S1360000 (constantI S_ 32 80000#32)))
            src2))))

/-! ## The three stretches, each from any contents -/

section Stretches
variable (W : Valuation τ sig (Elt Ideal))

theorem s0_v21 : StableHlo.after (hostOps0 (F := Ideal)) W (Proc.devRef .tc main_v21)
    = cmpf (F := Ideal) (φ := .f32) .ogt (degT (StableHlo.after (hostOps0 (F := Ideal)) W (Proc.devRef .tc main_v15)))
        (broadcastInDim S80000 ![] bcast_S_S80000 (constant (F := Ideal) S_ .f32 0x00000000#32)) := by
  unfold degT
  dsimp only [hostOps0]
  after_results_simp <;> rfl

theorem s0_v22 : StableHlo.after (hostOps0 (F := Ideal)) W (Proc.devRef .tc main_v22)
    = Host.rsqrt (F := Ideal) (φ := .f32) (degT (StableHlo.after (hostOps0 (F := Ideal)) W (Proc.devRef .tc main_v15))) := by
  unfold degT
  dsimp only [hostOps0]
  after_results_simp <;> rfl

theorem s0_cst_2 : StableHlo.after (hostOps0 (F := Ideal)) W (Proc.devRef .tc main_cst_2)
    = constant (F := Ideal) S_ .f32 0x00000000#32 := by
  dsimp only [hostOps0]
  after_results_simp <;> rfl

theorem s1_v23 : StableHlo.after (hostOps0_1 (F := Ideal)) W (Proc.devRef .tc main_v23)
    = select (W (Proc.devRef .tc main_v21)) (W (Proc.devRef .tc main_v22))
        (broadcastInDim S80000 ![] bcast_S_S80000 (id (W (Proc.devRef .tc main_cst_2)))) := by
  dsimp only [hostOps0_1]
  after_results
  rfl

theorem s2_v45 : StableHlo.after (hostOps0_2 (F := Ideal)) W (Proc.devRef .tc main_v45)
    = aggT (W (Proc.devRef .tc main_v0)) (W (Proc.devRef .tc main_v23)) (W (Proc.devRef .tc main_v14))
        (W (Proc.devRef .tc main_v15)) := by
  unfold aggT
  dsimp only [hostOps0_2]
  after_results_simp <;> rfl

end Stretches

/-- What the last stretch does not write is as the call of `@_where` left it. -/
theorem A3_of (r : Ref sig .tc) (h : r ∉ hostOps0_2_W) :
    A3 Vin (Proc.devRef .tc r)
      = StableHlo.after hostOps0_1 (StableHlo.after hostOps0 Vin) (Proc.devRef .tc r) :=
  StableHlo.after_of_writes_sub hostOps0_2 _ hostOps0_2_writes h

/-- What neither of the last two stretches writes is as the first left it. -/
theorem A3_of' (r : Ref sig .tc) (h2 : r ∉ hostOps0_2_W) (h1 : r ∉ hostOps0_1_W) :
    A3 Vin (Proc.devRef .tc r) = StableHlo.after hostOps0 Vin (Proc.devRef .tc r) :=
  (A3_of Vin r h2).trans (StableHlo.after_of_writes_sub hostOps0_1 _ hostOps0_1_writes h1)

theorem A3_dinvT : A3 Vin (Proc.devRef .tc main_v23) = dinvT (A3 Vin (Proc.devRef .tc main_v15)) := by
  rw [A3_of Vin main_v23 (by decide), A3_of' Vin main_v15 (by decide) (by decide), s1_v23, s0_v21, s0_v22, s0_cst_2]
  unfold dinvT
  rfl

theorem A3_aggT : A3 Vin (Proc.devRef .tc main_v45)
    = aggT (A3 Vin (Proc.devRef .tc main_v0)) (A3 Vin (Proc.devRef .tc main_v23))
        (A3 Vin (Proc.devRef .tc main_v14)) (A3 Vin (Proc.devRef .tc main_v15)) := by
  rw [A3_of Vin main_v0 (by decide), A3_of Vin main_v23 (by decide), A3_of Vin main_v14 (by decide),
    A3_of Vin main_v15 (by decide)]
  exact s2_v45 _

/-! ## Reading the composed terms at one index -/

/-- A scatter index lands on node `n` exactly when, read signed, it is `n`. -/
theorem landOf_eq_some_iff (v : BitVec 32) (n : Fin Nn) : landOf v = some n ↔ v.toInt = (n.val : Int) := by
  have hn : n.val < 80000 := n.isLt
  unfold landOf
  constructor
  · intro h
    split at h
    · rename_i hr
      have e : v.toInt.toNat = n.val := congrArg Fin.val (Option.some.inj h)
      omega
    · exact absurd h (by simp)
  · intro h
    have hr : 0 ≤ v.toInt ∧ v.toInt < 80000 := by omega
    rw [dif_pos hr]
    exact congrArg some (Fin.ext (by show v.toInt.toNat = n.val; omega))

/-- A constant spread over a shape, read anywhere, is the constant. -/
theorem const_apply {t : Shape} (h : S_.BroadcastsInDim t (![] : Fin 0 → Fin t.rank)) (b : BitVec 32) (i : t.Idx) :
    broadcastInDim t ![] h (constant (F := Ideal) S_ .f32 b) i = Ideal.ofBits .f32 b := rfl

/-- An index list as a column, read at row `e`. -/
theorem col_apply (v : (⟨S1360000, .i32⟩ : BufTy).Contents (Elt Ideal)) (e : Fin 1360000) :
    broadcastInDim S1360000x1 ![0] bcast_S1360000_S1360000x1_0 v (ix2 e (0 : Fin 1)) = v (ix1 e) :=
  broadcastInDim_apply _ bcast_S1360000_S1360000x1_0 v (ix2 e (0 : Fin 1)) (ix1 e) (fun a => match a with
    | ⟨0, _⟩ => by show e.val = if (1360000 : Nat) = 1 then 0 else e.val; rw [if_neg (by decide)])

/-- A vector over the nodes spread along the 5 features, read at `(n, k)`. -/
theorem rows5_apply (dv : (⟨S80000, .f32⟩ : BufTy).Contents (Elt Ideal)) (n : Fin 80000) (k : Fin 5) :
    broadcastInDim S80000x5 ![0, 1] bcast_S80000x1_S80000x5_0_1
      (broadcastInDim S80000x1 ![0] bcast_S80000_S80000x1_0 dv) (ix2 n k) = dv (ix1 n) := by
  refine (broadcastInDim_apply _ bcast_S80000x1_S80000x5_0_1 _ (ix2 n k) (ix2 n (0 : Fin 1)) (fun a => match a with
    | ⟨0, _⟩ => by show n.val = if (80000 : Nat) = 1 then 0 else n.val; rw [if_neg (by decide)]
    | ⟨1, _⟩ => by show 0 = if (1 : Nat) = 1 then 0 else k.val; rw [if_pos rfl])).trans ?_
  exact broadcastInDim_apply _ bcast_S80000_S80000x1_0 dv (ix2 n (0 : Fin 1)) (ix1 n) (fun a => match a with
    | ⟨0, _⟩ => by show n.val = if (80000 : Nat) = 1 then 0 else n.val; rw [if_neg (by decide)])

theorem vdims_eq : (scatter_S80000_S1360000x1_S1360000_n_0_0_1 : ScatterDims S80000 S1360000x1 S1360000)
    = Cert.LibScatterAddRows.vecAddDims 80000 1360000 scatter_S80000_S1360000x1_S1360000_n_0_0_1_wf := rfl

theorem sdims5_eq : (scatter_S80000x5_S1360000x1_S1360000x5_1_0_0_1 : ScatterDims S80000x5 S1360000x1 S1360000x5)
    = Cert.LibScatterAddRows.rowsAddDims 80000 5 1360000 scatter_S80000x5_S1360000x1_S1360000x5_1_0_0_1_wf := rfl

theorem gdims5_eq : (gather_S80000x5_S1360000x1_S1360000x5_1_0_n_n_0_1_15 : GatherDims S80000x5 S1360000x1 S1360000x5)
    = Cert.LibGatherRows.rowsDims 80000 5 1360000 gather_S80000x5_S1360000x1_S1360000x5_1_0_n_n_0_1_15_wf := rfl

/-- The scalar scatter-add at node `n`: the operand there plus the updates of the entries landing on `n`. -/
theorem scatter_vec_apply (x : FVec Ideal S80000 .f32) (idx : IVec S1360000x1 32) (upd : FVec Ideal S1360000 .f32)
    (n : Fin 80000) :
    Host.scatterAdd scatter_S80000_S1360000x1_S1360000_n_0_0_1 x idx upd (ix1 n)
      = x (ix1 n) + ∑ e ∈ Finset.univ.filter (fun e : Fin 1360000 => landOf (idx (ix2 e (0 : Fin 1))) = some n), upd (ix1 e) := by
  rw [vdims_eq]
  refine (Cert.LibScatterAddRows.scatterAdd_vec_ix1 (N := 80000) (R := 1360000) (w := 32)
    scatter_S80000_S1360000x1_S1360000_n_0_0_1_wf x idx upd n).trans ?_
  refine congrArg (x (ix1 n) + ·) (Finset.sum_congr (Finset.filter_congr fun e _ => ?_) (fun _ _ => rfl))
  exact (landOf_eq_some_iff _ n).symm

/-- The row scatter-add at `(n, k)`: the operand there plus the updates of the rows landing on `n`. -/
theorem scatter_rows5_apply (x : FVec Ideal S80000x5 .f32) (idx : IVec S1360000x1 32) (upd : FVec Ideal S1360000x5 .f32)
    (n : Fin 80000) (k : Fin 5) :
    Host.scatterAdd scatter_S80000x5_S1360000x1_S1360000x5_1_0_0_1 x idx upd (ix2 n k)
      = x (ix2 n k) + ∑ e ∈ Finset.univ.filter (fun e : Fin 1360000 => landOf (idx (ix2 e (0 : Fin 1))) = some n), upd (ix2 e k) := by
  rw [sdims5_eq]
  refine (Cert.LibScatterAddRows.scatterAdd_rows_ix2 (N := 80000) (C := 5) (R := 1360000) (w := 32)
    scatter_S80000x5_S1360000x1_S1360000x5_1_0_0_1_wf x idx upd n k).trans ?_
  refine congrArg (x (ix2 n k) + ·) (Finset.sum_congr (Finset.filter_congr fun e _ => ?_) (fun _ _ => rfl))
  exact (landOf_eq_some_iff _ n).symm

/-- The row gather at `(e, k)`: the table at the row of entry `e`'s start index. -/
theorem gather_rows5_apply (x : FVec Ideal S80000x5 .f32) (idx : IVec S1360000x1 32) (e : Fin 1360000) (k : Fin 5) :
    Host.gather gather_S80000x5_S1360000x1_S1360000x5_1_0_n_n_0_1_15 x idx (ix2 e k)
      = x (ix2 (row (idx (ix2 e (0 : Fin 1)))) k) := by
  rw [gdims5_eq]
  exact Cert.LibGatherRows.gather_rows_ix2 (N := 80000) (C := 5) (R := 1360000) (w := 32) (by decide)
    gather_S80000x5_S1360000x1_S1360000x5_1_0_n_n_0_1_15_wf x idx e k

/-- The segment sum of ones is the degree. -/
theorem degT_apply (src2 dst2 : IVec S1360000 32) (n : Fin 80000) :
    degT dst2 (ix1 n) = deg (graphOf src2 dst2) n := by
  unfold degT
  rw [scatter_vec_apply, const_apply, Ideal.ofBits_zero_f32, zero_add]
  unfold deg seg
  refine Finset.sum_congr (Finset.filter_congr fun e _ => ?_) (fun e _ => ?_)
  · rw [col_apply]
    exact Iff.rfl
  · rw [const_apply, Cert.LibExtReal.ofBits_one]

/-- The pointwise operations read at an index. -/
theorem select_apply {s : Shape} {α : Type} (c : IVec s 1) (a b : s.Idx → α) (i : s.Idx) :
    select c a b i = Scalar.select (c i) (a i) (b i) := rfl
theorem cmpf_apply {s : Shape} {φ : FTy} (p : CmpFPredicate) (x y : FVec Ideal s φ) (i : s.Idx) :
    cmpf p x y i = Ideal.cmp p (x i) (y i) := rfl
theorem hostRsqrt_apply {s : Shape} {φ : FTy} (x : FVec Ideal s φ) (i : s.Idx) :
    Host.rsqrt x i = Ideal.rsqrt (x i) := rfl
theorem mulf_apply {s : Shape} {φ : FTy} (x y : FVec Ideal s φ) (i : s.Idx) :
    mulf x y i = x i * y i := rfl
theorem const_id_apply {t : Shape} (h : S_.BroadcastsInDim t (![] : Fin 0 → Fin t.rank)) (b : BitVec 32) (i : t.Idx) :
    broadcastInDim t ![] h (id (constant (F := Ideal) S_ .f32 b)) i = Ideal.ofBits .f32 b := rfl

/-- The normalisation read at node `n`. -/
theorem dinvT_apply (src2 dst2 : IVec S1360000 32) (n : Fin 80000) :
    dinvT dst2 (ix1 n) = dinv (graphOf src2 dst2) n := by
  unfold dinvT
  rw [select_apply, cmpf_apply, hostRsqrt_apply, const_apply, const_id_apply, Ideal.ofBits_zero_f32,
    degT_apply src2 dst2 n]
  rfl

/-- The first aggregation read at `(n, k)`. -/
theorem aggT_apply (x : FVec Ideal S80000x5 .f32) (dv : FVec Ideal S80000 .f32) (src2 dst2 : IVec S1360000 32)
    (n : Fin 80000) (k : Fin 5) :
    aggT x dv src2 dst2 (ix2 n k)
      = dv (ix1 n) * ∑ e ∈ Finset.univ.filter (fun e : Fin 1360000 => landOf (dst2 (ix1 e)) = some n),
          x (ix2 (row (wrap (src2 (ix1 e)))) k) * dv (ix1 (row (wrap (src2 (ix1 e))))) := by
  unfold aggT
  show broadcastInDim S80000x5 ![0, 1] bcast_S80000x1_S80000x5_0_1
      (broadcastInDim S80000x1 ![0] bcast_S80000_S80000x1_0 dv) (ix2 n k) * _ = _
  rw [rows5_apply, scatter_rows5_apply, const_apply, Ideal.ofBits_zero_f32, zero_add]
  refine congrArg (dv (ix1 n) * ·) (Finset.sum_congr (Finset.filter_congr fun e _ => ?_) (fun e _ => ?_))
  · rw [col_apply]
  · rw [gather_rows5_apply, col_apply]
    show x (ix2 (row (wrap (src2 (ix1 e)))) k) * broadcastInDim S80000x5 ![0, 1] bcast_S80000x1_S80000x5_0_1
      (broadcastInDim S80000x1 ![0] bcast_S80000_S80000x1_0 dv) (ix2 (row (wrap (src2 (ix1 e)))) k) = _
    rw [rows5_apply]

/-- With `dv` the normalisation, the composed term is the kernel's first aggregation. -/
theorem aggT_eq_aggK (x : (⟨S80000x5, .f32⟩ : BufTy).Contents (Elt Ideal)) (dv : (⟨S80000, .f32⟩ : BufTy).Contents (Elt Ideal))
    (src2 dst2 : (⟨S1360000, .i32⟩ : BufTy).Contents (Elt Ideal))
    (hdv : ∀ m : Fin 80000, dv (ix1 m) = dinv (graphOf src2 dst2) m) (n : Fin 80000) (k : Fin 5) :
    aggT x dv src2 dst2 (ix2 n k) = aggK (graphOf src2 dst2) (fn2 x) n k := by
  rw [aggT_apply, hdv n]
  unfold aggK seg
  refine congrArg (dinv (graphOf src2 dst2) n * ·) (Finset.sum_congr rfl fun e _ => ?_)
  rw [hdv]
  rfl

/-! ## What the first region reads -/

/-- The graph as the buffers hold it when the first region is entered. -/
abbrev G3 : Cert.Gcn.Graph :=
  graphOf (A3 Vin (Proc.devRef .tc main_v14)) (A3 Vin (Proc.devRef .tc main_v15))

theorem A3_dinv (n : Fin 80000) :
    (A3 Vin (Proc.devRef .tc main_v23) : S80000.Idx → EReal) (ix1 n) = dinv (G3 Vin) n := by
  rw [A3_dinvT]
  exact dinvT_apply (A3 Vin (Proc.devRef .tc main_v14)) (A3 Vin (Proc.devRef .tc main_v15)) n

theorem A3_agg (n : Fin 80000) (k : Fin 5) :
    (A3 Vin (Proc.devRef .tc main_v45) : S80000x5.Idx → EReal) (ix2 n k)
      = aggK (G3 Vin) (fn2 (A3 Vin (Proc.devRef .tc main_v0))) n k := by
  rw [A3_aggT]
  exact aggT_eq_aggK _ _ _ _ (A3_dinv Vin) n k

end Cert.KernelIdeal.HostRead

end
-- ==== Proof.KValue.lean ====
/-
  The kernel program's result, entry by entry, in terms of the mathematics of `Spec.lean`.

  The result buffer is the second region's output array: at entry `(p, q)` the two-layer head of row `p` of the
  `[8, 651]` array the last stretch of host operations assembles — the 8 × 5 gathered rows of the second graph layer
  (bias added, rectified), flattened to 640 columns, then the 10 action and 1 step columns. The weights and biases the
  head reads are transposes and reshapes of argument arrays, which nothing has written since launch.
-/
import proofs.«159750_j81578608820912_2_alg».proof.Proof.KRunI
import proofs.«159750_j81578608820912_2_alg».proof.Proof.KBlocks
import proofs.«159750_j81578608820912_2_alg».proof.Proof.KHostB
import proofs.«159750_j81578608820912_2_alg».proof.Proof.KHostA

noncomputable section

namespace Cert.KernelIdeal.KValue

open Cert.KernelIdeal Cert.KernelIdeal.Gen Cert.KernelIdeal.Hand Cert.KernelIdeal.Blocks Cert.KernelIdeal.HostRead2 Cert.Gcn
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-- A buffer the first three stretches do not write is, at the first region's entry, as launched. -/
theorem entry_untouched (r : Ref sig .tc) (h0 : r ∉ hostOps0_W) (h1 : r ∉ hostOps0_1_W) (h2 : r ∉ hostOps0_2_W) :
    W3 m ρ c (Proc.devRef .tc r) = m ((c : Thread nD τ).loc r) :=
  calc W3 m ρ c (Proc.devRef .tc r)
    _ = W2 m ρ c (Proc.devRef .tc r) := StableHlo.after_of_writes_sub hostOps0_2 _ hostOps0_2_writes h2
    _ = W1 m ρ c (Proc.devRef .tc r) := StableHlo.after_of_writes_sub hostOps0_1 _ hostOps0_1_writes h1
    _ = W0 m ρ c (Proc.devRef .tc r) := StableHlo.after_of_writes_sub hostOps0 _ hostOps0_writes h0
    _ = m ((c : Thread nD τ).loc r) := rfl

/-- An argument array, at the first region's exit, is as launched: no stretch writes it and it is none of the region's arrays. -/
theorem exit_arg (r : Ref sig .tc) (h0 : r ∉ hostOps0_W) (h1 : r ∉ hostOps0_1_W) (h2 : r ∉ hostOps0_2_W)
    (h3 : ∀ w, Pipeline.arrRef spec0 w ≠ r) : W4 m ρ c (Proc.devRef .tc r) = m ((c : Thread nD τ).loc r) :=
  (W4_of_ne m ρ c r h3).trans (entry_untouched m ρ c r h0 h1 h2)

/-- Entry `(p, q)` of the result: the head, with the argument weights, of row `p` of the assembled features. -/
theorem out_head (p : Fin 8) (q : Fin 256) :
    ((pd1 (F := Ideal) (E7 m ρ) c).arrAt 5 cfg1.N : S8x256.Idx → EReal) (ix2 p q)
      = head (fn2 (m ((c : Thread nD τ).loc main_arg10) : S256x651.Idx → EReal)) (fn1 (m ((c : Thread nD τ).loc main_arg11) : S256.Idx → EReal))
          (fn2 (m ((c : Thread nD τ).loc main_arg12) : S256x256.Idx → EReal)) (fn1 (m ((c : Thread nD τ).loc main_arg13) : S256.Idx → EReal))
          (fun i => tailT (A7 (W4 m ρ c) (Proc.devRef .tc main_v76)) (m ((c : Thread nD τ).loc main_arg4)) (m ((c : Thread nD τ).loc main_arg5)) (ix2 p i)) q := by
  rw [region1_value (E7 m ρ) c p q]
  have h79 : ∀ (k : Fin 256) (i : Fin 651), (E7 m ρ c main_v79 : S651x256.Idx → EReal) (ix2 i k)
      = (m ((c : Thread nD τ).loc main_arg10) : S256x651.Idx → EReal) (ix2 k i) := fun k i =>
    (A7_wp1t (W4 m ρ c) i k).trans (congrFun (exit_arg m ρ c main_arg10 (by decide) (by decide) (by decide) (by decide)) _)
  have h80 : ∀ (q k : Fin 256), (E7 m ρ c main_v80 : S256x256.Idx → EReal) (ix2 k q)
      = (m ((c : Thread nD τ).loc main_arg12) : S256x256.Idx → EReal) (ix2 q k) := fun q k =>
    (A7_wp2t (W4 m ρ c) k q).trans (congrFun (exit_arg m ρ c main_arg12 (by decide) (by decide) (by decide) (by decide)) _)
  have h81 : ∀ (k : Fin 256), (E7 m ρ c main_v81 : S1x256.Idx → EReal) (ix2 (0 : Fin 1) k)
      = (m ((c : Thread nD τ).loc main_arg11) : S256.Idx → EReal) (ix1 k) := fun k =>
    (A7_bp1 (W4 m ρ c) k).trans (congrFun (exit_arg m ρ c main_arg11 (by decide) (by decide) (by decide) (by decide)) _)
  have h82 : ∀ (q : Fin 256), (E7 m ρ c main_v82 : S1x256.Idx → EReal) (ix2 (0 : Fin 1) q)
      = (m ((c : Thread nD τ).loc main_arg13) : S256.Idx → EReal) (ix1 q) := fun q =>
    (A7_bp2 (W4 m ρ c) q).trans (congrFun (exit_arg m ρ c main_arg13 (by decide) (by decide) (by decide) (by decide)) _)
  have h78 : (E7 m ρ c main_v78 : S8x651.Idx → EReal)
      = tailT (A7 (W4 m ρ c) (Proc.devRef .tc main_v76)) (m ((c : Thread nD τ).loc main_arg4)) (m ((c : Thread nD τ).loc main_arg5)) := by
    refine (A7_cx (W4 m ρ c)).trans ?_
    rw [exit_arg m ρ c main_arg4 (by decide) (by decide) (by decide) (by decide),
      exit_arg m ρ c main_arg5 (by decide) (by decide) (by decide) (by decide)]
  simp only [h79, h80, h81, h82, h78]
  rfl

/-! ## The gathered rows as the kernel's arrangement of the two graph layers -/

open Cert.KernelIdeal.HostRead

/-- The graph, the features and the positions as the first stretches compute them. -/
abbrev gK : Graph := graphOf (W3 m ρ c (Proc.devRef .tc main_v14)) (W3 m ρ c (Proc.devRef .tc main_v15))
abbrev xK : Fin Nn → Fin 5 → EReal := fn2 (W3 m ρ c (Proc.devRef .tc main_v0) : S80000x5.Idx → EReal)
abbrev posK : Fin 8 → Fin 5 → Fin Nn := posOf (W3 m ρ c (Proc.devRef .tc main_v29))

/-- The first region's exit valuation keeps the index lists, the positions and `dinv`: none is an array of the region. -/
theorem exit_v14 : W4 m ρ c (Proc.devRef .tc main_v14) = W3 m ρ c (Proc.devRef .tc main_v14) := W4_of_ne m ρ c main_v14 (by decide)
theorem exit_v15 : W4 m ρ c (Proc.devRef .tc main_v15) = W3 m ρ c (Proc.devRef .tc main_v15) := W4_of_ne m ρ c main_v15 (by decide)
theorem exit_v29 : W4 m ρ c (Proc.devRef .tc main_v29) = W3 m ρ c (Proc.devRef .tc main_v29) := W4_of_ne m ρ c main_v29 (by decide)
theorem exit_v23 : W4 m ρ c (Proc.devRef .tc main_v23) = W3 m ρ c (Proc.devRef .tc main_v23) := W4_of_ne m ρ c main_v23 (by decide)

/-- The first region's output array, entry `(n, j)`: the second layer's features before aggregation. -/
theorem exit_v49 (n : Fin 80000) (j : Fin 128) :
    (W4 m ρ c (Proc.devRef .tc main_v49) : S80000x128.Idx → EReal) (ix2 n j)
      = h2K (gK m ρ c) (xK m ρ c) (fn2 (m ((c : Thread nD τ).loc main_arg6) : S128x5.Idx → EReal))
          (fn1 (m ((c : Thread nD τ).loc main_arg7) : S128.Idx → EReal)) (fn2 (m ((c : Thread nD τ).loc main_arg8) : S128x128.Idx → EReal)) n j := by
  have hW : (W4 m ρ c (Proc.devRef .tc main_v49) : S80000x128.Idx → EReal) = (pd0 (F := Ideal) (E3 m ρ) c).arrAt 4 cfg0.N := W4_arr m ρ c 4
  rw [hW, region0_value (E3 m ρ) c n j]
  have h46 : ∀ (k' : Fin 128) (k : Fin 5), (E3 m ρ c main_v46 : S5x128.Idx → EReal) (ix2 k k')
      = (m ((c : Thread nD τ).loc main_arg6) : S128x5.Idx → EReal) (ix2 k' k) := fun k' k => A3_w1t (W0 m ρ c) k k'
  have h48 : ∀ (k' : Fin 128), (E3 m ρ c main_v48 : S1x128.Idx → EReal) (ix2 (0 : Fin 1) k')
      = (m ((c : Thread nD τ).loc main_arg7) : S128.Idx → EReal) (ix1 k') := fun k' => A3_b1 (W0 m ρ c) k'
  have h47 : ∀ (j k' : Fin 128), (E3 m ρ c main_v47 : S128x128.Idx → EReal) (ix2 k' j)
      = (m ((c : Thread nD τ).loc main_arg8) : S128x128.Idx → EReal) (ix2 j k') := fun j k' => A3_w2t (W0 m ρ c) k' j
  have h45 : ∀ (k : Fin 5), (E3 m ρ c main_v45 : S80000x5.Idx → EReal) (ix2 n k) = aggK (gK m ρ c) (xK m ρ c) n k := fun k => A3_agg (W0 m ρ c) n k
  simp only [h46, h48, h47, h45]
  rfl

/-- Entry `(p, q, j)` of the gathered rows: the kernel's arrangement `PK` of the two layers, at the argument weights. -/
theorem out_P (p : Fin 8) (q : Fin 5) (j : Fin 128) :
    (A7 (W4 m ρ c) (Proc.devRef .tc main_v76) : S8x5x128.Idx → EReal) (ix3 p q j)
      = PK (gK m ρ c) (xK m ρ c) (fn2 (m ((c : Thread nD τ).loc main_arg6) : S128x5.Idx → EReal))
          (fn1 (m ((c : Thread nD τ).loc main_arg7) : S128.Idx → EReal)) (fn2 (m ((c : Thread nD τ).loc main_arg8) : S128x128.Idx → EReal))
          (fn1 (m ((c : Thread nD τ).loc main_arg9) : S128.Idx → EReal)) (posK m ρ c) p q j := by
  have hG : G4 (W4 m ρ c) = gK m ρ c := by
    show graphOf (W4 m ρ c (Proc.devRef .tc main_v14)) (W4 m ρ c (Proc.devRef .tc main_v15)) = _
    rw [exit_v14, exit_v15]
  have hd : ∀ n : Fin 80000, (W4 m ρ c (Proc.devRef .tc main_v23) : S80000.Idx → EReal) (ix1 n) = dinv (G4 (W4 m ρ c)) n := fun n => by
    rw [hG, exit_v23]; exact A3_dinv (W0 m ρ c) n
  rw [A7_P (W4 m ρ c) hd p q j, hG, exit_v29, exit_arg m ρ c main_arg9 (by decide) (by decide) (by decide) (by decide)]
  have hh : (fn2 (W4 m ρ c (Proc.devRef .tc main_v49) : S80000x128.Idx → EReal) : Fin 80000 → Fin 128 → EReal)
      = h2K (gK m ρ c) (xK m ρ c) (fn2 (m ((c : Thread nD τ).loc main_arg6) : S128x5.Idx → EReal))
          (fn1 (m ((c : Thread nD τ).loc main_arg7) : S128.Idx → EReal)) (fn2 (m ((c : Thread nD τ).loc main_arg8) : S128x128.Idx → EReal)) :=
    funext fun n => funext fun j => exit_v49 m ρ c n j
  rw [hh]
  rfl

end Cert.KernelIdeal.KValue

end
-- ==== Proof.RefLayer1.lean ====
/-
  The reference program's FIRST graph-convolution layer, read at an entry.

  The reference forms `h = x · W1ᵀ`, the degrees `deg` (a segment sum of ones over the destination list), their inverse
  square roots `dinv = where(deg > 0, rsqrt(deg), 0)`, the edge weights `norm = dinv[src] · dinv[dst]`, the messages
  `h[src] · norm`, their segment sum over the destination list, adds the bias and applies relu. Each of these is read
  here at one entry, in the vocabulary of `Spec.lean`: a gather reads its table at the row `row (wrap v)` of the start
  index `v` (wrapped once when negative, then clamped into range), which is the graph's `src` / `dst`; a segment sum adds
  the updates of the edges whose raw destination index, read signed, IS the node — the graph's `land`. The result:
  `ref_dinv` (the program's `dinv` is the specification's) and `ref_x1` (the first layer's output is `x1R`). The second
  layer recomputes the two index lists and `dinv` by the same operations on the same operands: `ref_src2_dup`,
  `ref_dst2_dup`, `ref_dinv_dup`.
-/
import proofs.«159750_j81578608820912_2_alg».proof.Proof.ReadP
import proofs.«159750_j81578608820912_2_alg».proof.Proof.Shared
import proofs.«159750_j81578608820912_2_alg».proof.Proof.LibGatherRows
import proofs.«159750_j81578608820912_2_alg».proof.Proof.LibScatterAddRows
import proofs.«159750_j81578608820912_2_alg».proof.Proof.LibExtReal
import proofs.«159750_j81578608820912_2_alg».proof.Proof.LibDenseLayer

noncomputable section

namespace Cert.ReferenceIdeal.RefValue1

open Cert.ReferenceIdeal Cert.ReferenceIdeal.Gen Cert.Gcn
open Idealize.ShloMosaic Idealize.ShloMosaic.ValueIdx
open scoped BigOperators

/-! ## Index words: landing, wrapping, clamping -/

/-- A scatter index lands on node `n` exactly when, read signed, it is `n`. -/
theorem landOf_eq_some_iff (v : BitVec 32) (n : Fin Nn) : landOf v = some n ↔ v.toInt = (n.val : Int) := by
  have hn : n.val < 80000 := n.isLt
  unfold landOf
  split
  · rename_i hr
    constructor
    · intro h
      have h' := congrArg Fin.val (Option.some.inj h)
      simp only at h'
      omega
    · intro h
      refine congrArg some (Fin.ext ?_)
      show v.toInt.toNat = n.val
      omega
  · rename_i hr
    constructor
    · intro h; exact absurd h (by simp)
    · intro h; exact absurd ⟨by omega, by omega⟩ hr

/-! ## A gather of single entries of a one-axis table -/

section VecGather
variable {α : Type}

/-- The dimension numbers of `table[idx]` for a table `[N]`, start indices `[R, 1]` and result `[R]`: the one
    operand axis collapsed and named by the start index, no offset axis. -/
abbrev vecDims (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- The gather read at `r`: the table at the start index `idx[r, 0]`, read signed and clamped into `[0, N − 1]`. -/
theorem gather_vec_ix1 {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (r : Fin R) :
    Host.gather (vecDims N R wf) x idx (ix1 r)
      = x (ix1 ⟨min (idx (ix2 r (0 : Fin 1))).toInt.toNat (N - 1), by omega⟩) := by
  unfold Host.gather
  congr 1
  funext a
  obtain rfl : a = 0 := Subsingleton.elim _ _
  refine Fin.ext ?_
  show (vecDims N R wf).start (ix1 r) idx 0 + (vecDims N R wf).batchCoord (ix1 r) 0 + (vecDims N R wf).offCoord (ix1 r) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N R wf).startIndexMap from List.mem_singleton.mpr rfl)]
  have hsi : (vecDims N R wf).siIdx (ix1 r) ⟨List.idxOf (0 : Fin 1) (vecDims N R wf).startIndexMap,
      List.idxOf_lt_length_iff.2 (List.mem_singleton.mpr rfl)⟩ = ix2 r (0 : Fin 1) := by
    funext b; refine Fin.ext ?_
    match b with
    | ⟨0, _⟩ => rfl
    | ⟨1, _⟩ => rfl
  rw [hsi]
  rfl

end VecGather

/-! ## The program's two gathers and two scatters, read at an entry through the graph -/

/-- `table[idx]` of the one-axis table of 80000 entries: the table at the clamped row. -/
theorem gather_vec_read {α : Type} (tbl : S80000.Idx → α) (idx : IVec S1360000x1 32) (e : Fin 1360000) :
    Host.gather gather_S80000_S1360000x1_S1360000_n_0_n_n_0_1_1 tbl idx (ix1 e)
      = tbl (ix1 (row (idx (ix2 e (0 : Fin 1))))) :=
  gather_vec_ix1 (N := 80000) (R := 1360000) (by decide) gather_S80000_S1360000x1_S1360000_n_0_n_n_0_1_1_wf tbl idx e

/-- `table[idx]` of the table of 80000 rows of 128: the table at the clamped row, same column. -/
theorem gather_rows_read {α : Type} (tbl : S80000x128.Idx → α) (idx : IVec S1360000x1 32) (e : Fin 1360000) (j : Fin 128) :
    Host.gather gather_S80000x128_S1360000x1_S1360000x128_1_0_n_n_0_1_1128 tbl idx (ix2 e j)
      = tbl (ix2 (row (idx (ix2 e (0 : Fin 1)))) j) :=
  Cert.LibGatherRows.gather_rows_ix2 (N := 80000) (C := 128) (R := 1360000) (by decide)
    gather_S80000x128_S1360000x1_S1360000x128_1_0_n_n_0_1_1128_wf tbl idx e j

/-- The segment sum of scalars: the operand's entry plus the updates of the edges landing on `n`. -/
theorem scatter_vec_read (src2 dst2 : S1360000.Idx → BitVec 32) (idx : IVec S1360000x1 32)
    (hidx : ∀ e : Fin 1360000, idx (ix2 e (0 : Fin 1)) = dst2 (ix1 e))
    (x : FVec Ideal S80000 .f32) (upd : FVec Ideal S1360000 .f32) (n : Fin 80000) :
    Host.scatterAdd scatter_S80000_S1360000x1_S1360000_n_0_0_1 x idx upd (ix1 n)
      = x (ix1 n) + seg (graphOf src2 dst2) (fun e => upd (ix1 e)) n := by
  unfold Host.scatterAdd
  rw [Ideal.hostScatterAdd_def]
  refine (Cert.LibScatterAddRows.scatterAdd_vec_ix1 (N := 80000) (R := 1360000)
    scatter_S80000_S1360000x1_S1360000_n_0_0_1_wf x idx upd n).trans ?_
  unfold seg
  refine congrArg (fun t => x (ix1 n) + t) ?_
  refine Finset.sum_congr (Finset.filter_congr fun e _ => ?_) fun _ _ => rfl
  rw [hidx e]
  exact (landOf_eq_some_iff _ n).symm

/-- The segment sum of rows: the operand's entry plus, in the same column, the updates of the edges landing on `n`. -/
theorem scatter_rows_read (src2 dst2 : S1360000.Idx → BitVec 32) (idx : IVec S1360000x1 32)
    (hidx : ∀ e : Fin 1360000, idx (ix2 e (0 : Fin 1)) = dst2 (ix1 e))
    (x : FVec Ideal S80000x128 .f32) (upd : FVec Ideal S1360000x128 .f32) (n : Fin 80000) (j : Fin 128) :
    Host.scatterAdd scatter_S80000x128_S1360000x1_S1360000x128_1_0_0_1 x idx upd (ix2 n j)
      = x (ix2 n j) + seg (graphOf src2 dst2) (fun e => upd (ix2 e j)) n := by
  unfold Host.scatterAdd
  rw [Ideal.hostScatterAdd_def]
  refine (Cert.LibScatterAddRows.scatterAdd_rows_ix2 (N := 80000) (C := 128) (R := 1360000)
    scatter_S80000x128_S1360000x1_S1360000x128_1_0_0_1_wf x idx upd n j).trans ?_
  unfold seg
  refine congrArg (fun t => x (ix2 n j) + t) ?_
  refine Finset.sum_congr (Finset.filter_congr fun e _ => ?_) fun _ _ => rfl
  rw [hidx e]
  exact (landOf_eq_some_iff _ n).symm

/-! ## The first layer of the reference, entry by entry -/

open Cert.ReferenceIdeal.ReadP
open Idealize.ShloMosaic.TcCoe Idealize.SL.Sem Idealize.ShloMosaic.StableHlo

section Layer1

variable (x0 : (⟨S8x10000x5, .f32⟩ : BufTy).Contents (Elt Ideal)) (x1 : (⟨S8x2x160000, .i32⟩ : BufTy).Contents (Elt Ideal))
  (x6 : (⟨S128x5, .f32⟩ : BufTy).Contents (Elt Ideal)) (x7 : (⟨S128, .f32⟩ : BufTy).Contents (Elt Ideal))

/-- The graph the reference reads: its list of source indices and its list of destination indices. -/
abbrev G1 : Graph := graphOf (val_main_v22 (F := Ideal) x1) (val_main_v23 (F := Ideal) x1)

/-! ### The degrees and their inverse square roots -/

/-- The destination list written as a column reads the list. -/
theorem col26 (e : Fin 1360000) :
    val_main_v26 (F := Ideal) x1 (ix2 e (0 : Fin 1)) = val_main_v23 (F := Ideal) x1 (ix1 e) := by
  rw [val_main_v26_apply]
  exact congrArg (val_main_v23 (F := Ideal) x1) (funext fun a => match a with | ⟨0, _⟩ => rfl)

/-- The ones the first segment sum adds up. -/
theorem ones24 (e : Fin 1360000) : val_main_v24 (F := Ideal) (ix1 e) = 1 := by
  rw [val_main_v24_apply, val_main_cst_apply, Ideal.ofBits_def]
  exact Cert.LibExtReal.ofBits_one

/-- The segment sum of ones over the destination list is the degree. -/
theorem ref_deg (n : Fin 80000) : val_main_v27 (F := Ideal) x1 (ix1 n) = deg (G1 x1) n := by
  unfold val_main_v27
  rw [scatter_vec_read (val_main_v22 (F := Ideal) x1) (val_main_v23 (F := Ideal) x1) (val_main_v26 (F := Ideal) x1)
    (col26 x1) (val_main_v25 (F := Ideal)) (val_main_v24 (F := Ideal)) n]
  rw [val_main_v25_apply, val_main_cst_0_apply, Ideal.ofBits_def, Ideal.ofBits_zero_f32, zero_add]
  unfold deg
  exact congrArg (fun u => seg (G1 x1) u n) (funext fun e => ones24 e)

/-- `where(deg > 0, rsqrt(deg), 0)` is `dinv`. -/
theorem ref_dinv (n : Fin 80000) : val_main_v31 (F := Ideal) x1 (ix1 n) = dinv (G1 x1) n := by
  rw [val_main_v31_apply, val_main_v29_apply, val_main_v30_apply, ref_deg x1 n, val_main_v28_apply, val_main_cst_1_apply,
    val_main_call0_v1_apply, val_main_call0_v0_apply, val_main_cst_2_apply, Ideal.ofBits_def, Ideal.ofBits_zero_f32]
  unfold dinv
  generalize deg (G1 x1) n = d
  rfl

/-! ### The wrapped index columns the three gathers read -/

/-- The source list, a negative index wrapped, as a column (the one `dinv[src]` reads). -/
theorem col37 (e : Fin 1360000) :
    val_main_v37 (F := Ideal) x1 (ix2 e (0 : Fin 1)) = wrap (val_main_v22 (F := Ideal) x1 (ix1 e)) := by
  rw [val_main_v37_apply]
  have hi : idx_main_v37 (ix2 e (0 : Fin 1)) = ix1 e := funext fun a => match a with | ⟨0, _⟩ => rfl
  rw [hi, val_main_v36_apply, val_main_v33_apply, val_main_v35_apply, val_main_v32_apply, val_main_c_3_apply,
    val_main_v34_apply, val_main_c_4_apply]
  generalize val_main_v22 (F := Ideal) x1 (ix1 e) = v
  rfl

/-- The destination list, a negative index wrapped, as a column (the one `dinv[dst]` reads). -/
theorem col44 (e : Fin 1360000) :
    val_main_v44 (F := Ideal) x1 (ix2 e (0 : Fin 1)) = wrap (val_main_v23 (F := Ideal) x1 (ix1 e)) := by
  rw [val_main_v44_apply]
  have hi : idx_main_v44 (ix2 e (0 : Fin 1)) = ix1 e := funext fun a => match a with | ⟨0, _⟩ => rfl
  rw [hi, val_main_v43_apply, val_main_v40_apply, val_main_v42_apply, val_main_v39_apply, val_main_c_5_apply,
    val_main_v41_apply, val_main_c_6_apply]
  generalize val_main_v23 (F := Ideal) x1 (ix1 e) = v
  rfl

/-- The source list, a negative index wrapped, as a column (the one `h[src]` reads). -/
theorem col52 (e : Fin 1360000) :
    val_main_v52 (F := Ideal) x1 (ix2 e (0 : Fin 1)) = wrap (val_main_v22 (F := Ideal) x1 (ix1 e)) := by
  rw [val_main_v52_apply]
  have hi : idx_main_v52 (ix2 e (0 : Fin 1)) = ix1 e := funext fun a => match a with | ⟨0, _⟩ => rfl
  rw [hi, val_main_v51_apply, val_main_v48_apply, val_main_v50_apply, val_main_v47_apply, val_main_c_7_apply,
    val_main_v49_apply, val_main_c_8_apply]
  generalize val_main_v22 (F := Ideal) x1 (ix1 e) = v
  rfl

/-- The destination list written as a column, the second time (the one the row segment sum scatters through). -/
theorem col58 (e : Fin 1360000) :
    val_main_v58 (F := Ideal) x1 (ix2 e (0 : Fin 1)) = val_main_v23 (F := Ideal) x1 (ix1 e) := by
  rw [val_main_v58_apply]
  exact congrArg (val_main_v23 (F := Ideal) x1) (funext fun a => match a with | ⟨0, _⟩ => rfl)

/-! ### The edge weights -/

/-- `dinv[src]` at edge `e`. -/
theorem ref_dinv_src (e : Fin 1360000) : val_main_v38 (F := Ideal) x1 (ix1 e) = dinv (G1 x1) ((G1 x1).src e) := by
  unfold val_main_v38
  refine (gather_vec_read (val_main_v31 (F := Ideal) x1) (val_main_v37 (F := Ideal) x1) e).trans ?_
  rw [col37 x1 e]
  exact ref_dinv x1 _

/-- `dinv[dst]` at edge `e`. -/
theorem ref_dinv_dst (e : Fin 1360000) : val_main_v45 (F := Ideal) x1 (ix1 e) = dinv (G1 x1) ((G1 x1).dst e) := by
  unfold val_main_v45
  refine (gather_vec_read (val_main_v31 (F := Ideal) x1) (val_main_v44 (F := Ideal) x1) e).trans ?_
  rw [col44 x1 e]
  exact ref_dinv x1 _

/-- Their product is the edge's weight. -/
theorem ref_norm (e : Fin 1360000) : val_main_v46 (F := Ideal) x1 (ix1 e) = Cert.Gcn.norm (G1 x1) e := by
  rw [val_main_v46_apply, ref_dinv_src x1 e, ref_dinv_dst x1 e]
  unfold Cert.Gcn.norm
  generalize dinv (G1 x1) ((G1 x1).src e) = a
  generalize dinv (G1 x1) ((G1 x1).dst e) = b
  rfl

/-! ### The features times the weights, the messages, the layer -/

/-- `x · W1ᵀ` at `(r, j)`. -/
theorem ref_h1 (r : Fin 80000) (j : Fin 128) :
    val_main_v20 (F := Ideal) x0 x6 (ix2 r j) = h1R (fn2 (val_main_v0 (F := Ideal) x0)) (fn2 x6) r j := by
  rw [val_main_v20_apply]
  unfold h1R
  refine Finset.sum_congr rfl fun k _ => ?_
  rw [val_main_v19_apply]
  have hl : lidx_main_v20 (ix2 r j) k = ix2 r k := funext fun a => match a with | ⟨0, _⟩ => rfl | ⟨1, _⟩ => rfl
  have hr : idx_main_v19 (ridx_main_v20 (ix2 r j) k) = ix2 j k := funext fun a => match a with | ⟨0, _⟩ => rfl | ⟨1, _⟩ => rfl
  rw [hl, hr]
  generalize val_main_v0 (F := Ideal) x0 = X
  rfl

/-- `h[src]` at `(e, j)`. -/
theorem ref_h1_src (e : Fin 1360000) (j : Fin 128) :
    val_main_v53 (F := Ideal) x0 x1 x6 (ix2 e j)
      = h1R (fn2 (val_main_v0 (F := Ideal) x0)) (fn2 x6) ((G1 x1).src e) j := by
  unfold val_main_v53
  refine (gather_rows_read (val_main_v20 (F := Ideal) x0 x6) (val_main_v52 (F := Ideal) x1) e j).trans ?_
  rw [col52 x1 e]
  exact ref_h1 x0 x6 _ j

/-- The message of edge `e` in column `j`: the gathered row scaled by the edge's weight. -/
theorem ref_msg (e : Fin 1360000) (j : Fin 128) :
    val_main_v56 (F := Ideal) x0 x1 x6 (ix2 e j)
      = h1R (fn2 (val_main_v0 (F := Ideal) x0)) (fn2 x6) ((G1 x1).src e) j * Cert.Gcn.norm (G1 x1) e := by
  rw [val_main_v56_apply, ref_h1_src x0 x1 x6 e j, val_main_v55_apply, val_main_v54_apply]
  have hi : idx_main_v54 (idx_main_v55 (ix2 e j)) = ix1 e := funext fun a => match a with | ⟨0, _⟩ => rfl
  rw [hi, ref_norm x1 e]
  generalize h1R (fn2 (val_main_v0 (F := Ideal) x0)) (fn2 x6) ((G1 x1).src e) j = a
  generalize Cert.Gcn.norm (G1 x1) e = b
  rfl

/-- THE FIRST LAYER: the messages summed over the edges landing on `n`, plus the bias, through relu. -/
theorem ref_x1 (n : Fin 80000) (j : Fin 128) :
    val_main_v63 (F := Ideal) x0 x1 x6 x7 (ix2 n j)
      = x1R (G1 x1) (fn2 (val_main_v0 (F := Ideal) x0)) (fn2 x6) (fn1 x7) n j := by
  have h59 : val_main_v59 (F := Ideal) x0 x1 x6 (ix2 n j)
      = seg (G1 x1) (fun e => h1R (fn2 (val_main_v0 (F := Ideal) x0)) (fn2 x6) ((G1 x1).src e) j * Cert.Gcn.norm (G1 x1) e) n := by
    unfold val_main_v59
    rw [scatter_rows_read (val_main_v22 (F := Ideal) x1) (val_main_v23 (F := Ideal) x1) (val_main_v58 (F := Ideal) x1)
      (col58 x1) (val_main_v57 (F := Ideal)) (val_main_v56 (F := Ideal) x0 x1 x6) n j]
    rw [val_main_v57_apply, val_main_cst_9_apply, Ideal.ofBits_def, Ideal.ofBits_zero_f32, zero_add]
    exact congrArg (fun u => seg (G1 x1) u n) (funext fun e => ref_msg x0 x1 x6 e j)
  have h61 : val_main_v61 (F := Ideal) x7 (ix2 n j) = fn1 x7 j := by
    rw [val_main_v61_apply, val_main_v60_apply]
    exact congrArg x7 (funext fun a => match a with | ⟨0, _⟩ => rfl)
  rw [val_main_v63_apply, val_main_v62_apply, h59, h61, val_main_call1_v0_apply, val_main_call1_cst_apply,
    Ideal.ofBits_def, Ideal.ofBits_zero_f32]
  unfold x1R layerR relu
  generalize seg (G1 x1) (fun e => h1R (fn2 (val_main_v0 (F := Ideal) x0)) (fn2 x6) ((G1 x1).src e) j * Cert.Gcn.norm (G1 x1) e) n = s
  rfl

/-! ### The second layer recomputes the index lists and `dinv`: the same terms -/

/-- The second layer's source list is the first's. -/
theorem ref_src2_dup : val_main_v67 (F := Ideal) x1 = val_main_v22 (F := Ideal) x1 := by
  unfold val_main_v67 val_main_v22
  rw [show val_main_v66 (F := Ideal) = val_main_v21 (F := Ideal) from rfl]

/-- The second layer's destination list is the first's. -/
theorem ref_dst2_dup : val_main_v68 (F := Ideal) x1 = val_main_v23 (F := Ideal) x1 := by
  unfold val_main_v68 val_main_v23
  rw [show val_main_v66 (F := Ideal) = val_main_v21 (F := Ideal) from rfl]

/-- The second layer's `dinv` is the first's. -/
theorem ref_dinv_dup : val_main_v76 (F := Ideal) x1 = val_main_v31 (F := Ideal) x1 := by
  unfold val_main_v76 val_main_v31 val_main_v74 val_main_v29 val_main_v75 val_main_v30 val_main_v72 val_main_v27
    val_main_v71 val_main_v26
  rw [ref_dst2_dup x1,
    show val_main_v70 (F := Ideal) = val_main_v25 (F := Ideal) from rfl,
    show val_main_v69 (F := Ideal) = val_main_v24 (F := Ideal) from rfl,
    show val_main_v73 (F := Ideal) = val_main_v28 (F := Ideal) from rfl,
    show val_main_call2_v1 (F := Ideal) = val_main_call0_v1 (F := Ideal) from rfl]

end Layer1

end Cert.ReferenceIdeal.RefValue1

end
-- ==== Proof.RefLayer2.lean ====
/-
  The reference program's second graph-convolution layer, its gather at the 8 × 5 positions and its head, read at one
  entry, with the first layer's output `X1` taken as given.

  The second layer rebuilds the edge lists (the 1280000 edges followed by the 80000 self loops) and reads them as the
  graph `G2`: a gather reads a row through an index wrapped once when negative and then clamped into range, a segment
  sum adds an edge's message to the node its raw destination index names and drops it when that index is out of range.
  The segment sum of ones is the degree (`ref_deg2`); `where(deg > 0, rsqrt deg, 0)` is `dinv` (`ref_dinv2`); the
  product of `dinv` gathered at an edge's source row and at its destination row is the edge's weight `norm`
  (`ref_norm`). The layer multiplies `X1` by the transposed weights (`ref_h2`), gathers the rows at the edges' sources
  and scales each by the edge's weight (`ref_msg`), sums the messages landing on each node and adds the bias
  (`ref_layer2`, Spec.lean's `layerR`), rectifies, and reads the rows at the 8 × 5 positions (`ref_P`).

  The head flattens the gathered 8 × 5 × 128 block to 8 × 640, joins the 10 and the 1 extra features (`ref_cx`) and
  applies two dense layers, the first rectified (`ref_out`, Spec.lean's `head`).

  Each gather and segment sum is first read at an index over arbitrary arrays; the program's stages are then read one
  index at a time, outermost first.
-/
import proofs.«159750_j81578608820912_2_alg».proof.Proof.ReadP
import proofs.«159750_j81578608820912_2_alg».proof.Proof.Shared
import proofs.«159750_j81578608820912_2_alg».proof.Proof.LibGatherRows
import proofs.«159750_j81578608820912_2_alg».proof.Proof.LibScatterAddRows
import proofs.«159750_j81578608820912_2_alg».proof.Proof.LibExtReal
import proofs.«159750_j81578608820912_2_alg».proof.Proof.LibDenseLayer
import Idealize.ShloMosaic.Lib.Pipeline.Value
import Idealize.ShloMosaic.Lib.ValueIdx
import Idealize.ShloMosaic.PureOps.Ideal.Laws

noncomputable section

namespace Cert.ReferenceIdeal.RefValue2

open Cert.ReferenceIdeal Cert.ReferenceIdeal.Gen Cert.ReferenceIdeal.ReadP Cert.Gcn
open Idealize.ShloMosaic Idealize.ShloMosaic.ValueIdx
open scoped BigOperators

variable (x0 : (⟨S8x10000x5, .f32⟩ : BufTy).Contents (Elt Ideal)) (x1 : (⟨S8x2x160000, .i32⟩ : BufTy).Contents (Elt Ideal))
  (x2 : (⟨S8, .i32⟩ : BufTy).Contents (Elt Ideal)) (x3 : (⟨S8x4, .i32⟩ : BufTy).Contents (Elt Ideal))
  (x4 : (⟨S8x10, .f32⟩ : BufTy).Contents (Elt Ideal)) (x5 : (⟨S8x1, .f32⟩ : BufTy).Contents (Elt Ideal))
  (x6 : (⟨S128x5, .f32⟩ : BufTy).Contents (Elt Ideal)) (x7 : (⟨S128, .f32⟩ : BufTy).Contents (Elt Ideal))
  (x8 : (⟨S128x128, .f32⟩ : BufTy).Contents (Elt Ideal)) (x9 : (⟨S128, .f32⟩ : BufTy).Contents (Elt Ideal))
  (x10 : (⟨S256x651, .f32⟩ : BufTy).Contents (Elt Ideal)) (x11 : (⟨S256, .f32⟩ : BufTy).Contents (Elt Ideal))
  (x12 : (⟨S256x256, .f32⟩ : BufTy).Contents (Elt Ideal)) (x13 : (⟨S256, .f32⟩ : BufTy).Contents (Elt Ideal))

/-! ## Reading the integer index arrays -/

/-- A scatter index lands on node `n` exactly when, read as a signed integer, it is `n`. -/
theorem landOf_eq_some_iff (v : BitVec 32) (n : Fin Nn) : landOf v = some n ↔ v.toInt = (n.val : Int) := by
  have hn : n.val < 80000 := n.isLt
  unfold landOf
  constructor
  · intro h
    split at h
    · rename_i hr
      have hv : v.toInt.toNat = n.val := congrArg Fin.val (Option.some.inj h)
      omega
    · exact absurd h (by simp)
  · intro h
    have hr : 0 ≤ v.toInt ∧ v.toInt < 80000 := by omega
    rw [dif_pos hr]
    refine congrArg some (Fin.ext ?_)
    show v.toInt.toNat = n.val
    omega

/-! ## A gather from a one-axis table

  What `table[idx]` lowers to for a table `[N]` and start indices `[R, 1]`: the table's one axis is collapsed and is the
  axis the start index names, with slice size 1, so result element `r` is the table at `idx[r, 0]` read as a signed
  integer and clamped into `[0, N − 1]`. -/

/-- The dimension numbers of that gather: no offset axis, axis 0 collapsed and named by the start index map, the index
    vector on the start indices' last axis. -/
abbrev vecDims (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- The gather read at `r`: the table at `idx[r, 0]`, read signed and clamped into `[0, N − 1]`. -/
theorem gather_vec_ix1 {α : Type} {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (r : Fin R) :
    Host.gather (vecDims N R wf) x idx (ix1 r)
      = x (ix1 ⟨min (idx (ix2 r (0 : Fin 1))).toInt.toNat (N - 1), by omega⟩) := by
  unfold Host.gather
  congr 1
  funext a
  obtain rfl : a = 0 := Subsingleton.elim _ _
  refine Fin.ext ?_
  show (vecDims N R wf).start (ix1 r) idx 0 + (vecDims N R wf).batchCoord (ix1 r) 0 + (vecDims N R wf).offCoord (ix1 r) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N R wf).startIndexMap from List.mem_singleton.mpr rfl)]
  have hsi : (vecDims N R wf).siIdx (ix1 r) ⟨List.idxOf (0 : Fin 1) (vecDims N R wf).startIndexMap,
      List.idxOf_lt_length_iff.2 (List.mem_singleton.mpr rfl)⟩ = ix2 r (0 : Fin 1) := by
    funext b; refine Fin.ext ?_
    match b with
    | ⟨0, _⟩ => rfl
    | ⟨1, _⟩ => rfl
  rw [hsi]
  rfl

/-! ## The program's gathers and segment sums, read at an index over any arrays -/

theorem gdims_eq : (gather_S80000x128_S1360000x1_S1360000x128_1_0_n_n_0_1_1128 : GatherDims S80000x128 S1360000x1 S1360000x128)
    = Cert.LibGatherRows.rowsDims 80000 128 1360000 gather_S80000x128_S1360000x1_S1360000x128_1_0_n_n_0_1_1128_wf := rfl

theorem gdims3_eq : (gather_S80000x128_S8x5x1_S8x5x128_2_0_n_n_0_2_1128 : GatherDims S80000x128 S8x5x1 S8x5x128)
    = Cert.LibGatherRows.rows3Dims 80000 128 8 5 gather_S80000x128_S8x5x1_S8x5x128_2_0_n_n_0_2_1128_wf := rfl

theorem gdimsV_eq : (gather_S80000_S1360000x1_S1360000_n_0_n_n_0_1_1 : GatherDims S80000 S1360000x1 S1360000)
    = vecDims 80000 1360000 gather_S80000_S1360000x1_S1360000_n_0_n_n_0_1_1_wf := rfl

theorem sdims_eq : (scatter_S80000x128_S1360000x1_S1360000x128_1_0_0_1 : ScatterDims S80000x128 S1360000x1 S1360000x128)
    = Cert.LibScatterAddRows.rowsAddDims 80000 128 1360000 scatter_S80000x128_S1360000x1_S1360000x128_1_0_0_1_wf := rfl

theorem sdimsV_eq : (scatter_S80000_S1360000x1_S1360000_n_0_0_1 : ScatterDims S80000 S1360000x1 S1360000)
    = Cert.LibScatterAddRows.vecAddDims 80000 1360000 scatter_S80000_S1360000x1_S1360000_n_0_0_1_wf := rfl

/-- The per-edge gather of rows reads the table at the row of the edge's start index. -/
theorem gather_edge_apply (x : FVec Ideal S80000x128 .f32) (idx : IVec S1360000x1 32) (e : Fin 1360000) (j : Fin 128) :
    Host.gather gather_S80000x128_S1360000x1_S1360000x128_1_0_n_n_0_1_1128 x idx (ix2 e j)
      = x (ix2 (row (idx (ix2 e (0 : Fin 1)))) j) := by
  rw [gdims_eq]
  exact Cert.LibGatherRows.gather_rows_ix2 (N := 80000) (C := 128) (R := 1360000) (w := 32) (by decide)
    gather_S80000x128_S1360000x1_S1360000x128_1_0_n_n_0_1_1128_wf x idx e j

/-- The per-edge gather of a per-node scalar reads the table at the row of the edge's start index. -/
theorem gather_edge1_apply (x : FVec Ideal S80000 .f32) (idx : IVec S1360000x1 32) (e : Fin 1360000) :
    Host.gather gather_S80000_S1360000x1_S1360000_n_0_n_n_0_1_1 x idx (ix1 e)
      = x (ix1 (row (idx (ix2 e (0 : Fin 1))))) := by
  rw [gdimsV_eq]
  exact gather_vec_ix1 (N := 80000) (R := 1360000) (w := 32) (by decide)
    gather_S80000_S1360000x1_S1360000_n_0_n_n_0_1_1_wf x idx e

/-- The gather at the positions reads the table at the row of the position's start index. -/
theorem gather_pos_apply (x : FVec Ideal S80000x128 .f32) (idx : IVec S8x5x1 32) (p : Fin 8) (q : Fin 5) (j : Fin 128) :
    Host.gather gather_S80000x128_S8x5x1_S8x5x128_2_0_n_n_0_2_1128 x idx (ix3 p q j)
      = x (ix2 (row (idx (ix3 p q (0 : Fin 1)))) j) := by
  rw [gdims3_eq]
  exact Cert.LibGatherRows.gather_rows3_ix3 (N := 80000) (C := 128) (R := 8) (K := 5) (w := 32) (by decide)
    gather_S80000x128_S8x5x1_S8x5x128_2_0_n_n_0_2_1128_wf x idx p q j

/-- The segment sum of rows at `(n, j)`: the operand there plus the updates of the edges landing on `n`. -/
theorem scatter_edge_apply (x : FVec Ideal S80000x128 .f32) (idx : IVec S1360000x1 32) (upd : FVec Ideal S1360000x128 .f32)
    (n : Fin 80000) (j : Fin 128) :
    Host.scatterAdd scatter_S80000x128_S1360000x1_S1360000x128_1_0_0_1 x idx upd (ix2 n j)
      = x (ix2 n j) + ∑ e ∈ Finset.univ.filter (fun e : Fin 1360000 => landOf (idx (ix2 e (0 : Fin 1))) = some n), upd (ix2 e j) := by
  rw [sdims_eq]
  refine (Cert.LibScatterAddRows.scatterAdd_rows_ix2 (N := 80000) (C := 128) (R := 1360000) (w := 32)
    scatter_S80000x128_S1360000x1_S1360000x128_1_0_0_1_wf x idx upd n j).trans ?_
  refine congrArg (x (ix2 n j) + ·) (Finset.sum_congr (Finset.filter_congr fun e _ => ?_) (fun _ _ => rfl))
  exact (landOf_eq_some_iff _ n).symm

/-- The segment sum of scalars at `n`: the operand there plus the updates of the edges landing on `n`. -/
theorem scatter_node_apply (x : FVec Ideal S80000 .f32) (idx : IVec S1360000x1 32) (upd : FVec Ideal S1360000 .f32)
    (n : Fin 80000) :
    Host.scatterAdd scatter_S80000_S1360000x1_S1360000_n_0_0_1 x idx upd (ix1 n)
      = x (ix1 n) + ∑ e ∈ Finset.univ.filter (fun e : Fin 1360000 => landOf (idx (ix2 e (0 : Fin 1))) = some n), upd (ix1 e) := by
  rw [sdimsV_eq]
  refine (Cert.LibScatterAddRows.scatterAdd_vec_ix1 (N := 80000) (R := 1360000) (w := 32)
    scatter_S80000_S1360000x1_S1360000_n_0_0_1_wf x idx upd n).trans ?_
  refine congrArg (x (ix1 n) + ·) (Finset.sum_congr (Finset.filter_congr fun e _ => ?_) (fun _ _ => rfl))
  exact (landOf_eq_some_iff _ n).symm

/-! ## The graph the second layer reads, its degrees and its edge weights -/

/-- The graph of the second layer: the source and destination lists it rebuilds, self loops appended. -/
abbrev G2 : Graph := graphOf (val_main_v67 (F := Ideal) x1) (val_main_v68 (F := Ideal) x1)

/-- The first layer's output after its rectifier. -/
abbrev X1 := val_main_v63 (F := Ideal) x0 x1 x6 x7

/-- An index list laid out as a column reads the list at the row. -/
theorem col_idx (e : Fin 1360000) : idx_main_v71 (ix2 e (0 : Fin 1)) = ix1 e := by
  funext a; match a with | ⟨0, _⟩ => rfl

/-- The segment sum of ones through the destination list is the degree. -/
theorem ref_deg2 (n : Fin 80000) : val_main_v72 (F := Ideal) x1 (ix1 n) = deg (G2 x1) n := by
  unfold val_main_v72
  rw [scatter_node_apply, val_main_v70_apply, val_main_cst_11_apply, Ideal.ofBits_def, Ideal.ofBits_zero_f32, zero_add]
  unfold deg seg
  refine Finset.sum_congr (Finset.filter_congr fun e _ => ?_) fun e _ => ?_
  · rw [val_main_v71_apply, col_idx]
    rfl
  · rw [val_main_v69_apply, val_main_cst_10_apply, Ideal.ofBits_def, Cert.LibExtReal.ofBits_one]

/-- `where(deg > 0, rsqrt deg, 0)` is the inverse square root of the degree, zero on an isolated node. -/
theorem ref_dinv2 (n : Fin 80000) : val_main_v76 (F := Ideal) x1 (ix1 n) = dinv (G2 x1) n := by
  rw [val_main_v76_apply, val_main_v74_apply, val_main_v75_apply, val_main_v73_apply, val_main_cst_12_apply,
    val_main_call2_v1_apply, val_main_call2_v0_apply, val_main_cst_13_apply, ref_deg2]
  simp only [Ideal.ofBits_def, Ideal.ofBits_zero_f32, Ideal.hostUnary_rsqrt_def]
  rfl

/-- The source list, wrapped as jnp indexing wraps it, in the column the first gather of `dinv` reads. -/
theorem ref_wrap82 (e : Fin 1360000) :
    val_main_v82 (F := Ideal) x1 (ix2 e (0 : Fin 1)) = wrap (val_main_v67 (F := Ideal) x1 (ix1 e)) := by
  have hi : idx_main_v82 (ix2 e (0 : Fin 1)) = ix1 e := by
    funext a; match a with | ⟨0, _⟩ => rfl
  rw [val_main_v82_apply, hi, val_main_v81_apply, val_main_v78_apply, val_main_v80_apply, val_main_v77_apply,
    val_main_c_14_apply, val_main_v79_apply, val_main_c_15_apply]
  rfl

/-- The destination list, wrapped, in the column the second gather of `dinv` reads. -/
theorem ref_wrap89 (e : Fin 1360000) :
    val_main_v89 (F := Ideal) x1 (ix2 e (0 : Fin 1)) = wrap (val_main_v68 (F := Ideal) x1 (ix1 e)) := by
  have hi : idx_main_v89 (ix2 e (0 : Fin 1)) = ix1 e := by
    funext a; match a with | ⟨0, _⟩ => rfl
  rw [val_main_v89_apply, hi, val_main_v88_apply, val_main_v85_apply, val_main_v87_apply, val_main_v84_apply,
    val_main_c_16_apply, val_main_v86_apply, val_main_c_17_apply]
  rfl

/-- The source list, wrapped, in the column the gather of the feature rows reads. -/
theorem ref_wrap97 (e : Fin 1360000) :
    val_main_v97 (F := Ideal) x1 (ix2 e (0 : Fin 1)) = wrap (val_main_v67 (F := Ideal) x1 (ix1 e)) := by
  have hi : idx_main_v97 (ix2 e (0 : Fin 1)) = ix1 e := by
    funext a; match a with | ⟨0, _⟩ => rfl
  rw [val_main_v97_apply, hi, val_main_v96_apply, val_main_v93_apply, val_main_v95_apply, val_main_v92_apply,
    val_main_c_18_apply, val_main_v94_apply, val_main_c_19_apply]
  rfl

/-- An edge's weight: `dinv` gathered at its source row times `dinv` gathered at its destination row. -/
theorem ref_norm (e : Fin 1360000) : val_main_v91 (F := Ideal) x1 (ix1 e) = norm (G2 x1) e := by
  rw [val_main_v91_apply]
  unfold val_main_v83 val_main_v90
  rw [gather_edge1_apply, gather_edge1_apply, ref_wrap82, ref_wrap89, ref_dinv2, ref_dinv2]
  rfl

/-- The second layer's features times its weights, at node `n` and output feature `j`. -/
theorem ref_h2 (n : Fin 80000) (j : Fin 128) :
    val_main_v65 (F := Ideal) x0 x1 x6 x7 x8 (ix2 n j) = ∑ k : Fin 128, X1 x0 x1 x6 x7 (ix2 n k) * fn2 x8 j k := by
  rw [val_main_v65_apply]
  refine Finset.sum_congr rfl fun k _ => ?_
  have hl : lidx_main_v65 (ix2 n j) k = ix2 n k := by
    funext a; match a with | ⟨0, _⟩ => rfl | ⟨1, _⟩ => rfl
  have hr : idx_main_v64 (ridx_main_v65 (ix2 n j) k) = ix2 j k := by
    funext a; match a with | ⟨0, _⟩ => rfl | ⟨1, _⟩ => rfl
  rw [hl, val_main_v64_apply, hr]
  rfl

/-- An edge's message: the weighted features at its source row, scaled by the edge's weight. -/
theorem ref_msg (e : Fin 1360000) (j : Fin 128) :
    val_main_v101 (F := Ideal) x0 x1 x6 x7 x8 (ix2 e j)
      = (∑ k : Fin 128, X1 x0 x1 x6 x7 (ix2 ((G2 x1).src e) k) * fn2 x8 j k) * norm (G2 x1) e := by
  have hi : idx_main_v99 (idx_main_v100 (ix2 e j)) = ix1 e := by
    funext a; match a with | ⟨0, _⟩ => rfl
  rw [val_main_v101_apply, val_main_v100_apply, val_main_v99_apply, hi, ref_norm]
  unfold val_main_v98
  rw [gather_edge_apply, ref_wrap97, ref_h2]
  rfl

/-- One reference layer on the first layer's output: the messages of the edges landing on `n` summed, plus the bias. -/
theorem ref_layer2 (n : Fin 80000) (j : Fin 128) :
    val_main_v107 (F := Ideal) x0 x1 x6 x7 x8 x9 (ix2 n j)
      = layerR (G2 x1) (fun n j => ∑ k : Fin 128, X1 x0 x1 x6 x7 (ix2 n k) * fn2 x8 j k) (fn1 x9) n j := by
  have hb : idx_main_v105 (idx_main_v106 (ix2 n j)) = ix1 j := by
    funext a; match a with | ⟨0, _⟩ => rfl
  rw [val_main_v107_apply, val_main_v106_apply, val_main_v105_apply, hb]
  unfold val_main_v104
  rw [scatter_edge_apply, val_main_v102_apply, val_main_cst_20_apply, Ideal.ofBits_def, Ideal.ofBits_zero_f32, zero_add]
  unfold layerR seg
  simp only [Ideal.addf_def]
  refine congrArg (· + x9 (ix1 j)) (Finset.sum_congr (Finset.filter_congr fun e _ => ?_) fun e _ => ?_)
  · have hi : idx_main_v103 (ix2 e (0 : Fin 1)) = ix1 e := by
      funext a; match a with | ⟨0, _⟩ => rfl
    rw [val_main_v103_apply, hi]
    rfl
  · exact ref_msg x0 x1 x6 x7 x8 e j

/-- What the reference hands its head at position `(p, q)`: the second layer's output, rectified, gathered at the
    position's row. -/
theorem ref_P (p : Fin 8) (q : Fin 5) (j : Fin 128) :
    val_main_v115 (F := Ideal) x0 x1 x2 x3 x6 x7 x8 x9 (ix3 p q j)
      = relu (layerR (G2 x1) (fun n j => ∑ k : Fin 128, X1 x0 x1 x6 x7 (ix2 n k) * fn2 x8 j k) (fn1 x9)
          (posOf (val_main_v18 (F := Ideal) x2 x3) p q) j) := by
  have hi : idx_main_v114 (ix3 p q (0 : Fin 1)) = ix2 p q := by
    funext a; match a with | ⟨0, _⟩ => rfl | ⟨1, _⟩ => rfl
  have hrow : row (val_main_v114 (F := Ideal) x2 x3 (ix3 p q (0 : Fin 1))) = posOf (val_main_v18 (F := Ideal) x2 x3) p q := by
    rw [val_main_v114_apply, hi, val_main_v113_apply, val_main_v110_apply, val_main_v112_apply, val_main_v109_apply,
      val_main_c_21_apply, val_main_v111_apply, val_main_c_22_apply]
    rfl
  unfold val_main_v115
  rw [gather_pos_apply, hrow, val_main_v108_apply, ref_layer2, val_main_call3_v0_apply, val_main_call3_cst_apply]
  simp only [Ideal.maximumf_def, Ideal.ofBits_def, Ideal.ofBits_zero_f32]
  rfl

/-! ## The head: two dense layers on the row of 651 features -/

/-- The 651 features handed to the head: the 8 × 5 × 128 gathered block flattened to 8 × 640, then the 10 actions and
    the step, joined along the feature axis. -/
def tailR (P : S8x5x128.Idx → EReal) (a4 : S8x10.Idx → EReal) (a5 : S8x1.Idx → EReal) : S8x651.Idx → EReal :=
  concatenate S8x651 1 [⟨S8x640, shapeCast S8x640 P shapeCasts_S8x5x128_S8x640⟩, ⟨S8x10, a4⟩, ⟨S8x1, a5⟩]
    concatenates_S8x640_S8x10_S8x1_S8x651_d1

/-- The reference's feature row is that join of its gathered block with the two extra inputs. -/
theorem ref_cx :
    val_main_v117 (F := Ideal) x0 x1 x2 x3 x4 x5 x6 x7 x8 x9
      = tailR (val_main_v115 (F := Ideal) x0 x1 x2 x3 x6 x7 x8 x9) x4 x5 := by
  unfold val_main_v117 val_main_v116 tailR
  rfl

/-- The reference's output at `(p, q)` is the two-layer head applied to row `p` of the 651 features. -/
theorem ref_out (p : Fin 8) (q : Fin 256) :
    val_main_v128 (F := Ideal) x0 x1 x2 x3 x4 x5 x6 x7 x8 x9 x10 x11 x12 x13 (ix2 p q)
      = head (fn2 x10) (fn1 x11) (fn2 x12) (fn1 x13)
          (fun i => val_main_v117 (F := Ideal) x0 x1 x2 x3 x4 x5 x6 x7 x8 x9 (ix2 p i)) q := by
  -- the second dense layer: a sum over the 256 hidden features plus the bias
  rw [val_main_v128_apply, val_main_v125_apply, val_main_v127_apply, val_main_v126_apply]
  have hb2 : idx_main_v126 (idx_main_v127 (ix2 p q)) = ix1 q := by
    funext a; match a with | ⟨0, _⟩ => rfl
  rw [hb2]
  unfold head
  simp only [Ideal.addf_def]
  refine congrArg (· + x13 (ix1 q)) (Finset.sum_congr rfl fun k _ => ?_)
  have hl : lidx_main_v125 (ix2 p q) k = ix2 p k := by
    funext a; match a with | ⟨0, _⟩ => rfl | ⟨1, _⟩ => rfl
  have hr : idx_main_v124 (ridx_main_v125 (ix2 p q) k) = ix2 q k := by
    funext a; match a with | ⟨0, _⟩ => rfl | ⟨1, _⟩ => rfl
  rw [hl, val_main_v124_apply, hr]
  refine congrArg (· * x12 (ix2 q k)) ?_
  -- the first dense layer at hidden feature k: a sum over the 651 features plus the bias, rectified
  rw [val_main_v123_apply, val_main_v122_apply, val_main_v119_apply, val_main_v121_apply, val_main_v120_apply,
    val_main_call4_v0_apply, val_main_call4_cst_apply]
  have hb1 : idx_main_v120 (idx_main_v121 (ix2 p k)) = ix1 k := by
    funext a; match a with | ⟨0, _⟩ => rfl
  rw [hb1]
  simp only [Ideal.addf_def, Ideal.maximumf_def, Ideal.ofBits_def, Ideal.ofBits_zero_f32]
  unfold relu
  refine congrArg (fun y => max (y + x11 (ix1 k)) 0) (Finset.sum_congr rfl fun i _ => ?_)
  have hl1 : lidx_main_v119 (ix2 p k) i = ix2 p i := by
    funext a; match a with | ⟨0, _⟩ => rfl | ⟨1, _⟩ => rfl
  have hr1 : idx_main_v118 (ridx_main_v119 (ix2 p k) i) = ix2 k i := by
    funext a; match a with | ⟨0, _⟩ => rfl | ⟨1, _⟩ => rfl
  rw [hl1, val_main_v118_apply, hr1]
  rfl

end Cert.ReferenceIdeal.RefValue2

end
-- ==== Proof.SpecMath.lean ====
/-
  The two arrangements of the graph convolution compute the same numbers, over the extended reals.

  The degree of a node is a finite sum of ones, a non-negative real; so `dinv` — its reciprocal
  square root where positive, `0` elsewhere — is a non-negative real too. Two facts then join the
  arrangements. First, a non-negative REAL factor moves in and out of a finite sum of ARBITRARY
  extended reals (`c * (a + b) = c * a + c * b` holds for real `c ≥ 0` whatever `a` and `b` are),
  and on the edges that land on `n` the destination row is `n`: scaling every message by
  `dinv (src e) * dinv (dst e)` is scaling it by `dinv (src e)` and the sum by `dinv n`. Second,
  when the features and the first weights are real, the first layer's sums are sums of reals,
  which commute: summing the 5 raw features over the edges and multiplying by the weights afterwards
  is multiplying first and summing the 128 products over the edges.
-/
import proofs.«159750_j81578608820912_2_alg».proof.Proof.Spec
import proofs.«159750_j81578608820912_2_alg».proof.Proof.LibExtReal

noncomputable section

namespace Cert.Gcn

open Idealize.ShloMosaic
open Cert.LibExtReal
open scoped BigOperators

/-! ## The degree and its reciprocal square root are non-negative reals -/

/-- The degree is finite: a finite sum of ones. -/
theorem deg_isReal (g : Graph) (n : Fin Nn) : IsReal (deg g n) := by
  unfold deg seg
  exact isReal_sum _ _ fun _ _ => isReal_one

/-- The degree is non-negative: a sum of ones. -/
theorem deg_nonneg (g : Graph) (n : Fin Nn) : 0 ≤ deg g n := by
  unfold deg seg
  exact Finset.sum_nonneg fun _ _ => zero_le_one

/-- `dinv` by cases: the reciprocal square root of the degree where the degree is positive, `0` elsewhere. -/
theorem dinv_eq (g : Graph) (n : Fin Nn) :
    dinv g n = if 0 < deg g n then Ideal.rsqrt (deg g n) else 0 := by
  unfold dinv Scalar.select Ideal.cmp
  by_cases h : 0 < deg g n
  · rw [if_pos h, if_pos]
    simp [h]
  · rw [if_neg h, if_neg]
    simp [h]

/-- `dinv` is finite. -/
theorem dinv_isReal (g : Graph) (n : Fin Nn) : IsReal (dinv g n) := by
  rw [dinv_eq]
  split
  · rename_i h
    exact (deg_isReal g n).rsqrt h
  · exact isReal_zero

/-- `dinv` is non-negative. -/
theorem dinv_nonneg (g : Graph) (n : Fin Nn) : 0 ≤ dinv g n := by
  rw [dinv_eq]
  split
  · rename_i h
    obtain ⟨a, ha⟩ := deg_isReal g n
    rw [ha] at h ⊢
    have ha0 : 0 < a := EReal.coe_pos.mp h
    rw [Ideal.rsqrt_coe, if_neg (not_lt.mpr ha0.le), if_neg ha0.ne']
    exact EReal.coe_nonneg.mpr (inv_nonneg.mpr (Real.sqrt_nonneg a))
  · exact le_refl 0

/-! ## A non-negative real factor and a finite sum of extended reals -/

/-- For a finite `c ≥ 0` and ARBITRARY extended reals `f i` (`⊥` and `⊤` included):
    `∑ c * f i = c * ∑ f i`. -/
theorem sum_mul_left_of_nonneg {ι : Type*} (s : Finset ι) (f : ι → EReal) {c : EReal} (hc : IsReal c)
    (h0 : 0 ≤ c) : ∑ i ∈ s, c * f i = c * ∑ i ∈ s, f i := by
  classical
  have htop : c ≠ ⊤ := (isReal_iff.mp hc).2
  induction s using Finset.induction_on with
  | empty => rw [Finset.sum_empty, Finset.sum_empty, mul_zero]
  | insert a s ha ih =>
    rw [Finset.sum_insert ha, Finset.sum_insert ha, ih, EReal.left_distrib_of_nonneg_of_ne_top h0 htop]

/-- Scaling every message by `dinv (src e) * dinv (dst e)` is scaling it by `dinv (src e)` and the
    segment sum at `n` by `dinv n`, for ARBITRARY extended-real messages `u`: an edge that lands on
    `n` has destination row `n`, and `dinv n` is a non-negative real. -/
theorem seg_mul_dst (g : Graph) (u : Fin Ne → EReal) (n : Fin Nn) :
    seg g (fun e => u e * (dinv g (g.src e) * dinv g (g.dst e))) n
      = dinv g n * seg g (fun e => u e * dinv g (g.src e)) n := by
  unfold seg
  rw [← sum_mul_left_of_nonneg _ _ (dinv_isReal g n) (dinv_nonneg g n)]
  refine Finset.sum_congr rfl fun e he => ?_
  beta_reduce
  rw [g.land_dst e n (Finset.mem_filter.mp he).2, ← mul_assoc, mul_comm]

/-! ## The first layer: aggregate then multiply, or multiply then aggregate -/

/-- With real features and real first weights: the 5 aggregated raw features times the weights are the
    segment sum of the 128 products, each message scaled by its edge weight. Everything here is a
    real number (`dinv` always is), so the finite sums commute; on the edges landing on `n` the
    destination row is `n`. -/
theorem layer1_eq (g : Graph) (x : Fin Nn → Fin 5 → EReal) (W1 : Fin 128 → Fin 5 → EReal)
    (hx : ∀ n k, IsReal (x n k)) (hW : ∀ j k, IsReal (W1 j k)) (n : Fin Nn) (j : Fin 128) :
    (∑ k : Fin 5, aggK g x n k * W1 j k) = seg g (fun e => h1R x W1 (g.src e) j * norm g e) n := by
  choose xr hxr using hx
  choose wr hwr using hW
  choose dr hdr using dinv_isReal g
  unfold aggK h1R norm seg
  have hR : ∑ e ∈ Finset.univ.filter (fun e => g.land e = some n),
        (∑ k : Fin 5, x (g.src e) k * W1 j k) * (dinv g (g.src e) * dinv g (g.dst e))
      = ∑ e ∈ Finset.univ.filter (fun e => g.land e = some n),
        (∑ k : Fin 5, x (g.src e) k * W1 j k) * (dinv g (g.src e) * dinv g n) :=
    Finset.sum_congr rfl fun e he => by rw [g.land_dst e n (Finset.mem_filter.mp he).2]
  rw [hR]
  simp only [hxr, hwr, hdr, ← EReal.coe_mul, ← coe_sum]
  refine congrArg _ ?_
  simp only [Finset.mul_sum, Finset.sum_mul]
  rw [Finset.sum_comm]
  exact Finset.sum_congr rfl fun e _ => Finset.sum_congr rfl fun k _ => by ring

/-! ## The two arrangements agree -/

/-- With real features and real first weights, the second layer's features before aggregation are
    the same in the two arrangements (no finiteness of `b1`, `W2` is needed: they enter both sides
    the same way). -/
theorem h2K_eq_h2R (g : Graph) (x : Fin Nn → Fin 5 → EReal) (W1 : Fin 128 → Fin 5 → EReal)
    (b1 : Fin 128 → EReal) (W2 : Fin 128 → Fin 128 → EReal)
    (hx : ∀ n k, IsReal (x n k)) (hW : ∀ j k, IsReal (W1 j k)) :
    h2K g x W1 b1 W2 = h2R g x W1 b1 W2 := by
  funext n j
  unfold h2K fused h2R x1R layerR
  exact Finset.sum_congr rfl fun k' _ => by rw [layer1_eq g x W1 hx hW n k']

/-- With real features and real first weights, the two arrangements hand their heads the same values
    at every position (no finiteness of `b1`, `W2`, `b2` is needed). -/
theorem PK_eq_PR (g : Graph) (x : Fin Nn → Fin 5 → EReal) (W1 : Fin 128 → Fin 5 → EReal)
    (b1 : Fin 128 → EReal) (W2 : Fin 128 → Fin 128 → EReal) (b2 : Fin 128 → EReal)
    (pos : Fin 8 → Fin 5 → Fin Nn)
    (hx : ∀ n k, IsReal (x n k)) (hW : ∀ j k, IsReal (W1 j k)) :
    PK g x W1 b1 W2 b2 pos = PR g x W1 b1 W2 b2 pos := by
  funext p q j
  have h := seg_mul_dst g (fun e => h2R g x W1 b1 W2 (g.src e) j) (pos p q)
  unfold PK PR layerR agg2 norm
  rw [h2K_eq_h2R g x W1 b1 W2 hx hW, ← h]

end Cert.Gcn

end
-- ==== Proof.Finite.lean ====
/-
  From the precondition to "every entry is a real number".

  The precondition is the conjunction of eleven tests `all(|x| < +∞)`, one per float input. When it
  holds, each conjunct holds; a conjunction over all entries that holds, holds at every entry; and
  an extended real `x` with `max x (-x) < ⊤` is neither `⊤` nor `⊥` (whose negation is `⊤`): it is
  a real number. This is read off for the node features (argument 0) and the first layer's weights
  (argument 6).
-/
import proofs.«159750_j81578608820912_2_alg».proof.Pre_finite_inputs
import proofs.«159750_j81578608820912_2_alg».proof.Proof.Gen.Pre_finite_inputs
import proofs.«159750_j81578608820912_2_alg».proof.Proof.LibExtReal
import Idealize.ShloMosaic.Lib.ReduceAll
import Idealize.ShloMosaic.Lib.ValueIdx
import Idealize.ShloMosaic.PureOps.Ideal.Laws

noncomputable section

namespace Cert.Gcn.Finite

open Idealize.ShloMosaic
open Cert.LibExtReal
open Cert.Pre_finite_inputs

/-- The scalar shape has one index. -/
instance subsingleton_scalar_idx : Subsingleton S_.Idx := ⟨fun _ _ => funext fun d => d.elim0⟩

/-- The f32 pattern `0x7F800000` denotes `+∞`. -/
theorem ofBits_inf : Ideal.ofBits .f32 0x7F800000#32 = ⊤ := by simp [Ideal.ofBits, Ideal.ieee]

/-- An extended real whose absolute value `max x (-x)` compares below `+∞` is a real number: it is not
    `⊤`, and not `⊥` since `-⊥ = ⊤`. -/
theorem isReal_of_abs_lt_inf (x : EReal)
    (h : Ideal.cmp .olt (max x (-x)) (Ideal.ofBits .f32 0x7F800000#32) = 1#1) : IsReal x := by
  rw [ofBits_inf] at h
  have hlt : max x (-x) < ⊤ := by
    by_contra hn
    simp [Ideal.cmp, hn] at h
  rw [max_lt_iff] at hlt
  refine isReal_iff.mpr ⟨?_, hlt.1.ne⟩
  rintro rfl
  simp at hlt

/-- `all(|x| < +∞)` over an array of any shape, as the precondition states it — the conjunction over
    all axes, from `true`, of the entrywise comparison of `|x|` with the broadcast `+∞` —: when it
    holds, every entry of `x` is a real number. -/
theorem isReal_of_all {s : Shape} {axes : List (Fin s.rank)} (x : FVec Ideal s .f32)
    (hb : S_.BroadcastsInDim s (![] : Fin 0 → Fin s.rank)) (hr : s.ReducesTo axes S_) (hu : 0 < S_.numel)
    (h : Host.reduce IntOp.andi
        (cmpf .olt (Host.absf x) (broadcastInDim s ![] hb (constant (F := Ideal) S_ .f32 0x7F800000#32)))
        (constantI S_ 1 1#1) hr hu ValueIdx.ix0 = 1#1) (i : s.Idx) : IsReal (x i) :=
  isReal_of_abs_lt_inf (x i) (Host.reduce_andi_all _ _ hr hu ValueIdx.ix0 h i)

/-- Under the precondition, every node feature (argument 0) and every first-layer weight
    (argument 6) is a real number. -/
theorem real_of_pre [Cert.Pre_finite_inputs.Facts]
    (a0 : FVec Ideal S8x10000x5 .f32) (a1 : IVec S8x2x160000 32) (a2 : IVec S8 32) (a3 : IVec S8x4 32)
    (a4 : FVec Ideal S8x10 .f32) (a5 : FVec Ideal S8x1 .f32) (a6 : FVec Ideal S128x5 .f32)
    (a7 : FVec Ideal S128 .f32) (a8 : FVec Ideal S128x128 .f32) (a9 : FVec Ideal S128 .f32)
    (a10 : FVec Ideal S256x651 .f32) (a11 : FVec Ideal S256 .f32) (a12 : FVec Ideal S256x256 .f32)
    (a13 : FVec Ideal S256 .f32)
    (h : Cert.Pre_finite_inputs.fn (F := Ideal) a0 a1 a2 a3 a4 a5 a6 a7 a8 a9 a10 a11 a12 a13 = (fun _ => 1#1)) :
    (∀ i, Cert.LibExtReal.IsReal (a0 i)) ∧ (∀ i, Cert.LibExtReal.IsReal (a6 i)) := by
  have h0 := congrFun h ValueIdx.ix0
  dsimp only [fn, fn_part1, fn_part2, fn_part3] at h0
  unfold andi at h0
  obtain ⟨h48, -⟩ := IntOp.andi_eq_one.1 h0
  obtain ⟨h43, -⟩ := IntOp.andi_eq_one.1 h48
  obtain ⟨h38, -⟩ := IntOp.andi_eq_one.1 h43
  obtain ⟨h33, -⟩ := IntOp.andi_eq_one.1 h38
  obtain ⟨h28, -⟩ := IntOp.andi_eq_one.1 h33
  obtain ⟨h23, -⟩ := IntOp.andi_eq_one.1 h28
  obtain ⟨h18, -⟩ := IntOp.andi_eq_one.1 h23
  obtain ⟨h13, h17⟩ := IntOp.andi_eq_one.1 h18
  obtain ⟨h8, -⟩ := IntOp.andi_eq_one.1 h13
  obtain ⟨h3, -⟩ := IntOp.andi_eq_one.1 h8
  exact ⟨isReal_of_all a0 _ _ _ h3, isReal_of_all a6 _ _ _ h17⟩

end Cert.Gcn.Finite

end
-- ==== Proof.Bridge.lean ====
/-
  The two results are one array.

  Entry `(p, q)` of either result is the same two-layer head of row `p` of an `[8, 651]` array: the 8 × 5 gathered rows
  of the second graph layer, flattened, then the action and step columns. The two programs build that array with the same
  operations from their arrays of gathered rows, and those arrays agree entry by entry: the kernel's is the arrangement `PK`
  of `Spec.lean`, the reference's the arrangement `PR`, of the same graph, features, weights and positions — the index
  lists, the feature table and the positions being the same operations on the same arguments in both programs — and
  `PK = PR` because the features and the first layer's weights are finite inputs.
-/
import proofs.«159750_j81578608820912_2_alg».proof.Proof.KValue
import proofs.«159750_j81578608820912_2_alg».proof.Proof.KHostA
import proofs.«159750_j81578608820912_2_alg».proof.Proof.RefLayer1
import proofs.«159750_j81578608820912_2_alg».proof.Proof.RefLayer2
import proofs.«159750_j81578608820912_2_alg».proof.Proof.SpecMath
import proofs.«159750_j81578608820912_2_alg».proof.Proof.Finite

noncomputable section

namespace Cert.Bridge

open Idealize.ShloMosaic Idealize.ShloMosaic.TcCoe Idealize.ShloMosaic.ValueIdx Idealize.SL.Sem
open Cert.Gcn Cert.LibExtReal
open Cert.ReferenceIdeal.ReadP Cert.ReferenceIdeal.RefValue1 Cert.ReferenceIdeal.RefValue2
open Cert.KernelIdeal.Hand Cert.KernelIdeal.KValue Cert.KernelIdeal.HostRead Cert.KernelIdeal.HostRead2

/-! ## The same operations on the same arguments -/

section Shared

variable (a0 : Cert.ReferenceIdeal.S8x10000x5.Idx → EReal) (a1 : Cert.ReferenceIdeal.S8x2x160000.Idx → BitVec 32) (a2 : Cert.ReferenceIdeal.S8.Idx → BitVec 32) (a3 : Cert.ReferenceIdeal.S8x4.Idx → BitVec 32)

/-- The kernel's source index list is the reference's. -/
theorem src2_same : src2T a1 = val_main_v22 (F := Ideal) a1 := rfl
/-- The kernel's destination index list is the reference's. -/
theorem dst2_same : dst2T a1 = val_main_v23 (F := Ideal) a1 := rfl
/-- The kernel's positions are the reference's. -/
theorem allpos_same : allposT a2 a3 = val_main_v18 (F := Ideal) a2 a3 := rfl
/-- The kernel's feature table is the reference's. -/
theorem x_same : xT a0 = val_main_v0 (F := Ideal) a0 := rfl
/-- Both programs assemble the head's input from the gathered rows in the same way. -/
theorem tail_same : Cert.KernelIdeal.HostRead2.tailT = Cert.ReferenceIdeal.RefValue2.tailR := rfl

end Shared

/-! ## The reference's gathered rows are the arrangement `PR` -/

section Ref

variable (x0 : Cert.ReferenceIdeal.S8x10000x5.Idx → EReal) (x1 : Cert.ReferenceIdeal.S8x2x160000.Idx → BitVec 32) (x2 : Cert.ReferenceIdeal.S8.Idx → BitVec 32) (x3 : Cert.ReferenceIdeal.S8x4.Idx → BitVec 32) (x6 : Cert.ReferenceIdeal.S128x5.Idx → EReal) (x7 : Cert.ReferenceIdeal.S128.Idx → EReal) (x8 : Cert.ReferenceIdeal.S128x128.Idx → EReal) (x9 : Cert.ReferenceIdeal.S128.Idx → EReal)

/-- The second layer reads the graph the first layer reads. -/
theorem graph_same : G2 x1 = G1 x1 := by
  show graphOf (val_main_v67 (F := Ideal) x1) (val_main_v68 (F := Ideal) x1) = graphOf (val_main_v22 (F := Ideal) x1) (val_main_v23 (F := Ideal) x1)
  rw [ref_src2_dup, ref_dst2_dup]

/-- Entry `(p, q, j)` of the reference's gathered rows. -/
theorem ref_rows (p : Fin 8) (q : Fin 5) (j : Fin 128) :
    val_main_v115 (F := Ideal) x0 x1 x2 x3 x6 x7 x8 x9 (ix3 p q j)
      = PR (G1 x1) (fn2 (val_main_v0 (F := Ideal) x0)) (fn2 x6) (fn1 x7) (fn2 x8) (fn1 x9) (posOf (val_main_v18 (F := Ideal) x2 x3)) p q j := by
  rw [ref_P x0 x1 x2 x3 x6 x7 x8 x9 p q j, graph_same]
  have hh : (fun (n : Fin 80000) (j : Fin 128) => ∑ k : Fin 128, X1 x0 x1 x6 x7 (ix2 n k) * fn2 x8 j k)
      = h2R (G1 x1) (fn2 (val_main_v0 (F := Ideal) x0)) (fn2 x6) (fn1 x7) (fn2 x8) := by
    funext n j
    unfold h2R
    exact Finset.sum_congr rfl fun k _ => by rw [show X1 x0 x1 x6 x7 (ix2 n k) = _ from ref_x1 x0 x1 x6 x7 n k]
  rw [hh]
  rfl

end Ref

/-! ## The results -/

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ)

/-- On a core where the float inputs are finite and the two memories agree on the arguments, the reference's result term is
    what the kernel's second region leaves in its output array. -/
theorem result_eq (c : Dev Cert.KernelIdeal.nD)
    (hpre : Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) = (fun _ => 1#1))
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) :
    Cert.ReferenceIdeal.ValueP.res_main_v128 (F := Ideal) m' c = (pd1 (F := Ideal) (E7 m ρ) c).arrAt 5 Cert.KernelIdeal.cfg1.N := by
  obtain ⟨e0, e1, e2, e3, e4, e5, e6, e7, e8, e9, e10, e11, e12, e13⟩ := hagree
  obtain ⟨hx, hW⟩ := Cert.Gcn.Finite.real_of_pre _ _ _ _ _ _ _ _ _ _ _ _ _ _ hpre
  rw [val_main_v128_eq m' c, e0, e1, e2, e3, e4, e5, e6, e7, e8, e9, e10, e11, e12, e13]
  funext i
  obtain ⟨p, q, rfl⟩ : ∃ (p : Fin 8) (q : Fin 256), i = ix2 p q := ⟨i 0, i 1, eq_ix2 i⟩
  refine (ref_out _ _ _ _ _ _ _ _ _ _ _ _ _ _ p q).trans ((out_head m ρ c p q).trans ?_).symm
  -- the two heads differ only in the array of gathered rows
  have hrows : (A7 (W4 m ρ c) (Proc.devRef .tc Cert.KernelIdeal.main_v76) : Cert.KernelIdeal.S8x5x128.Idx → EReal)
      = val_main_v115 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) := by
    funext i3
    obtain ⟨p', q', j', rfl⟩ : ∃ (p' : Fin 8) (q' : Fin 5) (j' : Fin 128), i3 = ix3 p' q' j' := ⟨i3 0, i3 1, i3 2, eq_ix3 i3⟩
    rw [out_P m ρ c p' q' j', ref_rows _ _ _ _ _ _ _ _ p' q' j']
    have hg : gK m ρ c = G1 (m ((c.tc : Thread Cert.KernelIdeal.nD Cert.KernelIdeal.τ).loc Cert.KernelIdeal.main_arg1)) := by
      show graphOf (W3 m ρ c (Proc.devRef .tc Cert.KernelIdeal.main_v14)) (W3 m ρ c (Proc.devRef .tc Cert.KernelIdeal.main_v15)) = graphOf _ _
      rw [show W3 m ρ c (Proc.devRef .tc Cert.KernelIdeal.main_v14) = src2T (m ((c.tc : Thread Cert.KernelIdeal.nD Cert.KernelIdeal.τ).loc Cert.KernelIdeal.main_arg1)) from A3_src2 (W0 m ρ c),
        show W3 m ρ c (Proc.devRef .tc Cert.KernelIdeal.main_v15) = dst2T (m ((c.tc : Thread Cert.KernelIdeal.nD Cert.KernelIdeal.τ).loc Cert.KernelIdeal.main_arg1)) from A3_dst2 (W0 m ρ c)]
      rfl
    have hxs : xK m ρ c = fn2 (val_main_v0 (F := Ideal) (m ((c.tc : Thread Cert.KernelIdeal.nD Cert.KernelIdeal.τ).loc Cert.KernelIdeal.main_arg0))) := by
      show fn2 (W3 m ρ c (Proc.devRef .tc Cert.KernelIdeal.main_v0) : Cert.KernelIdeal.S80000x5.Idx → EReal) = _
      rw [show (W3 m ρ c (Proc.devRef .tc Cert.KernelIdeal.main_v0) : Cert.KernelIdeal.S80000x5.Idx → EReal) = xT (m ((c.tc : Thread Cert.KernelIdeal.nD Cert.KernelIdeal.τ).loc Cert.KernelIdeal.main_arg0)) from A3_x (W0 m ρ c)]
      rfl
    have hps : posK m ρ c = posOf (val_main_v18 (F := Ideal) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) := by
      show posOf (W3 m ρ c (Proc.devRef .tc Cert.KernelIdeal.main_v29)) = _
      rw [show W3 m ρ c (Proc.devRef .tc Cert.KernelIdeal.main_v29) = allposT (m ((c.tc : Thread Cert.KernelIdeal.nD Cert.KernelIdeal.τ).loc Cert.KernelIdeal.main_arg2)) (m ((c.tc : Thread Cert.KernelIdeal.nD Cert.KernelIdeal.τ).loc Cert.KernelIdeal.main_arg3)) from A3_allpos (W0 m ρ c)]
      rfl
    rw [hg, hxs, hps]
    exact congrFun (congrFun (congrFun (PK_eq_PR _ _ _ _ _ _ _
      (fun n k => by show IsReal (val_main_v0 (F := Ideal) (m ((c.tc : Thread Cert.KernelIdeal.nD Cert.KernelIdeal.τ).loc Cert.KernelIdeal.main_arg0)) (ix2 n k)); rw [val_main_v0_apply]; exact hx _)
      (fun j k => hW (ix2 j k))) p') q') j'
  rw [hrows, ref_cx, tail_same]

end Cert.Bridge

end
-- ==== Proof.lean ====
/-
  The certificate of a two-layer graph convolution with a dense head: a batch of 8 graphs as one graph on 80000 nodes and
  1360000 edges (self loops included), node features of width 5, two layers of width 128, and a two-layer head on the
  8 × 5 gathered rows joined with 11 more columns.

  The reference multiplies the features by the weights, gathers along the edges, scales every message by
  `dinv(src) · dinv(dst)` and sums the messages of the edges that land on a node, layer by layer. The kernel scales by
  `dinv` before the gather and after the sum, aggregates the 5 raw features in the first layer and multiplies by the weights
  afterwards, and computes the two dense blocks in two kernel regions. Over the extended reals the two agree: moving
  `dinv(n) ≥ 0` out of a sum is sound for any summands, and moving the first layer's weights across the sum is sound
  because the features and those weights are finite inputs and `dinv` is a real number by construction.

  `Spec.lean` states that mathematics and `SpecMath.lean` proves it; `KBody*/KRun*` are the kernel program's run (the frame,
  and every buffer at the end); `KBlocks`, `KHostA`, `KHostB`, `KValue` read the kernel's result entry by entry;
  `RefLayer1`, `RefLayer2` read the reference's; `Bridge` joins the two.
-/
import proofs.«159750_j81578608820912_2_alg».proof.Defs
import proofs.«159750_j81578608820912_2_alg».proof.Proof.Gen.Kernel
import proofs.«159750_j81578608820912_2_alg».proof.Proof.Gen.KernelIdeal
import proofs.«159750_j81578608820912_2_alg».proof.Proof.Gen.ReferenceIdeal
import proofs.«159750_j81578608820912_2_alg».proof.Proof.Gen.Pre_finite_inputs
import proofs.«159750_j81578608820912_2_alg».proof.Proof.KRunK
import proofs.«159750_j81578608820912_2_alg».proof.Proof.KRunI
import proofs.«159750_j81578608820912_2_alg».proof.Proof.RunP
import proofs.«159750_j81578608820912_2_alg».proof.Proof.Bridge
import Idealize.ShloMosaic.Adequacy
import Idealize.ShloMosaic.Init

noncomputable section

namespace Cert.Proof

open Idealize.ShloMosaic Idealize.SL.Sem

/-- The word-level kernel program runs to the end, faults nowhere and leaves its arguments as launched. -/
theorem frame_kernel : Cert.frame_Kernel := fun m ρ _ => Cert.Kernel.Hand.frame m ρ

/-- The same program read over the extended reals. -/
theorem frame_kernelIdeal : Cert.frame_KernelIdeal := fun m ρ _ => Cert.KernelIdeal.Hand.frame m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote nothing. -/
theorem preserves : Cert.preserves_Kernel_KernelIdeal := trivial

/-- Both idealized programs run, and end with equal results: the kernel's result buffer is what its second region leaves,
    the reference's is its operations' composed term, and the two are one array of the (agreeing) arguments. -/
theorem algebraic : Cert.algebraic_KernelIdeal_ReferenceIdeal := by
  intro m ρ m' ρ' hpre hagree
  refine ⟨fun c => (Cert.KernelIdeal.Hand.pd1 (F := Ideal) (Cert.KernelIdeal.Hand.E7 m ρ) c).arrAt 5 Cert.KernelIdeal.cfg1.N,
    Cert.KernelIdeal.Hand.run_value (F := Ideal) m ρ, ?_⟩
  refine (θ_run Cert.ReferenceIdeal.defs _ _).mono (fun _ h c => ⟨(h c).1.trans ?_, (h c).2⟩)
    (Cert.ReferenceIdeal.ValueP.run (F := Ideal) m' ρ')
  exact Cert.Bridge.result_eq m ρ m' c (hpre c) (hagree c)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
